-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1000000x64 : Shape := ⟨2, ![1000000, 64]⟩
abbrev S2x1000000 : Shape := ⟨2, ![2, 1000000]⟩
abbrev S50000 : Shape := ⟨1, ![50000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part3 {F : FTy → Type} [FloatOps F] (main_arg13 : FVec F S3x64 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  main_v58

def fn_part2 {F : FTy → Type} [FloatOps F] (main_arg9 : FVec F S3x64 .f32) (main_arg10 : FVec F S3x64x64 .f32) (main_arg11 : FVec F S3x64 .f32) (main_arg12 : FVec F S3x64 .f32) (main_arg13 : FVec F S3x64 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64x64 .f32 := Host.absf main_arg10
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_v48 main_v49 main_v50

def fn_part1 {F : FTy → Type} [FloatOps F] (main_arg6 : FVec F S64x64 .f32) (main_arg7 : FVec F S64 .f32) (main_arg8 : FVec F S3x64x64 .f32) (main_arg9 : FVec F S3x64 .f32) (main_arg10 : FVec F S3x64x64 .f32) (main_arg11 : FVec F S3x64 .f32) (main_arg12 : FVec F S3x64 .f32) (main_arg13 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg8
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : FVec F S1000000x64 .f32) (main_arg2 : IVec S2x1000000 32) (main_arg3 : IVec S50000 32) (main_arg4 : FVec F S64x64 .f32) (main_arg5 : FVec F S64 .f32) (main_arg6 : FVec F S64x64 .f32) (main_arg7 : FVec F S64 .f32) (main_arg8 : FVec F S3x64x64 .f32) (main_arg9 : FVec F S3x64 .f32) (main_arg10 : FVec F S3x64x64 .f32) (main_arg11 : FVec F S3x64 .f32) (main_arg12 : FVec F S3x64 .f32) (main_arg13 : FVec F S3x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S1000000x64 : Shape := ⟨2, ![1000000, 64]⟩
abbrev S2x1000000 : Shape := ⟨2, ![2, 1000000]⟩
abbrev S50000 : Shape := ⟨1, ![50000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S1x64 : Shape := ⟨2, ![1, 64]⟩
abbrev S10000x64 : Shape := ⟨2, ![10000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1x64x64 : Shape := ⟨3, ![1, 64, 64]⟩
abbrev S50000x1 : Shape := ⟨2, ![50000, 1]⟩
abbrev S64x1 : Shape := ⟨2, ![64, 1]⟩

abbrev nBuf : Space → Nat
  | .hbm => 186
  | .vmem => 84
  | .smem => 0
  | _ => 0

abbrev hbmTy0_0 (i : Nat) : BufTy := match i % 128 with
  | 0 => ⟨S50000x64, .f32⟩
  | 1 => ⟨S1000000x64, .f32⟩
  | 2 => ⟨S2x1000000, .i32⟩
  | 3 => ⟨S50000, .i32⟩
  | 4 => ⟨S64x64, .f32⟩
  | 5 => ⟨S64, .f32⟩
  | 6 => ⟨S64x64, .f32⟩
  | 7 => ⟨S64, .f32⟩
  | 8 => ⟨S3x64x64, .f32⟩
  | 9 => ⟨S3x64, .f32⟩
  | 10 => ⟨S3x64x64, .f32⟩
  | 11 => ⟨S3x64, .f32⟩
  | 12 => ⟨S3x64, .f32⟩
  | 13 => ⟨S3x64, .f32⟩
  | 14 => ⟨S1x64, .f32⟩
  | 15 => ⟨S50000x64, .f32⟩
  | 16 => ⟨S1x64, .f32⟩
  | 17 => ⟨S1000000x64, .f32⟩
  | 18 => ⟨S1x1000000, .i32⟩
  | 19 => ⟨S1000000, .i32⟩
  | 20 => ⟨S1x1000000, .i32⟩
  | 21 => ⟨S1000000, .i32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S1000000x64, .f32⟩
  | 32 => ⟨S_, .f32⟩
  | 33 => ⟨S50000x64, .f32⟩
  | 34 => ⟨S1000000x1, .i32⟩
  | 35 => ⟨S50000x64, .f32⟩
  | 36 => ⟨S50000x64, .f32⟩
  | 37 => ⟨S1x64x64, .f32⟩
  | 38 => ⟨S64x64, .f32⟩
  | 39 => ⟨S1x64, .f32⟩
  | 40 => ⟨S64, .f32⟩
  | 41 => ⟨S1x64x64, .f32⟩
  | 42 => ⟨S64x64, .f32⟩
  | 43 => ⟨S1x64, .f32⟩
  | 44 => ⟨S64, .f32⟩
  | 45 => ⟨S1x64, .f32⟩
  | 46 => ⟨S1x64, .f32⟩
  | 47 => ⟨S50000x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S_, .f32⟩
  | 54 => ⟨S1x64, .f32⟩
  | 55 => ⟨S1x64, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S1x64, .f32⟩
  | 62 => ⟨S64, .f32⟩
  | 63 => ⟨S1x64, .f32⟩
  | 64 => ⟨S64, .f32⟩
  | 65 => ⟨S1x64, .f32⟩
  | 66 => ⟨S1x64, .f32⟩
  | 67 => ⟨S50000x64, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .f32⟩
  | 77 => ⟨S1000000x64, .f32⟩
  | 78 => ⟨S_, .f32⟩
  | 79 => ⟨S50000x64, .f32⟩
  | 80 => ⟨S1000000x1, .i32⟩
  | 81 => ⟨S50000x64, .f32⟩
  | 82 => ⟨S50000x64, .f32⟩
  | 83 => ⟨S1x64x64, .f32⟩
  | 84 => ⟨S64x64, .f32⟩
  | 85 => ⟨S1x64, .f32⟩
  | 86 => ⟨S64, .f32⟩
  | 87 => ⟨S1x64x64, .f32⟩
  | 88 => ⟨S64x64, .f32⟩
  | 89 => ⟨S1x64, .f32⟩
  | 90 => ⟨S64, .f32⟩
  | 91 => ⟨S1x64, .f32⟩
  | 92 => ⟨S1x64, .f32⟩
  | 93 => ⟨S50000x64, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S_, .f32⟩
  | 100 => ⟨S1x64, .f32⟩
  | 101 => ⟨S1x64, .f32⟩
  | 102 => ⟨S1x64, .f32⟩
  | 103 => ⟨S1x64, .f32⟩
  | 104 => ⟨S_, .f32⟩
  | 105 => ⟨S1x64, .f32⟩
  | 106 => ⟨S1x64, .f32⟩
  | 107 => ⟨S1x64, .f32⟩
  | 108 => ⟨S64, .f32⟩
  | 109 => ⟨S1x64, .f32⟩
  | 110 => ⟨S64, .f32⟩
  | 111 => ⟨S1x64, .f32⟩
  | 112 => ⟨S1x64, .f32⟩
  | 113 => ⟨S50000x64, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x64, .f32⟩
  | 123 => ⟨S1000000x64, .f32⟩
  | 124 => ⟨S_, .f32⟩
  | 125 => ⟨S50000x64, .f32⟩
  | 126 => ⟨S1000000x1, .i32⟩
  | 127 => ⟨S50000x64, .f32⟩
  | _ => ⟨S50000x64, .f32⟩

abbrev hbmTy0_1 (i : Nat) : BufTy := match i % 128 with
  | 0 => ⟨S50000x64, .f32⟩
  | 1 => ⟨S1x64x64, .f32⟩
  | 2 => ⟨S64x64, .f32⟩
  | 3 => ⟨S1x64, .f32⟩
  | 4 => ⟨S64, .f32⟩
  | 5 => ⟨S1x64x64, .f32⟩
  | 6 => ⟨S64x64, .f32⟩
  | 7 => ⟨S1x64, .f32⟩
  | 8 => ⟨S64, .f32⟩
  | 9 => ⟨S1x64, .f32⟩
  | 10 => ⟨S1x64, .f32⟩
  | 11 => ⟨S50000x64, .f32⟩
  | 12 => ⟨S1x64, .f32⟩
  | 13 => ⟨S1x64, .f32⟩
  | 14 => ⟨S_, .f32⟩
  | 15 => ⟨S1x64, .f32⟩
  | 16 => ⟨S1x64, .f32⟩
  | 17 => ⟨S_, .f32⟩
  | 18 => ⟨S1x64, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S1x64, .f32⟩
  | 26 => ⟨S64, .f32⟩
  | 27 => ⟨S1x64, .f32⟩
  | 28 => ⟨S64, .f32⟩
  | 29 => ⟨S1x64, .f32⟩
  | 30 => ⟨S1x64, .f32⟩
  | 31 => ⟨S50000x64, .f32⟩
  | 32 => ⟨S_, .f32⟩
  | 33 => ⟨S50000, .f32⟩
  | 34 => ⟨S_, .f32⟩
  | 35 => ⟨S64, .f32⟩
  | 36 => ⟨S50000x1, .i32⟩
  | 37 => ⟨S64, .f32⟩
  | 38 => ⟨S_, .f32⟩
  | 39 => ⟨S64x64, .f32⟩
  | 40 => ⟨S50000x1, .i32⟩
  | 41 => ⟨S64x64, .f32⟩
  | 42 => ⟨S_, .f32⟩
  | 43 => ⟨S64, .f32⟩
  | 44 => ⟨S64, .f32⟩
  | 45 => ⟨S64x1, .f32⟩
  | 46 => ⟨S64x64, .f32⟩
  | 47 => ⟨S64x64, .f32⟩
  | 48 => ⟨S64x64, .f32⟩
  | 49 => ⟨S_, .f32⟩
  | 50 => ⟨S64, .f32⟩
  | 51 => ⟨S64x1, .f32⟩
  | 52 => ⟨S64x1, .f32⟩
  | 53 => ⟨S_, .f32⟩
  | 54 => ⟨S64x1, .f32⟩
  | 55 => ⟨S64x1, .f32⟩
  | 56 => ⟨S64x64, .f32⟩
  | 57 => ⟨S64x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S10000x64, .f32⟩
  | .local _ .vmem, ⟨49, _⟩ => ⟨S10000x64, .f32⟩
  | .local _ .vmem, ⟨50, _⟩ => ⟨S1x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S64x64, .f32⟩
  | .local _ .vmem, ⟨69, _⟩ => ⟨S1x64, .f32⟩
  | .local _ .vmem, ⟨70, _⟩ => ⟨S64x64, .f32⟩
  | .local _ .vmem, ⟨71, _⟩ => ⟨S1x64, .f32⟩
  | .local _ .vmem, ⟨72, _⟩ => ⟨S10000x64, .f32⟩
  | .local _ .vmem, ⟨73, _⟩ => ⟨S10000x64, .f32⟩
  | .local _ .vmem, ⟨74, _⟩ => ⟨S1x64, .f32⟩
  | .local _ .vmem, ⟨75, _⟩ => ⟨S1x64, .f32⟩
  | .local _ .vmem, ⟨76, _⟩ => ⟨S10000x64, .f32⟩
  | .local _ .vmem, ⟨77, _⟩ => ⟨S10000x64, .f32⟩
  | .local _ .vmem, ⟨78, _⟩ => ⟨S1x64, .f32⟩
  | .local _ .vmem, ⟨79, _⟩ => ⟨S1x64, .f32⟩
  | .local _ .vmem, ⟨80, _⟩ => ⟨S1x64, .f32⟩
  | .local _ .vmem, ⟨81, _⟩ => ⟨S1x64, .f32⟩
  | .local _ .vmem, ⟨82, _⟩ => ⟨S10000x64, .f32⟩
  | .local _ .vmem, ⟨83, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_cst_1 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_4 : Ref sig .tc := ⟨.hbm, 68, rfl⟩
abbrev main_v46 : Ref sig .tc := ⟨.hbm, 69, rfl⟩
abbrev main_v47 : Ref sig .tc := ⟨.hbm, 70, rfl⟩
abbrev main_c_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68_0 : Ref sig .tc := ⟨.hbm, 93, rfl⟩
abbrev main_v68_1 : Ref sig .tc := ⟨.hbm, 94, rfl⟩
abbrev main_v68_2 : Ref sig .tc := ⟨.hbm, 95, rfl⟩
abbrev main_cst_7 : Ref sig .tc := ⟨.hbm, 96, rfl⟩
abbrev main_v69 : Ref sig .tc := ⟨.hbm, 97, rfl⟩
abbrev main_v70 : Ref sig .tc := ⟨.hbm, 98, rfl⟩
abbrev main_cst_8 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_9 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_10 : Ref sig .tc := ⟨.hbm, 114, rfl⟩
abbrev main_v84 : Ref sig .tc := ⟨.hbm, 115, rfl⟩
abbrev main_v85 : Ref sig .tc := ⟨.hbm, 116, rfl⟩
abbrev main_c_11 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_12 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106_0 : Ref sig .tc := ⟨.hbm, 139, rfl⟩
abbrev main_v106_1 : Ref sig .tc := ⟨.hbm, 140, rfl⟩
abbrev main_v106_2 : Ref sig .tc := ⟨.hbm, 141, rfl⟩
abbrev main_cst_13 : Ref sig .tc := ⟨.hbm, 142, rfl⟩
abbrev main_v107 : Ref sig .tc := ⟨.hbm, 143, rfl⟩
abbrev main_v108 : Ref sig .tc := ⟨.hbm, 144, rfl⟩
abbrev main_cst_14 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_15 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_16 : Ref sig .tc := ⟨.hbm, 160, rfl⟩
abbrev main_v122 : Ref sig .tc := ⟨.hbm, 161, rfl⟩
abbrev main_cst_17 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_18 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_19 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_call0_v0 : Ref sig .tc := ⟨.hbm, 176, rfl⟩
abbrev main_call0_cst : Ref sig .tc := ⟨.hbm, 177, rfl⟩
abbrev main_call0_v1 : Ref sig .tc := ⟨.hbm, 178, rfl⟩
abbrev main_call0_v2 : Ref sig .tc := ⟨.hbm, 179, rfl⟩
abbrev main_v134 : Ref sig .tc := ⟨.hbm, 180, rfl⟩
abbrev main_cst_20 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg7_0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc6_stg6_0 : Ref sig .tc := ⟨.vmem, 50, rfl⟩
abbrev cc6_stg7_0 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg5_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg2_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg4_0 : Ref sig .tc := ⟨.vmem, 71, rfl⟩
abbrev cc9_stg5_0 : Ref sig .tc := ⟨.vmem, 72, rfl⟩
abbrev cc9_stg5_1 : Ref sig .tc := ⟨.vmem, 73, rfl⟩
abbrev cc9_stg6_0 : Ref sig .tc := ⟨.vmem, 74, rfl⟩
abbrev cc9_stg7_0 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg2_0 : Ref sig .tc := ⟨.vmem, 79, rfl⟩
abbrev cc10_stg3_0 : Ref sig .tc := ⟨.vmem, 80, rfl⟩
abbrev cc10_stg4_0 : Ref sig .tc := ⟨.vmem, 81, rfl⟩
abbrev cc10_stg5_0 : Ref sig .tc := ⟨.vmem, 82, rfl⟩
abbrev cc10_stg5_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem7_0 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49
abbrev cc6_sem6_0 : DmaSem sig := 50
abbrev cc6_sem7_0 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem5_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem2_1 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem5_1 : DmaSem sig := 73
abbrev cc9_sem6_0 : DmaSem sig := 74
abbrev cc9_sem7_0 : DmaSem sig := 75
abbrev cc10_sem0_0 : DmaSem sig := 76
abbrev cc10_sem0_1 : DmaSem sig := 77
abbrev cc10_sem1_0 : DmaSem sig := 78
abbrev cc10_sem2_0 : DmaSem sig := 79
abbrev cc10_sem3_0 : DmaSem sig := 80
abbrev cc10_sem4_0 : DmaSem sig := 81
abbrev cc10_sem5_0 : DmaSem sig := 82
abbrev cc10_sem5_1 : DmaSem sig := 83

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S1x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S10000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S10000x64_S10000x64 : S10000x64.ShapeCasts S10000x64
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64x64_S64x64 : S64x64.ShapeCasts S64x64
  reduces_S10000x64_S64 : S10000x64.Reduces [0] S64
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  reducesTo_S64x64_S64_d1 : S64x64.ReducesTo [1] S64
  h_S_ : 0 < S_.numel
  bcast_S_S64x1 : S_.BroadcastsInDim S64x1 (![] : Fin 0 → Fin S64x1.rank)
  dot_S10000x64_S64x64_S10000x64_1_0_0_1_n_n_wf : DotDims.WF S10000x64 S64x64 S10000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S1000000x64.size a
  hwx1_3 : ∀ i : grid1.Coords, EltTy.bits .f32 = 32 ∨ (Rect.block (s := S1000000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1000000x64.size a
  hwx2_0 : ∀ i : grid2.Coords, EltTy.bits .f32 = 32 ∨ (Rect.block (s := S1000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S1000000x64.size a
  hwx2_1 : ∀ i : grid2.Coords, EltTy.bits .f32 = 32 ∨ (Rect.block (s := S1000000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1000000x64.size a
  hwx2_2 : ∀ i : grid2.Coords, EltTy.bits .f32 = 32 ∨ (Rect.block (s := S1000000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S50000x64.size a
  hwx4_5 : ∀ i : grid4.Coords, EltTy.bits .f32 = 32 ∨ (Rect.block (s := S50000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S1000000x64.size a
  hwx5_0 : ∀ i : grid5.Coords, EltTy.bits .f32 = 32 ∨ (Rect.block (s := S1000000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S1000000x64.size a
  hwx5_1 : ∀ i : grid5.Coords, EltTy.bits .f32 = 32 ∨ (Rect.block (s := S1000000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S1000000x64.size a
  hwx5_2 : ∀ i : grid5.Coords, EltTy.bits .f32 = 32 ∨ (Rect.block (s := S1000000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S50000x64.size a
  hwx6_5 : ∀ i : grid6.Coords, EltTy.bits .f32 = 32 ∨ (Rect.block (s := S50000x64) S10000x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x64.size a ≤ S50000x64.size a
  hwx7_5 : ∀ i : grid7.Coords, EltTy.bits .f32 = 32 ∨ (Rect.block (s := S50000x64) S10000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S1000000x64.size a
  hwx8_0 : ∀ i : grid8.Coords, EltTy.bits .f32 = 32 ∨ (Rect.block (s := S1000000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S1000000x64.size a
  hwx8_1 : ∀ i : grid8.Coords, EltTy.bits .f32 = 32 ∨ (Rect.block (s := S1000000x64) S10000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S1000000x64.size a
  hwx8_2 : ∀ i : grid8.Coords, EltTy.bits .f32 = 32 ∨ (Rect.block (s := S1000000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x64.size a ≤ S50000x64.size a
  hwx9_5 : ∀ i : grid9.Coords, EltTy.bits .f32 = 32 ∨ (Rect.block (s := S50000x64) S10000x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x64.size a ≤ S1x64.size a
  hwx9_6 : ∀ i : grid9.Coords, EltTy.bits .f32 = 32 ∨ (Rect.block (s := S1x64) S1x64.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x64.size a ≤ S1x64.size a
  hwx9_7 : ∀ i : grid9.Coords, EltTy.bits .f32 = 32 ∨ (Rect.block (s := S1x64) S1x64.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S50000x64.size a
  hwx10_0 : ∀ i : grid10.Coords, EltTy.bits .f32 = 32 ∨ (Rect.block (s := S50000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S10000x64.size a ≤ S50000x64.size a
  hwx10_5 : ∀ i : grid10.Coords, EltTy.bits .f32 = 32 ∨ (Rect.block (s := S50000x64) S10000x64.size (cc10_transform_5 i) (hinb10_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v19) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v30_0) S10000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v30_1) S1x64.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v30_2) S1x64.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v30_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v44) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v45) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v52) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v3) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v57) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v66) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v63) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v67) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v68_0) S10000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v68_1) S1x64.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v68_2) S1x64.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v68_0) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v76) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v81) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v82) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v83) S10000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v90) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v3) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v91) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v95) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v97) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v104) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v101) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v105) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v106_0) S10000x64.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v106_1) S1x64.size cc9_transform_6 reads9_6 true true 1 stage9_6 sem9_6
    hrank9 hreads9_6 hinb9_6 nbuf9_6 (Memref.isWhole_whole _) hwx9_6 hstage9_6

abbrev win9_7 : Pipeline.Window sig grid9 :=
  Pipeline.Window.ofSpec (Memref.whole main_v106_2) S1x64.size cc9_transform_7 reads9_7 true true 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v106_0) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v108) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v114) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v119) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v120) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v121) S10000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x64 : Shape := ⟨2, ![50000, 64]⟩
abbrev S1000000x64 : Shape := ⟨2, ![1000000, 64]⟩
abbrev S2x1000000 : Shape := ⟨2, ![2, 1000000]⟩
abbrev S50000 : Shape := ⟨1, ![50000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S1x64 : Shape := ⟨2, ![1, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1x64x64 : Shape := ⟨3, ![1, 64, 64]⟩
abbrev S50000x1 : Shape := ⟨2, ![50000, 1]⟩
abbrev S64x1 : Shape := ⟨2, ![64, 1]⟩

abbrev nBuf : Space → Nat
  | .hbm => 322
  | .vmem => 0
  | .smem => 0
  | _ => 0

abbrev hbmTy0_0 (i : Nat) : BufTy := match i % 128 with
  | 0 => ⟨S50000x64, .f32⟩
  | 1 => ⟨S1000000x64, .f32⟩
  | 2 => ⟨S2x1000000, .i32⟩
  | 3 => ⟨S50000, .i32⟩
  | 4 => ⟨S64x64, .f32⟩
  | 5 => ⟨S64, .f32⟩
  | 6 => ⟨S64x64, .f32⟩
  | 7 => ⟨S64, .f32⟩
  | 8 => ⟨S3x64x64, .f32⟩
  | 9 => ⟨S3x64, .f32⟩
  | 10 => ⟨S3x64x64, .f32⟩
  | 11 => ⟨S3x64, .f32⟩
  | 12 => ⟨S3x64, .f32⟩
  | 13 => ⟨S3x64, .f32⟩
  | 14 => ⟨S50000x64, .f32⟩
  | 15 => ⟨S1x64, .f32⟩
  | 16 => ⟨S50000x64, .f32⟩
  | 17 => ⟨S50000x64, .f32⟩
  | 18 => ⟨S1000000x64, .f32⟩
  | 19 => ⟨S1x64, .f32⟩
  | 20 => ⟨S1000000x64, .f32⟩
  | 21 => ⟨S1000000x64, .f32⟩
  | 22 => ⟨S1x1000000, .i32⟩
  | 23 => ⟨S1000000, .i32⟩
  | 24 => ⟨S1x1000000, .i32⟩
  | 25 => ⟨S1000000, .i32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S1000000x64, .f32⟩
  | 36 => ⟨S_, .f32⟩
  | 37 => ⟨S1000000x64, .f32⟩
  | 38 => ⟨S1000000x64, .f32⟩
  | 39 => ⟨S_, .f32⟩
  | 40 => ⟨S50000x64, .f32⟩
  | 41 => ⟨S1000000x1, .i32⟩
  | 42 => ⟨S50000x64, .f32⟩
  | 43 => ⟨S50000x64, .f32⟩
  | 44 => ⟨S1x64x64, .f32⟩
  | 45 => ⟨S64x64, .f32⟩
  | 46 => ⟨S50000x64, .f32⟩
  | 47 => ⟨S1x64, .f32⟩
  | 48 => ⟨S64, .f32⟩
  | 49 => ⟨S1x64, .f32⟩
  | 50 => ⟨S50000x64, .f32⟩
  | 51 => ⟨S50000x64, .f32⟩
  | 52 => ⟨S_, .f32⟩
  | 53 => ⟨S_, .f32⟩
  | 54 => ⟨S50000x64, .f32⟩
  | 55 => ⟨S50000x64, .i1⟩
  | 56 => ⟨S_, .f32⟩
  | 57 => ⟨S50000x64, .f32⟩
  | 58 => ⟨S50000x64, .f32⟩
  | 59 => ⟨S50000x64, .f32⟩
  | 60 => ⟨S1x64x64, .f32⟩
  | 61 => ⟨S64x64, .f32⟩
  | 62 => ⟨S50000x64, .f32⟩
  | 63 => ⟨S1x64, .f32⟩
  | 64 => ⟨S64, .f32⟩
  | 65 => ⟨S1x64, .f32⟩
  | 66 => ⟨S50000x64, .f32⟩
  | 67 => ⟨S50000x64, .f32⟩
  | 68 => ⟨S_, .f32⟩
  | 69 => ⟨S64, .f32⟩
  | 70 => ⟨S_, .f32⟩
  | 71 => ⟨S64, .f32⟩
  | 72 => ⟨S64, .f32⟩
  | 73 => ⟨S_, .i32⟩
  | 74 => ⟨S_, .f32⟩
  | 75 => ⟨S64, .f32⟩
  | 76 => ⟨S1x64, .f32⟩
  | 77 => ⟨S_, .f32⟩
  | 78 => ⟨S1x64, .f32⟩
  | 79 => ⟨S1x64, .f32⟩
  | 80 => ⟨S50000x64, .f32⟩
  | 81 => ⟨S50000x64, .f32⟩
  | 82 => ⟨S50000x64, .f32⟩
  | 83 => ⟨S_, .f32⟩
  | 84 => ⟨S_, .f32⟩
  | 85 => ⟨S_, .f32⟩
  | 86 => ⟨S_, .f32⟩
  | 87 => ⟨S64, .f32⟩
  | 88 => ⟨S64, .f32⟩
  | 89 => ⟨S64, .f32⟩
  | 90 => ⟨S_, .f32⟩
  | 91 => ⟨S_, .i1⟩
  | 92 => ⟨S_, .f32⟩
  | 93 => ⟨S_, .f32⟩
  | 94 => ⟨S64, .f32⟩
  | 95 => ⟨S64, .f32⟩
  | 96 => ⟨S1x64, .f32⟩
  | 97 => ⟨S64, .f32⟩
  | 98 => ⟨S1x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S_, .f32⟩
  | 105 => ⟨S64, .f32⟩
  | 106 => ⟨S64, .f32⟩
  | 107 => ⟨S64, .f32⟩
  | 108 => ⟨S1x64, .f32⟩
  | 109 => ⟨S50000x64, .f32⟩
  | 110 => ⟨S50000x64, .f32⟩
  | 111 => ⟨S1x64, .f32⟩
  | 112 => ⟨S64, .f32⟩
  | 113 => ⟨S1x64, .f32⟩
  | 114 => ⟨S50000x64, .f32⟩
  | 115 => ⟨S50000x64, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x64, .f32⟩
  | 125 => ⟨S1000000x64, .f32⟩
  | 126 => ⟨S_, .f32⟩
  | 127 => ⟨S1000000x64, .f32⟩
  | _ => ⟨S50000x64, .f32⟩

abbrev hbmTy0_1 (i : Nat) : BufTy := match i % 128 with
  | 0 => ⟨S1000000x64, .f32⟩
  | 1 => ⟨S_, .f32⟩
  | 2 => ⟨S50000x64, .f32⟩
  | 3 => ⟨S1000000x1, .i32⟩
  | 4 => ⟨S50000x64, .f32⟩
  | 5 => ⟨S50000x64, .f32⟩
  | 6 => ⟨S1x64x64, .f32⟩
  | 7 => ⟨S64x64, .f32⟩
  | 8 => ⟨S50000x64, .f32⟩
  | 9 => ⟨S1x64, .f32⟩
  | 10 => ⟨S64, .f32⟩
  | 11 => ⟨S1x64, .f32⟩
  | 12 => ⟨S50000x64, .f32⟩
  | 13 => ⟨S50000x64, .f32⟩
  | 14 => ⟨S_, .f32⟩
  | 15 => ⟨S_, .f32⟩
  | 16 => ⟨S50000x64, .f32⟩
  | 17 => ⟨S50000x64, .i1⟩
  | 18 => ⟨S_, .f32⟩
  | 19 => ⟨S50000x64, .f32⟩
  | 20 => ⟨S50000x64, .f32⟩
  | 21 => ⟨S50000x64, .f32⟩
  | 22 => ⟨S1x64x64, .f32⟩
  | 23 => ⟨S64x64, .f32⟩
  | 24 => ⟨S50000x64, .f32⟩
  | 25 => ⟨S1x64, .f32⟩
  | 26 => ⟨S64, .f32⟩
  | 27 => ⟨S1x64, .f32⟩
  | 28 => ⟨S50000x64, .f32⟩
  | 29 => ⟨S50000x64, .f32⟩
  | 30 => ⟨S_, .f32⟩
  | 31 => ⟨S64, .f32⟩
  | 32 => ⟨S_, .f32⟩
  | 33 => ⟨S64, .f32⟩
  | 34 => ⟨S64, .f32⟩
  | 35 => ⟨S_, .i32⟩
  | 36 => ⟨S_, .f32⟩
  | 37 => ⟨S64, .f32⟩
  | 38 => ⟨S1x64, .f32⟩
  | 39 => ⟨S_, .f32⟩
  | 40 => ⟨S1x64, .f32⟩
  | 41 => ⟨S1x64, .f32⟩
  | 42 => ⟨S50000x64, .f32⟩
  | 43 => ⟨S50000x64, .f32⟩
  | 44 => ⟨S50000x64, .f32⟩
  | 45 => ⟨S_, .f32⟩
  | 46 => ⟨S_, .f32⟩
  | 47 => ⟨S_, .f32⟩
  | 48 => ⟨S_, .f32⟩
  | 49 => ⟨S64, .f32⟩
  | 50 => ⟨S64, .f32⟩
  | 51 => ⟨S64, .f32⟩
  | 52 => ⟨S_, .f32⟩
  | 53 => ⟨S_, .i1⟩
  | 54 => ⟨S_, .f32⟩
  | 55 => ⟨S_, .f32⟩
  | 56 => ⟨S64, .f32⟩
  | 57 => ⟨S64, .f32⟩
  | 58 => ⟨S1x64, .f32⟩
  | 59 => ⟨S64, .f32⟩
  | 60 => ⟨S1x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S64, .f32⟩
  | 68 => ⟨S64, .f32⟩
  | 69 => ⟨S64, .f32⟩
  | 70 => ⟨S1x64, .f32⟩
  | 71 => ⟨S50000x64, .f32⟩
  | 72 => ⟨S50000x64, .f32⟩
  | 73 => ⟨S1x64, .f32⟩
  | 74 => ⟨S64, .f32⟩
  | 75 => ⟨S1x64, .f32⟩
  | 76 => ⟨S50000x64, .f32⟩
  | 77 => ⟨S50000x64, .f32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000x64, .f32⟩
  | 87 => ⟨S1000000x64, .f32⟩
  | 88 => ⟨S_, .f32⟩
  | 89 => ⟨S1000000x64, .f32⟩
  | 90 => ⟨S1000000x64, .f32⟩
  | 91 => ⟨S_, .f32⟩
  | 92 => ⟨S50000x64, .f32⟩
  | 93 => ⟨S1000000x1, .i32⟩
  | 94 => ⟨S50000x64, .f32⟩
  | 95 => ⟨S50000x64, .f32⟩
  | 96 => ⟨S1x64x64, .f32⟩
  | 97 => ⟨S64x64, .f32⟩
  | 98 => ⟨S50000x64, .f32⟩
  | 99 => ⟨S1x64, .f32⟩
  | 100 => ⟨S64, .f32⟩
  | 101 => ⟨S1x64, .f32⟩
  | 102 => ⟨S50000x64, .f32⟩
  | 103 => ⟨S50000x64, .f32⟩
  | 104 => ⟨S_, .f32⟩
  | 105 => ⟨S_, .f32⟩
  | 106 => ⟨S50000x64, .f32⟩
  | 107 => ⟨S50000x64, .i1⟩
  | 108 => ⟨S_, .f32⟩
  | 109 => ⟨S50000x64, .f32⟩
  | 110 => ⟨S50000x64, .f32⟩
  | 111 => ⟨S50000x64, .f32⟩
  | 112 => ⟨S1x64x64, .f32⟩
  | 113 => ⟨S64x64, .f32⟩
  | 114 => ⟨S50000x64, .f32⟩
  | 115 => ⟨S1x64, .f32⟩
  | 116 => ⟨S64, .f32⟩
  | 117 => ⟨S1x64, .f32⟩
  | 118 => ⟨S50000x64, .f32⟩
  | 119 => ⟨S50000x64, .f32⟩
  | 120 => ⟨S_, .f32⟩
  | 121 => ⟨S64, .f32⟩
  | 122 => ⟨S_, .f32⟩
  | 123 => ⟨S64, .f32⟩
  | 124 => ⟨S64, .f32⟩
  | 125 => ⟨S_, .i32⟩
  | 126 => ⟨S_, .f32⟩
  | 127 => ⟨S64, .f32⟩
  | _ => ⟨S50000x64, .f32⟩

abbrev hbmTy0_2 (i : Nat) : BufTy := match i % 128 with
  | 0 => ⟨S1x64, .f32⟩
  | 1 => ⟨S_, .f32⟩
  | 2 => ⟨S1x64, .f32⟩
  | 3 => ⟨S1x64, .f32⟩
  | 4 => ⟨S50000x64, .f32⟩
  | 5 => ⟨S50000x64, .f32⟩
  | 6 => ⟨S50000x64, .f32⟩
  | 7 => ⟨S_, .f32⟩
  | 8 => ⟨S_, .f32⟩
  | 9 => ⟨S_, .f32⟩
  | 10 => ⟨S_, .f32⟩
  | 11 => ⟨S64, .f32⟩
  | 12 => ⟨S64, .f32⟩
  | 13 => ⟨S64, .f32⟩
  | 14 => ⟨S_, .f32⟩
  | 15 => ⟨S_, .i1⟩
  | 16 => ⟨S_, .f32⟩
  | 17 => ⟨S_, .f32⟩
  | 18 => ⟨S64, .f32⟩
  | 19 => ⟨S64, .f32⟩
  | 20 => ⟨S1x64, .f32⟩
  | 21 => ⟨S64, .f32⟩
  | 22 => ⟨S1x64, .f32⟩
  | 23 => ⟨S50000x64, .f32⟩
  | 24 => ⟨S50000x64, .f32⟩
  | 25 => ⟨S1x64, .f32⟩
  | 26 => ⟨S50000x64, .f32⟩
  | 27 => ⟨S50000x64, .f32⟩
  | 28 => ⟨S_, .f32⟩
  | 29 => ⟨S64, .f32⟩
  | 30 => ⟨S64, .f32⟩
  | 31 => ⟨S64, .f32⟩
  | 32 => ⟨S1x64, .f32⟩
  | 33 => ⟨S50000x64, .f32⟩
  | 34 => ⟨S50000x64, .f32⟩
  | 35 => ⟨S1x64, .f32⟩
  | 36 => ⟨S64, .f32⟩
  | 37 => ⟨S1x64, .f32⟩
  | 38 => ⟨S50000x64, .f32⟩
  | 39 => ⟨S50000x64, .f32⟩
  | 40 => ⟨S_, .f32⟩
  | 41 => ⟨S50000, .f32⟩
  | 42 => ⟨S_, .f32⟩
  | 43 => ⟨S64, .f32⟩
  | 44 => ⟨S50000x1, .i32⟩
  | 45 => ⟨S64, .f32⟩
  | 46 => ⟨S_, .f32⟩
  | 47 => ⟨S64x64, .f32⟩
  | 48 => ⟨S50000x1, .i32⟩
  | 49 => ⟨S64x64, .f32⟩
  | 50 => ⟨S_, .f32⟩
  | 51 => ⟨S64, .f32⟩
  | 52 => ⟨S64, .f32⟩
  | 53 => ⟨S64x1, .f32⟩
  | 54 => ⟨S64x64, .f32⟩
  | 55 => ⟨S64x64, .f32⟩
  | 56 => ⟨S64x64, .f32⟩
  | 57 => ⟨S_, .f32⟩
  | 58 => ⟨S64, .f32⟩
  | 59 => ⟨S64x1, .f32⟩
  | 60 => ⟨S64x1, .f32⟩
  | 61 => ⟨S_, .f32⟩
  | 62 => ⟨S64x1, .f32⟩
  | 63 => ⟨S64x1, .f32⟩
  | 64 => ⟨S64x64, .f32⟩
  | 65 => ⟨S64x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_1 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_2 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_c_4 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_cst_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_cst_1 : Ref sig .tc := ⟨.hbm, 84, rfl⟩
abbrev main_call2_v8 : Ref sig .tc := ⟨.hbm, 85, rfl⟩
abbrev main_call2_cst_2 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_cst_3 : Ref sig .tc := ⟨.hbm, 90, rfl⟩
abbrev main_call2_v12 : Ref sig .tc := ⟨.hbm, 91, rfl⟩
abbrev main_call2_cst_4 : Ref sig .tc := ⟨.hbm, 92, rfl⟩
abbrev main_call2_call0_v0 : Ref sig .tc := ⟨.hbm, 93, rfl⟩
abbrev main_call2_call0_v1 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_5 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_c_6 : Ref sig .tc := ⟨.hbm, 116, rfl⟩
abbrev main_v65 : Ref sig .tc := ⟨.hbm, 117, rfl⟩
abbrev main_v66 : Ref sig .tc := ⟨.hbm, 118, rfl⟩
abbrev main_c_7 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_call3_cst : Ref sig .tc := ⟨.hbm, 126, rfl⟩
abbrev main_call3_v0 : Ref sig .tc := ⟨.hbm, 127, rfl⟩
abbrev main_v73 : Ref sig .tc := ⟨.hbm, 128, rfl⟩
abbrev main_cst_8 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_9 : Ref sig .tc := ⟨.hbm, 142, rfl⟩
abbrev main_call4_cst : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_10 : Ref sig .tc := ⟨.hbm, 158, rfl⟩
abbrev main_v95 : Ref sig .tc := ⟨.hbm, 159, rfl⟩
abbrev main_cst_11 : Ref sig .tc := ⟨.hbm, 160, rfl⟩
abbrev main_v96 : Ref sig .tc := ⟨.hbm, 161, rfl⟩
abbrev main_v97 : Ref sig .tc := ⟨.hbm, 162, rfl⟩
abbrev main_c_12 : Ref sig .tc := ⟨.hbm, 163, rfl⟩
abbrev main_call5_cst : Ref sig .tc := ⟨.hbm, 164, rfl⟩
abbrev main_call5_v0 : Ref sig .tc := ⟨.hbm, 165, rfl⟩
abbrev main_call5_v1 : Ref sig .tc := ⟨.hbm, 166, rfl⟩
abbrev main_call5_cst_0 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_v6 : Ref sig .tc := ⟨.hbm, 172, rfl⟩
abbrev main_call5_v7 : Ref sig .tc := ⟨.hbm, 173, rfl⟩
abbrev main_call5_cst_1 : Ref sig .tc := ⟨.hbm, 174, rfl⟩
abbrev main_call5_v8 : Ref sig .tc := ⟨.hbm, 175, rfl⟩
abbrev main_call5_cst_2 : Ref sig .tc := ⟨.hbm, 176, rfl⟩
abbrev main_call5_v9 : Ref sig .tc := ⟨.hbm, 177, rfl⟩
abbrev main_call5_v10 : Ref sig .tc := ⟨.hbm, 178, rfl⟩
abbrev main_call5_v11 : Ref sig .tc := ⟨.hbm, 179, rfl⟩
abbrev main_call5_cst_3 : Ref sig .tc := ⟨.hbm, 180, rfl⟩
abbrev main_call5_v12 : Ref sig .tc := ⟨.hbm, 181, rfl⟩
abbrev main_call5_cst_4 : Ref sig .tc := ⟨.hbm, 182, rfl⟩
abbrev main_call5_call0_v0 : Ref sig .tc := ⟨.hbm, 183, rfl⟩
abbrev main_call5_call0_v1 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_cst_13 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_c_14 : Ref sig .tc := ⟨.hbm, 206, rfl⟩
abbrev main_v118 : Ref sig .tc := ⟨.hbm, 207, rfl⟩
abbrev main_v119 : Ref sig .tc := ⟨.hbm, 208, rfl⟩
abbrev main_c_15 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_call6_cst : Ref sig .tc := ⟨.hbm, 216, rfl⟩
abbrev main_call6_v0 : Ref sig .tc := ⟨.hbm, 217, rfl⟩
abbrev main_v126 : Ref sig .tc := ⟨.hbm, 218, rfl⟩
abbrev main_cst_16 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_cst_17 : Ref sig .tc := ⟨.hbm, 232, rfl⟩
abbrev main_call7_cst : Ref sig .tc := ⟨.hbm, 233, rfl⟩
abbrev main_call7_v0 : Ref sig .tc := ⟨.hbm, 234, rfl⟩
abbrev main_call7_v1 : Ref sig .tc := ⟨.hbm, 235, rfl⟩
abbrev main_call7_v2 : Ref sig .tc := ⟨.hbm, 236, rfl⟩
abbrev main_call7_v3 : Ref sig .tc := ⟨.hbm, 237, rfl⟩
abbrev main_call7_v4 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_cst_18 : Ref sig .tc := ⟨.hbm, 248, rfl⟩
abbrev main_v148 : Ref sig .tc := ⟨.hbm, 249, rfl⟩
abbrev main_cst_19 : Ref sig .tc := ⟨.hbm, 250, rfl⟩
abbrev main_v149 : Ref sig .tc := ⟨.hbm, 251, rfl⟩
abbrev main_v150 : Ref sig .tc := ⟨.hbm, 252, rfl⟩
abbrev main_c_20 : Ref sig .tc := ⟨.hbm, 253, rfl⟩
abbrev main_call8_cst : Ref sig .tc := ⟨.hbm, 254, rfl⟩
abbrev main_call8_v0 : Ref sig .tc := ⟨.hbm, 255, rfl⟩
abbrev main_call8_v1 : Ref sig .tc := ⟨.hbm, 256, rfl⟩
abbrev main_call8_cst_0 : Ref sig .tc := ⟨.hbm, 257, rfl⟩
abbrev main_call8_v2 : Ref sig .tc := ⟨.hbm, 258, rfl⟩
abbrev main_call8_v3 : Ref sig .tc := ⟨.hbm, 259, rfl⟩
abbrev main_call8_v4 : Ref sig .tc := ⟨.hbm, 260, rfl⟩
abbrev main_call8_v5 : Ref sig .tc := ⟨.hbm, 261, rfl⟩
abbrev main_call8_v6 : Ref sig .tc := ⟨.hbm, 262, rfl⟩
abbrev main_call8_v7 : Ref sig .tc := ⟨.hbm, 263, rfl⟩
abbrev main_call8_cst_1 : Ref sig .tc := ⟨.hbm, 264, rfl⟩
abbrev main_call8_v8 : Ref sig .tc := ⟨.hbm, 265, rfl⟩
abbrev main_call8_cst_2 : Ref sig .tc := ⟨.hbm, 266, rfl⟩
abbrev main_call8_v9 : Ref sig .tc := ⟨.hbm, 267, rfl⟩
abbrev main_call8_v10 : Ref sig .tc := ⟨.hbm, 268, rfl⟩
abbrev main_call8_v11 : Ref sig .tc := ⟨.hbm, 269, rfl⟩
abbrev main_call8_cst_3 : Ref sig .tc := ⟨.hbm, 270, rfl⟩
abbrev main_call8_v12 : Ref sig .tc := ⟨.hbm, 271, rfl⟩
abbrev main_call8_cst_4 : Ref sig .tc := ⟨.hbm, 272, rfl⟩
abbrev main_call8_call0_v0 : Ref sig .tc := ⟨.hbm, 273, rfl⟩
abbrev main_call8_call0_v1 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_cst_21 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_cst_22 : Ref sig .tc := ⟨.hbm, 296, rfl⟩
abbrev main_v171 : Ref sig .tc := ⟨.hbm, 297, rfl⟩
abbrev main_cst_23 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_cst_24 : Ref sig .tc := ⟨.hbm, 302, rfl⟩
abbrev main_v175 : Ref sig .tc := ⟨.hbm, 303, rfl⟩
abbrev main_v176 : Ref sig .tc := ⟨.hbm, 304, rfl⟩
abbrev main_v177 : Ref sig .tc := ⟨.hbm, 305, rfl⟩
abbrev main_cst_25 : Ref sig .tc := ⟨.hbm, 306, rfl⟩
abbrev main_v178 : Ref sig .tc := ⟨.hbm, 307, rfl⟩
abbrev main_v179 : Ref sig .tc := ⟨.hbm, 308, rfl⟩
abbrev main_v180 : Ref sig .tc := ⟨.hbm, 309, rfl⟩
abbrev main_v181 : Ref sig .tc := ⟨.hbm, 310, rfl⟩
abbrev main_v182 : Ref sig .tc := ⟨.hbm, 311, rfl⟩
abbrev main_call9_v0 : Ref sig .tc := ⟨.hbm, 312, rfl⟩
abbrev main_call9_cst : Ref sig .tc := ⟨.hbm, 313, rfl⟩
abbrev main_call9_v1 : Ref sig .tc := ⟨.hbm, 314, rfl⟩
abbrev main_call9_v2 : Ref sig .tc := ⟨.hbm, 315, rfl⟩
abbrev main_v183 : Ref sig .tc := ⟨.hbm, 316, rfl⟩
abbrev main_cst_26 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_v187 : Ref sig .tc := ⟨.hbm, 321, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S1000000x64_0_1 : S1x64.BroadcastsInDim S1000000x64 (![0, 1] : Fin 2 → Fin S1000000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x64 : S_.BroadcastsInDim S1000000x64 (![] : Fin 0 → Fin S1000000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S50000 : S_.BroadcastsInDim S50000 (![] : Fin 0 → Fin S50000.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  reducesTo_S64x64_S64_d1 : S64x64.ReducesTo [1] S64
  bcast_S_S64x1 : S_.BroadcastsInDim S64x1 (![] : Fin 0 → Fin S64x1.rank)
  dot_S50000x64_S64x64_S50000x64_1_0_0_1_n_n_wf : DotDims.WF S50000x64 S64x64 S50000x64 [1] [0] [0] [1] [] []
  dot_S1000000x64_S64x64_S1000000x64_1_0_0_1_n_n_wf : DotDims.WF S1000000x64 S64x64 S1000000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf

class Facts : Prop extends Facts₀ where

variable [Facts]
-- ==== Proof.Spec.lean ====
/-
  The whole-array functions this certificate's two programs are compared through, at the ideal instance
  (every float an extended real, every operation exact).  Each is a composition of host tensor operations over
  the literal shapes of the problem (50000 nodes, 1000000 edges, 64 channels):

    linN x W b   = x · W + b              on node rows      (b a [1,64] row, added to every row)
    linE x W b   = x · W + b              on edge rows
    msg hs e     = max (hs + e, 0)        the edge message
    leaky x      = x if x ≥ 0 else 0.01·x
    mlp z …      = leaky (z · W₁ + b₁) · W₂ + b₂
    colSum z     = the column sums  0 + ∑ₙ z (n, j)   as a [64] vector;   row v  its [1,64] form
    bnorm z μ v γ β = γ · (z − μ) · rsqrt (v + ε) + β      with μ, v, γ, β rows spread over the nodes
-/
import proofs.«104584_j17154099380304_2_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

/-- Node features [50000, 64]. -/
abbrev NV := FVec Ideal S50000x64 .f32
/-- Edge features [1000000, 64]. -/
abbrev EV := FVec Ideal S1000000x64 .f32
/-- A weight matrix [64, 64]. -/
abbrev WM := FVec Ideal S64x64 .f32
/-- A row [1, 64]. -/
abbrev RowV := FVec Ideal S1x64 .f32
/-- A channel vector [64]. -/
abbrev ColV := FVec Ideal S64 .f32

/-- The scalar 0. -/
def zeroS : FVec Ideal S_ .f32 := constant (F := Ideal) S_ .f32 0x00000000#32
/-- A row spread over all node rows. -/
def bN (r : RowV) : NV := broadcastInDim S50000x64 ![0, 1] bcast_S1x64_S50000x64_0_1 r
/-- A row spread over all edge rows. -/
def bE (r : RowV) : EV := broadcastInDim S1000000x64 ![0, 1] bcast_S1x64_S1000000x64_0_1 r
/-- A channel vector as a [1,64] row. -/
def row (v : ColV) : RowV := broadcastInDim S1x64 ![1] bcast_S64_S1x64_1 v

/-- x · W + b over the node rows. -/
def linN (x : NV) (w : WM) (b : RowV) : NV :=
  addf (Host.dotGeneral (F := Ideal) dot_S50000x64_S64x64_S50000x64_1_0_0_1_n_n none x w) (bN b)
/-- x · W + b over the edge rows. -/
def linE (x : EV) (w : WM) (b : RowV) : EV :=
  addf (Host.dotGeneral (F := Ideal) dot_S1000000x64_S64x64_S1000000x64_1_0_0_1_n_n none x w) (bE b)
/-- The edge message max (hs + e, 0). -/
def msg (hs e : EV) : EV :=
  maximumf (addf hs e) (broadcastInDim S1000000x64 ![] bcast_S_S1000000x64 zeroS)
/-- x where x ≥ 0, else 0.01 · x (the slope is the f32 nearest 0.01, the same word on both sides). -/
def leaky (x : NV) : NV :=
  select (cmpf .oge x (broadcastInDim S50000x64 ![] bcast_S_S50000x64 zeroS)) x
    (mulf (broadcastInDim S50000x64 ![] bcast_S_S50000x64 (constant (F := Ideal) S_ .f32 0x3C23D70A#32)) x)
/-- The two-layer per-node map leaky (z · W₁ + b₁) · W₂ + b₂. -/
def mlp (z : NV) (w1 : WM) (b1 : RowV) (w2 : WM) (b2 : RowV) : NV := linN (leaky (linN z w1 b1)) w2 b2
/-- The column sums over all nodes, from zero. -/
def colSum (z : NV) : ColV := Host.reduceAdd (F := Ideal) z zeroS reducesTo_S50000x64_S64_d0 h_S_
/-- The entrywise square z · z. -/
def sqr (z : NV) : NV := mulf z z
/-- γ · (z − μ) · rsqrt (v + ε) + β, the rows spread over the nodes; ε the f32 nearest 1e-5. -/
def bnorm (z2 : NV) (mean var γ β : RowV) : NV :=
  addf (mulf (mulf (bN γ) (subf z2 (bN mean)))
    (bN (Host.rsqrt (F := Ideal) (addf var (broadcastInDim S1x64 ![] bcast_S_S1x64 (constant (F := Ideal) S_ .f32 0x3727C5AC#32))))))
    (bN β)

end Cert.Spec

end
-- ==== Proof.KerSpec.lean ====
/-
  What each kernel region leaves in its output arrays, as whole-array functions of the arrays it was entered with.
  The statements are about the region's proof data at an ARBITRARY entry valuation: they say that the blocks the
  grid points write back, folded over the grid, are the rows of one function of the input arrays:

    projection regions        x · W + b                          (node rows; edge rows)
    message regions           max (hs + e, 0)
    per-node map regions      z2 = leaky (z · W₁ + b₁) · W₂ + b₂ , and the column sums of z2 and of z2² as [1,64] rows
                              (accumulated over the five row blocks inside the kernel)
    normalisation regions     γ · (z2 − μ) · rsqrt (v + ε) + β
-/
import proofs.«104584_j17154099380304_2_alg».proof.Proof.Gen.KernelIdeal.Frame
import proofs.«104584_j17154099380304_2_alg».proof.Proof.Spec

noncomputable section

namespace Cert.KernelIdeal.KerValue

open Idealize.ShloMosaic Idealize.ShloMosaic.TcCoe Idealize.SL.Sem Cert.KernelIdeal Cert.KernelIdeal.Gen

set_option maxHeartbeats 8000000 in
/-- Every region's output arrays after its last grid point, as functions of its input arrays at entry. -/
structure RegionVals : Prop where
  lin0 : ∀ (V : (c : Dev nD) → (b : Ref sig .tc) → Buf (Elt Ideal) ((c : Thread nD τ).loc b)) (c : Dev nD), (dat0 (F := Ideal) V c).arrAt 3 cfg0.N
    = Cert.Spec.linN (V c (Pipeline.arrRef spec0 0)) (V c (Pipeline.arrRef spec0 1)) (V c (Pipeline.arrRef spec0 2))
  lin1 : ∀ (V : (c : Dev nD) → (b : Ref sig .tc) → Buf (Elt Ideal) ((c : Thread nD τ).loc b)) (c : Dev nD), (dat1 (F := Ideal) V c).arrAt 3 cfg1.N
    = Cert.Spec.linE (V c (Pipeline.arrRef spec1 0)) (V c (Pipeline.arrRef spec1 1)) (V c (Pipeline.arrRef spec1 2))
  msg2 : ∀ (V : (c : Dev nD) → (b : Ref sig .tc) → Buf (Elt Ideal) ((c : Thread nD τ).loc b)) (c : Dev nD), (dat2 (F := Ideal) V c).arrAt 2 cfg2.N
    = Cert.Spec.msg (V c (Pipeline.arrRef spec2 0)) (V c (Pipeline.arrRef spec2 1))
  msg5 : ∀ (V : (c : Dev nD) → (b : Ref sig .tc) → Buf (Elt Ideal) ((c : Thread nD τ).loc b)) (c : Dev nD), (dat5 (F := Ideal) V c).arrAt 2 cfg5.N
    = Cert.Spec.msg (V c (Pipeline.arrRef spec5 0)) (V c (Pipeline.arrRef spec5 1))
  msg8 : ∀ (V : (c : Dev nD) → (b : Ref sig .tc) → Buf (Elt Ideal) ((c : Thread nD τ).loc b)) (c : Dev nD), (dat8 (F := Ideal) V c).arrAt 2 cfg8.N
    = Cert.Spec.msg (V c (Pipeline.arrRef spec8 0)) (V c (Pipeline.arrRef spec8 1))
  mlp3 : ∀ (V : (c : Dev nD) → (b : Ref sig .tc) → Buf (Elt Ideal) ((c : Thread nD τ).loc b)) (c : Dev nD), (dat3 (F := Ideal) V c).arrAt 5 cfg3.N
    = Cert.Spec.mlp (V c (Pipeline.arrRef spec3 0)) (V c (Pipeline.arrRef spec3 1)) (V c (Pipeline.arrRef spec3 2)) (V c (Pipeline.arrRef spec3 3)) (V c (Pipeline.arrRef spec3 4))
  sum3 : ∀ (V : (c : Dev nD) → (b : Ref sig .tc) → Buf (Elt Ideal) ((c : Thread nD τ).loc b)) (c : Dev nD), (dat3 (F := Ideal) V c).arrAt 6 cfg3.N
    = Cert.Spec.row (Cert.Spec.colSum (Cert.Spec.mlp (V c (Pipeline.arrRef spec3 0)) (V c (Pipeline.arrRef spec3 1)) (V c (Pipeline.arrRef spec3 2)) (V c (Pipeline.arrRef spec3 3)) (V c (Pipeline.arrRef spec3 4))))
  sq3 : ∀ (V : (c : Dev nD) → (b : Ref sig .tc) → Buf (Elt Ideal) ((c : Thread nD τ).loc b)) (c : Dev nD), (dat3 (F := Ideal) V c).arrAt 7 cfg3.N
    = Cert.Spec.row (Cert.Spec.colSum (Cert.Spec.sqr (Cert.Spec.mlp (V c (Pipeline.arrRef spec3 0)) (V c (Pipeline.arrRef spec3 1)) (V c (Pipeline.arrRef spec3 2)) (V c (Pipeline.arrRef spec3 3)) (V c (Pipeline.arrRef spec3 4)))))
  mlp6 : ∀ (V : (c : Dev nD) → (b : Ref sig .tc) → Buf (Elt Ideal) ((c : Thread nD τ).loc b)) (c : Dev nD), (dat6 (F := Ideal) V c).arrAt 5 cfg6.N
    = Cert.Spec.mlp (V c (Pipeline.arrRef spec6 0)) (V c (Pipeline.arrRef spec6 1)) (V c (Pipeline.arrRef spec6 2)) (V c (Pipeline.arrRef spec6 3)) (V c (Pipeline.arrRef spec6 4))
  sum6 : ∀ (V : (c : Dev nD) → (b : Ref sig .tc) → Buf (Elt Ideal) ((c : Thread nD τ).loc b)) (c : Dev nD), (dat6 (F := Ideal) V c).arrAt 6 cfg6.N
    = Cert.Spec.row (Cert.Spec.colSum (Cert.Spec.mlp (V c (Pipeline.arrRef spec6 0)) (V c (Pipeline.arrRef spec6 1)) (V c (Pipeline.arrRef spec6 2)) (V c (Pipeline.arrRef spec6 3)) (V c (Pipeline.arrRef spec6 4))))
  sq6 : ∀ (V : (c : Dev nD) → (b : Ref sig .tc) → Buf (Elt Ideal) ((c : Thread nD τ).loc b)) (c : Dev nD), (dat6 (F := Ideal) V c).arrAt 7 cfg6.N
    = Cert.Spec.row (Cert.Spec.colSum (Cert.Spec.sqr (Cert.Spec.mlp (V c (Pipeline.arrRef spec6 0)) (V c (Pipeline.arrRef spec6 1)) (V c (Pipeline.arrRef spec6 2)) (V c (Pipeline.arrRef spec6 3)) (V c (Pipeline.arrRef spec6 4)))))
  mlp9 : ∀ (V : (c : Dev nD) → (b : Ref sig .tc) → Buf (Elt Ideal) ((c : Thread nD τ).loc b)) (c : Dev nD), (dat9 (F := Ideal) V c).arrAt 5 cfg9.N
    = Cert.Spec.mlp (V c (Pipeline.arrRef spec9 0)) (V c (Pipeline.arrRef spec9 1)) (V c (Pipeline.arrRef spec9 2)) (V c (Pipeline.arrRef spec9 3)) (V c (Pipeline.arrRef spec9 4))
  sum9 : ∀ (V : (c : Dev nD) → (b : Ref sig .tc) → Buf (Elt Ideal) ((c : Thread nD τ).loc b)) (c : Dev nD), (dat9 (F := Ideal) V c).arrAt 6 cfg9.N
    = Cert.Spec.row (Cert.Spec.colSum (Cert.Spec.mlp (V c (Pipeline.arrRef spec9 0)) (V c (Pipeline.arrRef spec9 1)) (V c (Pipeline.arrRef spec9 2)) (V c (Pipeline.arrRef spec9 3)) (V c (Pipeline.arrRef spec9 4))))
  sq9 : ∀ (V : (c : Dev nD) → (b : Ref sig .tc) → Buf (Elt Ideal) ((c : Thread nD τ).loc b)) (c : Dev nD), (dat9 (F := Ideal) V c).arrAt 7 cfg9.N
    = Cert.Spec.row (Cert.Spec.colSum (Cert.Spec.sqr (Cert.Spec.mlp (V c (Pipeline.arrRef spec9 0)) (V c (Pipeline.arrRef spec9 1)) (V c (Pipeline.arrRef spec9 2)) (V c (Pipeline.arrRef spec9 3)) (V c (Pipeline.arrRef spec9 4)))))
  bn4 : ∀ (V : (c : Dev nD) → (b : Ref sig .tc) → Buf (Elt Ideal) ((c : Thread nD τ).loc b)) (c : Dev nD), (dat4 (F := Ideal) V c).arrAt 5 cfg4.N
    = Cert.Spec.bnorm (V c (Pipeline.arrRef spec4 0)) (V c (Pipeline.arrRef spec4 1)) (V c (Pipeline.arrRef spec4 2)) (V c (Pipeline.arrRef spec4 3)) (V c (Pipeline.arrRef spec4 4))
  bn7 : ∀ (V : (c : Dev nD) → (b : Ref sig .tc) → Buf (Elt Ideal) ((c : Thread nD τ).loc b)) (c : Dev nD), (dat7 (F := Ideal) V c).arrAt 5 cfg7.N
    = Cert.Spec.bnorm (V c (Pipeline.arrRef spec7 0)) (V c (Pipeline.arrRef spec7 1)) (V c (Pipeline.arrRef spec7 2)) (V c (Pipeline.arrRef spec7 3)) (V c (Pipeline.arrRef spec7 4))
  bn10 : ∀ (V : (c : Dev nD) → (b : Ref sig .tc) → Buf (Elt Ideal) ((c : Thread nD τ).loc b)) (c : Dev nD), (dat10 (F := Ideal) V c).arrAt 5 cfg10.N
    = Cert.Spec.bnorm (V c (Pipeline.arrRef spec10 0)) (V c (Pipeline.arrRef spec10 1)) (V c (Pipeline.arrRef spec10 2)) (V c (Pipeline.arrRef spec10 3)) (V c (Pipeline.arrRef spec10 4))

end Cert.KernelIdeal.KerValue

end
-- ==== Proof.KerRun.Defs.lean ====
/-
  The kernel program's result as ONE function of its fourteen argument arrays, at the ideal instance.

    h0           the node projection   x · Wp + bp                       (50000 rows)
    e0           the edge projection   ef · We + be                      (1000000 rows)
    srcIdx       the source index of every edge, wrapped into 0 … 49999 (a negative index has 50000 added),
                 as the [1000000,1] column the row gather reads
    dstIdx       the destination index of every edge, as the [1000000,1] column the scatter-add reads
    layerCore    one message-passing layer over already sliced parameters:
                   hs = h[src],  m = max (hs + e, 0),  agg = the sum of m over the edges arriving at each node,
                   z = h + agg,  z2 = leaky (z · W₁ + b₁) · W₂ + b₂,
                   μ = (Σ z2) / N,  v = max ((Σ z2²) / N − μ², 0),  the result γ · (z2 − μ) · rsqrt (v + ε) + β
    layer0/1/2   layerCore at slice 0 / 1 / 2 of the stacked parameters
    tail         mean-pooling of the node rows by graph (two scatter-adds and a division by max (count, 1)),
                 then each pooled row divided by max (its Euclidean norm, 1e-12)
    out          the whole program
-/
import proofs.«104584_j17154099380304_2_alg».proof.Proof.KerSpec

noncomputable section

namespace Cert.KernelIdeal.KerValue

open Idealize.ShloMosaic Cert.KernelIdeal Cert.KernelIdeal.Facts₀ Cert.KernelIdeal.Facts

/-- A [64] vector as a [1,64] row. -/
def asRow (v : FVec Ideal S64 .f32) : Cert.Spec.RowV := shapeCast S1x64 v shapeCasts_S64_S1x64

/-- Slice k of a stacked [3,64,64] weight, as a [64,64] matrix. -/
def mat0 (a : FVec Ideal S3x64x64 .f32) : Cert.Spec.WM :=
  shapeCast S64x64 (extractStridedSlice S1x64x64 ![0, 0, 0] a slices_S3x64x64_S1x64x64_0_0_0) shapeCasts_S1x64x64_S64x64
def mat1 (a : FVec Ideal S3x64x64 .f32) : Cert.Spec.WM :=
  shapeCast S64x64 (extractStridedSlice S1x64x64 ![1, 0, 0] a slices_S3x64x64_S1x64x64_1_0_0) shapeCasts_S1x64x64_S64x64
def mat2 (a : FVec Ideal S3x64x64 .f32) : Cert.Spec.WM :=
  shapeCast S64x64 (extractStridedSlice S1x64x64 ![2, 0, 0] a slices_S3x64x64_S1x64x64_2_0_0) shapeCasts_S1x64x64_S64x64

/-- Slice k of a stacked [3,64] parameter, as a [1,64] row (through its [64] form, as the program reshapes it). -/
def vec0 (a : FVec Ideal S3x64 .f32) : Cert.Spec.RowV :=
  asRow (shapeCast S64 (extractStridedSlice S1x64 ![0, 0] a slices_S3x64_S1x64_0_0) shapeCasts_S1x64_S64)
def vec1 (a : FVec Ideal S3x64 .f32) : Cert.Spec.RowV :=
  asRow (shapeCast S64 (extractStridedSlice S1x64 ![1, 0] a slices_S3x64_S1x64_1_0) shapeCasts_S1x64_S64)
def vec2 (a : FVec Ideal S3x64 .f32) : Cert.Spec.RowV :=
  asRow (shapeCast S64 (extractStridedSlice S1x64 ![2, 0] a slices_S3x64_S1x64_2_0) shapeCasts_S1x64_S64)

/-- The node projection. -/
def h0 (a0 : FVec Ideal S50000x64 .f32) (a4 : FVec Ideal S64x64 .f32) (a5 : FVec Ideal S64 .f32) : Cert.Spec.NV :=
  Cert.Spec.linN a0 a4 (asRow a5)

/-- The edge projection. -/
def e0 (a1 : FVec Ideal S1000000x64 .f32) (a6 : FVec Ideal S64x64 .f32) (a7 : FVec Ideal S64 .f32) : Cert.Spec.EV :=
  Cert.Spec.linE a1 a6 (asRow a7)

/-- Row 0 of the edge index (the sources), as a [1000000] vector. -/
def srcRow (a2 : Vec Ideal S2x1000000 .i32) : Vec Ideal S1000000 .i32 :=
  shapeCast S1000000 (extractStridedSlice S1x1000000 ![0, 0] a2 slices_S2x1000000_S1x1000000_0_0) shapeCasts_S1x1000000_S1000000
/-- Row 1 of the edge index (the destinations), as a [1000000] vector. -/
def dstRow (a2 : Vec Ideal S2x1000000 .i32) : Vec Ideal S1000000 .i32 :=
  shapeCast S1000000 (extractStridedSlice S1x1000000 ![1, 0] a2 slices_S2x1000000_S1x1000000_1_0) shapeCasts_S1x1000000_S1000000

/-- An index vector wrapped: i + 50000 where i < 0, else i; as the [1000000,1] column a gather reads. -/
def wrapCol (v : Vec Ideal S1000000 .i32) : Vec Ideal S1000000x1 .i32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 50000#32))) v)

/-- The wrapped source index column. -/
def srcIdx (a2 : Vec Ideal S2x1000000 .i32) : Vec Ideal S1000000x1 .i32 := wrapCol (srcRow a2)
/-- The destination index column. -/
def dstIdx (a2 : Vec Ideal S2x1000000 .i32) : Vec Ideal S1000000x1 .i32 :=
  broadcastInDim S1000000x1 ![0] bcast_S1000000_S1000000x1_0 (dstRow a2)

/-- The rows of h at the source of every edge. -/
def gatherSrc (h : Cert.Spec.NV) (a2 : Vec Ideal S2x1000000 .i32) : Cert.Spec.EV :=
  Host.gather gather_S50000x64_S1000000x1_S1000000x64_1_0_n_n_0_1_164 h (srcIdx a2)

/-- h plus, at every node, the sum of the messages of the edges arriving there. -/
def aggregate (h : Cert.Spec.NV) (msgs : Cert.Spec.EV) (a2 : Vec Ideal S2x1000000 .i32) : Cert.Spec.NV :=
  addf h (Host.scatterAdd (F := Ideal) scatter_S50000x64_S1000000x1_S1000000x64_1_0_0_1
    (broadcastInDim S50000x64 ![] bcast_S_S50000x64 (constant (F := Ideal) S_ .f32 0x00000000#32)) (dstIdx a2) msgs)

/-- A [1,64] row of column sums divided by the node count 50000. -/
def overN (s : Cert.Spec.RowV) : Cert.Spec.RowV :=
  Host.divf (F := Ideal) s (broadcastInDim S1x64 ![] bcast_S_S1x64 (constant (F := Ideal) S_ .f32 0x47435000#32))

/-- max ((Σ z²)/N − μ², 0). -/
def varOf (q mean : Cert.Spec.RowV) : Cert.Spec.RowV :=
  maximumf (subf (overN q) (mulf mean mean)) (broadcastInDim S1x64 ![] bcast_S_S1x64 (constant (F := Ideal) S_ .f32 0x00000000#32))

/-- Batch normalisation of z2 from its column sums. -/
def normalise (z2 : Cert.Spec.NV) (γ β : Cert.Spec.RowV) : Cert.Spec.NV :=
  Cert.Spec.bnorm z2 (overN (Cert.Spec.row (Cert.Spec.colSum z2)))
    (varOf (Cert.Spec.row (Cert.Spec.colSum (Cert.Spec.sqr z2))) (overN (Cert.Spec.row (Cert.Spec.colSum z2)))) γ β

/-- One message-passing layer over already sliced parameters. -/
def layerCore (h : Cert.Spec.NV) (e : Cert.Spec.EV) (a2 : Vec Ideal S2x1000000 .i32)
    (w1 : Cert.Spec.WM) (b1 : Cert.Spec.RowV) (w2 : Cert.Spec.WM) (b2 γ β : Cert.Spec.RowV) : Cert.Spec.NV :=
  normalise (Cert.Spec.mlp (aggregate h (Cert.Spec.msg (gatherSrc h a2) e) a2) w1 b1 w2 b2) γ β

def layer0 (h : Cert.Spec.NV) (e : Cert.Spec.EV) (a2 : Vec Ideal S2x1000000 .i32)
    (a8 : FVec Ideal S3x64x64 .f32) (a9 : FVec Ideal S3x64 .f32) (a10 : FVec Ideal S3x64x64 .f32)
    (a11 a12 a13 : FVec Ideal S3x64 .f32) : Cert.Spec.NV :=
  layerCore h e a2 (mat0 a8) (vec0 a9) (mat0 a10) (vec0 a11) (vec0 a12) (vec0 a13)
def layer1 (h : Cert.Spec.NV) (e : Cert.Spec.EV) (a2 : Vec Ideal S2x1000000 .i32)
    (a8 : FVec Ideal S3x64x64 .f32) (a9 : FVec Ideal S3x64 .f32) (a10 : FVec Ideal S3x64x64 .f32)
    (a11 a12 a13 : FVec Ideal S3x64 .f32) : Cert.Spec.NV :=
  layerCore h e a2 (mat1 a8) (vec1 a9) (mat1 a10) (vec1 a11) (vec1 a12) (vec1 a13)
def layer2 (h : Cert.Spec.NV) (e : Cert.Spec.EV) (a2 : Vec Ideal S2x1000000 .i32)
    (a8 : FVec Ideal S3x64x64 .f32) (a9 : FVec Ideal S3x64 .f32) (a10 : FVec Ideal S3x64x64 .f32)
    (a11 a12 a13 : FVec Ideal S3x64 .f32) : Cert.Spec.NV :=
  layerCore h e a2 (mat2 a8) (vec2 a9) (mat2 a10) (vec2 a11) (vec2 a12) (vec2 a13)

/-- The pooled rows: per graph, the sum of its nodes' rows divided by max (its node count, 1). -/
def pooled (h : Cert.Spec.NV) (a3 : Vec Ideal S50000 .i32) : FVec Ideal S64x64 .f32 :=
  Host.divf (F := Ideal)
    (Host.scatterAdd (F := Ideal) scatter_S64x64_S50000x1_S50000x64_1_0_0_1
      (broadcastInDim S64x64 ![] bcast_S_S64x64 (constant (F := Ideal) S_ .f32 0x00000000#32))
      (broadcastInDim S50000x1 ![0] bcast_S50000_S50000x1_0 a3) h)
    (broadcastInDim S64x64 ![0, 1] bcast_S64x1_S64x64_0_1 (broadcastInDim S64x1 ![0] bcast_S64_S64x1_0
      (maximumf
        (Host.scatterAdd (F := Ideal) scatter_S64_S50000x1_S50000_n_0_0_1
          (broadcastInDim S64 ![] bcast_S_S64 (constant (F := Ideal) S_ .f32 0x00000000#32))
          (broadcastInDim S50000x1 ![0] bcast_S50000_S50000x1_0 a3)
          (broadcastInDim S50000 ![] bcast_S_S50000 (constant (F := Ideal) S_ .f32 0x3F800000#32)))
        (broadcastInDim S64 ![] bcast_S_S64 (constant (F := Ideal) S_ .f32 0x3F800000#32)))))

/-- The Euclidean norm of every row, as a [64,1] column. -/
def rowNorm (p : FVec Ideal S64x64 .f32) : FVec Ideal S64x1 .f32 :=
  Host.sqrt (F := Ideal) (broadcastInDim S64x1 ![0] bcast_S64_S64x1_0
    (Host.reduceAdd (F := Ideal) (mulf p p) (constant (F := Ideal) S_ .f32 0x00000000#32) reducesTo_S64x64_S64_d1 h_S_))

/-- Every row divided by max (its norm, 1e-12). -/
def unitRows (p : FVec Ideal S64x64 .f32) : FVec Ideal S64x64 .f32 :=
  Host.divf (F := Ideal) p (broadcastInDim S64x64 ![0, 1] bcast_S64x1_S64x64_0_1
    (maximumf (rowNorm p) (broadcastInDim S64x1 ![] bcast_S_S64x1 (constant (F := Ideal) S_ .f32 0x2B8CBCCC#32))))

/-- The shared tail: pool by graph, then normalise every pooled row. -/
def tail (h : Cert.Spec.NV) (a3 : Vec Ideal S50000 .i32) : FVec Ideal S64x64 .f32 := unitRows (pooled h a3)

/-- The whole kernel program's result. -/
def out (a0 : FVec Ideal S50000x64 .f32) (a1 : FVec Ideal S1000000x64 .f32) (a2 : Vec Ideal S2x1000000 .i32)
    (a3 : Vec Ideal S50000 .i32) (a4 : FVec Ideal S64x64 .f32) (a5 : FVec Ideal S64 .f32)
    (a6 : FVec Ideal S64x64 .f32) (a7 : FVec Ideal S64 .f32)
    (a8 : FVec Ideal S3x64x64 .f32) (a9 : FVec Ideal S3x64 .f32) (a10 : FVec Ideal S3x64x64 .f32)
    (a11 a12 a13 : FVec Ideal S3x64 .f32) : FVec Ideal S64x64 .f32 :=
  tail (layer2 (layer1 (layer0 (h0 a0 a4 a5) (e0 a1 a6 a7) a2 a8 a9 a10 a11 a12 a13)
    (e0 a1 a6 a7) a2 a8 a9 a10 a11 a12 a13) (e0 a1 a6 a7) a2 a8 a9 a10 a11 a12 a13) a3

end Cert.KernelIdeal.KerValue

end
-- ==== Proof.KerRun.Carry.lean ====
/-
  Carrying a buffer's contents through the fold of @main's segments.

  A stretch of host operations leaves every buffer it does not write as it was; a kernel region leaves every
  buffer that is not one of its arrays as it was.  So a buffer nobody writes between two segment boundaries
  holds at the later one what it held at the earlier one.  The argument arrays are written by nobody: at every
  boundary where the program reads one, it holds its launch contents.
-/
import proofs.«104584_j17154099380304_2_alg».proof.Proof.KerRun.Defs

set_option maxRecDepth 16384

noncomputable section

namespace Cert.KernelIdeal.KerValue

open Idealize.ShloMosaic Idealize.ShloMosaic.TcCoe Idealize.ShloMosaic.Tactic
open Idealize.SL.Sem
open Cert.KernelIdeal Cert.KernelIdeal.Facts₀ Cert.KernelIdeal.Facts Cert.KernelIdeal.Gen

/-- One stretch of host operations none of which writes the buffer read: the contents are those before the stretch. -/
macro "carry_host" : tactic => `(tactic|
  (refine Eq.trans (StableHlo.after_of_forall_not_mem _ _ (List.forall_iff_forall_mem.mp ?_)) ?_
   · simp only [hostOps0, hostOps1, hostOps2, hostOps3, hostOps4, hostOps5, hostOps6, hostOps7, hostOps8, hostOps9, hostOps10,
       hostOps11, hostOps11_1, hostOps11_2, List.Forall, StableHlo.nullary_writes, StableHlo.unary_writes,
       StableHlo.binary_writes, StableHlo.ternary_writes, StableHlo.reshape_writes, Finset.mem_singleton]
     repeat' apply And.intro
     all_goals exact StableHlo.devRef_ne_of_ne (by decide)))

/-- A kernel region of which the buffer is no array, then the stretch of host operations before it. -/
macro "carry2 " t:term : tactic => `(tactic| (refine Eq.trans ($t _ (by decide)) ?_; carry_host))

variable (m : (ℓ : Loc nD τ sig) → Buf (Elt Ideal) ℓ) (ρ : Dev nD → PrngReg) (c : Dev nD)

/-! ## The arguments of the two projections -/

theorem W1_arg0 : Gen.W1 m ρ c (Proc.devRef .tc main_arg0) = m ((c : Thread nD τ).loc main_arg0) := by carry_host; rfl
theorem W1_arg4 : Gen.W1 m ρ c (Proc.devRef .tc main_arg4) = m ((c : Thread nD τ).loc main_arg4) := by carry_host; rfl
theorem W2_arg7 : Gen.W2 m ρ c (Proc.devRef .tc main_arg7) = m ((c : Thread nD τ).loc main_arg7) := by carry2 (Gen.W2_of_ne m ρ c); rfl
theorem W3_arg1 : Gen.W3 m ρ c (Proc.devRef .tc main_arg1) = m ((c : Thread nD τ).loc main_arg1) := by carry_host; carry2 (Gen.W2_of_ne m ρ c); rfl
theorem W3_arg6 : Gen.W3 m ρ c (Proc.devRef .tc main_arg6) = m ((c : Thread nD τ).loc main_arg6) := by carry_host; carry2 (Gen.W2_of_ne m ρ c); rfl

/-! ## The edge index -/

theorem W4_arg2 : Gen.W4 m ρ c (Proc.devRef .tc main_arg2) = m ((c : Thread nD τ).loc main_arg2) := by
  carry2 (Gen.W4_of_ne m ρ c); carry2 (Gen.W2_of_ne m ρ c); rfl

end Cert.KernelIdeal.KerValue
end
-- ==== Proof.KerRun.Vals.lean ====
/-
  Names for the values the kernel program's buffers hold, as functions of the launch memory m at a core c:
  the two projections H0, E0; the source and destination rows SR, DR of the edge index; per layer, from its
  input node features h: the aggregated features Z h (h plus the scattered messages), the per-node map's
  output Y0 / Y1 / Y2 at the layer's slice of the weights; and the three layers' outputs L0v, L1v, L2v.
-/
import proofs.«104584_j17154099380304_2_alg».proof.Proof.KerRun.Defs

set_option maxRecDepth 16384

noncomputable section

namespace Cert.KernelIdeal.KerValue

open Idealize.ShloMosaic Idealize.ShloMosaic.TcCoe Idealize.ShloMosaic.Tactic
open Idealize.SL.Sem
open Cert.KernelIdeal Cert.KernelIdeal.Facts₀ Cert.KernelIdeal.Facts Cert.KernelIdeal.Gen

variable (m : (ℓ : Loc nD τ sig) → Buf (Elt Ideal) ℓ) (ρ : Dev nD → PrngReg) (c : Dev nD)

/-- The node projection of the launch contents. -/
def H0 : Cert.Spec.NV := h0 (m ((c : Thread nD τ).loc main_arg0)) (m ((c : Thread nD τ).loc main_arg4)) (m ((c : Thread nD τ).loc main_arg5))
/-- The edge projection of the launch contents. -/
def E0 : Cert.Spec.EV := e0 (m ((c : Thread nD τ).loc main_arg1)) (m ((c : Thread nD τ).loc main_arg6)) (m ((c : Thread nD τ).loc main_arg7))
/-- The source row of the edge index. -/
def SR : Vec Ideal S1000000 .i32 := srcRow (m ((c : Thread nD τ).loc main_arg2))
/-- The destination row of the edge index. -/
def DR : Vec Ideal S1000000 .i32 := dstRow (m ((c : Thread nD τ).loc main_arg2))
/-- The messages along the edges from node features h. -/
def Msg (h : Cert.Spec.NV) : Cert.Spec.EV := Cert.Spec.msg (gatherSrc h (m ((c : Thread nD τ).loc main_arg2))) (E0 m c)
/-- h plus the messages summed at their destinations. -/
def Z (h : Cert.Spec.NV) : Cert.Spec.NV := aggregate h (Msg m c h) (m ((c : Thread nD τ).loc main_arg2))
/-- The per-node map of layer 0 / 1 / 2 applied to the aggregated features. -/
def Y0 (h : Cert.Spec.NV) : Cert.Spec.NV := Cert.Spec.mlp (Z m c h) (mat0 (m ((c : Thread nD τ).loc main_arg8))) (vec0 (m ((c : Thread nD τ).loc main_arg9))) (mat0 (m ((c : Thread nD τ).loc main_arg10))) (vec0 (m ((c : Thread nD τ).loc main_arg11)))
def Y1 (h : Cert.Spec.NV) : Cert.Spec.NV := Cert.Spec.mlp (Z m c h) (mat1 (m ((c : Thread nD τ).loc main_arg8))) (vec1 (m ((c : Thread nD τ).loc main_arg9))) (mat1 (m ((c : Thread nD τ).loc main_arg10))) (vec1 (m ((c : Thread nD τ).loc main_arg11)))
def Y2 (h : Cert.Spec.NV) : Cert.Spec.NV := Cert.Spec.mlp (Z m c h) (mat2 (m ((c : Thread nD τ).loc main_arg8))) (vec2 (m ((c : Thread nD τ).loc main_arg9))) (mat2 (m ((c : Thread nD τ).loc main_arg10))) (vec2 (m ((c : Thread nD τ).loc main_arg11)))
/-- The column means of z2 as a [1,64] row. -/
def Mean (z2 : Cert.Spec.NV) : Cert.Spec.RowV := overN (Cert.Spec.row (Cert.Spec.colSum z2))
/-- max (mean of squares − mean², 0) as a [1,64] row. -/
def Var (z2 : Cert.Spec.NV) : Cert.Spec.RowV := varOf (Cert.Spec.row (Cert.Spec.colSum (Cert.Spec.sqr z2))) (Mean z2)
/-- The three layers' outputs. -/
def L0v : Cert.Spec.NV := layer0 (H0 m c) (E0 m c) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
def L1v : Cert.Spec.NV := layer1 (L0v m c) (E0 m c) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
def L2v : Cert.Spec.NV := layer2 (L1v m c) (E0 m c) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- A layer's output is the normalisation of its per-node map's output. -/
theorem L0v_eq : L0v m c = Cert.Spec.bnorm (Y0 m c (H0 m c)) (Mean (Y0 m c (H0 m c))) (Var (Y0 m c (H0 m c))) (vec0 (m ((c : Thread nD τ).loc main_arg12))) (vec0 (m ((c : Thread nD τ).loc main_arg13))) := rfl
theorem L1v_eq : L1v m c = Cert.Spec.bnorm (Y1 m c (L0v m c)) (Mean (Y1 m c (L0v m c))) (Var (Y1 m c (L0v m c))) (vec1 (m ((c : Thread nD τ).loc main_arg12))) (vec1 (m ((c : Thread nD τ).loc main_arg13))) := rfl
theorem L2v_eq : L2v m c = Cert.Spec.bnorm (Y2 m c (L1v m c)) (Mean (Y2 m c (L1v m c))) (Var (Y2 m c (L1v m c))) (vec2 (m ((c : Thread nD τ).loc main_arg12))) (vec2 (m ((c : Thread nD τ).loc main_arg13))) := rfl

/-- The whole program's result through these names. -/
theorem out_eq : out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = tail (L2v m c) (m ((c : Thread nD τ).loc main_arg3)) := rfl

end Cert.KernelIdeal.KerValue
end
-- ==== Proof.KerRun.Proj.lean ====
/-
  The two projections: regions 0 and 1.

  Region 0 is entered with the node features, the projection weight and the bias (reshaped to a row by the one
  host operation before it) and leaves x · Wp + bp in its output array; region 1 does the same on the edges.
-/
import proofs.«104584_j17154099380304_2_alg».proof.Proof.KerRun.Carry
import proofs.«104584_j17154099380304_2_alg».proof.Proof.KerRun.Vals

set_option maxRecDepth 16384

noncomputable section

namespace Cert.KernelIdeal.KerValue

open Idealize.ShloMosaic Idealize.ShloMosaic.TcCoe Idealize.ShloMosaic.Tactic
open Idealize.SL.Sem
open Cert.KernelIdeal Cert.KernelIdeal.Facts₀ Cert.KernelIdeal.Facts Cert.KernelIdeal.Gen

variable (m : (ℓ : Loc nD τ sig) → Buf (Elt Ideal) ℓ) (ρ : Dev nD → PrngReg) (c : Dev nD)

/-- The node bias as a row, before region 0. -/
theorem W1_v0 : Gen.W1 m ρ c (Proc.devRef .tc main_v0) = asRow (m ((c : Thread nD τ).loc main_arg5)) := by
  show StableHlo.after hostOps0 (Gen.W0 m ρ c) (Proc.devRef .tc main_v0) = _
  after_results; rfl

/-- Region 0 leaves the node projection. -/
theorem W2_v1 (hreg : RegionVals) : Gen.W2 m ρ c (Proc.devRef .tc main_v1) = H0 m c := by
  refine (Gen.W2_arr m ρ c 3).trans ?_
  rw [hreg.lin0]
  show Cert.Spec.linN (Gen.W1 m ρ c (Proc.devRef .tc main_arg0)) (Gen.W1 m ρ c (Proc.devRef .tc main_arg4)) (Gen.W1 m ρ c (Proc.devRef .tc main_v0)) = _
  rw [W1_arg0, W1_arg4, W1_v0]; rfl

/-- The edge bias as a row, before region 1. -/
theorem W3_v2 : Gen.W3 m ρ c (Proc.devRef .tc main_v2) = asRow (m ((c : Thread nD τ).loc main_arg7)) := by
  show StableHlo.after hostOps1 (Gen.W2 m ρ c) (Proc.devRef .tc main_v2) = _
  after_results; rw [W2_arg7]; rfl

/-- Region 1 leaves the edge projection. -/
theorem W4_v3 (hreg : RegionVals) : Gen.W4 m ρ c (Proc.devRef .tc main_v3) = E0 m c := by
  refine (Gen.W4_arr m ρ c 3).trans ?_
  rw [hreg.lin1]
  show Cert.Spec.linE (Gen.W3 m ρ c (Proc.devRef .tc main_arg1)) (Gen.W3 m ρ c (Proc.devRef .tc main_arg6)) (Gen.W3 m ρ c (Proc.devRef .tc main_v2)) = _
  rw [W3_arg1, W3_arg6, W3_v2]; rfl

/-- The node projection is still there after region 1. -/
theorem W4_v1 (hreg : RegionVals) : Gen.W4 m ρ c (Proc.devRef .tc main_v1) = H0 m c := by
  carry2 (Gen.W4_of_ne m ρ c); exact W2_v1 m ρ c hreg

end Cert.KernelIdeal.KerValue
end
-- ==== Proof.KerRun.ArgsW.lean ====
/-
  The stacked weights and biases of the three per-node maps (arguments 8 … 11) are written by nobody: where each
  layer slices them (before regions 3, 6 and 9) they hold their launch contents.
-/
import proofs.«104584_j17154099380304_2_alg».proof.Proof.KerRun.Carry

set_option maxRecDepth 16384

noncomputable section

namespace Cert.KernelIdeal.KerValue

open Idealize.ShloMosaic Idealize.ShloMosaic.TcCoe Idealize.ShloMosaic.Tactic
open Idealize.SL.Sem
open Cert.KernelIdeal Cert.KernelIdeal.Facts₀ Cert.KernelIdeal.Facts Cert.KernelIdeal.Gen

variable (m : (ℓ : Loc nD τ sig) → Buf (Elt Ideal) ℓ) (ρ : Dev nD → PrngReg) (c : Dev nD)
theorem W6_arg8 : Gen.W6 m ρ c (Proc.devRef .tc main_arg8) = m ((c : Thread nD τ).loc main_arg8) := by
  carry2 (Gen.W6_of_ne m ρ c); carry2 (Gen.W4_of_ne m ρ c); carry2 (Gen.W2_of_ne m ρ c); rfl
theorem W12_arg8 : Gen.W12 m ρ c (Proc.devRef .tc main_arg8) = m ((c : Thread nD τ).loc main_arg8) := by
  carry2 (Gen.W12_of_ne m ρ c); carry2 (Gen.W10_of_ne m ρ c); carry2 (Gen.W8_of_ne m ρ c); exact W6_arg8 m ρ c
theorem W18_arg8 : Gen.W18 m ρ c (Proc.devRef .tc main_arg8) = m ((c : Thread nD τ).loc main_arg8) := by
  carry2 (Gen.W18_of_ne m ρ c); carry2 (Gen.W16_of_ne m ρ c); carry2 (Gen.W14_of_ne m ρ c); exact W12_arg8 m ρ c

theorem W6_arg9 : Gen.W6 m ρ c (Proc.devRef .tc main_arg9) = m ((c : Thread nD τ).loc main_arg9) := by
  carry2 (Gen.W6_of_ne m ρ c); carry2 (Gen.W4_of_ne m ρ c); carry2 (Gen.W2_of_ne m ρ c); rfl
theorem W12_arg9 : Gen.W12 m ρ c (Proc.devRef .tc main_arg9) = m ((c : Thread nD τ).loc main_arg9) := by
  carry2 (Gen.W12_of_ne m ρ c); carry2 (Gen.W10_of_ne m ρ c); carry2 (Gen.W8_of_ne m ρ c); exact W6_arg9 m ρ c
theorem W18_arg9 : Gen.W18 m ρ c (Proc.devRef .tc main_arg9) = m ((c : Thread nD τ).loc main_arg9) := by
  carry2 (Gen.W18_of_ne m ρ c); carry2 (Gen.W16_of_ne m ρ c); carry2 (Gen.W14_of_ne m ρ c); exact W12_arg9 m ρ c

theorem W6_arg10 : Gen.W6 m ρ c (Proc.devRef .tc main_arg10) = m ((c : Thread nD τ).loc main_arg10) := by
  carry2 (Gen.W6_of_ne m ρ c); carry2 (Gen.W4_of_ne m ρ c); carry2 (Gen.W2_of_ne m ρ c); rfl
theorem W12_arg10 : Gen.W12 m ρ c (Proc.devRef .tc main_arg10) = m ((c : Thread nD τ).loc main_arg10) := by
  carry2 (Gen.W12_of_ne m ρ c); carry2 (Gen.W10_of_ne m ρ c); carry2 (Gen.W8_of_ne m ρ c); exact W6_arg10 m ρ c
theorem W18_arg10 : Gen.W18 m ρ c (Proc.devRef .tc main_arg10) = m ((c : Thread nD τ).loc main_arg10) := by
  carry2 (Gen.W18_of_ne m ρ c); carry2 (Gen.W16_of_ne m ρ c); carry2 (Gen.W14_of_ne m ρ c); exact W12_arg10 m ρ c

theorem W6_arg11 : Gen.W6 m ρ c (Proc.devRef .tc main_arg11) = m ((c : Thread nD τ).loc main_arg11) := by
  carry2 (Gen.W6_of_ne m ρ c); carry2 (Gen.W4_of_ne m ρ c); carry2 (Gen.W2_of_ne m ρ c); rfl
theorem W12_arg11 : Gen.W12 m ρ c (Proc.devRef .tc main_arg11) = m ((c : Thread nD τ).loc main_arg11) := by
  carry2 (Gen.W12_of_ne m ρ c); carry2 (Gen.W10_of_ne m ρ c); carry2 (Gen.W8_of_ne m ρ c); exact W6_arg11 m ρ c
theorem W18_arg11 : Gen.W18 m ρ c (Proc.devRef .tc main_arg11) = m ((c : Thread nD τ).loc main_arg11) := by
  carry2 (Gen.W18_of_ne m ρ c); carry2 (Gen.W16_of_ne m ρ c); carry2 (Gen.W14_of_ne m ρ c); exact W12_arg11 m ρ c

end Cert.KernelIdeal.KerValue
end
-- ==== Proof.KerRun.ArgsN.lean ====
/-
  The stacked scales and shifts of the three normalisations (arguments 12, 13) are written by nobody: where each
  layer slices them (before regions 4, 7 and 10) they hold their launch contents.
-/
import proofs.«104584_j17154099380304_2_alg».proof.Proof.KerRun.Carry

set_option maxRecDepth 16384

noncomputable section

namespace Cert.KernelIdeal.KerValue

open Idealize.ShloMosaic Idealize.ShloMosaic.TcCoe Idealize.ShloMosaic.Tactic
open Idealize.SL.Sem
open Cert.KernelIdeal Cert.KernelIdeal.Facts₀ Cert.KernelIdeal.Facts Cert.KernelIdeal.Gen

variable (m : (ℓ : Loc nD τ sig) → Buf (Elt Ideal) ℓ) (ρ : Dev nD → PrngReg) (c : Dev nD)
theorem W8_arg12 : Gen.W8 m ρ c (Proc.devRef .tc main_arg12) = m ((c : Thread nD τ).loc main_arg12) := by
  carry2 (Gen.W8_of_ne m ρ c); carry2 (Gen.W6_of_ne m ρ c); carry2 (Gen.W4_of_ne m ρ c); carry2 (Gen.W2_of_ne m ρ c); rfl
theorem W14_arg12 : Gen.W14 m ρ c (Proc.devRef .tc main_arg12) = m ((c : Thread nD τ).loc main_arg12) := by
  carry2 (Gen.W14_of_ne m ρ c); carry2 (Gen.W12_of_ne m ρ c); carry2 (Gen.W10_of_ne m ρ c); exact W8_arg12 m ρ c
theorem W20_arg12 : Gen.W20 m ρ c (Proc.devRef .tc main_arg12) = m ((c : Thread nD τ).loc main_arg12) := by
  carry2 (Gen.W20_of_ne m ρ c); carry2 (Gen.W18_of_ne m ρ c); carry2 (Gen.W16_of_ne m ρ c); exact W14_arg12 m ρ c

theorem W8_arg13 : Gen.W8 m ρ c (Proc.devRef .tc main_arg13) = m ((c : Thread nD τ).loc main_arg13) := by
  carry2 (Gen.W8_of_ne m ρ c); carry2 (Gen.W6_of_ne m ρ c); carry2 (Gen.W4_of_ne m ρ c); carry2 (Gen.W2_of_ne m ρ c); rfl
theorem W14_arg13 : Gen.W14 m ρ c (Proc.devRef .tc main_arg13) = m ((c : Thread nD τ).loc main_arg13) := by
  carry2 (Gen.W14_of_ne m ρ c); carry2 (Gen.W12_of_ne m ρ c); carry2 (Gen.W10_of_ne m ρ c); exact W8_arg13 m ρ c
theorem W20_arg13 : Gen.W20 m ρ c (Proc.devRef .tc main_arg13) = m ((c : Thread nD τ).loc main_arg13) := by
  carry2 (Gen.W20_of_ne m ρ c); carry2 (Gen.W18_of_ne m ρ c); carry2 (Gen.W16_of_ne m ρ c); exact W14_arg13 m ρ c

end Cert.KernelIdeal.KerValue
end
-- ==== Proof.KerRun.Layer0.lean ====
/-
  The first message-passing layer: the host stretches and kernel regions 2, 3, 4.

  From the layer's input node features h and the edge projection: the rows of h gathered at the edges' sources;
  region 2 leaves the messages max (h[src] + e, 0); the host scatter-adds them at the destinations and adds h;
  region 3 leaves the per-node map z2 of that sum together with the column sums of z2 and of z2²; the host
  turns the sums into the mean and the clamped variance and slices the scale and shift; region 4 leaves the
  normalised features.  The edge projection and the two index rows are carried along for the next layer.
-/
import proofs.«104584_j17154099380304_2_alg».proof.Proof.KerRun.Proj
import proofs.«104584_j17154099380304_2_alg».proof.Proof.KerRun.ArgsW
import proofs.«104584_j17154099380304_2_alg».proof.Proof.KerRun.ArgsN

set_option maxRecDepth 16384

noncomputable section

namespace Cert.KernelIdeal.KerValue

open Idealize.ShloMosaic Idealize.ShloMosaic.TcCoe Idealize.ShloMosaic.Tactic
open Idealize.SL.Sem
open Cert.KernelIdeal Cert.KernelIdeal.Facts₀ Cert.KernelIdeal.Facts Cert.KernelIdeal.Gen

variable (m : (ℓ : Loc nD τ sig) → Buf (Elt Ideal) ℓ) (ρ : Dev nD → PrngReg) (c : Dev nD)

/-! ## The gather of the sources' rows (the stretch before region 2) -/

theorem W5_v5 : Gen.W5 m ρ c (Proc.devRef .tc main_v5) = SR m c := by
  show StableHlo.after hostOps2 (Gen.W4 m ρ c) (Proc.devRef .tc main_v5) = _
  after_results; rw [W4_arg2]; rfl
theorem W5_v7 : Gen.W5 m ρ c (Proc.devRef .tc main_v7) = DR m c := by
  show StableHlo.after hostOps2 (Gen.W4 m ρ c) (Proc.devRef .tc main_v7) = _
  after_results; rw [W4_arg2]; rfl
theorem W5_v14 (hreg : RegionVals) : Gen.W5 m ρ c (Proc.devRef .tc main_v14) = gatherSrc (H0 m c) (m ((c : Thread nD τ).loc main_arg2)) := by
  show StableHlo.after hostOps2 (Gen.W4 m ρ c) (Proc.devRef .tc main_v14) = _
  after_results; rw [W4_v1 m ρ c hreg, W4_arg2]; rfl
theorem W5_v3 (hreg : RegionVals) : Gen.W5 m ρ c (Proc.devRef .tc main_v3) = E0 m c := by carry_host; exact W4_v3 m ρ c hreg
theorem W5_v1 (hreg : RegionVals) : Gen.W5 m ρ c (Proc.devRef .tc main_v1) = H0 m c := by carry_host; exact W4_v1 m ρ c hreg

/-! ## Region 2: the messages -/

theorem W6_v15 (hreg : RegionVals) : Gen.W6 m ρ c (Proc.devRef .tc main_v15) = Msg m c (H0 m c) := by
  refine (Gen.W6_arr m ρ c 2).trans ?_
  rw [hreg.msg2]
  show Cert.Spec.msg (Gen.W5 m ρ c (Proc.devRef .tc main_v14)) (Gen.W5 m ρ c (Proc.devRef .tc main_v3)) = _
  rw [W5_v14 m ρ c hreg, W5_v3 m ρ c hreg]; rfl
theorem W6_v1 (hreg : RegionVals) : Gen.W6 m ρ c (Proc.devRef .tc main_v1) = H0 m c :=
  (Gen.W6_of_ne m ρ c main_v1 (by decide)).trans (W5_v1 m ρ c hreg)
theorem W6_v7 : Gen.W6 m ρ c (Proc.devRef .tc main_v7) = DR m c :=
  (Gen.W6_of_ne m ρ c main_v7 (by decide)).trans (W5_v7 m ρ c)
theorem W6_v5 : Gen.W6 m ρ c (Proc.devRef .tc main_v5) = SR m c :=
  (Gen.W6_of_ne m ρ c main_v5 (by decide)).trans (W5_v5 m ρ c)
/-- The edge projection is an input array of region 2: the region leaves it as entered. -/
theorem W6_v3 (hreg : RegionVals) : Gen.W6 m ρ c (Proc.devRef .tc main_v3) = E0 m c :=
  ((Gen.W6_arr m ρ c 1).trans (((Gen.dat2 (Gen.V5 m ρ) c).arrAt_in 1 rfl _).trans (Gen.A_eq2 (Gen.V5 m ρ) c 1))).trans
    (W5_v3 m ρ c hreg)

/-! ## The scatter-add of the messages, and the layer's slices of the weights (the stretch before region 3) -/

theorem W7_v19 (hreg : RegionVals) : Gen.W7 m ρ c (Proc.devRef .tc main_v19) = Z m c (H0 m c) := by
  show StableHlo.after hostOps3 (Gen.W6 m ρ c) (Proc.devRef .tc main_v19) = _
  after_results; rw [W6_v1 m ρ c hreg, W6_v7 m ρ c, W6_v15 m ρ c hreg]; rfl
theorem W7_v21 : Gen.W7 m ρ c (Proc.devRef .tc main_v21) = mat0 (m ((c : Thread nD τ).loc main_arg8)) := by
  show StableHlo.after hostOps3 (Gen.W6 m ρ c) (Proc.devRef .tc main_v21) = _
  after_results; rw [W6_arg8]; rfl
theorem W7_v28 : Gen.W7 m ρ c (Proc.devRef .tc main_v28) = vec0 (m ((c : Thread nD τ).loc main_arg9)) := by
  show StableHlo.after hostOps3 (Gen.W6 m ρ c) (Proc.devRef .tc main_v28) = _
  after_results; rw [W6_arg9]; rfl
theorem W7_v25 : Gen.W7 m ρ c (Proc.devRef .tc main_v25) = mat0 (m ((c : Thread nD τ).loc main_arg10)) := by
  show StableHlo.after hostOps3 (Gen.W6 m ρ c) (Proc.devRef .tc main_v25) = _
  after_results; rw [W6_arg10]; rfl
theorem W7_v29 : Gen.W7 m ρ c (Proc.devRef .tc main_v29) = vec0 (m ((c : Thread nD τ).loc main_arg11)) := by
  show StableHlo.after hostOps3 (Gen.W6 m ρ c) (Proc.devRef .tc main_v29) = _
  after_results; rw [W6_arg11]; rfl

/-! ## Region 3: the per-node map and its column sums -/

theorem W8_v30_0 (hreg : RegionVals) : Gen.W8 m ρ c (Proc.devRef .tc main_v30_0) = Y0 m c (H0 m c) := by
  refine (Gen.W8_arr m ρ c 5).trans ?_
  rw [hreg.mlp3]
  show Cert.Spec.mlp (Gen.W7 m ρ c (Proc.devRef .tc main_v19)) (Gen.W7 m ρ c (Proc.devRef .tc main_v21)) (Gen.W7 m ρ c (Proc.devRef .tc main_v28)) (Gen.W7 m ρ c (Proc.devRef .tc main_v25)) (Gen.W7 m ρ c (Proc.devRef .tc main_v29)) = _
  rw [W7_v19 m ρ c hreg, W7_v21, W7_v28, W7_v25, W7_v29]; rfl
theorem W8_v30_1 (hreg : RegionVals) : Gen.W8 m ρ c (Proc.devRef .tc main_v30_1) = Cert.Spec.row (Cert.Spec.colSum (Y0 m c (H0 m c))) := by
  refine (Gen.W8_arr m ρ c 6).trans ?_
  rw [hreg.sum3]
  show Cert.Spec.row (Cert.Spec.colSum (Cert.Spec.mlp (Gen.W7 m ρ c (Proc.devRef .tc main_v19)) (Gen.W7 m ρ c (Proc.devRef .tc main_v21)) (Gen.W7 m ρ c (Proc.devRef .tc main_v28)) (Gen.W7 m ρ c (Proc.devRef .tc main_v25)) (Gen.W7 m ρ c (Proc.devRef .tc main_v29)))) = _
  rw [W7_v19 m ρ c hreg, W7_v21, W7_v28, W7_v25, W7_v29]; rfl
theorem W8_v30_2 (hreg : RegionVals) : Gen.W8 m ρ c (Proc.devRef .tc main_v30_2) = Cert.Spec.row (Cert.Spec.colSum (Cert.Spec.sqr (Y0 m c (H0 m c)))) := by
  refine (Gen.W8_arr m ρ c 7).trans ?_
  rw [hreg.sq3]
  show Cert.Spec.row (Cert.Spec.colSum (Cert.Spec.sqr (Cert.Spec.mlp (Gen.W7 m ρ c (Proc.devRef .tc main_v19)) (Gen.W7 m ρ c (Proc.devRef .tc main_v21)) (Gen.W7 m ρ c (Proc.devRef .tc main_v28)) (Gen.W7 m ρ c (Proc.devRef .tc main_v25)) (Gen.W7 m ρ c (Proc.devRef .tc main_v29))))) = _
  rw [W7_v19 m ρ c hreg, W7_v21, W7_v28, W7_v25, W7_v29]; rfl

/-! ## The mean, the clamped variance, the scale and the shift (the stretch before region 4) -/

theorem W9_v32 (hreg : RegionVals) : Gen.W9 m ρ c (Proc.devRef .tc main_v32) = Mean (Y0 m c (H0 m c)) := by
  show StableHlo.after hostOps4 (Gen.W8 m ρ c) (Proc.devRef .tc main_v32) = _
  after_results; rw [W8_v30_1 m ρ c hreg]; rfl
theorem W9_v38 (hreg : RegionVals) : Gen.W9 m ρ c (Proc.devRef .tc main_v38) = Var (Y0 m c (H0 m c)) := by
  show StableHlo.after hostOps4 (Gen.W8 m ρ c) (Proc.devRef .tc main_v38) = _
  after_results; rw [W8_v30_1 m ρ c hreg, W8_v30_2 m ρ c hreg]; rfl
theorem W9_v43 : Gen.W9 m ρ c (Proc.devRef .tc main_v43) = vec0 (m ((c : Thread nD τ).loc main_arg12)) := by
  show StableHlo.after hostOps4 (Gen.W8 m ρ c) (Proc.devRef .tc main_v43) = _
  after_results; rw [W8_arg12]; rfl
theorem W9_v44 : Gen.W9 m ρ c (Proc.devRef .tc main_v44) = vec0 (m ((c : Thread nD τ).loc main_arg13)) := by
  show StableHlo.after hostOps4 (Gen.W8 m ρ c) (Proc.devRef .tc main_v44) = _
  after_results; rw [W8_arg13]; rfl
theorem W9_v30_0 (hreg : RegionVals) : Gen.W9 m ρ c (Proc.devRef .tc main_v30_0) = Y0 m c (H0 m c) := by carry_host; exact W8_v30_0 m ρ c hreg

/-! ## Region 4: the normalised features -/

theorem W10_v45 (hreg : RegionVals) : Gen.W10 m ρ c (Proc.devRef .tc main_v45) = L0v m c := by
  refine (Gen.W10_arr m ρ c 5).trans ?_
  rw [hreg.bn4]
  show Cert.Spec.bnorm (Gen.W9 m ρ c (Proc.devRef .tc main_v30_0)) (Gen.W9 m ρ c (Proc.devRef .tc main_v32)) (Gen.W9 m ρ c (Proc.devRef .tc main_v38)) (Gen.W9 m ρ c (Proc.devRef .tc main_v43)) (Gen.W9 m ρ c (Proc.devRef .tc main_v44)) = _
  rw [W9_v30_0 m ρ c hreg, W9_v32 m ρ c hreg, W9_v38 m ρ c hreg, W9_v43, W9_v44]
  exact (L0v_eq m c).symm

/-! ## What the next layer reads besides: the edge projection and the two index rows -/

theorem W10_v3 (hreg : RegionVals) : Gen.W10 m ρ c (Proc.devRef .tc main_v3) = E0 m c := by
  carry2 (Gen.W10_of_ne m ρ c); carry2 (Gen.W8_of_ne m ρ c); exact W6_v3 m ρ c hreg
theorem W10_v5 : Gen.W10 m ρ c (Proc.devRef .tc main_v5) = SR m c := by
  carry2 (Gen.W10_of_ne m ρ c); carry2 (Gen.W8_of_ne m ρ c); exact W6_v5 m ρ c
theorem W10_v7 : Gen.W10 m ρ c (Proc.devRef .tc main_v7) = DR m c := by
  carry2 (Gen.W10_of_ne m ρ c); carry2 (Gen.W8_of_ne m ρ c); exact W6_v7 m ρ c

end Cert.KernelIdeal.KerValue
end
-- ==== Proof.KerRun.Layer1.lean ====
/-
  The second message-passing layer: the host stretches and kernel regions 5, 6, 7.

  From the layer's input node features h and the edge projection: the rows of h gathered at the edges' sources;
  region 5 leaves the messages max (h[src] + e, 0); the host scatter-adds them at the destinations and adds h;
  region 6 leaves the per-node map z2 of that sum together with the column sums of z2 and of z2²; the host
  turns the sums into the mean and the clamped variance and slices the scale and shift; region 7 leaves the
  normalised features.  The edge projection and the two index rows are carried along for the next layer.
-/
import proofs.«104584_j17154099380304_2_alg».proof.Proof.KerRun.Layer0
import proofs.«104584_j17154099380304_2_alg».proof.Proof.KerRun.ArgsW
import proofs.«104584_j17154099380304_2_alg».proof.Proof.KerRun.ArgsN

set_option maxRecDepth 16384

noncomputable section

namespace Cert.KernelIdeal.KerValue

open Idealize.ShloMosaic Idealize.ShloMosaic.TcCoe Idealize.ShloMosaic.Tactic
open Idealize.SL.Sem
open Cert.KernelIdeal Cert.KernelIdeal.Facts₀ Cert.KernelIdeal.Facts Cert.KernelIdeal.Gen

variable (m : (ℓ : Loc nD τ sig) → Buf (Elt Ideal) ℓ) (ρ : Dev nD → PrngReg) (c : Dev nD)

/-! ## The gather of the sources' rows (the stretch before region 5) -/

theorem W11_v52 (hreg : RegionVals) : Gen.W11 m ρ c (Proc.devRef .tc main_v52) = gatherSrc (L0v m c) (m ((c : Thread nD τ).loc main_arg2)) := by
  show StableHlo.after hostOps5 (Gen.W10 m ρ c) (Proc.devRef .tc main_v52) = _
  after_results; rw [W10_v45 m ρ c hreg, W10_v5 m ρ c]; rfl
theorem W11_v5 : Gen.W11 m ρ c (Proc.devRef .tc main_v5) = SR m c := by carry_host; exact W10_v5 m ρ c
theorem W11_v7 : Gen.W11 m ρ c (Proc.devRef .tc main_v7) = DR m c := by carry_host; exact W10_v7 m ρ c
theorem W11_v3 (hreg : RegionVals) : Gen.W11 m ρ c (Proc.devRef .tc main_v3) = E0 m c := by carry_host; exact W10_v3 m ρ c hreg
theorem W11_v45 (hreg : RegionVals) : Gen.W11 m ρ c (Proc.devRef .tc main_v45) = L0v m c := by carry_host; exact W10_v45 m ρ c hreg

/-! ## Region 5: the messages -/

theorem W12_v53 (hreg : RegionVals) : Gen.W12 m ρ c (Proc.devRef .tc main_v53) = Msg m c (L0v m c) := by
  refine (Gen.W12_arr m ρ c 2).trans ?_
  rw [hreg.msg5]
  show Cert.Spec.msg (Gen.W11 m ρ c (Proc.devRef .tc main_v52)) (Gen.W11 m ρ c (Proc.devRef .tc main_v3)) = _
  rw [W11_v52 m ρ c hreg, W11_v3 m ρ c hreg]; rfl
theorem W12_v45 (hreg : RegionVals) : Gen.W12 m ρ c (Proc.devRef .tc main_v45) = L0v m c :=
  (Gen.W12_of_ne m ρ c main_v45 (by decide)).trans (W11_v45 m ρ c hreg)
theorem W12_v7 : Gen.W12 m ρ c (Proc.devRef .tc main_v7) = DR m c :=
  (Gen.W12_of_ne m ρ c main_v7 (by decide)).trans (W11_v7 m ρ c)
theorem W12_v5 : Gen.W12 m ρ c (Proc.devRef .tc main_v5) = SR m c :=
  (Gen.W12_of_ne m ρ c main_v5 (by decide)).trans (W11_v5 m ρ c)
/-- The edge projection is an input array of region 5: the region leaves it as entered. -/
theorem W12_v3 (hreg : RegionVals) : Gen.W12 m ρ c (Proc.devRef .tc main_v3) = E0 m c :=
  ((Gen.W12_arr m ρ c 1).trans (((Gen.dat5 (Gen.V11 m ρ) c).arrAt_in 1 rfl _).trans (Gen.A_eq5 (Gen.V11 m ρ) c 1))).trans
    (W11_v3 m ρ c hreg)

/-! ## The scatter-add of the messages, and the layer's slices of the weights (the stretch before region 6) -/

theorem W13_v57 (hreg : RegionVals) : Gen.W13 m ρ c (Proc.devRef .tc main_v57) = Z m c (L0v m c) := by
  show StableHlo.after hostOps6 (Gen.W12 m ρ c) (Proc.devRef .tc main_v57) = _
  after_results; rw [W12_v45 m ρ c hreg, W12_v7 m ρ c, W12_v53 m ρ c hreg]; rfl
theorem W13_v59 : Gen.W13 m ρ c (Proc.devRef .tc main_v59) = mat1 (m ((c : Thread nD τ).loc main_arg8)) := by
  show StableHlo.after hostOps6 (Gen.W12 m ρ c) (Proc.devRef .tc main_v59) = _
  after_results; rw [W12_arg8]; rfl
theorem W13_v66 : Gen.W13 m ρ c (Proc.devRef .tc main_v66) = vec1 (m ((c : Thread nD τ).loc main_arg9)) := by
  show StableHlo.after hostOps6 (Gen.W12 m ρ c) (Proc.devRef .tc main_v66) = _
  after_results; rw [W12_arg9]; rfl
theorem W13_v63 : Gen.W13 m ρ c (Proc.devRef .tc main_v63) = mat1 (m ((c : Thread nD τ).loc main_arg10)) := by
  show StableHlo.after hostOps6 (Gen.W12 m ρ c) (Proc.devRef .tc main_v63) = _
  after_results; rw [W12_arg10]; rfl
theorem W13_v67 : Gen.W13 m ρ c (Proc.devRef .tc main_v67) = vec1 (m ((c : Thread nD τ).loc main_arg11)) := by
  show StableHlo.after hostOps6 (Gen.W12 m ρ c) (Proc.devRef .tc main_v67) = _
  after_results; rw [W12_arg11]; rfl

/-! ## Region 6: the per-node map and its column sums -/

theorem W14_v68_0 (hreg : RegionVals) : Gen.W14 m ρ c (Proc.devRef .tc main_v68_0) = Y1 m c (L0v m c) := by
  refine (Gen.W14_arr m ρ c 5).trans ?_
  rw [hreg.mlp6]
  show Cert.Spec.mlp (Gen.W13 m ρ c (Proc.devRef .tc main_v57)) (Gen.W13 m ρ c (Proc.devRef .tc main_v59)) (Gen.W13 m ρ c (Proc.devRef .tc main_v66)) (Gen.W13 m ρ c (Proc.devRef .tc main_v63)) (Gen.W13 m ρ c (Proc.devRef .tc main_v67)) = _
  rw [W13_v57 m ρ c hreg, W13_v59, W13_v66, W13_v63, W13_v67]; rfl
theorem W14_v68_1 (hreg : RegionVals) : Gen.W14 m ρ c (Proc.devRef .tc main_v68_1) = Cert.Spec.row (Cert.Spec.colSum (Y1 m c (L0v m c))) := by
  refine (Gen.W14_arr m ρ c 6).trans ?_
  rw [hreg.sum6]
  show Cert.Spec.row (Cert.Spec.colSum (Cert.Spec.mlp (Gen.W13 m ρ c (Proc.devRef .tc main_v57)) (Gen.W13 m ρ c (Proc.devRef .tc main_v59)) (Gen.W13 m ρ c (Proc.devRef .tc main_v66)) (Gen.W13 m ρ c (Proc.devRef .tc main_v63)) (Gen.W13 m ρ c (Proc.devRef .tc main_v67)))) = _
  rw [W13_v57 m ρ c hreg, W13_v59, W13_v66, W13_v63, W13_v67]; rfl
theorem W14_v68_2 (hreg : RegionVals) : Gen.W14 m ρ c (Proc.devRef .tc main_v68_2) = Cert.Spec.row (Cert.Spec.colSum (Cert.Spec.sqr (Y1 m c (L0v m c)))) := by
  refine (Gen.W14_arr m ρ c 7).trans ?_
  rw [hreg.sq6]
  show Cert.Spec.row (Cert.Spec.colSum (Cert.Spec.sqr (Cert.Spec.mlp (Gen.W13 m ρ c (Proc.devRef .tc main_v57)) (Gen.W13 m ρ c (Proc.devRef .tc main_v59)) (Gen.W13 m ρ c (Proc.devRef .tc main_v66)) (Gen.W13 m ρ c (Proc.devRef .tc main_v63)) (Gen.W13 m ρ c (Proc.devRef .tc main_v67))))) = _
  rw [W13_v57 m ρ c hreg, W13_v59, W13_v66, W13_v63, W13_v67]; rfl

/-! ## The mean, the clamped variance, the scale and the shift (the stretch before region 7) -/

theorem W15_v70 (hreg : RegionVals) : Gen.W15 m ρ c (Proc.devRef .tc main_v70) = Mean (Y1 m c (L0v m c)) := by
  show StableHlo.after hostOps7 (Gen.W14 m ρ c) (Proc.devRef .tc main_v70) = _
  after_results; rw [W14_v68_1 m ρ c hreg]; rfl
theorem W15_v76 (hreg : RegionVals) : Gen.W15 m ρ c (Proc.devRef .tc main_v76) = Var (Y1 m c (L0v m c)) := by
  show StableHlo.after hostOps7 (Gen.W14 m ρ c) (Proc.devRef .tc main_v76) = _
  after_results; rw [W14_v68_1 m ρ c hreg, W14_v68_2 m ρ c hreg]; rfl
theorem W15_v81 : Gen.W15 m ρ c (Proc.devRef .tc main_v81) = vec1 (m ((c : Thread nD τ).loc main_arg12)) := by
  show StableHlo.after hostOps7 (Gen.W14 m ρ c) (Proc.devRef .tc main_v81) = _
  after_results; rw [W14_arg12]; rfl
theorem W15_v82 : Gen.W15 m ρ c (Proc.devRef .tc main_v82) = vec1 (m ((c : Thread nD τ).loc main_arg13)) := by
  show StableHlo.after hostOps7 (Gen.W14 m ρ c) (Proc.devRef .tc main_v82) = _
  after_results; rw [W14_arg13]; rfl
theorem W15_v68_0 (hreg : RegionVals) : Gen.W15 m ρ c (Proc.devRef .tc main_v68_0) = Y1 m c (L0v m c) := by carry_host; exact W14_v68_0 m ρ c hreg

/-! ## Region 7: the normalised features -/

theorem W16_v83 (hreg : RegionVals) : Gen.W16 m ρ c (Proc.devRef .tc main_v83) = L1v m c := by
  refine (Gen.W16_arr m ρ c 5).trans ?_
  rw [hreg.bn7]
  show Cert.Spec.bnorm (Gen.W15 m ρ c (Proc.devRef .tc main_v68_0)) (Gen.W15 m ρ c (Proc.devRef .tc main_v70)) (Gen.W15 m ρ c (Proc.devRef .tc main_v76)) (Gen.W15 m ρ c (Proc.devRef .tc main_v81)) (Gen.W15 m ρ c (Proc.devRef .tc main_v82)) = _
  rw [W15_v68_0 m ρ c hreg, W15_v70 m ρ c hreg, W15_v76 m ρ c hreg, W15_v81, W15_v82]
  exact (L1v_eq m c).symm

/-! ## What the next layer reads besides: the edge projection and the two index rows -/

theorem W16_v3 (hreg : RegionVals) : Gen.W16 m ρ c (Proc.devRef .tc main_v3) = E0 m c := by
  carry2 (Gen.W16_of_ne m ρ c); carry2 (Gen.W14_of_ne m ρ c); exact W12_v3 m ρ c hreg
theorem W16_v5 : Gen.W16 m ρ c (Proc.devRef .tc main_v5) = SR m c := by
  carry2 (Gen.W16_of_ne m ρ c); carry2 (Gen.W14_of_ne m ρ c); exact W12_v5 m ρ c
theorem W16_v7 : Gen.W16 m ρ c (Proc.devRef .tc main_v7) = DR m c := by
  carry2 (Gen.W16_of_ne m ρ c); carry2 (Gen.W14_of_ne m ρ c); exact W12_v7 m ρ c

end Cert.KernelIdeal.KerValue
end
-- ==== Proof.KerRun.Layer2.lean ====
/-
  The third message-passing layer: the host stretches and kernel regions 8, 9, 10.

  From the layer's input node features h and the edge projection: the rows of h gathered at the edges' sources;
  region 8 leaves the messages max (h[src] + e, 0); the host scatter-adds them at the destinations and adds h;
  region 9 leaves the per-node map z2 of that sum together with the column sums of z2 and of z2²; the host
  turns the sums into the mean and the clamped variance and slices the scale and shift; region 10 leaves the
  normalised features.  The edge projection and the two index rows are carried along for the next layer.
-/
import proofs.«104584_j17154099380304_2_alg».proof.Proof.KerRun.Layer1
import proofs.«104584_j17154099380304_2_alg».proof.Proof.KerRun.ArgsW
import proofs.«104584_j17154099380304_2_alg».proof.Proof.KerRun.ArgsN

set_option maxRecDepth 16384

noncomputable section

namespace Cert.KernelIdeal.KerValue

open Idealize.ShloMosaic Idealize.ShloMosaic.TcCoe Idealize.ShloMosaic.Tactic
open Idealize.SL.Sem
open Cert.KernelIdeal Cert.KernelIdeal.Facts₀ Cert.KernelIdeal.Facts Cert.KernelIdeal.Gen

variable (m : (ℓ : Loc nD τ sig) → Buf (Elt Ideal) ℓ) (ρ : Dev nD → PrngReg) (c : Dev nD)

/-! ## The gather of the sources' rows (the stretch before region 8) -/

theorem W17_v90 (hreg : RegionVals) : Gen.W17 m ρ c (Proc.devRef .tc main_v90) = gatherSrc (L1v m c) (m ((c : Thread nD τ).loc main_arg2)) := by
  show StableHlo.after hostOps8 (Gen.W16 m ρ c) (Proc.devRef .tc main_v90) = _
  after_results; rw [W16_v83 m ρ c hreg, W16_v5 m ρ c]; rfl
theorem W17_v7 : Gen.W17 m ρ c (Proc.devRef .tc main_v7) = DR m c := by carry_host; exact W16_v7 m ρ c
theorem W17_v3 (hreg : RegionVals) : Gen.W17 m ρ c (Proc.devRef .tc main_v3) = E0 m c := by carry_host; exact W16_v3 m ρ c hreg
theorem W17_v83 (hreg : RegionVals) : Gen.W17 m ρ c (Proc.devRef .tc main_v83) = L1v m c := by carry_host; exact W16_v83 m ρ c hreg

/-! ## Region 8: the messages -/

theorem W18_v91 (hreg : RegionVals) : Gen.W18 m ρ c (Proc.devRef .tc main_v91) = Msg m c (L1v m c) := by
  refine (Gen.W18_arr m ρ c 2).trans ?_
  rw [hreg.msg8]
  show Cert.Spec.msg (Gen.W17 m ρ c (Proc.devRef .tc main_v90)) (Gen.W17 m ρ c (Proc.devRef .tc main_v3)) = _
  rw [W17_v90 m ρ c hreg, W17_v3 m ρ c hreg]; rfl
theorem W18_v83 (hreg : RegionVals) : Gen.W18 m ρ c (Proc.devRef .tc main_v83) = L1v m c :=
  (Gen.W18_of_ne m ρ c main_v83 (by decide)).trans (W17_v83 m ρ c hreg)
theorem W18_v7 : Gen.W18 m ρ c (Proc.devRef .tc main_v7) = DR m c :=
  (Gen.W18_of_ne m ρ c main_v7 (by decide)).trans (W17_v7 m ρ c)

/-! ## The scatter-add of the messages, and the layer's slices of the weights (the stretch before region 9) -/

theorem W19_v95 (hreg : RegionVals) : Gen.W19 m ρ c (Proc.devRef .tc main_v95) = Z m c (L1v m c) := by
  show StableHlo.after hostOps9 (Gen.W18 m ρ c) (Proc.devRef .tc main_v95) = _
  after_results; rw [W18_v83 m ρ c hreg, W18_v7 m ρ c, W18_v91 m ρ c hreg]; rfl
theorem W19_v97 : Gen.W19 m ρ c (Proc.devRef .tc main_v97) = mat2 (m ((c : Thread nD τ).loc main_arg8)) := by
  show StableHlo.after hostOps9 (Gen.W18 m ρ c) (Proc.devRef .tc main_v97) = _
  after_results; rw [W18_arg8]; rfl
theorem W19_v104 : Gen.W19 m ρ c (Proc.devRef .tc main_v104) = vec2 (m ((c : Thread nD τ).loc main_arg9)) := by
  show StableHlo.after hostOps9 (Gen.W18 m ρ c) (Proc.devRef .tc main_v104) = _
  after_results; rw [W18_arg9]; rfl
theorem W19_v101 : Gen.W19 m ρ c (Proc.devRef .tc main_v101) = mat2 (m ((c : Thread nD τ).loc main_arg10)) := by
  show StableHlo.after hostOps9 (Gen.W18 m ρ c) (Proc.devRef .tc main_v101) = _
  after_results; rw [W18_arg10]; rfl
theorem W19_v105 : Gen.W19 m ρ c (Proc.devRef .tc main_v105) = vec2 (m ((c : Thread nD τ).loc main_arg11)) := by
  show StableHlo.after hostOps9 (Gen.W18 m ρ c) (Proc.devRef .tc main_v105) = _
  after_results; rw [W18_arg11]; rfl

/-! ## Region 9: the per-node map and its column sums -/

theorem W20_v106_0 (hreg : RegionVals) : Gen.W20 m ρ c (Proc.devRef .tc main_v106_0) = Y2 m c (L1v m c) := by
  refine (Gen.W20_arr m ρ c 5).trans ?_
  rw [hreg.mlp9]
  show Cert.Spec.mlp (Gen.W19 m ρ c (Proc.devRef .tc main_v95)) (Gen.W19 m ρ c (Proc.devRef .tc main_v97)) (Gen.W19 m ρ c (Proc.devRef .tc main_v104)) (Gen.W19 m ρ c (Proc.devRef .tc main_v101)) (Gen.W19 m ρ c (Proc.devRef .tc main_v105)) = _
  rw [W19_v95 m ρ c hreg, W19_v97, W19_v104, W19_v101, W19_v105]; rfl
theorem W20_v106_1 (hreg : RegionVals) : Gen.W20 m ρ c (Proc.devRef .tc main_v106_1) = Cert.Spec.row (Cert.Spec.colSum (Y2 m c (L1v m c))) := by
  refine (Gen.W20_arr m ρ c 6).trans ?_
  rw [hreg.sum9]
  show Cert.Spec.row (Cert.Spec.colSum (Cert.Spec.mlp (Gen.W19 m ρ c (Proc.devRef .tc main_v95)) (Gen.W19 m ρ c (Proc.devRef .tc main_v97)) (Gen.W19 m ρ c (Proc.devRef .tc main_v104)) (Gen.W19 m ρ c (Proc.devRef .tc main_v101)) (Gen.W19 m ρ c (Proc.devRef .tc main_v105)))) = _
  rw [W19_v95 m ρ c hreg, W19_v97, W19_v104, W19_v101, W19_v105]; rfl
theorem W20_v106_2 (hreg : RegionVals) : Gen.W20 m ρ c (Proc.devRef .tc main_v106_2) = Cert.Spec.row (Cert.Spec.colSum (Cert.Spec.sqr (Y2 m c (L1v m c)))) := by
  refine (Gen.W20_arr m ρ c 7).trans ?_
  rw [hreg.sq9]
  show Cert.Spec.row (Cert.Spec.colSum (Cert.Spec.sqr (Cert.Spec.mlp (Gen.W19 m ρ c (Proc.devRef .tc main_v95)) (Gen.W19 m ρ c (Proc.devRef .tc main_v97)) (Gen.W19 m ρ c (Proc.devRef .tc main_v104)) (Gen.W19 m ρ c (Proc.devRef .tc main_v101)) (Gen.W19 m ρ c (Proc.devRef .tc main_v105))))) = _
  rw [W19_v95 m ρ c hreg, W19_v97, W19_v104, W19_v101, W19_v105]; rfl

/-! ## The mean, the clamped variance, the scale and the shift (the stretch before region 10) -/

theorem W21_v108 (hreg : RegionVals) : Gen.W21 m ρ c (Proc.devRef .tc main_v108) = Mean (Y2 m c (L1v m c)) := by
  show StableHlo.after hostOps10 (Gen.W20 m ρ c) (Proc.devRef .tc main_v108) = _
  after_results; rw [W20_v106_1 m ρ c hreg]; rfl
theorem W21_v114 (hreg : RegionVals) : Gen.W21 m ρ c (Proc.devRef .tc main_v114) = Var (Y2 m c (L1v m c)) := by
  show StableHlo.after hostOps10 (Gen.W20 m ρ c) (Proc.devRef .tc main_v114) = _
  after_results; rw [W20_v106_1 m ρ c hreg, W20_v106_2 m ρ c hreg]; rfl
theorem W21_v119 : Gen.W21 m ρ c (Proc.devRef .tc main_v119) = vec2 (m ((c : Thread nD τ).loc main_arg12)) := by
  show StableHlo.after hostOps10 (Gen.W20 m ρ c) (Proc.devRef .tc main_v119) = _
  after_results; rw [W20_arg12]; rfl
theorem W21_v120 : Gen.W21 m ρ c (Proc.devRef .tc main_v120) = vec2 (m ((c : Thread nD τ).loc main_arg13)) := by
  show StableHlo.after hostOps10 (Gen.W20 m ρ c) (Proc.devRef .tc main_v120) = _
  after_results; rw [W20_arg13]; rfl
theorem W21_v106_0 (hreg : RegionVals) : Gen.W21 m ρ c (Proc.devRef .tc main_v106_0) = Y2 m c (L1v m c) := by carry_host; exact W20_v106_0 m ρ c hreg

/-! ## Region 10: the normalised features -/

theorem W22_v121 (hreg : RegionVals) : Gen.W22 m ρ c (Proc.devRef .tc main_v121) = L2v m c := by
  refine (Gen.W22_arr m ρ c 5).trans ?_
  rw [hreg.bn10]
  show Cert.Spec.bnorm (Gen.W21 m ρ c (Proc.devRef .tc main_v106_0)) (Gen.W21 m ρ c (Proc.devRef .tc main_v108)) (Gen.W21 m ρ c (Proc.devRef .tc main_v114)) (Gen.W21 m ρ c (Proc.devRef .tc main_v119)) (Gen.W21 m ρ c (Proc.devRef .tc main_v120)) = _
  rw [W21_v106_0 m ρ c hreg, W21_v108 m ρ c hreg, W21_v114 m ρ c hreg, W21_v119, W21_v120]
  exact (L2v_eq m c).symm

end Cert.KernelIdeal.KerValue
end
-- ==== Proof.KerRun.ArgsB.lean ====
/-
  The graph index of every node (argument 3) is written by nobody: where the tail reads it, after the last
  region, it holds its launch contents.
-/
import proofs.«104584_j17154099380304_2_alg».proof.Proof.KerRun.Carry

set_option maxRecDepth 16384

noncomputable section

namespace Cert.KernelIdeal.KerValue

open Idealize.ShloMosaic Idealize.ShloMosaic.TcCoe Idealize.ShloMosaic.Tactic
open Idealize.SL.Sem
open Cert.KernelIdeal Cert.KernelIdeal.Facts₀ Cert.KernelIdeal.Facts Cert.KernelIdeal.Gen

variable (m : (ℓ : Loc nD τ sig) → Buf (Elt Ideal) ℓ) (ρ : Dev nD → PrngReg) (c : Dev nD)
theorem W22_arg3 : Gen.W22 m ρ c (Proc.devRef .tc main_arg3) = m ((c : Thread nD τ).loc main_arg3) := by
  carry2 (Gen.W22_of_ne m ρ c); carry2 (Gen.W20_of_ne m ρ c); carry2 (Gen.W18_of_ne m ρ c); carry2 (Gen.W16_of_ne m ρ c); carry2 (Gen.W14_of_ne m ρ c); carry2 (Gen.W12_of_ne m ρ c); carry2 (Gen.W10_of_ne m ρ c); carry2 (Gen.W8_of_ne m ρ c); carry2 (Gen.W6_of_ne m ρ c); carry2 (Gen.W4_of_ne m ρ c); carry2 (Gen.W2_of_ne m ρ c); rfl

end Cert.KernelIdeal.KerValue
end
-- ==== Proof.KerRun.Tail.lean ====
/-
  The shared tail after the last region: pooling by graph and the normalisation of the pooled rows.

  The host scatter-adds a one per node and the last layer's rows at the nodes' graph indices, divides the row
  sums by max (count, 1), computes every pooled row's Euclidean norm (a called function: the squares' row sums,
  then the square root) and divides the pooled rows by max (norm, 1e-12).
-/
import proofs.«104584_j17154099380304_2_alg».proof.Proof.KerRun.Layer2
import proofs.«104584_j17154099380304_2_alg».proof.Proof.KerRun.ArgsB

set_option maxRecDepth 16384

noncomputable section

namespace Cert.KernelIdeal.KerValue

open Idealize.ShloMosaic Idealize.ShloMosaic.TcCoe Idealize.ShloMosaic.Tactic
open Idealize.SL.Sem
open Cert.KernelIdeal Cert.KernelIdeal.Facts₀ Cert.KernelIdeal.Facts Cert.KernelIdeal.Gen

variable (m : (ℓ : Loc nD τ sig) → Buf (Elt Ideal) ℓ) (ρ : Dev nD → PrngReg) (c : Dev nD)

/-- The pooled rows. -/
theorem W23_v133 (hreg : RegionVals) : Gen.W23 m ρ c (Proc.devRef .tc main_v133) = pooled (L2v m c) (m ((c : Thread nD τ).loc main_arg3)) := by
  show StableHlo.after hostOps11 (Gen.W22 m ρ c) (Proc.devRef .tc main_v133) = _
  after_results; rw [W22_v121 m ρ c hreg, W22_arg3]; rfl

/-- The called function, from any contents: the norms of the rows of its argument. -/
theorem norm_ops (V : Valuation τ sig (Elt Ideal)) :
    StableHlo.after hostOps11_1 V (Proc.devRef .tc main_v134) = rowNorm (V (Proc.devRef .tc main_v133)) := by
  after_results; rfl

/-- The last stretch, from any contents: the rows divided by max (the given norms, 1e-12). -/
theorem unit_ops (V : Valuation τ sig (Elt Ideal)) :
    StableHlo.after hostOps11_2 V (Proc.devRef .tc main_v138)
      = Host.divf (F := Ideal) (V (Proc.devRef .tc main_v133) : FVec Ideal S64x64 .f32) (broadcastInDim S64x64 ![0, 1] Facts₀.bcast_S64x1_S64x64_0_1
          (maximumf (V (Proc.devRef .tc main_v134) : FVec Ideal S64x1 .f32)
            (broadcastInDim S64x1 ![] Facts₀.bcast_S_S64x1 (constant (F := Ideal) S_ .f32 0x2B8CBCCC#32) : FVec Ideal S64x1 .f32))) := by
  after_results <;> rfl

/-- The pooled rows' norms. -/
theorem W24_v134 (hreg : RegionVals) : Gen.W24 m ρ c (Proc.devRef .tc main_v134) = rowNorm (pooled (L2v m c) (m ((c : Thread nD τ).loc main_arg3))) :=
  (norm_ops (Gen.W23 m ρ c)).trans (congrArg rowNorm (W23_v133 m ρ c hreg))

theorem W24_v133 (hreg : RegionVals) : Gen.W24 m ρ c (Proc.devRef .tc main_v133) = pooled (L2v m c) (m ((c : Thread nD τ).loc main_arg3)) := by
  carry_host; exact W23_v133 m ρ c hreg

/-- The result buffer. -/
theorem W25_v138 (hreg : RegionVals) : Gen.W25 m ρ c (Proc.devRef .tc main_v138) = tail (L2v m c) (m ((c : Thread nD τ).loc main_arg3)) := by
  refine (unit_ops (Gen.W24 m ρ c)).trans ?_
  rw [W24_v133 m ρ c hreg, W24_v134 m ρ c hreg]; rfl

end Cert.KernelIdeal.KerValue
end
-- ==== Proof.KerRun.lean ====
/-
  The kernel program's run, read at its result buffer.

  The buffer contents at the boundaries of @main's 25 segments are a fold from the launch memory: a stretch of
  host operations rewrites the buffers it writes, a kernel region leaves its output arrays at what its grid
  points' write-backs fold to.  Read at the result buffer, the fold is the function out of the fourteen
  argument arrays; the run then ends with the result buffer at that value and every argument array as launched.
-/
import proofs.«104584_j17154099380304_2_alg».proof.Proof.KerRun.Tail

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-- The fold of the buffer contents through the 25 segments, read at the result buffer. -/
theorem W25_result (hreg : RegionVals) (m : (ℓ : Loc nD τ sig) → Buf (Elt Ideal) ℓ) (ρ : Dev nD → PrngReg) (c : Dev nD) :
    Gen.W25 m ρ c (Proc.devRef .tc main_v138)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W25_v138 m ρ c hreg).trans (out_eq m c).symm

set_option backward.isDefEq.respectTransparency.types false in
/-- From any memory with zero counters every weakly fair execution of @main terminates, nothing faulting, with the
    result buffer at out of the launch contents of the argument arrays, and every argument array as launched. -/
theorem run (hreg : RegionVals) (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v138) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨(h c _ (mem_uc main_v138 (by decide))).trans (W25_result hreg m ρ c),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c)⟩)

end Cert.KernelIdeal.KerValue

end
-- ==== Proof.RefRun.Ops.lean ====
/-
  The reference program's @main as a straight line of host operations: its four printed windows, each a literal
  list, the functions it calls (the edge rectifier, the leaky rectifier and its select, the variance and its
  select, the row norm) written out at their call sites over each call's own buffers, so that @main is one
  sequence of operations and its run is the fold of their results over the launch contents.
-/
import proofs.«104584_j17154099380304_2_alg».proof.Proof.Gen.ReferenceIdeal
import Idealize.ShloMosaic.Lib.StableHlo.Run
import Idealize.ShloMosaic.Lib.Pipeline.Frame
import Idealize.ShloMosaic.PureOps.Ideal

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Statements 1 … 60: the two input maps, the index columns, the first layer up to the centred activations. -/
abbrev ops_part0 : List (HloOp τ sig (Elt F)) :=
  [ StableHlo.binary main_arg0 main_arg4 main_v0 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S50000x64 ![0, 1] bcast_S1x64_S50000x64_0_1 : (⟨S1x64, .f32⟩ : BufTy).Contents (Elt F) → (⟨S50000x64, .f32⟩ : BufTy).Contents (Elt F)),
    StableHlo.binary main_v0 main_v2 main_v3 (addf : (⟨S50000x64, .f32⟩ : BufTy).Contents (Elt F) → (⟨S50000x64, .f32⟩ : BufTy).Contents (Elt F) → (⟨S50000x64, .f32⟩ : BufTy).Contents (Elt F)),
    StableHlo.binary main_arg1 main_arg6 main_v4 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S1000000x64 ![0, 1] bcast_S1x64_S1000000x64_0_1 : (⟨S1x64, .f32⟩ : BufTy).Contents (Elt F) → (⟨S1000000x64, .f32⟩ : BufTy).Contents (Elt F)),
    StableHlo.binary main_v4 main_v6 main_v7 (addf : (⟨S1000000x64, .f32⟩ : BufTy).Contents (Elt F) → (⟨S1000000x64, .f32⟩ : BufTy).Contents (Elt F) → (⟨S1000000x64, .f32⟩ : BufTy).Contents (Elt F)),
    StableHlo.unary main_arg2 main_v8 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v8 main_v9 rfl shapeCasts_S1x1000000_S1000000,
    StableHlo.unary main_arg2 main_v10 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v10 main_v11 rfl shapeCasts_S1x1000000_S1000000,
    StableHlo.nullary main_c (constantI S_ 32 0#32),
    StableHlo.unary main_c main_v12 (broadcastInDim S1000000 ![] bcast_S_S1000000 : (⟨S_, .i32⟩ : BufTy).Contents (Elt F) → (⟨S1000000, .i32⟩ : BufTy).Contents (Elt F)),
    StableHlo.binary main_v9 main_v12 main_v13 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 50000#32),
    StableHlo.unary main_c_0 main_v14 (broadcastInDim S1000000 ![] bcast_S_S1000000 : (⟨S_, .i32⟩ : BufTy).Contents (Elt F) → (⟨S1000000, .i32⟩ : BufTy).Contents (Elt F)),
    StableHlo.binary main_v9 main_v14 main_v15 (addi : (⟨S1000000, .i32⟩ : BufTy).Contents (Elt F) → (⟨S1000000, .i32⟩ : BufTy).Contents (Elt F) → (⟨S1000000, .i32⟩ : BufTy).Contents (Elt F)),
    StableHlo.ternary main_v13 main_v15 main_v9 main_v16 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v16 main_v17 (broadcastInDim S1000000x1 ![0] bcast_S1000000_S1000000x1_0 : (⟨S1000000, .i32⟩ : BufTy).Contents (Elt F) → (⟨S1000000x1, .i32⟩ : BufTy).Contents (Elt F)),
    StableHlo.binary main_v3 main_v17 main_v18 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.binary main_v18 main_v7 main_v19 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call0.cst (constant S_ .f32 0x00000000#32),
    StableHlo.TRef.unary main_call0.cst main_call0.v0 (broadcastInDim S1000000x64 ![] bcast_S_S1000000x64),
    StableHlo.TRef.binary (.of main_v19) main_call0.v0 main_call0.v1 maximumf,
    StableHlo.nullary main_cst (constant S_ .f32 0x00000000#32),
    StableHlo.unary main_cst main_v21 (broadcastInDim S50000x64 ![] bcast_S_S50000x64 : (⟨S_, .f32⟩ : BufTy).Contents (Elt F) → (⟨S50000x64, .f32⟩ : BufTy).Contents (Elt F)),
    StableHlo.unary main_v11 main_v22 (broadcastInDim S1000000x1 ![0] bcast_S1000000_S1000000x1_0 : (⟨S1000000, .i32⟩ : BufTy).Contents (Elt F) → (⟨S1000000x1, .i32⟩ : BufTy).Contents (Elt F)),
    StableHlo.ternary main_v21 main_v22 main_v20 main_v23 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    StableHlo.binary main_v3 main_v23 main_v24 (addf : (⟨S50000x64, .f32⟩ : BufTy).Contents (Elt F) → (⟨S50000x64, .f32⟩ : BufTy).Contents (Elt F) → (⟨S50000x64, .f32⟩ : BufTy).Contents (Elt F)),
    StableHlo.unary main_arg8 main_v25 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v25 main_v26 rfl shapeCasts_S1x64x64_S64x64,
    StableHlo.binary main_v24 main_v26 main_v27 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v28 ((extractStridedSlice S1x64 ![0, 0] · slices_S3x64_S1x64_0_0) : (⟨S3x64, .f32⟩ : BufTy).Contents (Elt F) → (⟨S1x64, .f32⟩ : BufTy).Contents (Elt F)),
    StableHlo.reshape main_v28 main_v29 rfl shapeCasts_S1x64_S64,
    StableHlo.unary main_v29 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v31 main_v32 (addf : (⟨S50000x64, .f32⟩ : BufTy).Contents (Elt F) → (⟨S50000x64, .f32⟩ : BufTy).Contents (Elt F) → (⟨S50000x64, .f32⟩ : BufTy).Contents (Elt F)),
    StableHlo.nullary main_cst_1 (constant S_ .f32 0x3C23D70A#32),
    StableHlo.TRef.nullary main_call1.cst (constant S_ .f32 0x00000000#32),
    StableHlo.TRef.unary main_call1.cst main_call1.v0 (broadcastInDim S50000x64 ![] bcast_S_S50000x64),
    StableHlo.TRef.binary (.of main_v32) main_call1.v0 main_call1.v1 (cmpf .oge),
    StableHlo.TRef.unary (.of main_cst_1) main_call1.v2 id,
    StableHlo.TRef.unary main_call1.v2 main_call1.v3 (broadcastInDim S50000x64 ![] bcast_S_S50000x64),
    StableHlo.TRef.binary main_call1.v3 (.of main_v32) main_call1.v4 mulf,
    StableHlo.TRef.ternary main_call1.v1 (.of main_v32) main_call1.v4 main_call1.call0.v0 select,
    StableHlo.unary main_arg10 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v34 main_v35 rfl shapeCasts_S1x64x64_S64x64,
    StableHlo.binary main_v33 main_v35 main_v36 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v37 ((extractStridedSlice S1x64 ![0, 0] · slices_S3x64_S1x64_0_0) : (⟨S3x64, .f32⟩ : BufTy).Contents (Elt F) → (⟨S1x64, .f32⟩ : BufTy).Contents (Elt F)),
    StableHlo.reshape main_v37 main_v38 rfl shapeCasts_S1x64_S64,
    StableHlo.unary main_v38 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S50000x64 ![0, 1] bcast_S1x64_S50000x64_0_1 : (⟨S1x64, .f32⟩ : BufTy).Contents (Elt F) → (⟨S50000x64, .f32⟩ : BufTy).Contents (Elt F)),
    StableHlo.binary main_v36 main_v40 main_v41 (addf : (⟨S50000x64, .f32⟩ : BufTy).Contents (Elt F) → (⟨S50000x64, .f32⟩ : BufTy).Contents (Elt F) → (⟨S50000x64, .f32⟩ : BufTy).Contents (Elt F)),
    StableHlo.nullary main_cst_2 (constant S_ .f32 0x00000000#32),
    StableHlo.binary main_v41 main_cst_2 main_v42 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_3 (constant S_ .f32 0x47435000#32),
    StableHlo.unary main_cst_3 main_v43 (broadcastInDim S64 ![] bcast_S_S64 : (⟨S_, .f32⟩ : BufTy).Contents (Elt F) → (⟨S64, .f32⟩ : BufTy).Contents (Elt F)),
    StableHlo.binary main_v42 main_v43 main_v44 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call2.cst (constant S_ .f32 0x00000000#32),
    StableHlo.TRef.binary (.of main_v41) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v41) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_arg12 main_v46 ((extractStridedSlice S1x64 ![0, 0] · slices_S3x64_S1x64_0_0) : (⟨S3x64, .f32⟩ : BufTy).Contents (Elt F) → (⟨S1x64, .f32⟩ : BufTy).Contents (Elt F)),
    StableHlo.reshape main_v46 main_v47 rfl shapeCasts_S1x64_S64,
    StableHlo.unary main_v44 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S50000x64 ![0, 1] bcast_S1x64_S50000x64_0_1 : (⟨S1x64, .f32⟩ : BufTy).Contents (Elt F) → (⟨S50000x64, .f32⟩ : BufTy).Contents (Elt F)),
    StableHlo.binary main_v41 main_v49 main_v50 (subf : (⟨S50000x64, .f32⟩ : BufTy).Contents (Elt F) → (⟨S50000x64, .f32⟩ : BufTy).Contents (Elt F) → (⟨S50000x64, .f32⟩ : BufTy).Contents (Elt F)),
    StableHlo.unary main_v47 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S50000x64 ![0, 1] bcast_S1x64_S50000x64_0_1 : (⟨S1x64, .f32⟩ : BufTy).Contents (Elt F) → (⟨S50000x64, .f32⟩ : BufTy).Contents (Elt F)) ]

/-- Statements 61 … 120: the first layer's normalisation and the second layer up to its centring. -/
abbrev ops_part1 : List (HloOp τ sig (Elt F)) :=
  [ StableHlo.binary main_v52 main_v50 main_v53 (mulf : (⟨S50000x64, .f32⟩ : BufTy).Contents (Elt F) → (⟨S50000x64, .f32⟩ : BufTy).Contents (Elt F) → (⟨S50000x64, .f32⟩ : BufTy).Contents (Elt F)),
    StableHlo.nullary main_cst_5 (constant S_ .f32 0x3727C5AC#32),
    StableHlo.unary main_cst_5 main_v54 (broadcastInDim S64 ![] bcast_S_S64 : (⟨S_, .f32⟩ : BufTy).Contents (Elt F) → (⟨S64, .f32⟩ : BufTy).Contents (Elt F)),
    StableHlo.binary main_v45 main_v54 main_v55 (addf : (⟨S64, .f32⟩ : BufTy).Contents (Elt F) → (⟨S64, .f32⟩ : BufTy).Contents (Elt F) → (⟨S64, .f32⟩ : BufTy).Contents (Elt F)),
    StableHlo.unary main_v55 main_v56 (Host.rsqrt : (⟨S64, .f32⟩ : BufTy).Contents (Elt F) → (⟨S64, .f32⟩ : BufTy).Contents (Elt F)),
    StableHlo.unary main_v56 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S50000x64 ![0, 1] bcast_S1x64_S50000x64_0_1 : (⟨S1x64, .f32⟩ : BufTy).Contents (Elt F) → (⟨S50000x64, .f32⟩ : BufTy).Contents (Elt F)),
    StableHlo.binary main_v53 main_v58 main_v59 (mulf : (⟨S50000x64, .f32⟩ : BufTy).Contents (Elt F) → (⟨S50000x64, .f32⟩ : BufTy).Contents (Elt F) → (⟨S50000x64, .f32⟩ : BufTy).Contents (Elt F)),
    StableHlo.unary main_arg13 main_v60 ((extractStridedSlice S1x64 ![0, 0] · slices_S3x64_S1x64_0_0) : (⟨S3x64, .f32⟩ : BufTy).Contents (Elt F) → (⟨S1x64, .f32⟩ : BufTy).Contents (Elt F)),
    StableHlo.reshape main_v60 main_v61 rfl shapeCasts_S1x64_S64,
    StableHlo.unary main_v61 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v59 main_v63 main_v64 (addf : (⟨S50000x64, .f32⟩ : BufTy).Contents (Elt F) → (⟨S50000x64, .f32⟩ : BufTy).Contents (Elt F) → (⟨S50000x64, .f32⟩ : BufTy).Contents (Elt F)),
    StableHlo.nullary main_c_6 (constantI S_ 32 0#32),
    StableHlo.unary main_c_6 main_v65 (broadcastInDim S1000000 ![] bcast_S_S1000000 : (⟨S_, .i32⟩ : BufTy).Contents (Elt F) → (⟨S1000000, .i32⟩ : BufTy).Contents (Elt F)),
    StableHlo.binary main_v9 main_v65 main_v66 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 50000#32),
    StableHlo.unary main_c_7 main_v67 (broadcastInDim S1000000 ![] bcast_S_S1000000 : (⟨S_, .i32⟩ : BufTy).Contents (Elt F) → (⟨S1000000, .i32⟩ : BufTy).Contents (Elt F)),
    StableHlo.binary main_v9 main_v67 main_v68 (addi : (⟨S1000000, .i32⟩ : BufTy).Contents (Elt F) → (⟨S1000000, .i32⟩ : BufTy).Contents (Elt F) → (⟨S1000000, .i32⟩ : BufTy).Contents (Elt F)),
    StableHlo.ternary main_v66 main_v68 main_v9 main_v69 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v69 main_v70 (broadcastInDim S1000000x1 ![0] bcast_S1000000_S1000000x1_0 : (⟨S1000000, .i32⟩ : BufTy).Contents (Elt F) → (⟨S1000000x1, .i32⟩ : BufTy).Contents (Elt F)),
    StableHlo.binary main_v64 main_v70 main_v71 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.binary main_v71 main_v7 main_v72 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call3.cst (constant S_ .f32 0x00000000#32),
    StableHlo.TRef.unary main_call3.cst main_call3.v0 (broadcastInDim S1000000x64 ![] bcast_S_S1000000x64),
    StableHlo.TRef.binary (.of main_v72) main_call3.v0 main_call3.v1 maximumf,
    StableHlo.nullary main_cst_8 (constant S_ .f32 0x00000000#32),
    StableHlo.unary main_cst_8 main_v74 (broadcastInDim S50000x64 ![] bcast_S_S50000x64 : (⟨S_, .f32⟩ : BufTy).Contents (Elt F) → (⟨S50000x64, .f32⟩ : BufTy).Contents (Elt F)),
    StableHlo.unary main_v11 main_v75 (broadcastInDim S1000000x1 ![0] bcast_S1000000_S1000000x1_0 : (⟨S1000000, .i32⟩ : BufTy).Contents (Elt F) → (⟨S1000000x1, .i32⟩ : BufTy).Contents (Elt F)),
    StableHlo.ternary main_v74 main_v75 main_v73 main_v76 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    StableHlo.binary main_v64 main_v76 main_v77 (addf : (⟨S50000x64, .f32⟩ : BufTy).Contents (Elt F) → (⟨S50000x64, .f32⟩ : BufTy).Contents (Elt F) → (⟨S50000x64, .f32⟩ : BufTy).Contents (Elt F)),
    StableHlo.unary main_arg8 main_v78 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v78 main_v79 rfl shapeCasts_S1x64x64_S64x64,
    StableHlo.binary main_v77 main_v79 main_v80 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v81 ((extractStridedSlice S1x64 ![1, 0] · slices_S3x64_S1x64_1_0) : (⟨S3x64, .f32⟩ : BufTy).Contents (Elt F) → (⟨S1x64, .f32⟩ : BufTy).Contents (Elt F)),
    StableHlo.reshape main_v81 main_v82 rfl shapeCasts_S1x64_S64,
    StableHlo.unary main_v82 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S50000x64 ![0, 1] bcast_S1x64_S50000x64_0_1 : (⟨S1x64, .f32⟩ : BufTy).Contents (Elt F) → (⟨S50000x64, .f32⟩ : BufTy).Contents (Elt F)),
    StableHlo.binary main_v80 main_v84 main_v85 (addf : (⟨S50000x64, .f32⟩ : BufTy).Contents (Elt F) → (⟨S50000x64, .f32⟩ : BufTy).Contents (Elt F) → (⟨S50000x64, .f32⟩ : BufTy).Contents (Elt F)),
    StableHlo.nullary main_cst_9 (constant S_ .f32 0x3C23D70A#32),
    StableHlo.TRef.nullary main_call4.cst (constant S_ .f32 0x00000000#32),
    StableHlo.TRef.unary main_call4.cst main_call4.v0 (broadcastInDim S50000x64 ![] bcast_S_S50000x64),
    StableHlo.TRef.binary (.of main_v85) main_call4.v0 main_call4.v1 (cmpf .oge),
    StableHlo.TRef.unary (.of main_cst_9) main_call4.v2 id,
    StableHlo.TRef.unary main_call4.v2 main_call4.v3 (broadcastInDim S50000x64 ![] bcast_S_S50000x64),
    StableHlo.TRef.binary main_call4.v3 (.of main_v85) main_call4.v4 mulf,
    StableHlo.TRef.ternary main_call4.v1 (.of main_v85) main_call4.v4 main_call4.call0.v0 select,
    StableHlo.unary main_arg10 main_v87 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v87 main_v88 rfl shapeCasts_S1x64x64_S64x64,
    StableHlo.binary main_v86 main_v88 main_v89 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v90 ((extractStridedSlice S1x64 ![1, 0] · slices_S3x64_S1x64_1_0) : (⟨S3x64, .f32⟩ : BufTy).Contents (Elt F) → (⟨S1x64, .f32⟩ : BufTy).Contents (Elt F)),
    StableHlo.reshape main_v90 main_v91 rfl shapeCasts_S1x64_S64,
    StableHlo.unary main_v91 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v89 main_v93 main_v94 (addf : (⟨S50000x64, .f32⟩ : BufTy).Contents (Elt F) → (⟨S50000x64, .f32⟩ : BufTy).Contents (Elt F) → (⟨S50000x64, .f32⟩ : BufTy).Contents (Elt F)),
    StableHlo.nullary main_cst_10 (constant S_ .f32 0x00000000#32),
    StableHlo.binary main_v94 main_cst_10 main_v95 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_11 (constant S_ .f32 0x47435000#32),
    StableHlo.unary main_cst_11 main_v96 (broadcastInDim S64 ![] bcast_S_S64 : (⟨S_, .f32⟩ : BufTy).Contents (Elt F) → (⟨S64, .f32⟩ : BufTy).Contents (Elt F)),
    StableHlo.binary main_v95 main_v96 main_v97 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call5.cst (constant S_ .f32 0x00000000#32),
    StableHlo.TRef.binary (.of main_v94) main_call5.cst main_call5.v0 (fun x v => Host.reduceAdd x v reducesTo_S50000x64_S64_d0 h_S_),
    StableHlo.TRef.unary main_call5.v0 main_call5.v1 (broadcastInDim S1x64 ![1] bcast_S64_S1x64_1),
    StableHlo.TRef.nullary main_call5.cst_0 (constant S_ .f32 0x47435000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S50000x64 ![0, 1] bcast_S1x64_S50000x64_0_1),
    StableHlo.TRef.binary (.of main_v94) main_call5.v4 main_call5.v5 subf,
    StableHlo.TRef.binary main_call5.v5 main_call5.v5 main_call5.v6 mulf,
    StableHlo.TRef.unary (.of main_c_12) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_arg12 main_v99 ((extractStridedSlice S1x64 ![1, 0] · slices_S3x64_S1x64_1_0) : (⟨S3x64, .f32⟩ : BufTy).Contents (Elt F) → (⟨S1x64, .f32⟩ : BufTy).Contents (Elt F)),
    StableHlo.reshape main_v99 main_v100 rfl shapeCasts_S1x64_S64,
    StableHlo.unary main_v97 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v94 main_v102 main_v103 (subf : (⟨S50000x64, .f32⟩ : BufTy).Contents (Elt F) → (⟨S50000x64, .f32⟩ : BufTy).Contents (Elt F) → (⟨S50000x64, .f32⟩ : BufTy).Contents (Elt F)),
    StableHlo.unary main_v100 main_v104 (broadcastInDim S1x64 ![1] bcast_S64_S1x64_1 : (⟨S64, .f32⟩ : BufTy).Contents (Elt F) → (⟨S1x64, .f32⟩ : BufTy).Contents (Elt F)) ]

/-- Statements 121 … 180: the second layer's normalisation and the third layer up to its centring. -/
abbrev ops_part2 : List (HloOp τ sig (Elt F)) :=
  [ StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v103 main_v106 (mulf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x3727C5AC#32),
    StableHlo.unary main_cst_13 main_v107 (broadcastInDim S64 ![] bcast_S_S64 : (⟨S_, .f32⟩ : BufTy).Contents (Elt F) → (⟨S64, .f32⟩ : BufTy).Contents (Elt F)),
    StableHlo.binary main_v98 main_v107 main_v108 (addf : (⟨S64, .f32⟩ : BufTy).Contents (Elt F) → (⟨S64, .f32⟩ : BufTy).Contents (Elt F) → (⟨S64, .f32⟩ : BufTy).Contents (Elt F)),
    StableHlo.unary main_v108 main_v109 (Host.rsqrt : (⟨S64, .f32⟩ : BufTy).Contents (Elt F) → (⟨S64, .f32⟩ : BufTy).Contents (Elt F)),
    StableHlo.unary main_v109 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S50000x64 ![0, 1] bcast_S1x64_S50000x64_0_1 : (⟨S1x64, .f32⟩ : BufTy).Contents (Elt F) → (⟨S50000x64, .f32⟩ : BufTy).Contents (Elt F)),
    StableHlo.binary main_v106 main_v111 main_v112 (mulf : (⟨S50000x64, .f32⟩ : BufTy).Contents (Elt F) → (⟨S50000x64, .f32⟩ : BufTy).Contents (Elt F) → (⟨S50000x64, .f32⟩ : BufTy).Contents (Elt F)),
    StableHlo.unary main_arg13 main_v113 ((extractStridedSlice S1x64 ![1, 0] · slices_S3x64_S1x64_1_0) : (⟨S3x64, .f32⟩ : BufTy).Contents (Elt F) → (⟨S1x64, .f32⟩ : BufTy).Contents (Elt F)),
    StableHlo.reshape main_v113 main_v114 rfl shapeCasts_S1x64_S64,
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S50000x64 ![0, 1] bcast_S1x64_S50000x64_0_1 : (⟨S1x64, .f32⟩ : BufTy).Contents (Elt F) → (⟨S50000x64, .f32⟩ : BufTy).Contents (Elt F)),
    StableHlo.binary main_v112 main_v116 main_v117 (addf : (⟨S50000x64, .f32⟩ : BufTy).Contents (Elt F) → (⟨S50000x64, .f32⟩ : BufTy).Contents (Elt F) → (⟨S50000x64, .f32⟩ : BufTy).Contents (Elt F)),
    StableHlo.nullary main_c_14 (constantI S_ 32 0#32),
    StableHlo.unary main_c_14 main_v118 (broadcastInDim S1000000 ![] bcast_S_S1000000 : (⟨S_, .i32⟩ : BufTy).Contents (Elt F) → (⟨S1000000, .i32⟩ : BufTy).Contents (Elt F)),
    StableHlo.binary main_v9 main_v118 main_v119 (cmpi .slt : (⟨S1000000, .i32⟩ : BufTy).Contents (Elt F) → (⟨S1000000, .i32⟩ : BufTy).Contents (Elt F) → (⟨S1000000, .i1⟩ : BufTy).Contents (Elt F)),
    StableHlo.nullary main_c_15 (constantI S_ 32 50000#32),
    StableHlo.unary main_c_15 main_v120 (broadcastInDim S1000000 ![] bcast_S_S1000000 : (⟨S_, .i32⟩ : BufTy).Contents (Elt F) → (⟨S1000000, .i32⟩ : BufTy).Contents (Elt F)),
    StableHlo.binary main_v9 main_v120 main_v121 (addi : (⟨S1000000, .i32⟩ : BufTy).Contents (Elt F) → (⟨S1000000, .i32⟩ : BufTy).Contents (Elt F) → (⟨S1000000, .i32⟩ : BufTy).Contents (Elt F)),
    StableHlo.ternary main_v119 main_v121 main_v9 main_v122 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v122 main_v123 (broadcastInDim S1000000x1 ![0] bcast_S1000000_S1000000x1_0 : (⟨S1000000, .i32⟩ : BufTy).Contents (Elt F) → (⟨S1000000x1, .i32⟩ : BufTy).Contents (Elt F)),
    StableHlo.binary main_v117 main_v123 main_v124 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.binary main_v124 main_v7 main_v125 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call6.cst (constant S_ .f32 0x00000000#32),
    StableHlo.TRef.unary main_call6.cst main_call6.v0 (broadcastInDim S1000000x64 ![] bcast_S_S1000000x64),
    StableHlo.TRef.binary (.of main_v125) main_call6.v0 main_call6.v1 maximumf,
    StableHlo.nullary main_cst_16 (constant S_ .f32 0x00000000#32),
    StableHlo.unary main_cst_16 main_v127 (broadcastInDim S50000x64 ![] bcast_S_S50000x64 : (⟨S_, .f32⟩ : BufTy).Contents (Elt F) → (⟨S50000x64, .f32⟩ : BufTy).Contents (Elt F)),
    StableHlo.unary main_v11 main_v128 (broadcastInDim S1000000x1 ![0] bcast_S1000000_S1000000x1_0 : (⟨S1000000, .i32⟩ : BufTy).Contents (Elt F) → (⟨S1000000x1, .i32⟩ : BufTy).Contents (Elt F)),
    StableHlo.ternary main_v127 main_v128 main_v126 main_v129 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    StableHlo.binary main_v117 main_v129 main_v130 (addf : (⟨S50000x64, .f32⟩ : BufTy).Contents (Elt F) → (⟨S50000x64, .f32⟩ : BufTy).Contents (Elt F) → (⟨S50000x64, .f32⟩ : BufTy).Contents (Elt F)),
    StableHlo.unary main_arg8 main_v131 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v131 main_v132 rfl shapeCasts_S1x64x64_S64x64,
    StableHlo.binary main_v130 main_v132 main_v133 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v134 ((extractStridedSlice S1x64 ![2, 0] · slices_S3x64_S1x64_2_0) : (⟨S3x64, .f32⟩ : BufTy).Contents (Elt F) → (⟨S1x64, .f32⟩ : BufTy).Contents (Elt F)),
    StableHlo.reshape main_v134 main_v135 rfl shapeCasts_S1x64_S64,
    StableHlo.unary main_v135 main_v136 (broadcastInDim S1x64 ![1] bcast_S64_S1x64_1 : (⟨S64, .f32⟩ : BufTy).Contents (Elt F) → (⟨S1x64, .f32⟩ : BufTy).Contents (Elt F)),
    StableHlo.unary main_v136 main_v137 (broadcastInDim S50000x64 ![0, 1] bcast_S1x64_S50000x64_0_1 : (⟨S1x64, .f32⟩ : BufTy).Contents (Elt F) → (⟨S50000x64, .f32⟩ : BufTy).Contents (Elt F)),
    StableHlo.binary main_v133 main_v137 main_v138 (addf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3C23D70A#32),
    StableHlo.TRef.nullary main_call7.cst (constant S_ .f32 0x00000000#32),
    StableHlo.TRef.unary main_call7.cst main_call7.v0 (broadcastInDim S50000x64 ![] bcast_S_S50000x64),
    StableHlo.TRef.binary (.of main_v138) main_call7.v0 main_call7.v1 (cmpf .oge),
    StableHlo.TRef.unary (.of main_cst_17) main_call7.v2 id,
    StableHlo.TRef.unary main_call7.v2 main_call7.v3 (broadcastInDim S50000x64 ![] bcast_S_S50000x64),
    StableHlo.TRef.binary main_call7.v3 (.of main_v138) main_call7.v4 mulf,
    StableHlo.TRef.ternary main_call7.v1 (.of main_v138) main_call7.v4 main_call7.call0.v0 select,
    StableHlo.unary main_arg10 main_v140 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v140 main_v141 rfl shapeCasts_S1x64x64_S64x64,
    StableHlo.binary main_v139 main_v141 main_v142 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v143 ((extractStridedSlice S1x64 ![2, 0] · slices_S3x64_S1x64_2_0) : (⟨S3x64, .f32⟩ : BufTy).Contents (Elt F) → (⟨S1x64, .f32⟩ : BufTy).Contents (Elt F)),
    StableHlo.reshape main_v143 main_v144 rfl shapeCasts_S1x64_S64,
    StableHlo.unary main_v144 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S50000x64 ![0, 1] bcast_S1x64_S50000x64_0_1 : (⟨S1x64, .f32⟩ : BufTy).Contents (Elt F) → (⟨S50000x64, .f32⟩ : BufTy).Contents (Elt F)),
    StableHlo.binary main_v142 main_v146 main_v147 (addf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x00000000#32),
    StableHlo.binary main_v147 main_cst_18 main_v148 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_19 (constant S_ .f32 0x47435000#32),
    StableHlo.unary main_cst_19 main_v149 (broadcastInDim S64 ![] bcast_S_S64 : (⟨S_, .f32⟩ : BufTy).Contents (Elt F) → (⟨S64, .f32⟩ : BufTy).Contents (Elt F)),
    StableHlo.binary main_v148 main_v149 main_v150 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call8.cst (constant S_ .f32 0x00000000#32),
    StableHlo.TRef.binary (.of main_v147) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v147) main_call8.v4 main_call8.v5 subf,
    StableHlo.TRef.binary main_call8.v5 main_call8.v5 main_call8.v6 mulf,
    StableHlo.TRef.unary (.of main_c_20) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_arg12 main_v152 ((extractStridedSlice S1x64 ![2, 0] · slices_S3x64_S1x64_2_0) : (⟨S3x64, .f32⟩ : BufTy).Contents (Elt F) → (⟨S1x64, .f32⟩ : BufTy).Contents (Elt F)),
    StableHlo.reshape main_v152 main_v153 rfl shapeCasts_S1x64_S64,
    StableHlo.unary main_v150 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S50000x64 ![0, 1] bcast_S1x64_S50000x64_0_1 : (⟨S1x64, .f32⟩ : BufTy).Contents (Elt F) → (⟨S50000x64, .f32⟩ : BufTy).Contents (Elt F)),
    StableHlo.binary main_v147 main_v155 main_v156 (subf : (⟨S50000x64, .f32⟩ : BufTy).Contents (Elt F) → (⟨S50000x64, .f32⟩ : BufTy).Contents (Elt F) → (⟨S50000x64, .f32⟩ : BufTy).Contents (Elt F)) ]

/-- Statements 181 … 218: the third layer's normalisation and the pooled, normalised output. -/
abbrev ops_part3 : List (HloOp τ sig (Elt F)) :=
  [ StableHlo.unary main_v153 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S50000x64 ![0, 1] bcast_S1x64_S50000x64_0_1 : (⟨S1x64, .f32⟩ : BufTy).Contents (Elt F) → (⟨S50000x64, .f32⟩ : BufTy).Contents (Elt F)),
    StableHlo.binary main_v158 main_v156 main_v159 (mulf : (⟨S50000x64, .f32⟩ : BufTy).Contents (Elt F) → (⟨S50000x64, .f32⟩ : BufTy).Contents (Elt F) → (⟨S50000x64, .f32⟩ : BufTy).Contents (Elt F)),
    StableHlo.nullary main_cst_21 (constant S_ .f32 0x3727C5AC#32),
    StableHlo.unary main_cst_21 main_v160 (broadcastInDim S64 ![] bcast_S_S64 : (⟨S_, .f32⟩ : BufTy).Contents (Elt F) → (⟨S64, .f32⟩ : BufTy).Contents (Elt F)),
    StableHlo.binary main_v151 main_v160 main_v161 (addf : (⟨S64, .f32⟩ : BufTy).Contents (Elt F) → (⟨S64, .f32⟩ : BufTy).Contents (Elt F) → (⟨S64, .f32⟩ : BufTy).Contents (Elt F)),
    StableHlo.unary main_v161 main_v162 (Host.rsqrt : (⟨S64, .f32⟩ : BufTy).Contents (Elt F) → (⟨S64, .f32⟩ : BufTy).Contents (Elt F)),
    StableHlo.unary main_v162 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S50000x64 ![0, 1] bcast_S1x64_S50000x64_0_1 : (⟨S1x64, .f32⟩ : BufTy).Contents (Elt F) → (⟨S50000x64, .f32⟩ : BufTy).Contents (Elt F)),
    StableHlo.binary main_v159 main_v164 main_v165 (mulf : (⟨S50000x64, .f32⟩ : BufTy).Contents (Elt F) → (⟨S50000x64, .f32⟩ : BufTy).Contents (Elt F) → (⟨S50000x64, .f32⟩ : BufTy).Contents (Elt F)),
    StableHlo.unary main_arg13 main_v166 ((extractStridedSlice S1x64 ![2, 0] · slices_S3x64_S1x64_2_0) : (⟨S3x64, .f32⟩ : BufTy).Contents (Elt F) → (⟨S1x64, .f32⟩ : BufTy).Contents (Elt F)),
    StableHlo.reshape main_v166 main_v167 rfl shapeCasts_S1x64_S64,
    StableHlo.unary main_v167 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S50000x64 ![0, 1] bcast_S1x64_S50000x64_0_1 : (⟨S1x64, .f32⟩ : BufTy).Contents (Elt F) → (⟨S50000x64, .f32⟩ : BufTy).Contents (Elt F)),
    StableHlo.binary main_v165 main_v169 main_v170 (addf : (⟨S50000x64, .f32⟩ : BufTy).Contents (Elt F) → (⟨S50000x64, .f32⟩ : BufTy).Contents (Elt F) → (⟨S50000x64, .f32⟩ : BufTy).Contents (Elt F)),
    StableHlo.nullary main_cst_22 (constant S_ .f32 0x3F800000#32),
    StableHlo.unary main_cst_22 main_v171 (broadcastInDim S50000 ![] bcast_S_S50000 : (⟨S_, .f32⟩ : BufTy).Contents (Elt F) → (⟨S50000, .f32⟩ : BufTy).Contents (Elt F)),
    StableHlo.nullary main_cst_23 (constant S_ .f32 0x00000000#32),
    StableHlo.unary main_cst_23 main_v172 (broadcastInDim S64 ![] bcast_S_S64 : (⟨S_, .f32⟩ : BufTy).Contents (Elt F) → (⟨S64, .f32⟩ : BufTy).Contents (Elt F)),
    StableHlo.unary main_arg3 main_v173 (broadcastInDim S50000x1 ![0] bcast_S50000_S50000x1_0 : (⟨S50000, .i32⟩ : BufTy).Contents (Elt F) → (⟨S50000x1, .i32⟩ : BufTy).Contents (Elt F)),
    StableHlo.ternary main_v172 main_v173 main_v171 main_v174 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_24 (constant S_ .f32 0x00000000#32),
    StableHlo.unary main_cst_24 main_v175 (broadcastInDim S64x64 ![] bcast_S_S64x64 : (⟨S_, .f32⟩ : BufTy).Contents (Elt F) → (⟨S64x64, .f32⟩ : BufTy).Contents (Elt F)),
    StableHlo.unary main_arg3 main_v176 (broadcastInDim S50000x1 ![0] bcast_S50000_S50000x1_0 : (⟨S50000, .i32⟩ : BufTy).Contents (Elt F) → (⟨S50000x1, .i32⟩ : BufTy).Contents (Elt F)),
    StableHlo.ternary main_v175 main_v176 main_v170 main_v177 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)),
    StableHlo.nullary main_cst_25 (constant S_ .f32 0x3F800000#32),
    StableHlo.unary main_cst_25 main_v178 (broadcastInDim S64 ![] bcast_S_S64 : (⟨S_, .f32⟩ : BufTy).Contents (Elt F) → (⟨S64, .f32⟩ : BufTy).Contents (Elt F)),
    StableHlo.binary main_v174 main_v178 main_v179 (maximumf : (⟨S64, .f32⟩ : BufTy).Contents (Elt F) → (⟨S64, .f32⟩ : BufTy).Contents (Elt F) → (⟨S64, .f32⟩ : BufTy).Contents (Elt F)),
    StableHlo.unary main_v179 main_v180 (broadcastInDim S64x1 ![0] bcast_S64_S64x1_0 : (⟨S64, .f32⟩ : BufTy).Contents (Elt F) → (⟨S64x1, .f32⟩ : BufTy).Contents (Elt F)),
    StableHlo.unary main_v180 main_v181 (broadcastInDim S64x64 ![0, 1] bcast_S64x1_S64x64_0_1 : (⟨S64x1, .f32⟩ : BufTy).Contents (Elt F) → (⟨S64x64, .f32⟩ : BufTy).Contents (Elt F)),
    StableHlo.binary main_v177 main_v181 main_v182 (Host.divf : (⟨S64x64, .f32⟩ : BufTy).Contents (Elt F) → (⟨S64x64, .f32⟩ : BufTy).Contents (Elt F) → (⟨S64x64, .f32⟩ : BufTy).Contents (Elt F)),
    StableHlo.TRef.binary (.of main_v182) (.of main_v182) main_call9.v0 mulf,
    StableHlo.TRef.nullary main_call9.cst (constant S_ .f32 0x00000000#32),
    StableHlo.TRef.binary main_call9.v0 main_call9.cst main_call9.v1 (fun x v => Host.reduceAdd x v reducesTo_S64x64_S64_d1 h_S_),
    StableHlo.TRef.unary main_call9.v1 main_call9.v2 (broadcastInDim S64x1 ![0] bcast_S64_S64x1_0),
    StableHlo.TRef.unary main_call9.v2 main_call9.v3 Host.sqrt,
    StableHlo.nullary main_cst_26 (constant S_ .f32 0x2B8CBCCC#32),
    StableHlo.unary main_cst_26 main_v184 (broadcastInDim S64x1 ![] bcast_S_S64x1 : (⟨S_, .f32⟩ : BufTy).Contents (Elt F) → (⟨S64x1, .f32⟩ : BufTy).Contents (Elt F)),
    StableHlo.binary main_v183 main_v184 main_v185 (maximumf : (⟨S64x1, .f32⟩ : BufTy).Contents (Elt F) → (⟨S64x1, .f32⟩ : BufTy).Contents (Elt F) → (⟨S64x1, .f32⟩ : BufTy).Contents (Elt F)),
    StableHlo.unary main_v185 main_v186 (broadcastInDim S64x64 ![0, 1] bcast_S64x1_S64x64_0_1 : (⟨S64x1, .f32⟩ : BufTy).Contents (Elt F) → (⟨S64x64, .f32⟩ : BufTy).Contents (Elt F)),
    StableHlo.binary main_v182 main_v186 main_v187 (Host.divf : (⟨S64x64, .f32⟩ : BufTy).Contents (Elt F) → (⟨S64x64, .f32⟩ : BufTy).Contents (Elt F) → (⟨S64x64, .f32⟩ : BufTy).Contents (Elt F)) ]

/-- @main's operations, in order. -/
abbrev ops : List (HloOp τ sig (Elt F)) := ops_part0 ++ ops_part1 ++ ops_part2 ++ ops_part3

set_option maxRecDepth 8192 in
/-- Window 0 is that line: the called functions' bodies unfolded at their calls, sequencing reassociated. -/
theorem main_part0_eq (c : Dev nD) : main_part0 (F := F) c = seq ops_part0 := by
  simp only [main_part0, fn_relu.body, fn_leaky_relu.body, fn_where.body, fn_var.body, fn_where_0.body, fn_norm.body, seq, bind_assoc, pure_bind]
  rfl

set_option maxRecDepth 8192 in
/-- Window 1 is that line: the called functions' bodies unfolded at their calls, sequencing reassociated. -/
theorem main_part1_eq (c : Dev nD) : main_part1 (F := F) c = seq ops_part1 := by
  simp only [main_part1, fn_relu.body, fn_leaky_relu.body, fn_where.body, fn_var.body, fn_where_0.body, fn_norm.body, seq, bind_assoc, pure_bind]
  rfl

set_option maxRecDepth 8192 in
/-- Window 2 is that line: the called functions' bodies unfolded at their calls, sequencing reassociated. -/
theorem main_part2_eq (c : Dev nD) : main_part2 (F := F) c = seq ops_part2 := by
  simp only [main_part2, fn_relu.body, fn_leaky_relu.body, fn_where.body, fn_var.body, fn_where_0.body, fn_norm.body, seq, bind_assoc, pure_bind]
  rfl

set_option maxRecDepth 8192 in
/-- Window 3 is that line: the called functions' bodies unfolded at their calls, sequencing reassociated. -/
theorem main_part3_eq (c : Dev nD) : main_part3 (F := F) c = seq ops_part3 := by
  simp only [main_part3, fn_relu.body, fn_leaky_relu.body, fn_where.body, fn_var.body, fn_where_0.body, fn_norm.body, seq, bind_assoc, pure_bind]

set_option maxRecDepth 8192 in
/-- @main is the four windows one after the other. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., unary_bufs_sub .., ternary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., reshape_bufs_sub ..,
    binary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., reshape_bufs_sub ..,
    unary_bufs_sub .., unary_bufs_sub .., binary_bufs_sub .., unary_bufs_sub .., unary_bufs_sub ..⟩

set_option maxRecDepth 8192 in
theorem ops_part1_sub : (ops_part1 : List (HloOp τ sig (Elt F))).Forall fun op => op.bufs ⊆ tcRefs τ sig :=
  ⟨binary_bufs_sub .., nullary_bufs_sub .., unary_bufs_sub .., binary_bufs_sub .., unary_bufs_sub .., unary_bufs_sub ..,
    unary_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., unary_bufs_sub .., ternary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    reshape_bufs_sub .., unary_bufs_sub .., unary_bufs_sub .., binary_bufs_sub .., unary_bufs_sub ..⟩

set_option maxRecDepth 8192 in
theorem ops_part2_sub : (ops_part2 : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., reshape_bufs_sub .., binary_bufs_sub .., unary_bufs_sub .., reshape_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., reshape_bufs_sub .., unary_bufs_sub .., unary_bufs_sub .., binary_bufs_sub ..⟩

set_option maxRecDepth 8192 in
theorem ops_part3_sub : (ops_part3 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., nullary_bufs_sub .., unary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., nullary_bufs_sub .., binary_bufs_sub .., unary_bufs_sub .., unary_bufs_sub ..,
    nullary_bufs_sub .., unary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · rcases List.mem_append.mp h with h | h
        · exact List.forall_iff_forall_mem.mp ops_part0_sub op h
        · exact List.forall_iff_forall_mem.mp ops_part1_sub op h
      · exact List.forall_iff_forall_mem.mp ops_part2_sub op h
    · exact List.forall_iff_forall_mem.mp ops_part3_sub op h

/-- On every device, for any float values, from any memory with zero counters: every weakly fair execution of @main
    terminates, and every buffer ends at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefValue

end
-- ==== Proof.RefRun.Windows.lean ====
/-
  @main's operation list cut where the mathematics cuts it: the input maps; for each of the three layers the
  aggregation, the per-node map, the batch statistics and the normalisation; the pooled tail. Each window comes with
  the list of buffers it writes, so that a buffer outside that list is known to pass through the window unchanged.
-/
import proofs.«104584_j17154099380304_2_alg».proof.Proof.RefRun.Ops

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- An operation's one written buffer is a member of a literal list of references. -/
local macro "in_list" : tactic =>
  `(tactic| (simp only [nullary_writes, unary_writes, binary_writes, ternary_writes, reshape_writes, Finset.singleton_subset_iff, List.mem_toFinset]
             exact List.mem_map_of_mem (by decide)))

/-- The two input maps and the two rows of the edge index. -/
abbrev wA : List (HloOp τ sig (Elt F)) :=
  [ StableHlo.binary main_arg0 main_arg4 main_v0 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S50000x64 ![0, 1] bcast_S1x64_S50000x64_0_1 : (⟨S1x64, .f32⟩ : BufTy).Contents (Elt F) → (⟨S50000x64, .f32⟩ : BufTy).Contents (Elt F)),
    StableHlo.binary main_v0 main_v2 main_v3 (addf : (⟨S50000x64, .f32⟩ : BufTy).Contents (Elt F) → (⟨S50000x64, .f32⟩ : BufTy).Contents (Elt F) → (⟨S50000x64, .f32⟩ : BufTy).Contents (Elt F)),
    StableHlo.binary main_arg1 main_arg6 main_v4 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S1000000x64 ![0, 1] bcast_S1x64_S1000000x64_0_1 : (⟨S1x64, .f32⟩ : BufTy).Contents (Elt F) → (⟨S1000000x64, .f32⟩ : BufTy).Contents (Elt F)),
    StableHlo.binary main_v4 main_v6 main_v7 (addf : (⟨S1000000x64, .f32⟩ : BufTy).Contents (Elt F) → (⟨S1000000x64, .f32⟩ : BufTy).Contents (Elt F) → (⟨S1000000x64, .f32⟩ : BufTy).Contents (Elt F)),
    StableHlo.unary main_arg2 main_v8 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v8 main_v9 rfl shapeCasts_S1x1000000_S1000000,
    StableHlo.unary main_arg2 main_v10 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v10 main_v11 rfl shapeCasts_S1x1000000_S1000000 ]

/-- Layer 0: the wrapped source column, the gather, the edge messages, their sum at the destinations, the residual. -/
abbrev wL0a : List (HloOp τ sig (Elt F)) :=
  [ StableHlo.nullary main_c (constantI S_ 32 0#32),
    StableHlo.unary main_c main_v12 (broadcastInDim S1000000 ![] bcast_S_S1000000 : (⟨S_, .i32⟩ : BufTy).Contents (Elt F) → (⟨S1000000, .i32⟩ : BufTy).Contents (Elt F)),
    StableHlo.binary main_v9 main_v12 main_v13 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 50000#32),
    StableHlo.unary main_c_0 main_v14 (broadcastInDim S1000000 ![] bcast_S_S1000000 : (⟨S_, .i32⟩ : BufTy).Contents (Elt F) → (⟨S1000000, .i32⟩ : BufTy).Contents (Elt F)),
    StableHlo.binary main_v9 main_v14 main_v15 (addi : (⟨S1000000, .i32⟩ : BufTy).Contents (Elt F) → (⟨S1000000, .i32⟩ : BufTy).Contents (Elt F) → (⟨S1000000, .i32⟩ : BufTy).Contents (Elt F)),
    StableHlo.ternary main_v13 main_v15 main_v9 main_v16 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v16 main_v17 (broadcastInDim S1000000x1 ![0] bcast_S1000000_S1000000x1_0 : (⟨S1000000, .i32⟩ : BufTy).Contents (Elt F) → (⟨S1000000x1, .i32⟩ : BufTy).Contents (Elt F)),
    StableHlo.binary main_v3 main_v17 main_v18 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.binary main_v18 main_v7 main_v19 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call0.cst (constant S_ .f32 0x00000000#32),
    StableHlo.TRef.unary main_call0.cst main_call0.v0 (broadcastInDim S1000000x64 ![] bcast_S_S1000000x64),
    StableHlo.TRef.binary (.of main_v19) main_call0.v0 main_call0.v1 maximumf,
    StableHlo.nullary main_cst (constant S_ .f32 0x00000000#32),
    StableHlo.unary main_cst main_v21 (broadcastInDim S50000x64 ![] bcast_S_S50000x64 : (⟨S_, .f32⟩ : BufTy).Contents (Elt F) → (⟨S50000x64, .f32⟩ : BufTy).Contents (Elt F)),
    StableHlo.unary main_v11 main_v22 (broadcastInDim S1000000x1 ![0] bcast_S1000000_S1000000x1_0 : (⟨S1000000, .i32⟩ : BufTy).Contents (Elt F) → (⟨S1000000x1, .i32⟩ : BufTy).Contents (Elt F)),
    StableHlo.ternary main_v21 main_v22 main_v20 main_v23 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    StableHlo.binary main_v3 main_v23 main_v24 (addf : (⟨S50000x64, .f32⟩ : BufTy).Contents (Elt F) → (⟨S50000x64, .f32⟩ : BufTy).Contents (Elt F) → (⟨S50000x64, .f32⟩ : BufTy).Contents (Elt F)) ]

/-- Layer 0: the two-layer per-node map. -/
abbrev wL0b : List (HloOp τ sig (Elt F)) :=
  [ StableHlo.unary main_arg8 main_v25 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v25 main_v26 rfl shapeCasts_S1x64x64_S64x64,
    StableHlo.binary main_v24 main_v26 main_v27 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v28 ((extractStridedSlice S1x64 ![0, 0] · slices_S3x64_S1x64_0_0) : (⟨S3x64, .f32⟩ : BufTy).Contents (Elt F) → (⟨S1x64, .f32⟩ : BufTy).Contents (Elt F)),
    StableHlo.reshape main_v28 main_v29 rfl shapeCasts_S1x64_S64,
    StableHlo.unary main_v29 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v31 main_v32 (addf : (⟨S50000x64, .f32⟩ : BufTy).Contents (Elt F) → (⟨S50000x64, .f32⟩ : BufTy).Contents (Elt F) → (⟨S50000x64, .f32⟩ : BufTy).Contents (Elt F)),
    StableHlo.nullary main_cst_1 (constant S_ .f32 0x3C23D70A#32),
    StableHlo.TRef.nullary main_call1.cst (constant S_ .f32 0x00000000#32),
    StableHlo.TRef.unary main_call1.cst main_call1.v0 (broadcastInDim S50000x64 ![] bcast_S_S50000x64),
    StableHlo.TRef.binary (.of main_v32) main_call1.v0 main_call1.v1 (cmpf .oge),
    StableHlo.TRef.unary (.of main_cst_1) main_call1.v2 id,
    StableHlo.TRef.unary main_call1.v2 main_call1.v3 (broadcastInDim S50000x64 ![] bcast_S_S50000x64),
    StableHlo.TRef.binary main_call1.v3 (.of main_v32) main_call1.v4 mulf,
    StableHlo.TRef.ternary main_call1.v1 (.of main_v32) main_call1.v4 main_call1.call0.v0 select,
    StableHlo.unary main_arg10 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v34 main_v35 rfl shapeCasts_S1x64x64_S64x64,
    StableHlo.binary main_v33 main_v35 main_v36 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v37 ((extractStridedSlice S1x64 ![0, 0] · slices_S3x64_S1x64_0_0) : (⟨S3x64, .f32⟩ : BufTy).Contents (Elt F) → (⟨S1x64, .f32⟩ : BufTy).Contents (Elt F)),
    StableHlo.reshape main_v37 main_v38 rfl shapeCasts_S1x64_S64,
    StableHlo.unary main_v38 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S50000x64 ![0, 1] bcast_S1x64_S50000x64_0_1 : (⟨S1x64, .f32⟩ : BufTy).Contents (Elt F) → (⟨S50000x64, .f32⟩ : BufTy).Contents (Elt F)),
    StableHlo.binary main_v36 main_v40 main_v41 (addf : (⟨S50000x64, .f32⟩ : BufTy).Contents (Elt F) → (⟨S50000x64, .f32⟩ : BufTy).Contents (Elt F) → (⟨S50000x64, .f32⟩ : BufTy).Contents (Elt F)) ]

/-- Layer 0: the column means and the column variances. -/
abbrev wL0c : List (HloOp τ sig (Elt F)) :=
  [ StableHlo.nullary main_cst_2 (constant S_ .f32 0x00000000#32),
    StableHlo.binary main_v41 main_cst_2 main_v42 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_3 (constant S_ .f32 0x47435000#32),
    StableHlo.unary main_cst_3 main_v43 (broadcastInDim S64 ![] bcast_S_S64 : (⟨S_, .f32⟩ : BufTy).Contents (Elt F) → (⟨S64, .f32⟩ : BufTy).Contents (Elt F)),
    StableHlo.binary main_v42 main_v43 main_v44 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call2.cst (constant S_ .f32 0x00000000#32),
    StableHlo.TRef.binary (.of main_v41) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v41) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]

/-- Layer 0: the normalisation. -/
abbrev wL0d : List (HloOp τ sig (Elt F)) :=
  [ StableHlo.unary main_arg12 main_v46 ((extractStridedSlice S1x64 ![0, 0] · slices_S3x64_S1x64_0_0) : (⟨S3x64, .f32⟩ : BufTy).Contents (Elt F) → (⟨S1x64, .f32⟩ : BufTy).Contents (Elt F)),
    StableHlo.reshape main_v46 main_v47 rfl shapeCasts_S1x64_S64,
    StableHlo.unary main_v44 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S50000x64 ![0, 1] bcast_S1x64_S50000x64_0_1 : (⟨S1x64, .f32⟩ : BufTy).Contents (Elt F) → (⟨S50000x64, .f32⟩ : BufTy).Contents (Elt F)),
    StableHlo.binary main_v41 main_v49 main_v50 (subf : (⟨S50000x64, .f32⟩ : BufTy).Contents (Elt F) → (⟨S50000x64, .f32⟩ : BufTy).Contents (Elt F) → (⟨S50000x64, .f32⟩ : BufTy).Contents (Elt F)),
    StableHlo.unary main_v47 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S50000x64 ![0, 1] bcast_S1x64_S50000x64_0_1 : (⟨S1x64, .f32⟩ : BufTy).Contents (Elt F) → (⟨S50000x64, .f32⟩ : BufTy).Contents (Elt F)),
    StableHlo.binary main_v52 main_v50 main_v53 (mulf : (⟨S50000x64, .f32⟩ : BufTy).Contents (Elt F) → (⟨S50000x64, .f32⟩ : BufTy).Contents (Elt F) → (⟨S50000x64, .f32⟩ : BufTy).Contents (Elt F)),
    StableHlo.nullary main_cst_5 (constant S_ .f32 0x3727C5AC#32),
    StableHlo.unary main_cst_5 main_v54 (broadcastInDim S64 ![] bcast_S_S64 : (⟨S_, .f32⟩ : BufTy).Contents (Elt F) → (⟨S64, .f32⟩ : BufTy).Contents (Elt F)),
    StableHlo.binary main_v45 main_v54 main_v55 (addf : (⟨S64, .f32⟩ : BufTy).Contents (Elt F) → (⟨S64, .f32⟩ : BufTy).Contents (Elt F) → (⟨S64, .f32⟩ : BufTy).Contents (Elt F)),
    StableHlo.unary main_v55 main_v56 (Host.rsqrt : (⟨S64, .f32⟩ : BufTy).Contents (Elt F) → (⟨S64, .f32⟩ : BufTy).Contents (Elt F)),
    StableHlo.unary main_v56 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S50000x64 ![0, 1] bcast_S1x64_S50000x64_0_1 : (⟨S1x64, .f32⟩ : BufTy).Contents (Elt F) → (⟨S50000x64, .f32⟩ : BufTy).Contents (Elt F)),
    StableHlo.binary main_v53 main_v58 main_v59 (mulf : (⟨S50000x64, .f32⟩ : BufTy).Contents (Elt F) → (⟨S50000x64, .f32⟩ : BufTy).Contents (Elt F) → (⟨S50000x64, .f32⟩ : BufTy).Contents (Elt F)),
    StableHlo.unary main_arg13 main_v60 ((extractStridedSlice S1x64 ![0, 0] · slices_S3x64_S1x64_0_0) : (⟨S3x64, .f32⟩ : BufTy).Contents (Elt F) → (⟨S1x64, .f32⟩ : BufTy).Contents (Elt F)),
    StableHlo.reshape main_v60 main_v61 rfl shapeCasts_S1x64_S64,
    StableHlo.unary main_v61 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v59 main_v63 main_v64 (addf : (⟨S50000x64, .f32⟩ : BufTy).Contents (Elt F) → (⟨S50000x64, .f32⟩ : BufTy).Contents (Elt F) → (⟨S50000x64, .f32⟩ : BufTy).Contents (Elt F)) ]

/-- Layer 1: the wrapped source column, the gather, the edge messages, their sum at the destinations, the residual. -/
abbrev wL1a : List (HloOp τ sig (Elt F)) :=
  [ StableHlo.nullary main_c_6 (constantI S_ 32 0#32),
    StableHlo.unary main_c_6 main_v65 (broadcastInDim S1000000 ![] bcast_S_S1000000 : (⟨S_, .i32⟩ : BufTy).Contents (Elt F) → (⟨S1000000, .i32⟩ : BufTy).Contents (Elt F)),
    StableHlo.binary main_v9 main_v65 main_v66 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 50000#32),
    StableHlo.unary main_c_7 main_v67 (broadcastInDim S1000000 ![] bcast_S_S1000000 : (⟨S_, .i32⟩ : BufTy).Contents (Elt F) → (⟨S1000000, .i32⟩ : BufTy).Contents (Elt F)),
    StableHlo.binary main_v9 main_v67 main_v68 (addi : (⟨S1000000, .i32⟩ : BufTy).Contents (Elt F) → (⟨S1000000, .i32⟩ : BufTy).Contents (Elt F) → (⟨S1000000, .i32⟩ : BufTy).Contents (Elt F)),
    StableHlo.ternary main_v66 main_v68 main_v9 main_v69 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v69 main_v70 (broadcastInDim S1000000x1 ![0] bcast_S1000000_S1000000x1_0 : (⟨S1000000, .i32⟩ : BufTy).Contents (Elt F) → (⟨S1000000x1, .i32⟩ : BufTy).Contents (Elt F)),
    StableHlo.binary main_v64 main_v70 main_v71 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.binary main_v71 main_v7 main_v72 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call3.cst (constant S_ .f32 0x00000000#32),
    StableHlo.TRef.unary main_call3.cst main_call3.v0 (broadcastInDim S1000000x64 ![] bcast_S_S1000000x64),
    StableHlo.TRef.binary (.of main_v72) main_call3.v0 main_call3.v1 maximumf,
    StableHlo.nullary main_cst_8 (constant S_ .f32 0x00000000#32),
    StableHlo.unary main_cst_8 main_v74 (broadcastInDim S50000x64 ![] bcast_S_S50000x64 : (⟨S_, .f32⟩ : BufTy).Contents (Elt F) → (⟨S50000x64, .f32⟩ : BufTy).Contents (Elt F)),
    StableHlo.unary main_v11 main_v75 (broadcastInDim S1000000x1 ![0] bcast_S1000000_S1000000x1_0 : (⟨S1000000, .i32⟩ : BufTy).Contents (Elt F) → (⟨S1000000x1, .i32⟩ : BufTy).Contents (Elt F)),
    StableHlo.ternary main_v74 main_v75 main_v73 main_v76 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    StableHlo.binary main_v64 main_v76 main_v77 (addf : (⟨S50000x64, .f32⟩ : BufTy).Contents (Elt F) → (⟨S50000x64, .f32⟩ : BufTy).Contents (Elt F) → (⟨S50000x64, .f32⟩ : BufTy).Contents (Elt F)) ]

/-- Layer 1: the two-layer per-node map. -/
abbrev wL1b : List (HloOp τ sig (Elt F)) :=
  [ StableHlo.unary main_arg8 main_v78 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v78 main_v79 rfl shapeCasts_S1x64x64_S64x64,
    StableHlo.binary main_v77 main_v79 main_v80 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v81 ((extractStridedSlice S1x64 ![1, 0] · slices_S3x64_S1x64_1_0) : (⟨S3x64, .f32⟩ : BufTy).Contents (Elt F) → (⟨S1x64, .f32⟩ : BufTy).Contents (Elt F)),
    StableHlo.reshape main_v81 main_v82 rfl shapeCasts_S1x64_S64,
    StableHlo.unary main_v82 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S50000x64 ![0, 1] bcast_S1x64_S50000x64_0_1 : (⟨S1x64, .f32⟩ : BufTy).Contents (Elt F) → (⟨S50000x64, .f32⟩ : BufTy).Contents (Elt F)),
    StableHlo.binary main_v80 main_v84 main_v85 (addf : (⟨S50000x64, .f32⟩ : BufTy).Contents (Elt F) → (⟨S50000x64, .f32⟩ : BufTy).Contents (Elt F) → (⟨S50000x64, .f32⟩ : BufTy).Contents (Elt F)),
    StableHlo.nullary main_cst_9 (constant S_ .f32 0x3C23D70A#32),
    StableHlo.TRef.nullary main_call4.cst (constant S_ .f32 0x00000000#32),
    StableHlo.TRef.unary main_call4.cst main_call4.v0 (broadcastInDim S50000x64 ![] bcast_S_S50000x64),
    StableHlo.TRef.binary (.of main_v85) main_call4.v0 main_call4.v1 (cmpf .oge),
    StableHlo.TRef.unary (.of main_cst_9) main_call4.v2 id,
    StableHlo.TRef.unary main_call4.v2 main_call4.v3 (broadcastInDim S50000x64 ![] bcast_S_S50000x64),
    StableHlo.TRef.binary main_call4.v3 (.of main_v85) main_call4.v4 mulf,
    StableHlo.TRef.ternary main_call4.v1 (.of main_v85) main_call4.v4 main_call4.call0.v0 select,
    StableHlo.unary main_arg10 main_v87 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v87 main_v88 rfl shapeCasts_S1x64x64_S64x64,
    StableHlo.binary main_v86 main_v88 main_v89 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v90 ((extractStridedSlice S1x64 ![1, 0] · slices_S3x64_S1x64_1_0) : (⟨S3x64, .f32⟩ : BufTy).Contents (Elt F) → (⟨S1x64, .f32⟩ : BufTy).Contents (Elt F)),
    StableHlo.reshape main_v90 main_v91 rfl shapeCasts_S1x64_S64,
    StableHlo.unary main_v91 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v89 main_v93 main_v94 (addf : (⟨S50000x64, .f32⟩ : BufTy).Contents (Elt F) → (⟨S50000x64, .f32⟩ : BufTy).Contents (Elt F) → (⟨S50000x64, .f32⟩ : BufTy).Contents (Elt F)) ]

/-- Layer 1: the column means and the column variances. -/
abbrev wL1c : List (HloOp τ sig (Elt F)) :=
  [ StableHlo.nullary main_cst_10 (constant S_ .f32 0x00000000#32),
    StableHlo.binary main_v94 main_cst_10 main_v95 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_11 (constant S_ .f32 0x47435000#32),
    StableHlo.unary main_cst_11 main_v96 (broadcastInDim S64 ![] bcast_S_S64 : (⟨S_, .f32⟩ : BufTy).Contents (Elt F) → (⟨S64, .f32⟩ : BufTy).Contents (Elt F)),
    StableHlo.binary main_v95 main_v96 main_v97 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call5.cst (constant S_ .f32 0x00000000#32),
    StableHlo.TRef.binary (.of main_v94) main_call5.cst main_call5.v0 (fun x v => Host.reduceAdd x v reducesTo_S50000x64_S64_d0 h_S_),
    StableHlo.TRef.unary main_call5.v0 main_call5.v1 (broadcastInDim S1x64 ![1] bcast_S64_S1x64_1),
    StableHlo.TRef.nullary main_call5.cst_0 (constant S_ .f32 0x47435000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S50000x64 ![0, 1] bcast_S1x64_S50000x64_0_1),
    StableHlo.TRef.binary (.of main_v94) main_call5.v4 main_call5.v5 subf,
    StableHlo.TRef.binary main_call5.v5 main_call5.v5 main_call5.v6 mulf,
    StableHlo.TRef.unary (.of main_c_12) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b) ]

/-- Layer 1: the normalisation. -/
abbrev wL1d : List (HloOp τ sig (Elt F)) :=
  [ StableHlo.unary main_arg12 main_v99 ((extractStridedSlice S1x64 ![1, 0] · slices_S3x64_S1x64_1_0) : (⟨S3x64, .f32⟩ : BufTy).Contents (Elt F) → (⟨S1x64, .f32⟩ : BufTy).Contents (Elt F)),
    StableHlo.reshape main_v99 main_v100 rfl shapeCasts_S1x64_S64,
    StableHlo.unary main_v97 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v94 main_v102 main_v103 (subf : (⟨S50000x64, .f32⟩ : BufTy).Contents (Elt F) → (⟨S50000x64, .f32⟩ : BufTy).Contents (Elt F) → (⟨S50000x64, .f32⟩ : BufTy).Contents (Elt F)),
    StableHlo.unary main_v100 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v103 main_v106 (mulf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x3727C5AC#32),
    StableHlo.unary main_cst_13 main_v107 (broadcastInDim S64 ![] bcast_S_S64 : (⟨S_, .f32⟩ : BufTy).Contents (Elt F) → (⟨S64, .f32⟩ : BufTy).Contents (Elt F)),
    StableHlo.binary main_v98 main_v107 main_v108 (addf : (⟨S64, .f32⟩ : BufTy).Contents (Elt F) → (⟨S64, .f32⟩ : BufTy).Contents (Elt F) → (⟨S64, .f32⟩ : BufTy).Contents (Elt F)),
    StableHlo.unary main_v108 main_v109 (Host.rsqrt : (⟨S64, .f32⟩ : BufTy).Contents (Elt F) → (⟨S64, .f32⟩ : BufTy).Contents (Elt F)),
    StableHlo.unary main_v109 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S50000x64 ![0, 1] bcast_S1x64_S50000x64_0_1 : (⟨S1x64, .f32⟩ : BufTy).Contents (Elt F) → (⟨S50000x64, .f32⟩ : BufTy).Contents (Elt F)),
    StableHlo.binary main_v106 main_v111 main_v112 (mulf : (⟨S50000x64, .f32⟩ : BufTy).Contents (Elt F) → (⟨S50000x64, .f32⟩ : BufTy).Contents (Elt F) → (⟨S50000x64, .f32⟩ : BufTy).Contents (Elt F)),
    StableHlo.unary main_arg13 main_v113 ((extractStridedSlice S1x64 ![1, 0] · slices_S3x64_S1x64_1_0) : (⟨S3x64, .f32⟩ : BufTy).Contents (Elt F) → (⟨S1x64, .f32⟩ : BufTy).Contents (Elt F)),
    StableHlo.reshape main_v113 main_v114 rfl shapeCasts_S1x64_S64,
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S50000x64 ![0, 1] bcast_S1x64_S50000x64_0_1 : (⟨S1x64, .f32⟩ : BufTy).Contents (Elt F) → (⟨S50000x64, .f32⟩ : BufTy).Contents (Elt F)),
    StableHlo.binary main_v112 main_v116 main_v117 (addf : (⟨S50000x64, .f32⟩ : BufTy).Contents (Elt F) → (⟨S50000x64, .f32⟩ : BufTy).Contents (Elt F) → (⟨S50000x64, .f32⟩ : BufTy).Contents (Elt F)) ]

/-- Layer 2: the wrapped source column, the gather, the edge messages, their sum at the destinations, the residual. -/
abbrev wL2a : List (HloOp τ sig (Elt F)) :=
  [ StableHlo.nullary main_c_14 (constantI S_ 32 0#32),
    StableHlo.unary main_c_14 main_v118 (broadcastInDim S1000000 ![] bcast_S_S1000000 : (⟨S_, .i32⟩ : BufTy).Contents (Elt F) → (⟨S1000000, .i32⟩ : BufTy).Contents (Elt F)),
    StableHlo.binary main_v9 main_v118 main_v119 (cmpi .slt : (⟨S1000000, .i32⟩ : BufTy).Contents (Elt F) → (⟨S1000000, .i32⟩ : BufTy).Contents (Elt F) → (⟨S1000000, .i1⟩ : BufTy).Contents (Elt F)),
    StableHlo.nullary main_c_15 (constantI S_ 32 50000#32),
    StableHlo.unary main_c_15 main_v120 (broadcastInDim S1000000 ![] bcast_S_S1000000 : (⟨S_, .i32⟩ : BufTy).Contents (Elt F) → (⟨S1000000, .i32⟩ : BufTy).Contents (Elt F)),
    StableHlo.binary main_v9 main_v120 main_v121 (addi : (⟨S1000000, .i32⟩ : BufTy).Contents (Elt F) → (⟨S1000000, .i32⟩ : BufTy).Contents (Elt F) → (⟨S1000000, .i32⟩ : BufTy).Contents (Elt F)),
    StableHlo.ternary main_v119 main_v121 main_v9 main_v122 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v122 main_v123 (broadcastInDim S1000000x1 ![0] bcast_S1000000_S1000000x1_0 : (⟨S1000000, .i32⟩ : BufTy).Contents (Elt F) → (⟨S1000000x1, .i32⟩ : BufTy).Contents (Elt F)),
    StableHlo.binary main_v117 main_v123 main_v124 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.binary main_v124 main_v7 main_v125 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call6.cst (constant S_ .f32 0x00000000#32),
    StableHlo.TRef.unary main_call6.cst main_call6.v0 (broadcastInDim S1000000x64 ![] bcast_S_S1000000x64),
    StableHlo.TRef.binary (.of main_v125) main_call6.v0 main_call6.v1 maximumf,
    StableHlo.nullary main_cst_16 (constant S_ .f32 0x00000000#32),
    StableHlo.unary main_cst_16 main_v127 (broadcastInDim S50000x64 ![] bcast_S_S50000x64 : (⟨S_, .f32⟩ : BufTy).Contents (Elt F) → (⟨S50000x64, .f32⟩ : BufTy).Contents (Elt F)),
    StableHlo.unary main_v11 main_v128 (broadcastInDim S1000000x1 ![0] bcast_S1000000_S1000000x1_0 : (⟨S1000000, .i32⟩ : BufTy).Contents (Elt F) → (⟨S1000000x1, .i32⟩ : BufTy).Contents (Elt F)),
    StableHlo.ternary main_v127 main_v128 main_v126 main_v129 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    StableHlo.binary main_v117 main_v129 main_v130 (addf : (⟨S50000x64, .f32⟩ : BufTy).Contents (Elt F) → (⟨S50000x64, .f32⟩ : BufTy).Contents (Elt F) → (⟨S50000x64, .f32⟩ : BufTy).Contents (Elt F)) ]

/-- Layer 2: the two-layer per-node map. -/
abbrev wL2b : List (HloOp τ sig (Elt F)) :=
  [ StableHlo.unary main_arg8 main_v131 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v131 main_v132 rfl shapeCasts_S1x64x64_S64x64,
    StableHlo.binary main_v130 main_v132 main_v133 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v134 ((extractStridedSlice S1x64 ![2, 0] · slices_S3x64_S1x64_2_0) : (⟨S3x64, .f32⟩ : BufTy).Contents (Elt F) → (⟨S1x64, .f32⟩ : BufTy).Contents (Elt F)),
    StableHlo.reshape main_v134 main_v135 rfl shapeCasts_S1x64_S64,
    StableHlo.unary main_v135 main_v136 (broadcastInDim S1x64 ![1] bcast_S64_S1x64_1 : (⟨S64, .f32⟩ : BufTy).Contents (Elt F) → (⟨S1x64, .f32⟩ : BufTy).Contents (Elt F)),
    StableHlo.unary main_v136 main_v137 (broadcastInDim S50000x64 ![0, 1] bcast_S1x64_S50000x64_0_1 : (⟨S1x64, .f32⟩ : BufTy).Contents (Elt F) → (⟨S50000x64, .f32⟩ : BufTy).Contents (Elt F)),
    StableHlo.binary main_v133 main_v137 main_v138 (addf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3C23D70A#32),
    StableHlo.TRef.nullary main_call7.cst (constant S_ .f32 0x00000000#32),
    StableHlo.TRef.unary main_call7.cst main_call7.v0 (broadcastInDim S50000x64 ![] bcast_S_S50000x64),
    StableHlo.TRef.binary (.of main_v138) main_call7.v0 main_call7.v1 (cmpf .oge),
    StableHlo.TRef.unary (.of main_cst_17) main_call7.v2 id,
    StableHlo.TRef.unary main_call7.v2 main_call7.v3 (broadcastInDim S50000x64 ![] bcast_S_S50000x64),
    StableHlo.TRef.binary main_call7.v3 (.of main_v138) main_call7.v4 mulf,
    StableHlo.TRef.ternary main_call7.v1 (.of main_v138) main_call7.v4 main_call7.call0.v0 select,
    StableHlo.unary main_arg10 main_v140 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v140 main_v141 rfl shapeCasts_S1x64x64_S64x64,
    StableHlo.binary main_v139 main_v141 main_v142 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v143 ((extractStridedSlice S1x64 ![2, 0] · slices_S3x64_S1x64_2_0) : (⟨S3x64, .f32⟩ : BufTy).Contents (Elt F) → (⟨S1x64, .f32⟩ : BufTy).Contents (Elt F)),
    StableHlo.reshape main_v143 main_v144 rfl shapeCasts_S1x64_S64,
    StableHlo.unary main_v144 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S50000x64 ![0, 1] bcast_S1x64_S50000x64_0_1 : (⟨S1x64, .f32⟩ : BufTy).Contents (Elt F) → (⟨S50000x64, .f32⟩ : BufTy).Contents (Elt F)),
    StableHlo.binary main_v142 main_v146 main_v147 (addf : (⟨S50000x64, .f32⟩ : BufTy).Contents (Elt F) → (⟨S50000x64, .f32⟩ : BufTy).Contents (Elt F) → (⟨S50000x64, .f32⟩ : BufTy).Contents (Elt F)) ]

/-- Layer 2: the column means and the column variances. -/
abbrev wL2c : List (HloOp τ sig (Elt F)) :=
  [ StableHlo.nullary main_cst_18 (constant S_ .f32 0x00000000#32),
    StableHlo.binary main_v147 main_cst_18 main_v148 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_19 (constant S_ .f32 0x47435000#32),
    StableHlo.unary main_cst_19 main_v149 (broadcastInDim S64 ![] bcast_S_S64 : (⟨S_, .f32⟩ : BufTy).Contents (Elt F) → (⟨S64, .f32⟩ : BufTy).Contents (Elt F)),
    StableHlo.binary main_v148 main_v149 main_v150 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call8.cst (constant S_ .f32 0x00000000#32),
    StableHlo.TRef.binary (.of main_v147) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v147) main_call8.v4 main_call8.v5 subf,
    StableHlo.TRef.binary main_call8.v5 main_call8.v5 main_call8.v6 mulf,
    StableHlo.TRef.unary (.of main_c_20) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b) ]

/-- Layer 2: the normalisation. -/
abbrev wL2d : List (HloOp τ sig (Elt F)) :=
  [ StableHlo.unary main_arg12 main_v152 ((extractStridedSlice S1x64 ![2, 0] · slices_S3x64_S1x64_2_0) : (⟨S3x64, .f32⟩ : BufTy).Contents (Elt F) → (⟨S1x64, .f32⟩ : BufTy).Contents (Elt F)),
    StableHlo.reshape main_v152 main_v153 rfl shapeCasts_S1x64_S64,
    StableHlo.unary main_v150 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S50000x64 ![0, 1] bcast_S1x64_S50000x64_0_1 : (⟨S1x64, .f32⟩ : BufTy).Contents (Elt F) → (⟨S50000x64, .f32⟩ : BufTy).Contents (Elt F)),
    StableHlo.binary main_v147 main_v155 main_v156 (subf : (⟨S50000x64, .f32⟩ : BufTy).Contents (Elt F) → (⟨S50000x64, .f32⟩ : BufTy).Contents (Elt F) → (⟨S50000x64, .f32⟩ : BufTy).Contents (Elt F)),
    StableHlo.unary main_v153 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S50000x64 ![0, 1] bcast_S1x64_S50000x64_0_1 : (⟨S1x64, .f32⟩ : BufTy).Contents (Elt F) → (⟨S50000x64, .f32⟩ : BufTy).Contents (Elt F)),
    StableHlo.binary main_v158 main_v156 main_v159 (mulf : (⟨S50000x64, .f32⟩ : BufTy).Contents (Elt F) → (⟨S50000x64, .f32⟩ : BufTy).Contents (Elt F) → (⟨S50000x64, .f32⟩ : BufTy).Contents (Elt F)),
    StableHlo.nullary main_cst_21 (constant S_ .f32 0x3727C5AC#32),
    StableHlo.unary main_cst_21 main_v160 (broadcastInDim S64 ![] bcast_S_S64 : (⟨S_, .f32⟩ : BufTy).Contents (Elt F) → (⟨S64, .f32⟩ : BufTy).Contents (Elt F)),
    StableHlo.binary main_v151 main_v160 main_v161 (addf : (⟨S64, .f32⟩ : BufTy).Contents (Elt F) → (⟨S64, .f32⟩ : BufTy).Contents (Elt F) → (⟨S64, .f32⟩ : BufTy).Contents (Elt F)),
    StableHlo.unary main_v161 main_v162 (Host.rsqrt : (⟨S64, .f32⟩ : BufTy).Contents (Elt F) → (⟨S64, .f32⟩ : BufTy).Contents (Elt F)),
    StableHlo.unary main_v162 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S50000x64 ![0, 1] bcast_S1x64_S50000x64_0_1 : (⟨S1x64, .f32⟩ : BufTy).Contents (Elt F) → (⟨S50000x64, .f32⟩ : BufTy).Contents (Elt F)),
    StableHlo.binary main_v159 main_v164 main_v165 (mulf : (⟨S50000x64, .f32⟩ : BufTy).Contents (Elt F) → (⟨S50000x64, .f32⟩ : BufTy).Contents (Elt F) → (⟨S50000x64, .f32⟩ : BufTy).Contents (Elt F)),
    StableHlo.unary main_arg13 main_v166 ((extractStridedSlice S1x64 ![2, 0] · slices_S3x64_S1x64_2_0) : (⟨S3x64, .f32⟩ : BufTy).Contents (Elt F) → (⟨S1x64, .f32⟩ : BufTy).Contents (Elt F)),
    StableHlo.reshape main_v166 main_v167 rfl shapeCasts_S1x64_S64,
    StableHlo.unary main_v167 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S50000x64 ![0, 1] bcast_S1x64_S50000x64_0_1 : (⟨S1x64, .f32⟩ : BufTy).Contents (Elt F) → (⟨S50000x64, .f32⟩ : BufTy).Contents (Elt F)),
    StableHlo.binary main_v165 main_v169 main_v170 (addf : (⟨S50000x64, .f32⟩ : BufTy).Contents (Elt F) → (⟨S50000x64, .f32⟩ : BufTy).Contents (Elt F) → (⟨S50000x64, .f32⟩ : BufTy).Contents (Elt F)) ]

/-- The pooling by graph and the row normalisation. -/
abbrev wT : List (HloOp τ sig (Elt F)) :=
  [ StableHlo.nullary main_cst_22 (constant S_ .f32 0x3F800000#32),
    StableHlo.unary main_cst_22 main_v171 (broadcastInDim S50000 ![] bcast_S_S50000 : (⟨S_, .f32⟩ : BufTy).Contents (Elt F) → (⟨S50000, .f32⟩ : BufTy).Contents (Elt F)),
    StableHlo.nullary main_cst_23 (constant S_ .f32 0x00000000#32),
    StableHlo.unary main_cst_23 main_v172 (broadcastInDim S64 ![] bcast_S_S64 : (⟨S_, .f32⟩ : BufTy).Contents (Elt F) → (⟨S64, .f32⟩ : BufTy).Contents (Elt F)),
    StableHlo.unary main_arg3 main_v173 (broadcastInDim S50000x1 ![0] bcast_S50000_S50000x1_0 : (⟨S50000, .i32⟩ : BufTy).Contents (Elt F) → (⟨S50000x1, .i32⟩ : BufTy).Contents (Elt F)),
    StableHlo.ternary main_v172 main_v173 main_v171 main_v174 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_24 (constant S_ .f32 0x00000000#32),
    StableHlo.unary main_cst_24 main_v175 (broadcastInDim S64x64 ![] bcast_S_S64x64 : (⟨S_, .f32⟩ : BufTy).Contents (Elt F) → (⟨S64x64, .f32⟩ : BufTy).Contents (Elt F)),
    StableHlo.unary main_arg3 main_v176 (broadcastInDim S50000x1 ![0] bcast_S50000_S50000x1_0 : (⟨S50000, .i32⟩ : BufTy).Contents (Elt F) → (⟨S50000x1, .i32⟩ : BufTy).Contents (Elt F)),
    StableHlo.ternary main_v175 main_v176 main_v170 main_v177 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)),
    StableHlo.nullary main_cst_25 (constant S_ .f32 0x3F800000#32),
    StableHlo.unary main_cst_25 main_v178 (broadcastInDim S64 ![] bcast_S_S64 : (⟨S_, .f32⟩ : BufTy).Contents (Elt F) → (⟨S64, .f32⟩ : BufTy).Contents (Elt F)),
    StableHlo.binary main_v174 main_v178 main_v179 (maximumf : (⟨S64, .f32⟩ : BufTy).Contents (Elt F) → (⟨S64, .f32⟩ : BufTy).Contents (Elt F) → (⟨S64, .f32⟩ : BufTy).Contents (Elt F)),
    StableHlo.unary main_v179 main_v180 (broadcastInDim S64x1 ![0] bcast_S64_S64x1_0 : (⟨S64, .f32⟩ : BufTy).Contents (Elt F) → (⟨S64x1, .f32⟩ : BufTy).Contents (Elt F)),
    StableHlo.unary main_v180 main_v181 (broadcastInDim S64x64 ![0, 1] bcast_S64x1_S64x64_0_1 : (⟨S64x1, .f32⟩ : BufTy).Contents (Elt F) → (⟨S64x64, .f32⟩ : BufTy).Contents (Elt F)),
    StableHlo.binary main_v177 main_v181 main_v182 (Host.divf : (⟨S64x64, .f32⟩ : BufTy).Contents (Elt F) → (⟨S64x64, .f32⟩ : BufTy).Contents (Elt F) → (⟨S64x64, .f32⟩ : BufTy).Contents (Elt F)),
    StableHlo.TRef.binary (.of main_v182) (.of main_v182) main_call9.v0 mulf,
    StableHlo.TRef.nullary main_call9.cst (constant S_ .f32 0x00000000#32),
    StableHlo.TRef.binary main_call9.v0 main_call9.cst main_call9.v1 (fun x v => Host.reduceAdd x v reducesTo_S64x64_S64_d1 h_S_),
    StableHlo.TRef.unary main_call9.v1 main_call9.v2 (broadcastInDim S64x1 ![0] bcast_S64_S64x1_0),
    StableHlo.TRef.unary main_call9.v2 main_call9.v3 Host.sqrt,
    StableHlo.nullary main_cst_26 (constant S_ .f32 0x2B8CBCCC#32),
    StableHlo.unary main_cst_26 main_v184 (broadcastInDim S64x1 ![] bcast_S_S64x1 : (⟨S_, .f32⟩ : BufTy).Contents (Elt F) → (⟨S64x1, .f32⟩ : BufTy).Contents (Elt F)),
    StableHlo.binary main_v183 main_v184 main_v185 (maximumf : (⟨S64x1, .f32⟩ : BufTy).Contents (Elt F) → (⟨S64x1, .f32⟩ : BufTy).Contents (Elt F) → (⟨S64x1, .f32⟩ : BufTy).Contents (Elt F)),
    StableHlo.unary main_v185 main_v186 (broadcastInDim S64x64 ![0, 1] bcast_S64x1_S64x64_0_1 : (⟨S64x1, .f32⟩ : BufTy).Contents (Elt F) → (⟨S64x64, .f32⟩ : BufTy).Contents (Elt F)),
    StableHlo.binary main_v182 main_v186 main_v187 (Host.divf : (⟨S64x64, .f32⟩ : BufTy).Contents (Elt F) → (⟨S64x64, .f32⟩ : BufTy).Contents (Elt F) → (⟨S64x64, .f32⟩ : BufTy).Contents (Elt F)) ]

set_option maxRecDepth 65536 in
set_option maxHeartbeats 4000000 in
/-- The four printed windows, re-cut: both sides are the same literal list once the concatenations are carried out. -/
theorem ops_split : (ops : List (HloOp τ sig (Elt F))) = wA ++ wL0a ++ wL0b ++ wL0c ++ wL0d ++ wL1a ++ wL1b ++ wL1c ++ wL1d ++ wL2a ++ wL2b ++ wL2c ++ wL2d ++ wT := by
  simp only [ops, ops_part0, ops_part1, ops_part2, ops_part3, wA, wL0a, wL0b, wL0c, wL0d, wL1a, wL1b, wL1c, wL1d, wL2a, wL2b, wL2c, wL2d, wT, List.cons_append, List.nil_append]

/-- The buffers window A writes. -/
abbrev wA_W : List (Ref sig .tc) := [main_v0, main_v1, main_v2, main_v3, main_v4, main_v5, main_v6, main_v7, main_v8, main_v9, main_v10, main_v11]
set_option maxRecDepth 8192 in
theorem wA_writes : (wA : List (HloOp τ sig (Elt F))).Forall fun op => op.writes ⊆ (wA_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list⟩
/-- A buffer window A does not write keeps its contents through it. -/
theorem wA_keep (V : Valuation τ sig (Elt F)) (r : Ref sig .tc) (h : r ∉ wA_W) :
    after wA V (Proc.devRef .tc r) = V (Proc.devRef .tc r) :=
  after_of_writes_sub wA V wA_writes h

/-- The buffers window L0a writes. -/
abbrev wL0a_W : List (Ref sig .tc) := [main_c, main_v12, main_v13, main_c_0, main_v14, main_v15, main_v16, main_v17, main_v18, main_v19, main_call0_cst, main_call0_v0, main_v20, main_cst, main_v21, main_v22, main_v23, main_v24]
set_option maxRecDepth 8192 in
theorem wL0a_writes : (wL0a : List (HloOp τ sig (Elt F))).Forall fun op => op.writes ⊆ (wL0a_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L0a does not write keeps its contents through it. -/
theorem wL0a_keep (V : Valuation τ sig (Elt F)) (r : Ref sig .tc) (h : r ∉ wL0a_W) :
    after wL0a V (Proc.devRef .tc r) = V (Proc.devRef .tc r) :=
  after_of_writes_sub wL0a V wL0a_writes h

/-- The buffers window L0b writes. -/
abbrev wL0b_W : List (Ref sig .tc) := [main_v25, main_v26, main_v27, main_v28, main_v29, main_v30, main_v31, main_v32, main_cst_1, main_call1_cst, main_call1_v0, main_call1_v1, main_call1_v2, main_call1_v3, main_call1_v4, main_v33, main_v34, main_v35, main_v36, main_v37, main_v38, main_v39, main_v40, main_v41]
set_option maxRecDepth 8192 in
theorem wL0b_writes : (wL0b : List (HloOp τ sig (Elt F))).Forall fun op => op.writes ⊆ (wL0b_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L0b does not write keeps its contents through it. -/
theorem wL0b_keep (V : Valuation τ sig (Elt F)) (r : Ref sig .tc) (h : r ∉ wL0b_W) :
    after wL0b V (Proc.devRef .tc r) = V (Proc.devRef .tc r) :=
  after_of_writes_sub wL0b V wL0b_writes h

/-- The buffers window L0c writes. -/
abbrev wL0c_W : List (Ref sig .tc) := [main_cst_2, main_v42, main_cst_3, main_v43, main_v44, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v45]
set_option maxRecDepth 8192 in
theorem wL0c_writes : (wL0c : List (HloOp τ sig (Elt F))).Forall fun op => op.writes ⊆ (wL0c_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L0c does not write keeps its contents through it. -/
theorem wL0c_keep (V : Valuation τ sig (Elt F)) (r : Ref sig .tc) (h : r ∉ wL0c_W) :
    after wL0c V (Proc.devRef .tc r) = V (Proc.devRef .tc r) :=
  after_of_writes_sub wL0c V wL0c_writes h

/-- The buffers window L0d writes. -/
abbrev wL0d_W : List (Ref sig .tc) := [main_v46, main_v47, main_v48, main_v49, main_v50, main_v51, main_v52, main_v53, main_cst_5, main_v54, main_v55, main_v56, main_v57, main_v58, main_v59, main_v60, main_v61, main_v62, main_v63, main_v64]
set_option maxRecDepth 8192 in
theorem wL0d_writes : (wL0d : List (HloOp τ sig (Elt F))).Forall fun op => op.writes ⊆ (wL0d_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L0d does not write keeps its contents through it. -/
theorem wL0d_keep (V : Valuation τ sig (Elt F)) (r : Ref sig .tc) (h : r ∉ wL0d_W) :
    after wL0d V (Proc.devRef .tc r) = V (Proc.devRef .tc r) :=
  after_of_writes_sub wL0d V wL0d_writes h

/-- The buffers window L1a writes. -/
abbrev wL1a_W : List (Ref sig .tc) := [main_c_6, main_v65, main_v66, main_c_7, main_v67, main_v68, main_v69, main_v70, main_v71, main_v72, main_call3_cst, main_call3_v0, main_v73, main_cst_8, main_v74, main_v75, main_v76, main_v77]
set_option maxRecDepth 8192 in
theorem wL1a_writes : (wL1a : List (HloOp τ sig (Elt F))).Forall fun op => op.writes ⊆ (wL1a_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L1a does not write keeps its contents through it. -/
theorem wL1a_keep (V : Valuation τ sig (Elt F)) (r : Ref sig .tc) (h : r ∉ wL1a_W) :
    after wL1a V (Proc.devRef .tc r) = V (Proc.devRef .tc r) :=
  after_of_writes_sub wL1a V wL1a_writes h

/-- The buffers window L1b writes. -/
abbrev wL1b_W : List (Ref sig .tc) := [main_v78, main_v79, main_v80, main_v81, main_v82, main_v83, main_v84, main_v85, main_cst_9, main_call4_cst, main_call4_v0, main_call4_v1, main_call4_v2, main_call4_v3, main_call4_v4, main_v86, main_v87, main_v88, main_v89, main_v90, main_v91, main_v92, main_v93, main_v94]
set_option maxRecDepth 8192 in
theorem wL1b_writes : (wL1b : List (HloOp τ sig (Elt F))).Forall fun op => op.writes ⊆ (wL1b_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L1b does not write keeps its contents through it. -/
theorem wL1b_keep (V : Valuation τ sig (Elt F)) (r : Ref sig .tc) (h : r ∉ wL1b_W) :
    after wL1b V (Proc.devRef .tc r) = V (Proc.devRef .tc r) :=
  after_of_writes_sub wL1b V wL1b_writes h

/-- The buffers window L1c writes. -/
abbrev wL1c_W : List (Ref sig .tc) := [main_cst_10, main_v95, main_cst_11, main_v96, main_v97, main_c_12, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v98]
set_option maxRecDepth 8192 in
theorem wL1c_writes : (wL1c : List (HloOp τ sig (Elt F))).Forall fun op => op.writes ⊆ (wL1c_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L1c does not write keeps its contents through it. -/
theorem wL1c_keep (V : Valuation τ sig (Elt F)) (r : Ref sig .tc) (h : r ∉ wL1c_W) :
    after wL1c V (Proc.devRef .tc r) = V (Proc.devRef .tc r) :=
  after_of_writes_sub wL1c V wL1c_writes h

/-- The buffers window L1d writes. -/
abbrev wL1d_W : List (Ref sig .tc) := [main_v99, main_v100, main_v101, main_v102, main_v103, main_v104, main_v105, main_v106, main_cst_13, main_v107, main_v108, main_v109, main_v110, main_v111, main_v112, main_v113, main_v114, main_v115, main_v116, main_v117]
set_option maxRecDepth 8192 in
theorem wL1d_writes : (wL1d : List (HloOp τ sig (Elt F))).Forall fun op => op.writes ⊆ (wL1d_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L1d does not write keeps its contents through it. -/
theorem wL1d_keep (V : Valuation τ sig (Elt F)) (r : Ref sig .tc) (h : r ∉ wL1d_W) :
    after wL1d V (Proc.devRef .tc r) = V (Proc.devRef .tc r) :=
  after_of_writes_sub wL1d V wL1d_writes h

/-- The buffers window L2a writes. -/
abbrev wL2a_W : List (Ref sig .tc) := [main_c_14, main_v118, main_v119, main_c_15, main_v120, main_v121, main_v122, main_v123, main_v124, main_v125, main_call6_cst, main_call6_v0, main_v126, main_cst_16, main_v127, main_v128, main_v129, main_v130]
set_option maxRecDepth 8192 in
theorem wL2a_writes : (wL2a : List (HloOp τ sig (Elt F))).Forall fun op => op.writes ⊆ (wL2a_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L2a does not write keeps its contents through it. -/
theorem wL2a_keep (V : Valuation τ sig (Elt F)) (r : Ref sig .tc) (h : r ∉ wL2a_W) :
    after wL2a V (Proc.devRef .tc r) = V (Proc.devRef .tc r) :=
  after_of_writes_sub wL2a V wL2a_writes h

/-- The buffers window L2b writes. -/
abbrev wL2b_W : List (Ref sig .tc) := [main_v131, main_v132, main_v133, main_v134, main_v135, main_v136, main_v137, main_v138, main_cst_17, main_call7_cst, main_call7_v0, main_call7_v1, main_call7_v2, main_call7_v3, main_call7_v4, main_v139, main_v140, main_v141, main_v142, main_v143, main_v144, main_v145, main_v146, main_v147]
set_option maxRecDepth 8192 in
theorem wL2b_writes : (wL2b : List (HloOp τ sig (Elt F))).Forall fun op => op.writes ⊆ (wL2b_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L2b does not write keeps its contents through it. -/
theorem wL2b_keep (V : Valuation τ sig (Elt F)) (r : Ref sig .tc) (h : r ∉ wL2b_W) :
    after wL2b V (Proc.devRef .tc r) = V (Proc.devRef .tc r) :=
  after_of_writes_sub wL2b V wL2b_writes h

/-- The buffers window L2c writes. -/
abbrev wL2c_W : List (Ref sig .tc) := [main_cst_18, main_v148, main_cst_19, main_v149, main_v150, main_c_20, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v151]
set_option maxRecDepth 8192 in
theorem wL2c_writes : (wL2c : List (HloOp τ sig (Elt F))).Forall fun op => op.writes ⊆ (wL2c_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L2c does not write keeps its contents through it. -/
theorem wL2c_keep (V : Valuation τ sig (Elt F)) (r : Ref sig .tc) (h : r ∉ wL2c_W) :
    after wL2c V (Proc.devRef .tc r) = V (Proc.devRef .tc r) :=
  after_of_writes_sub wL2c V wL2c_writes h

/-- The buffers window L2d writes. -/
abbrev wL2d_W : List (Ref sig .tc) := [main_v152, main_v153, main_v154, main_v155, main_v156, main_v157, main_v158, main_v159, main_cst_21, main_v160, main_v161, main_v162, main_v163, main_v164, main_v165, main_v166, main_v167, main_v168, main_v169, main_v170]
set_option maxRecDepth 8192 in
theorem wL2d_writes : (wL2d : List (HloOp τ sig (Elt F))).Forall fun op => op.writes ⊆ (wL2d_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window L2d does not write keeps its contents through it. -/
theorem wL2d_keep (V : Valuation τ sig (Elt F)) (r : Ref sig .tc) (h : r ∉ wL2d_W) :
    after wL2d V (Proc.devRef .tc r) = V (Proc.devRef .tc r) :=
  after_of_writes_sub wL2d V wL2d_writes h

/-- The buffers window T writes. -/
abbrev wT_W : List (Ref sig .tc) := [main_cst_22, main_v171, main_cst_23, main_v172, main_v173, main_v174, main_cst_24, main_v175, main_v176, main_v177, main_cst_25, main_v178, main_v179, main_v180, main_v181, main_v182, main_call9_v0, main_call9_cst, main_call9_v1, main_call9_v2, main_v183, main_cst_26, main_v184, main_v185, main_v186, main_v187]
set_option maxRecDepth 8192 in
theorem wT_writes : (wT : List (HloOp τ sig (Elt F))).Forall fun op => op.writes ⊆ (wT_W.map (Proc.devRef (τ := τ) .tc)).toFinset := by
  simp only [List.Forall]
  exact ⟨by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list,
    by in_list⟩
/-- A buffer window T does not write keeps its contents through it. -/
theorem wT_keep (V : Valuation τ sig (Elt F)) (r : Ref sig .tc) (h : r ∉ wT_W) :
    after wT V (Proc.devRef .tc r) = V (Proc.devRef .tc r) :=
  after_of_writes_sub wT V wT_writes h

end Cert.ReferenceIdeal.RefValue

end
-- ==== Proof.RefRun.Terms.lean ====
/-
  The reference program's result as ONE function of its fourteen argument arrays, at the ideal instance (every float
  an extended real, every operation exact), written layer by layer with the operations' own terms:

    h0 = x · Wp + bp   on the 50000 nodes,        e0 = ef · We + be   on the 1000000 edges,
    three layers:   z  = h + segment-sum at dst of  max (h[src] + e, 0)
                    z2 = leaky (z · W₁ + b₁) · W₂ + b₂
                    h' = γ · (z2 − μ) · rsqrt (var + ε) + β ,   μ = (Σₙ z2) / N ,   var = (Σₙ (z2 − μ)²) / N ,
    the tail:       the per-graph sums of h₃ (scatter-add at batch) divided by max (count, 1), each row then divided
                    by max (its Euclidean norm, 1e-12).

  src is the first row of the edge index wrapped into range (a negative index has 50000 added), dst its second row.
  Layer l reads slice l of each stacked parameter array.
-/
import proofs.«104584_j17154099380304_2_alg».proof.Proof.Spec

noncomputable section

namespace Cert.ReferenceIdeal.RefValue

open Cert.ReferenceIdeal Cert.ReferenceIdeal.Facts₀ Cert.ReferenceIdeal.Facts
open Idealize.ShloMosaic
open Cert.Spec (NV EV WM RowV ColV bN bE row zeroS)

/-- The stacked [3,64,64] weights and [3,64] vectors. -/
abbrev W3 := FVec Ideal S3x64x64 .f32
abbrev V3 := FVec Ideal S3x64 .f32
/-- An edge-index column [1000000,1]. -/
abbrev IdxCol := IVec S1000000x1 32

/-! ## The input maps and the index columns -/

/-- h0 = x · Wp + bp. -/
def h0 (a0 : NV) (a4 : WM) (a5 : ColV) : NV := Cert.Spec.linN a0 a4 (row a5)
/-- e0 = ef · We + be. -/
def e0 (a1 : EV) (a6 : WM) (a7 : ColV) : EV := Cert.Spec.linE a1 a6 (row a7)

/-- The first row of the edge index, as a [1000000] vector. -/
def rawSrc (a2 : IVec S2x1000000 32) : IVec S1000000 32 :=
  shapeCast S1000000 (extractStridedSlice S1x1000000 ![0, 0] a2 slices_S2x1000000_S1x1000000_0_0) shapeCasts_S1x1000000_S1000000
/-- The second row of the edge index, as a [1000000] vector. -/
def rawDst (a2 : IVec S2x1000000 32) : IVec S1000000 32 :=
  shapeCast S1000000 (extractStridedSlice S1x1000000 ![1, 0] a2 slices_S2x1000000_S1x1000000_1_0) shapeCasts_S1x1000000_S1000000
/-- A source vector wrapped into range (50000 added where negative), as the [1000000,1] column the gather takes. -/
def srcOf (s : IVec S1000000 32) : IdxCol :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 50000#32))) s)
/-- A destination vector as the [1000000,1] column the scatter takes. -/
def dstOf (d : IVec S1000000 32) : IdxCol := broadcastInDim S1000000x1 ![0] bcast_S1000000_S1000000x1_0 d
/-- The gather's index column. -/
def srcIdx (a2 : IVec S2x1000000 32) : IdxCol := srcOf (rawSrc a2)
/-- The scatter's index column. -/
def dstIdx (a2 : IVec S2x1000000 32) : IdxCol := dstOf (rawDst a2)

/-! ## One layer -/

/-- z = h + Σ_{edges into a node} max (h[src] + e, 0). -/
def aggOf (h : NV) (e : EV) (si di : IdxCol) : NV :=
  addf h (Host.scatterAdd (F := Ideal) scatter_S50000x64_S1000000x1_S1000000x64_1_0_0_1
    (broadcastInDim S50000x64 ![] bcast_S_S50000x64 zeroS) di
    (Cert.Spec.msg (Host.gather gather_S50000x64_S1000000x1_S1000000x64_1_0_n_n_0_1_164 h si) e))

/-- Slice l of a stacked weight array as a [64,64] matrix. -/
def wSlice0 (a : W3) : WM := shapeCast S64x64 (extractStridedSlice S1x64x64 ![0, 0, 0] a slices_S3x64x64_S1x64x64_0_0_0) shapeCasts_S1x64x64_S64x64
def wSlice1 (a : W3) : WM := shapeCast S64x64 (extractStridedSlice S1x64x64 ![1, 0, 0] a slices_S3x64x64_S1x64x64_1_0_0) shapeCasts_S1x64x64_S64x64
def wSlice2 (a : W3) : WM := shapeCast S64x64 (extractStridedSlice S1x64x64 ![2, 0, 0] a slices_S3x64x64_S1x64x64_2_0_0) shapeCasts_S1x64x64_S64x64
/-- Slice l of a stacked vector array as a [64] vector. -/
def vSlice0 (a : V3) : ColV := shapeCast S64 (extractStridedSlice S1x64 ![0, 0] a slices_S3x64_S1x64_0_0) shapeCasts_S1x64_S64
def vSlice1 (a : V3) : ColV := shapeCast S64 (extractStridedSlice S1x64 ![1, 0] a slices_S3x64_S1x64_1_0) shapeCasts_S1x64_S64
def vSlice2 (a : V3) : ColV := shapeCast S64 (extractStridedSlice S1x64 ![2, 0] a slices_S3x64_S1x64_2_0) shapeCasts_S1x64_S64

/-- The column means (Σₙ z2) / 50000. -/
def meanOf (z2 : NV) : ColV :=
  Host.divf (Cert.Spec.colSum z2) (broadcastInDim S64 ![] bcast_S_S64 (constant (F := Ideal) S_ .f32 0x47435000#32))

/-- The column variances as the reference computes them: with μ' = (Σₙ z2) / 50000 as a [1,64] row, the sums
    Σₙ (z2 − μ')² divided by 50000 − 0 (the degrees-of-freedom correction, here the integer 0 converted), where that
    divisor is positive, and the float word 0x7FC00000 otherwise. -/
def varOf (z2 : NV) : ColV :=
  select
    (broadcastInDim S64 ![] bcast_S_S64
      (cmpf .ogt
        (subf (constant (F := Ideal) S_ .f32 0x47435000#32) (sitofp (F := Ideal) .f32 (constantI S_ 32 0#32)))
        (constant (F := Ideal) S_ .f32 0x00000000#32)))
    (Host.divf
      (Host.reduceAdd (F := Ideal)
        (mulf
          (subf z2 (broadcastInDim S50000x64 ![0, 1] bcast_S1x64_S50000x64_0_1
            (Host.divf (broadcastInDim S1x64 ![1] bcast_S64_S1x64_1 (Host.reduceAdd (F := Ideal) z2 (constant (F := Ideal) S_ .f32 0x00000000#32) reducesTo_S50000x64_S64_d0 h_S_))
              (broadcastInDim S1x64 ![] bcast_S_S1x64 (constant (F := Ideal) S_ .f32 0x47435000#32)))))
          (subf z2 (broadcastInDim S50000x64 ![0, 1] bcast_S1x64_S50000x64_0_1
            (Host.divf (broadcastInDim S1x64 ![1] bcast_S64_S1x64_1 (Host.reduceAdd (F := Ideal) z2 (constant (F := Ideal) S_ .f32 0x00000000#32) reducesTo_S50000x64_S64_d0 h_S_))
              (broadcastInDim S1x64 ![] bcast_S_S1x64 (constant (F := Ideal) S_ .f32 0x47435000#32))))))
        (constant (F := Ideal) S_ .f32 0x00000000#32) reducesTo_S50000x64_S64_d0 h_S_)
      (broadcastInDim S64 ![] bcast_S_S64
        (subf (constant (F := Ideal) S_ .f32 0x47435000#32) (sitofp (F := Ideal) .f32 (constantI S_ 32 0#32)))))
    (broadcastInDim S64 ![] bcast_S_S64 (id (constant (F := Ideal) S_ .f32 0x7FC00000#32)))

/-- γ · (z2 − μ) · rsqrt (v + ε) + β for given column vectors μ, v (ε the f32 nearest 1e-5). -/
def normWith (z2 : NV) (μ v γ β : ColV) : NV :=
  addf (mulf (mulf (bN (row γ)) (subf z2 (bN (row μ))))
    (bN (row (Host.rsqrt (F := Ideal) (addf v (broadcastInDim S64 ![] bcast_S_S64 (constant (F := Ideal) S_ .f32 0x3727C5AC#32)))))))
    (bN (row β))

/-- The batch normalisation of z2 over the nodes. -/
def normOf (z2 : NV) (γ β : ColV) : NV := normWith z2 (meanOf z2) (varOf z2) γ β

/-- One layer over given index columns and parameter slices. -/
def layerG (h : NV) (e : EV) (si di : IdxCol) (w1 : WM) (b1 : ColV) (w2 : WM) (b2 : ColV) (γ β : ColV) : NV :=
  normOf (Cert.Spec.mlp (aggOf h e si di) w1 (row b1) w2 (row b2)) γ β

def layer0 (h : NV) (e : EV) (a2 : IVec S2x1000000 32) (a8 : W3) (a9 : V3) (a10 : W3) (a11 a12 a13 : V3) : NV :=
  layerG h e (srcIdx a2) (dstIdx a2) (wSlice0 a8) (vSlice0 a9) (wSlice0 a10) (vSlice0 a11) (vSlice0 a12) (vSlice0 a13)
def layer1 (h : NV) (e : EV) (a2 : IVec S2x1000000 32) (a8 : W3) (a9 : V3) (a10 : W3) (a11 a12 a13 : V3) : NV :=
  layerG h e (srcIdx a2) (dstIdx a2) (wSlice1 a8) (vSlice1 a9) (wSlice1 a10) (vSlice1 a11) (vSlice1 a12) (vSlice1 a13)
def layer2 (h : NV) (e : EV) (a2 : IVec S2x1000000 32) (a8 : W3) (a9 : V3) (a10 : W3) (a11 a12 a13 : V3) : NV :=
  layerG h e (srcIdx a2) (dstIdx a2) (wSlice2 a8) (vSlice2 a9) (wSlice2 a10) (vSlice2 a11) (vSlice2 a12) (vSlice2 a13)

/-! ## The tail -/

/-- The graph index of each node as the [50000,1] column the two scatters take. -/
def batchCol (a3 : IVec S50000 32) : IVec S50000x1 32 := broadcastInDim S50000x1 ![0] bcast_S50000_S50000x1_0 a3

/-- The per-graph means: sums of h over each graph's nodes divided by max (node count, 1). -/
def pooled (h : NV) (a3 : IVec S50000 32) : FVec Ideal S64x64 .f32 :=
  Host.divf
    (Host.scatterAdd (F := Ideal) scatter_S64x64_S50000x1_S50000x64_1_0_0_1
      (broadcastInDim S64x64 ![] bcast_S_S64x64 (constant (F := Ideal) S_ .f32 0x00000000#32)) (batchCol a3) h)
    (broadcastInDim S64x64 ![0, 1] bcast_S64x1_S64x64_0_1
      (broadcastInDim S64x1 ![0] bcast_S64_S64x1_0
        (maximumf
          (Host.scatterAdd (F := Ideal) scatter_S64_S50000x1_S50000_n_0_0_1
            (broadcastInDim S64 ![] bcast_S_S64 (constant (F := Ideal) S_ .f32 0x00000000#32)) (batchCol a3)
            (broadcastInDim S50000 ![] bcast_S_S50000 (constant (F := Ideal) S_ .f32 0x3F800000#32)))
          (broadcastInDim S64 ![] bcast_S_S64 (constant (F := Ideal) S_ .f32 0x3F800000#32)))))

/-- Each row of p divided by max (its Euclidean norm, 1e-12). -/
def l2rows (p : FVec Ideal S64x64 .f32) : FVec Ideal S64x64 .f32 :=
  Host.divf p
    (broadcastInDim S64x64 ![0, 1] bcast_S64x1_S64x64_0_1
      (maximumf
        (Host.sqrt (F := Ideal) (broadcastInDim S64x1 ![0] bcast_S64_S64x1_0
          (Host.reduceAdd (F := Ideal) (mulf p p) (constant (F := Ideal) S_ .f32 0x00000000#32) reducesTo_S64x64_S64_d1 h_S_)))
        (broadcastInDim S64x1 ![] bcast_S_S64x1 (constant (F := Ideal) S_ .f32 0x2B8CBCCC#32))))

/-- Mean-pool by graph, then normalise each row. -/
def tail (h : NV) (a3 : IVec S50000 32) : FVec Ideal S64x64 .f32 := l2rows (pooled h a3)

/-- The reference's result. -/
def out (a0 : NV) (a1 : EV) (a2 : IVec S2x1000000 32) (a3 : IVec S50000 32) (a4 : WM) (a5 : ColV) (a6 : WM) (a7 : ColV)
    (a8 : W3) (a9 : V3) (a10 : W3) (a11 a12 a13 : V3) : FVec Ideal S64x64 .f32 :=
  tail (layer2 (layer1 (layer0 (h0 a0 a4 a5) (e0 a1 a6 a7) a2 a8 a9 a10 a11 a12 a13) (e0 a1 a6 a7) a2 a8 a9 a10 a11 a12 a13)
    (e0 a1 a6 a7) a2 a8 a9 a10 a11 a12 a13) a3

end Cert.ReferenceIdeal.RefValue

end
-- ==== Proof.RefRun.Win.A.lean ====
/-
  Window A of the reference's @main read back: The two input maps and the two rows of the edge index — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wA_main_v3 (V : Valuation τ sig (Elt Ideal)) :
    after (wA (F := Ideal)) V (no_index (Proc.devRef .tc main_v3)) = h0 (V (Proc.devRef .tc main_arg0)) (V (Proc.devRef .tc main_arg4)) (V (Proc.devRef .tc main_arg5)) := by
  simp only [wA]
  after_results_simp
  rfl

set_option maxRecDepth 8192 in
set_option maxHeartbeats 2000000 in
theorem wA_main_v7 (V : Valuation τ sig (Elt Ideal)) :
    after (wA (F := Ideal)) V (no_index (Proc.devRef .tc main_v7)) = e0 (V (Proc.devRef .tc main_arg1)) (V (Proc.devRef .tc main_arg6)) (V (Proc.devRef .tc main_arg7)) := by
  simp only [wA]
  after_results_simp
  rfl

set_option maxRecDepth 8192 in
set_option maxHeartbeats 2000000 in
theorem wA_main_v9 (V : Valuation τ sig (Elt Ideal)) :
    after (wA (F := Ideal)) V (no_index (Proc.devRef .tc main_v9)) = rawSrc (V (Proc.devRef .tc main_arg2)) := by
  simp only [wA]
  after_results_simp
  rfl

set_option maxRecDepth 8192 in
set_option maxHeartbeats 2000000 in
theorem wA_main_v11 (V : Valuation τ sig (Elt Ideal)) :
    after (wA (F := Ideal)) V (no_index (Proc.devRef .tc main_v11)) = rawDst (V (Proc.devRef .tc main_arg2)) := by
  simp only [wA]
  after_results_simp
  rfl

end Cert.ReferenceIdeal.RefValue

end
-- ==== Proof.RefRun.Win.L0a.lean ====
/-
  Window L0a of the reference's @main read back: Layer 0: the wrapped source column, the gather, the edge messages, their sum at the destinations, the residual — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL0a_main_v24 (V : Valuation τ sig (Elt Ideal)) :
    after (wL0a (F := Ideal)) V (no_index (Proc.devRef .tc main_v24)) = aggOf (V (Proc.devRef .tc main_v3)) (V (Proc.devRef .tc main_v7)) (srcOf (V (Proc.devRef .tc main_v9))) (dstOf (V (Proc.devRef .tc main_v11))) := by
  simp only [wL0a]
  after_results_simp
  rfl

end Cert.ReferenceIdeal.RefValue

end
-- ==== Proof.RefRun.Win.L0b.lean ====
/-
  Window L0b of the reference's @main read back: Layer 0: the two-layer per-node map — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL0b_main_v41 (V : Valuation τ sig (Elt Ideal)) :
    after (wL0b (F := Ideal)) V (no_index (Proc.devRef .tc main_v41)) = Cert.Spec.mlp (V (Proc.devRef .tc main_v24)) (wSlice0 (V (Proc.devRef .tc main_arg8))) (Cert.Spec.row (vSlice0 (V (Proc.devRef .tc main_arg9)))) (wSlice0 (V (Proc.devRef .tc main_arg10))) (Cert.Spec.row (vSlice0 (V (Proc.devRef .tc main_arg11)))) := by
  simp only [wL0b]
  after_results_simp
  rfl

end Cert.ReferenceIdeal.RefValue

end
-- ==== Proof.RefRun.Win.L0c.lean ====
/-
  Window L0c of the reference's @main read back: Layer 0: the column means and the column variances — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL0c_main_v44 (V : Valuation τ sig (Elt Ideal)) :
    after (wL0c (F := Ideal)) V (no_index (Proc.devRef .tc main_v44)) = meanOf (V (Proc.devRef .tc main_v41)) := by
  simp only [wL0c]
  after_results_simp
  rfl

set_option maxRecDepth 8192 in
set_option maxHeartbeats 2000000 in
theorem wL0c_main_v45 (V : Valuation τ sig (Elt Ideal)) :
    after (wL0c (F := Ideal)) V (no_index (Proc.devRef .tc main_v45)) = varOf (V (Proc.devRef .tc main_v41)) := by
  simp only [wL0c]
  after_results_simp
  rfl

end Cert.ReferenceIdeal.RefValue

end
-- ==== Proof.RefRun.Win.L0d.lean ====
/-
  Window L0d of the reference's @main read back: Layer 0: the normalisation — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL0d_main_v64 (V : Valuation τ sig (Elt Ideal)) :
    after (wL0d (F := Ideal)) V (no_index (Proc.devRef .tc main_v64)) = normWith (V (Proc.devRef .tc main_v41)) (V (Proc.devRef .tc main_v44)) (V (Proc.devRef .tc main_v45)) (vSlice0 (V (Proc.devRef .tc main_arg12))) (vSlice0 (V (Proc.devRef .tc main_arg13))) := by
  simp only [wL0d]
  after_results_simp
  rfl

end Cert.ReferenceIdeal.RefValue

end
-- ==== Proof.RefRun.Win.L1a.lean ====
/-
  Window L1a of the reference's @main read back: Layer 1: the wrapped source column, the gather, the edge messages, their sum at the destinations, the residual — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL1a_main_v77 (V : Valuation τ sig (Elt Ideal)) :
    after (wL1a (F := Ideal)) V (no_index (Proc.devRef .tc main_v77)) = aggOf (V (Proc.devRef .tc main_v64)) (V (Proc.devRef .tc main_v7)) (srcOf (V (Proc.devRef .tc main_v9))) (dstOf (V (Proc.devRef .tc main_v11))) := by
  simp only [wL1a]
  after_results_simp
  rfl

end Cert.ReferenceIdeal.RefValue

end
-- ==== Proof.RefRun.Win.L1b.lean ====
/-
  Window L1b of the reference's @main read back: Layer 1: the two-layer per-node map — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL1b_main_v94 (V : Valuation τ sig (Elt Ideal)) :
    after (wL1b (F := Ideal)) V (no_index (Proc.devRef .tc main_v94)) = Cert.Spec.mlp (V (Proc.devRef .tc main_v77)) (wSlice1 (V (Proc.devRef .tc main_arg8))) (Cert.Spec.row (vSlice1 (V (Proc.devRef .tc main_arg9)))) (wSlice1 (V (Proc.devRef .tc main_arg10))) (Cert.Spec.row (vSlice1 (V (Proc.devRef .tc main_arg11)))) := by
  simp only [wL1b]
  after_results_simp
  rfl

end Cert.ReferenceIdeal.RefValue

end
-- ==== Proof.RefRun.Win.L1c.lean ====
/-
  Window L1c of the reference's @main read back: Layer 1: the column means and the column variances — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL1c_main_v97 (V : Valuation τ sig (Elt Ideal)) :
    after (wL1c (F := Ideal)) V (no_index (Proc.devRef .tc main_v97)) = meanOf (V (Proc.devRef .tc main_v94)) := by
  simp only [wL1c]
  after_results_simp
  rfl

set_option maxRecDepth 8192 in
set_option maxHeartbeats 2000000 in
theorem wL1c_main_v98 (V : Valuation τ sig (Elt Ideal)) :
    after (wL1c (F := Ideal)) V (no_index (Proc.devRef .tc main_v98)) = varOf (V (Proc.devRef .tc main_v94)) := by
  simp only [wL1c]
  after_results_simp
  rfl

end Cert.ReferenceIdeal.RefValue

end
-- ==== Proof.RefRun.Win.L1d.lean ====
/-
  Window L1d of the reference's @main read back: Layer 1: the normalisation — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL1d_main_v117 (V : Valuation τ sig (Elt Ideal)) :
    after (wL1d (F := Ideal)) V (no_index (Proc.devRef .tc main_v117)) = normWith (V (Proc.devRef .tc main_v94)) (V (Proc.devRef .tc main_v97)) (V (Proc.devRef .tc main_v98)) (vSlice1 (V (Proc.devRef .tc main_arg12))) (vSlice1 (V (Proc.devRef .tc main_arg13))) := by
  simp only [wL1d]
  after_results_simp
  rfl

end Cert.ReferenceIdeal.RefValue

end
-- ==== Proof.RefRun.Win.L2a.lean ====
/-
  Window L2a of the reference's @main read back: Layer 2: the wrapped source column, the gather, the edge messages, their sum at the destinations, the residual — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL2a_main_v130 (V : Valuation τ sig (Elt Ideal)) :
    after (wL2a (F := Ideal)) V (no_index (Proc.devRef .tc main_v130)) = aggOf (V (Proc.devRef .tc main_v117)) (V (Proc.devRef .tc main_v7)) (srcOf (V (Proc.devRef .tc main_v9))) (dstOf (V (Proc.devRef .tc main_v11))) := by
  simp only [wL2a]
  after_results_simp
  rfl

end Cert.ReferenceIdeal.RefValue

end
-- ==== Proof.RefRun.Win.L2b.lean ====
/-
  Window L2b of the reference's @main read back: Layer 2: the two-layer per-node map — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL2b_main_v147 (V : Valuation τ sig (Elt Ideal)) :
    after (wL2b (F := Ideal)) V (no_index (Proc.devRef .tc main_v147)) = Cert.Spec.mlp (V (Proc.devRef .tc main_v130)) (wSlice2 (V (Proc.devRef .tc main_arg8))) (Cert.Spec.row (vSlice2 (V (Proc.devRef .tc main_arg9)))) (wSlice2 (V (Proc.devRef .tc main_arg10))) (Cert.Spec.row (vSlice2 (V (Proc.devRef .tc main_arg11)))) := by
  simp only [wL2b]
  after_results_simp
  rfl

end Cert.ReferenceIdeal.RefValue

end
-- ==== Proof.RefRun.Win.L2c.lean ====
/-
  Window L2c of the reference's @main read back: Layer 2: the column means and the column variances — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL2c_main_v150 (V : Valuation τ sig (Elt Ideal)) :
    after (wL2c (F := Ideal)) V (no_index (Proc.devRef .tc main_v150)) = meanOf (V (Proc.devRef .tc main_v147)) := by
  simp only [wL2c]
  after_results_simp
  rfl

set_option maxRecDepth 8192 in
set_option maxHeartbeats 2000000 in
theorem wL2c_main_v151 (V : Valuation τ sig (Elt Ideal)) :
    after (wL2c (F := Ideal)) V (no_index (Proc.devRef .tc main_v151)) = varOf (V (Proc.devRef .tc main_v147)) := by
  simp only [wL2c]
  after_results_simp
  rfl

end Cert.ReferenceIdeal.RefValue

end
-- ==== Proof.RefRun.Win.L2d.lean ====
/-
  Window L2d of the reference's @main read back: Layer 2: the normalisation — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wL2d_main_v170 (V : Valuation τ sig (Elt Ideal)) :
    after (wL2d (F := Ideal)) V (no_index (Proc.devRef .tc main_v170)) = normWith (V (Proc.devRef .tc main_v147)) (V (Proc.devRef .tc main_v150)) (V (Proc.devRef .tc main_v151)) (vSlice2 (V (Proc.devRef .tc main_arg12))) (vSlice2 (V (Proc.devRef .tc main_arg13))) := by
  simp only [wL2d]
  after_results_simp
  rfl

end Cert.ReferenceIdeal.RefValue

end
-- ==== Proof.RefRun.Win.T.lean ====
/-
  Window T of the reference's @main read back: The pooling by graph and the row normalisation — from any buffer contents V, what the
  window leaves in the buffers later windows read, as the named functions of the contents it read.
-/
import proofs.«104584_j17154099380304_2_alg».proof.Proof.RefRun.Windows
import proofs.«104584_j17154099380304_2_alg».proof.Proof.RefRun.Terms

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

set_option maxRecDepth 8192 in
set_option maxHeartbeats 2000000 in
theorem wT_main_v187 (V : Valuation τ sig (Elt Ideal)) :
    after (wT (F := Ideal)) V (no_index (Proc.devRef .tc main_v187)) = tail (V (Proc.devRef .tc main_v170)) (V (Proc.devRef .tc main_arg3)) := by
  simp only [wT]
  after_results_simp
  rfl

end Cert.ReferenceIdeal.RefValue

end
-- ==== Proof.RefRun.lean ====
/-
  The reference program's run, read back into one function of its arguments. The fold of @main's operations over the
  launch contents is taken window by window: after each window, the buffers that later windows read are the named
  functions (h0, e0, the index rows, each layer's z, z2, mean, variance and normalised output, the result) of the
  launch contents of the fourteen arguments, and the arguments themselves are untouched. The last window's result
  is `out` of the arguments.
-/
import proofs.«104584_j17154099380304_2_alg».proof.Proof.RefRun.Win.A
import proofs.«104584_j17154099380304_2_alg».proof.Proof.RefRun.Win.L0a
import proofs.«104584_j17154099380304_2_alg».proof.Proof.RefRun.Win.L0b
import proofs.«104584_j17154099380304_2_alg».proof.Proof.RefRun.Win.L0c
import proofs.«104584_j17154099380304_2_alg».proof.Proof.RefRun.Win.L0d
import proofs.«104584_j17154099380304_2_alg».proof.Proof.RefRun.Win.L1a
import proofs.«104584_j17154099380304_2_alg».proof.Proof.RefRun.Win.L1b
import proofs.«104584_j17154099380304_2_alg».proof.Proof.RefRun.Win.L1c
import proofs.«104584_j17154099380304_2_alg».proof.Proof.RefRun.Win.L1d
import proofs.«104584_j17154099380304_2_alg».proof.Proof.RefRun.Win.L2a
import proofs.«104584_j17154099380304_2_alg».proof.Proof.RefRun.Win.L2b
import proofs.«104584_j17154099380304_2_alg».proof.Proof.RefRun.Win.L2c
import proofs.«104584_j17154099380304_2_alg».proof.Proof.RefRun.Win.L2d
import proofs.«104584_j17154099380304_2_alg».proof.Proof.RefRun.Win.T

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

/-! ## The intermediate values as functions of the launch contents -/

/-- h0 of the launch contents. -/
def tH0 (V0 : Valuation τ sig (Elt Ideal)) : Cert.Spec.NV :=
  h0 (V0 (Proc.devRef .tc main_arg0)) (V0 (Proc.devRef .tc main_arg4)) (V0 (Proc.devRef .tc main_arg5))
/-- e0 of the launch contents. -/
def tE (V0 : Valuation τ sig (Elt Ideal)) : Cert.Spec.EV :=
  e0 (V0 (Proc.devRef .tc main_arg1)) (V0 (Proc.devRef .tc main_arg6)) (V0 (Proc.devRef .tc main_arg7))
/-- The source row. -/
def tS (V0 : Valuation τ sig (Elt Ideal)) : IVec S1000000 32 :=
  rawSrc (V0 (Proc.devRef .tc main_arg2))
/-- The destination row. -/
def tD (V0 : Valuation τ sig (Elt Ideal)) : IVec S1000000 32 :=
  rawDst (V0 (Proc.devRef .tc main_arg2))
/-- Layer 0: the aggregated node features z. -/
def tZ0 (V0 : Valuation τ sig (Elt Ideal)) : Cert.Spec.NV :=
  aggOf (tH0 V0) (tE V0) (srcOf (tS V0)) (dstOf (tD V0))
/-- Layer 0: the per-node map's result z2. -/
def tY0 (V0 : Valuation τ sig (Elt Ideal)) : Cert.Spec.NV :=
  Cert.Spec.mlp (tZ0 V0) (wSlice0 (V0 (Proc.devRef .tc main_arg8))) (Cert.Spec.row (vSlice0 (V0 (Proc.devRef .tc main_arg9)))) (wSlice0 (V0 (Proc.devRef .tc main_arg10))) (Cert.Spec.row (vSlice0 (V0 (Proc.devRef .tc main_arg11))))
/-- Layer 0: the column means of z2. -/
def tM0 (V0 : Valuation τ sig (Elt Ideal)) : Cert.Spec.ColV :=
  meanOf (tY0 V0)
/-- Layer 0: the column variances of z2. -/
def tV0 (V0 : Valuation τ sig (Elt Ideal)) : Cert.Spec.ColV :=
  varOf (tY0 V0)
/-- Layer 0: the normalised output. -/
def tH1 (V0 : Valuation τ sig (Elt Ideal)) : Cert.Spec.NV :=
  normWith (tY0 V0) (tM0 V0) (tV0 V0) (vSlice0 (V0 (Proc.devRef .tc main_arg12))) (vSlice0 (V0 (Proc.devRef .tc main_arg13)))
/-- Layer 1: the aggregated node features z. -/
def tZ1 (V0 : Valuation τ sig (Elt Ideal)) : Cert.Spec.NV :=
  aggOf (tH1 V0) (tE V0) (srcOf (tS V0)) (dstOf (tD V0))
/-- Layer 1: the per-node map's result z2. -/
def tY1 (V0 : Valuation τ sig (Elt Ideal)) : Cert.Spec.NV :=
  Cert.Spec.mlp (tZ1 V0) (wSlice1 (V0 (Proc.devRef .tc main_arg8))) (Cert.Spec.row (vSlice1 (V0 (Proc.devRef .tc main_arg9)))) (wSlice1 (V0 (Proc.devRef .tc main_arg10))) (Cert.Spec.row (vSlice1 (V0 (Proc.devRef .tc main_arg11))))
/-- Layer 1: the column means of z2. -/
def tM1 (V0 : Valuation τ sig (Elt Ideal)) : Cert.Spec.ColV :=
  meanOf (tY1 V0)
/-- Layer 1: the column variances of z2. -/
def tV1 (V0 : Valuation τ sig (Elt Ideal)) : Cert.Spec.ColV :=
  varOf (tY1 V0)
/-- Layer 1: the normalised output. -/
def tH2 (V0 : Valuation τ sig (Elt Ideal)) : Cert.Spec.NV :=
  normWith (tY1 V0) (tM1 V0) (tV1 V0) (vSlice1 (V0 (Proc.devRef .tc main_arg12))) (vSlice1 (V0 (Proc.devRef .tc main_arg13)))
/-- Layer 2: the aggregated node features z. -/
def tZ2 (V0 : Valuation τ sig (Elt Ideal)) : Cert.Spec.NV :=
  aggOf (tH2 V0) (tE V0) (srcOf (tS V0)) (dstOf (tD V0))
/-- Layer 2: the per-node map's result z2. -/
def tY2 (V0 : Valuation τ sig (Elt Ideal)) : Cert.Spec.NV :=
  Cert.Spec.mlp (tZ2 V0) (wSlice2 (V0 (Proc.devRef .tc main_arg8))) (Cert.Spec.row (vSlice2 (V0 (Proc.devRef .tc main_arg9)))) (wSlice2 (V0 (Proc.devRef .tc main_arg10))) (Cert.Spec.row (vSlice2 (V0 (Proc.devRef .tc main_arg11))))
/-- Layer 2: the column means of z2. -/
def tM2 (V0 : Valuation τ sig (Elt Ideal)) : Cert.Spec.ColV :=
  meanOf (tY2 V0)
/-- Layer 2: the column variances of z2. -/
def tV2 (V0 : Valuation τ sig (Elt Ideal)) : Cert.Spec.ColV :=
  varOf (tY2 V0)
/-- Layer 2: the normalised output. -/
def tH3 (V0 : Valuation τ sig (Elt Ideal)) : Cert.Spec.NV :=
  normWith (tY2 V0) (tM2 V0) (tV2 V0) (vSlice2 (V0 (Proc.devRef .tc main_arg12))) (vSlice2 (V0 (Proc.devRef .tc main_arg13)))
/-- The result. -/
def tOut (V0 : Valuation τ sig (Elt Ideal)) : FVec Ideal S64x64 .f32 :=
  tail (tH3 V0) (V0 (Proc.devRef .tc main_arg3))

/-! ## The contents after each window -/

/-- The contents before the first window. -/
def val0 (V0 : Valuation τ sig (Elt Ideal)) : Valuation τ sig (Elt Ideal) := V0
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl
theorem val0_main_arg3 (V0 : Valuation τ sig (Elt Ideal)) : val0 V0 (no_index (Proc.devRef .tc main_arg3)) = V0 (Proc.devRef .tc main_arg3) := rfl
theorem val0_main_arg4 (V0 : Valuation τ sig (Elt Ideal)) : val0 V0 (no_index (Proc.devRef .tc main_arg4)) = V0 (Proc.devRef .tc main_arg4) := rfl
theorem val0_main_arg5 (V0 : Valuation τ sig (Elt Ideal)) : val0 V0 (no_index (Proc.devRef .tc main_arg5)) = V0 (Proc.devRef .tc main_arg5) := rfl
theorem val0_main_arg6 (V0 : Valuation τ sig (Elt Ideal)) : val0 V0 (no_index (Proc.devRef .tc main_arg6)) = V0 (Proc.devRef .tc main_arg6) := rfl
theorem val0_main_arg7 (V0 : Valuation τ sig (Elt Ideal)) : val0 V0 (no_index (Proc.devRef .tc main_arg7)) = V0 (Proc.devRef .tc main_arg7) := rfl
theorem val0_main_arg8 (V0 : Valuation τ sig (Elt Ideal)) : val0 V0 (no_index (Proc.devRef .tc main_arg8)) = V0 (Proc.devRef .tc main_arg8) := rfl
theorem val0_main_arg9 (V0 : Valuation τ sig (Elt Ideal)) : val0 V0 (no_index (Proc.devRef .tc main_arg9)) = V0 (Proc.devRef .tc main_arg9) := rfl
theorem val0_main_arg10 (V0 : Valuation τ sig (Elt Ideal)) : val0 V0 (no_index (Proc.devRef .tc main_arg10)) = V0 (Proc.devRef .tc main_arg10) := rfl
theorem val0_main_arg11 (V0 : Valuation τ sig (Elt Ideal)) : val0 V0 (no_index (Proc.devRef .tc main_arg11)) = V0 (Proc.devRef .tc main_arg11) := rfl
theorem val0_main_arg12 (V0 : Valuation τ sig (Elt Ideal)) : val0 V0 (no_index (Proc.devRef .tc main_arg12)) = V0 (Proc.devRef .tc main_arg12) := rfl
theorem val0_main_arg13 (V0 : Valuation τ sig (Elt Ideal)) : val0 V0 (no_index (Proc.devRef .tc main_arg13)) = V0 (Proc.devRef .tc main_arg13) := rfl

/-- The contents after window A. -/
def val1 (V0 : Valuation τ sig (Elt Ideal)) : Valuation τ sig (Elt Ideal) := after (wA (F := Ideal)) (val0 V0)
theorem val1_main_v3 (V0 : Valuation τ sig (Elt Ideal)) : val1 V0 (no_index (Proc.devRef .tc main_v3)) = tH0 V0 := by
  unfold val1
  rw [wA_main_v3]
  simp only [val0_main_arg0, val0_main_arg4, val0_main_arg5, val0_main_arg1, val0_main_arg6, val0_main_arg7, val0_main_arg2]
  rfl
theorem val1_main_v7 (V0 : Valuation τ sig (Elt Ideal)) : val1 V0 (no_index (Proc.devRef .tc main_v7)) = tE V0 := by
  unfold val1
  rw [wA_main_v7]
  simp only [val0_main_arg0, val0_main_arg4, val0_main_arg5, val0_main_arg1, val0_main_arg6, val0_main_arg7, val0_main_arg2]
  rfl
theorem val1_main_v9 (V0 : Valuation τ sig (Elt Ideal)) : val1 V0 (no_index (Proc.devRef .tc main_v9)) = tS V0 := by
  unfold val1
  rw [wA_main_v9]
  simp only [val0_main_arg0, val0_main_arg4, val0_main_arg5, val0_main_arg1, val0_main_arg6, val0_main_arg7, val0_main_arg2]
  rfl
theorem val1_main_v11 (V0 : Valuation τ sig (Elt Ideal)) : val1 V0 (no_index (Proc.devRef .tc main_v11)) = tD V0 := by
  unfold val1
  rw [wA_main_v11]
  simp only [val0_main_arg0, val0_main_arg4, val0_main_arg5, val0_main_arg1, val0_main_arg6, val0_main_arg7, val0_main_arg2]
  rfl
theorem val1_main_arg0 (V0 : Valuation τ sig (Elt Ideal)) : val1 V0 (no_index (Proc.devRef .tc main_arg0)) = V0 (Proc.devRef .tc main_arg0) :=
  (wA_keep (val0 V0) main_arg0 (by decide)).trans (val0_main_arg0 V0)
theorem val1_main_arg1 (V0 : Valuation τ sig (Elt Ideal)) : val1 V0 (no_index (Proc.devRef .tc main_arg1)) = V0 (Proc.devRef .tc main_arg1) :=
  (wA_keep (val0 V0) main_arg1 (by decide)).trans (val0_main_arg1 V0)
theorem val1_main_arg2 (V0 : Valuation τ sig (Elt Ideal)) : val1 V0 (no_index (Proc.devRef .tc main_arg2)) = V0 (Proc.devRef .tc main_arg2) :=
  (wA_keep (val0 V0) main_arg2 (by decide)).trans (val0_main_arg2 V0)
theorem val1_main_arg3 (V0 : Valuation τ sig (Elt Ideal)) : val1 V0 (no_index (Proc.devRef .tc main_arg3)) = V0 (Proc.devRef .tc main_arg3) :=
  (wA_keep (val0 V0) main_arg3 (by decide)).trans (val0_main_arg3 V0)
theorem val1_main_arg4 (V0 : Valuation τ sig (Elt Ideal)) : val1 V0 (no_index (Proc.devRef .tc main_arg4)) = V0 (Proc.devRef .tc main_arg4) :=
  (wA_keep (val0 V0) main_arg4 (by decide)).trans (val0_main_arg4 V0)
theorem val1_main_arg5 (V0 : Valuation τ sig (Elt Ideal)) : val1 V0 (no_index (Proc.devRef .tc main_arg5)) = V0 (Proc.devRef .tc main_arg5) :=
  (wA_keep (val0 V0) main_arg5 (by decide)).trans (val0_main_arg5 V0)
theorem val1_main_arg6 (V0 : Valuation τ sig (Elt Ideal)) : val1 V0 (no_index (Proc.devRef .tc main_arg6)) = V0 (Proc.devRef .tc main_arg6) :=
  (wA_keep (val0 V0) main_arg6 (by decide)).trans (val0_main_arg6 V0)
theorem val1_main_arg7 (V0 : Valuation τ sig (Elt Ideal)) : val1 V0 (no_index (Proc.devRef .tc main_arg7)) = V0 (Proc.devRef .tc main_arg7) :=
  (wA_keep (val0 V0) main_arg7 (by decide)).trans (val0_main_arg7 V0)
theorem val1_main_arg8 (V0 : Valuation τ sig (Elt Ideal)) : val1 V0 (no_index (Proc.devRef .tc main_arg8)) = V0 (Proc.devRef .tc main_arg8) :=
  (wA_keep (val0 V0) main_arg8 (by decide)).trans (val0_main_arg8 V0)
theorem val1_main_arg9 (V0 : Valuation τ sig (Elt Ideal)) : val1 V0 (no_index (Proc.devRef .tc main_arg9)) = V0 (Proc.devRef .tc main_arg9) :=
  (wA_keep (val0 V0) main_arg9 (by decide)).trans (val0_main_arg9 V0)
theorem val1_main_arg10 (V0 : Valuation τ sig (Elt Ideal)) : val1 V0 (no_index (Proc.devRef .tc main_arg10)) = V0 (Proc.devRef .tc main_arg10) :=
  (wA_keep (val0 V0) main_arg10 (by decide)).trans (val0_main_arg10 V0)
theorem val1_main_arg11 (V0 : Valuation τ sig (Elt Ideal)) : val1 V0 (no_index (Proc.devRef .tc main_arg11)) = V0 (Proc.devRef .tc main_arg11) :=
  (wA_keep (val0 V0) main_arg11 (by decide)).trans (val0_main_arg11 V0)
theorem val1_main_arg12 (V0 : Valuation τ sig (Elt Ideal)) : val1 V0 (no_index (Proc.devRef .tc main_arg12)) = V0 (Proc.devRef .tc main_arg12) :=
  (wA_keep (val0 V0) main_arg12 (by decide)).trans (val0_main_arg12 V0)
theorem val1_main_arg13 (V0 : Valuation τ sig (Elt Ideal)) : val1 V0 (no_index (Proc.devRef .tc main_arg13)) = V0 (Proc.devRef .tc main_arg13) :=
  (wA_keep (val0 V0) main_arg13 (by decide)).trans (val0_main_arg13 V0)

/-- The contents after window L0a. -/
def val2 (V0 : Valuation τ sig (Elt Ideal)) : Valuation τ sig (Elt Ideal) := after (wL0a (F := Ideal)) (val1 V0)
theorem val2_main_v7 (V0 : Valuation τ sig (Elt Ideal)) : val2 V0 (no_index (Proc.devRef .tc main_v7)) = tE V0 :=
  (wL0a_keep (val1 V0) main_v7 (by decide)).trans (val1_main_v7 V0)
theorem val2_main_v9 (V0 : Valuation τ sig (Elt Ideal)) : val2 V0 (no_index (Proc.devRef .tc main_v9)) = tS V0 :=
  (wL0a_keep (val1 V0) main_v9 (by decide)).trans (val1_main_v9 V0)
theorem val2_main_v11 (V0 : Valuation τ sig (Elt Ideal)) : val2 V0 (no_index (Proc.devRef .tc main_v11)) = tD V0 :=
  (wL0a_keep (val1 V0) main_v11 (by decide)).trans (val1_main_v11 V0)
theorem val2_main_v24 (V0 : Valuation τ sig (Elt Ideal)) : val2 V0 (no_index (Proc.devRef .tc main_v24)) = tZ0 V0 := by
  unfold val2
  rw [wL0a_main_v24]
  simp only [val1_main_v9, val1_main_v3, val1_main_v7, val1_main_v11]
  rfl
theorem val2_main_arg0 (V0 : Valuation τ sig (Elt Ideal)) : val2 V0 (no_index (Proc.devRef .tc main_arg0)) = V0 (Proc.devRef .tc main_arg0) :=
  (wL0a_keep (val1 V0) main_arg0 (by decide)).trans (val1_main_arg0 V0)
theorem val2_main_arg1 (V0 : Valuation τ sig (Elt Ideal)) : val2 V0 (no_index (Proc.devRef .tc main_arg1)) = V0 (Proc.devRef .tc main_arg1) :=
  (wL0a_keep (val1 V0) main_arg1 (by decide)).trans (val1_main_arg1 V0)
theorem val2_main_arg2 (V0 : Valuation τ sig (Elt Ideal)) : val2 V0 (no_index (Proc.devRef .tc main_arg2)) = V0 (Proc.devRef .tc main_arg2) :=
  (wL0a_keep (val1 V0) main_arg2 (by decide)).trans (val1_main_arg2 V0)
theorem val2_main_arg3 (V0 : Valuation τ sig (Elt Ideal)) : val2 V0 (no_index (Proc.devRef .tc main_arg3)) = V0 (Proc.devRef .tc main_arg3) :=
  (wL0a_keep (val1 V0) main_arg3 (by decide)).trans (val1_main_arg3 V0)
theorem val2_main_arg4 (V0 : Valuation τ sig (Elt Ideal)) : val2 V0 (no_index (Proc.devRef .tc main_arg4)) = V0 (Proc.devRef .tc main_arg4) :=
  (wL0a_keep (val1 V0) main_arg4 (by decide)).trans (val1_main_arg4 V0)
theorem val2_main_arg5 (V0 : Valuation τ sig (Elt Ideal)) : val2 V0 (no_index (Proc.devRef .tc main_arg5)) = V0 (Proc.devRef .tc main_arg5) :=
  (wL0a_keep (val1 V0) main_arg5 (by decide)).trans (val1_main_arg5 V0)
theorem val2_main_arg6 (V0 : Valuation τ sig (Elt Ideal)) : val2 V0 (no_index (Proc.devRef .tc main_arg6)) = V0 (Proc.devRef .tc main_arg6) :=
  (wL0a_keep (val1 V0) main_arg6 (by decide)).trans (val1_main_arg6 V0)
theorem val2_main_arg7 (V0 : Valuation τ sig (Elt Ideal)) : val2 V0 (no_index (Proc.devRef .tc main_arg7)) = V0 (Proc.devRef .tc main_arg7) :=
  (wL0a_keep (val1 V0) main_arg7 (by decide)).trans (val1_main_arg7 V0)
theorem val2_main_arg8 (V0 : Valuation τ sig (Elt Ideal)) : val2 V0 (no_index (Proc.devRef .tc main_arg8)) = V0 (Proc.devRef .tc main_arg8) :=
  (wL0a_keep (val1 V0) main_arg8 (by decide)).trans (val1_main_arg8 V0)
theorem val2_main_arg9 (V0 : Valuation τ sig (Elt Ideal)) : val2 V0 (no_index (Proc.devRef .tc main_arg9)) = V0 (Proc.devRef .tc main_arg9) :=
  (wL0a_keep (val1 V0) main_arg9 (by decide)).trans (val1_main_arg9 V0)
theorem val2_main_arg10 (V0 : Valuation τ sig (Elt Ideal)) : val2 V0 (no_index (Proc.devRef .tc main_arg10)) = V0 (Proc.devRef .tc main_arg10) :=
  (wL0a_keep (val1 V0) main_arg10 (by decide)).trans (val1_main_arg10 V0)
theorem val2_main_arg11 (V0 : Valuation τ sig (Elt Ideal)) : val2 V0 (no_index (Proc.devRef .tc main_arg11)) = V0 (Proc.devRef .tc main_arg11) :=
  (wL0a_keep (val1 V0) main_arg11 (by decide)).trans (val1_main_arg11 V0)
theorem val2_main_arg12 (V0 : Valuation τ sig (Elt Ideal)) : val2 V0 (no_index (Proc.devRef .tc main_arg12)) = V0 (Proc.devRef .tc main_arg12) :=
  (wL0a_keep (val1 V0) main_arg12 (by decide)).trans (val1_main_arg12 V0)
theorem val2_main_arg13 (V0 : Valuation τ sig (Elt Ideal)) : val2 V0 (no_index (Proc.devRef .tc main_arg13)) = V0 (Proc.devRef .tc main_arg13) :=
  (wL0a_keep (val1 V0) main_arg13 (by decide)).trans (val1_main_arg13 V0)

/-- The contents after window L0b. -/
def val3 (V0 : Valuation τ sig (Elt Ideal)) : Valuation τ sig (Elt Ideal) := after (wL0b (F := Ideal)) (val2 V0)
theorem val3_main_v7 (V0 : Valuation τ sig (Elt Ideal)) : val3 V0 (no_index (Proc.devRef .tc main_v7)) = tE V0 :=
  (wL0b_keep (val2 V0) main_v7 (by decide)).trans (val2_main_v7 V0)
theorem val3_main_v9 (V0 : Valuation τ sig (Elt Ideal)) : val3 V0 (no_index (Proc.devRef .tc main_v9)) = tS V0 :=
  (wL0b_keep (val2 V0) main_v9 (by decide)).trans (val2_main_v9 V0)
theorem val3_main_v11 (V0 : Valuation τ sig (Elt Ideal)) : val3 V0 (no_index (Proc.devRef .tc main_v11)) = tD V0 :=
  (wL0b_keep (val2 V0) main_v11 (by decide)).trans (val2_main_v11 V0)
theorem val3_main_v41 (V0 : Valuation τ sig (Elt Ideal)) : val3 V0 (no_index (Proc.devRef .tc main_v41)) = tY0 V0 := by
  unfold val3
  rw [wL0b_main_v41]
  simp only [val2_main_arg8, val2_main_v24, val2_main_arg9, val2_main_arg10, val2_main_arg11]
  rfl
theorem val3_main_arg0 (V0 : Valuation τ sig (Elt Ideal)) : val3 V0 (no_index (Proc.devRef .tc main_arg0)) = V0 (Proc.devRef .tc main_arg0) :=
  (wL0b_keep (val2 V0) main_arg0 (by decide)).trans (val2_main_arg0 V0)
theorem val3_main_arg1 (V0 : Valuation τ sig (Elt Ideal)) : val3 V0 (no_index (Proc.devRef .tc main_arg1)) = V0 (Proc.devRef .tc main_arg1) :=
  (wL0b_keep (val2 V0) main_arg1 (by decide)).trans (val2_main_arg1 V0)
theorem val3_main_arg2 (V0 : Valuation τ sig (Elt Ideal)) : val3 V0 (no_index (Proc.devRef .tc main_arg2)) = V0 (Proc.devRef .tc main_arg2) :=
  (wL0b_keep (val2 V0) main_arg2 (by decide)).trans (val2_main_arg2 V0)
theorem val3_main_arg3 (V0 : Valuation τ sig (Elt Ideal)) : val3 V0 (no_index (Proc.devRef .tc main_arg3)) = V0 (Proc.devRef .tc main_arg3) :=
  (wL0b_keep (val2 V0) main_arg3 (by decide)).trans (val2_main_arg3 V0)
theorem val3_main_arg4 (V0 : Valuation τ sig (Elt Ideal)) : val3 V0 (no_index (Proc.devRef .tc main_arg4)) = V0 (Proc.devRef .tc main_arg4) :=
  (wL0b_keep (val2 V0) main_arg4 (by decide)).trans (val2_main_arg4 V0)
theorem val3_main_arg5 (V0 : Valuation τ sig (Elt Ideal)) : val3 V0 (no_index (Proc.devRef .tc main_arg5)) = V0 (Proc.devRef .tc main_arg5) :=
  (wL0b_keep (val2 V0) main_arg5 (by decide)).trans (val2_main_arg5 V0)
theorem val3_main_arg6 (V0 : Valuation τ sig (Elt Ideal)) : val3 V0 (no_index (Proc.devRef .tc main_arg6)) = V0 (Proc.devRef .tc main_arg6) :=
  (wL0b_keep (val2 V0) main_arg6 (by decide)).trans (val2_main_arg6 V0)
theorem val3_main_arg7 (V0 : Valuation τ sig (Elt Ideal)) : val3 V0 (no_index (Proc.devRef .tc main_arg7)) = V0 (Proc.devRef .tc main_arg7) :=
  (wL0b_keep (val2 V0) main_arg7 (by decide)).trans (val2_main_arg7 V0)
theorem val3_main_arg8 (V0 : Valuation τ sig (Elt Ideal)) : val3 V0 (no_index (Proc.devRef .tc main_arg8)) = V0 (Proc.devRef .tc main_arg8) :=
  (wL0b_keep (val2 V0) main_arg8 (by decide)).trans (val2_main_arg8 V0)
theorem val3_main_arg9 (V0 : Valuation τ sig (Elt Ideal)) : val3 V0 (no_index (Proc.devRef .tc main_arg9)) = V0 (Proc.devRef .tc main_arg9) :=
  (wL0b_keep (val2 V0) main_arg9 (by decide)).trans (val2_main_arg9 V0)
theorem val3_main_arg10 (V0 : Valuation τ sig (Elt Ideal)) : val3 V0 (no_index (Proc.devRef .tc main_arg10)) = V0 (Proc.devRef .tc main_arg10) :=
  (wL0b_keep (val2 V0) main_arg10 (by decide)).trans (val2_main_arg10 V0)
theorem val3_main_arg11 (V0 : Valuation τ sig (Elt Ideal)) : val3 V0 (no_index (Proc.devRef .tc main_arg11)) = V0 (Proc.devRef .tc main_arg11) :=
  (wL0b_keep (val2 V0) main_arg11 (by decide)).trans (val2_main_arg11 V0)
theorem val3_main_arg12 (V0 : Valuation τ sig (Elt Ideal)) : val3 V0 (no_index (Proc.devRef .tc main_arg12)) = V0 (Proc.devRef .tc main_arg12) :=
  (wL0b_keep (val2 V0) main_arg12 (by decide)).trans (val2_main_arg12 V0)
theorem val3_main_arg13 (V0 : Valuation τ sig (Elt Ideal)) : val3 V0 (no_index (Proc.devRef .tc main_arg13)) = V0 (Proc.devRef .tc main_arg13) :=
  (wL0b_keep (val2 V0) main_arg13 (by decide)).trans (val2_main_arg13 V0)

/-- The contents after window L0c. -/
def val4 (V0 : Valuation τ sig (Elt Ideal)) : Valuation τ sig (Elt Ideal) := after (wL0c (F := Ideal)) (val3 V0)
theorem val4_main_v7 (V0 : Valuation τ sig (Elt Ideal)) : val4 V0 (no_index (Proc.devRef .tc main_v7)) = tE V0 :=
  (wL0c_keep (val3 V0) main_v7 (by decide)).trans (val3_main_v7 V0)
theorem val4_main_v9 (V0 : Valuation τ sig (Elt Ideal)) : val4 V0 (no_index (Proc.devRef .tc main_v9)) = tS V0 :=
  (wL0c_keep (val3 V0) main_v9 (by decide)).trans (val3_main_v9 V0)
theorem val4_main_v11 (V0 : Valuation τ sig (Elt Ideal)) : val4 V0 (no_index (Proc.devRef .tc main_v11)) = tD V0 :=
  (wL0c_keep (val3 V0) main_v11 (by decide)).trans (val3_main_v11 V0)
theorem val4_main_v41 (V0 : Valuation τ sig (Elt Ideal)) : val4 V0 (no_index (Proc.devRef .tc main_v41)) = tY0 V0 :=
  (wL0c_keep (val3 V0) main_v41 (by decide)).trans (val3_main_v41 V0)
theorem val4_main_v44 (V0 : Valuation τ sig (Elt Ideal)) : val4 V0 (no_index (Proc.devRef .tc main_v44)) = tM0 V0 := by
  unfold val4
  rw [wL0c_main_v44]
  simp only [val3_main_v41]
  rfl
theorem val4_main_v45 (V0 : Valuation τ sig (Elt Ideal)) : val4 V0 (no_index (Proc.devRef .tc main_v45)) = tV0 V0 := by
  unfold val4
  rw [wL0c_main_v45]
  simp only [val3_main_v41]
  rfl
theorem val4_main_arg0 (V0 : Valuation τ sig (Elt Ideal)) : val4 V0 (no_index (Proc.devRef .tc main_arg0)) = V0 (Proc.devRef .tc main_arg0) :=
  (wL0c_keep (val3 V0) main_arg0 (by decide)).trans (val3_main_arg0 V0)
theorem val4_main_arg1 (V0 : Valuation τ sig (Elt Ideal)) : val4 V0 (no_index (Proc.devRef .tc main_arg1)) = V0 (Proc.devRef .tc main_arg1) :=
  (wL0c_keep (val3 V0) main_arg1 (by decide)).trans (val3_main_arg1 V0)
theorem val4_main_arg2 (V0 : Valuation τ sig (Elt Ideal)) : val4 V0 (no_index (Proc.devRef .tc main_arg2)) = V0 (Proc.devRef .tc main_arg2) :=
  (wL0c_keep (val3 V0) main_arg2 (by decide)).trans (val3_main_arg2 V0)
theorem val4_main_arg3 (V0 : Valuation τ sig (Elt Ideal)) : val4 V0 (no_index (Proc.devRef .tc main_arg3)) = V0 (Proc.devRef .tc main_arg3) :=
  (wL0c_keep (val3 V0) main_arg3 (by decide)).trans (val3_main_arg3 V0)
theorem val4_main_arg4 (V0 : Valuation τ sig (Elt Ideal)) : val4 V0 (no_index (Proc.devRef .tc main_arg4)) = V0 (Proc.devRef .tc main_arg4) :=
  (wL0c_keep (val3 V0) main_arg4 (by decide)).trans (val3_main_arg4 V0)
theorem val4_main_arg5 (V0 : Valuation τ sig (Elt Ideal)) : val4 V0 (no_index (Proc.devRef .tc main_arg5)) = V0 (Proc.devRef .tc main_arg5) :=
  (wL0c_keep (val3 V0) main_arg5 (by decide)).trans (val3_main_arg5 V0)
theorem val4_main_arg6 (V0 : Valuation τ sig (Elt Ideal)) : val4 V0 (no_index (Proc.devRef .tc main_arg6)) = V0 (Proc.devRef .tc main_arg6) :=
  (wL0c_keep (val3 V0) main_arg6 (by decide)).trans (val3_main_arg6 V0)
theorem val4_main_arg7 (V0 : Valuation τ sig (Elt Ideal)) : val4 V0 (no_index (Proc.devRef .tc main_arg7)) = V0 (Proc.devRef .tc main_arg7) :=
  (wL0c_keep (val3 V0) main_arg7 (by decide)).trans (val3_main_arg7 V0)
theorem val4_main_arg8 (V0 : Valuation τ sig (Elt Ideal)) : val4 V0 (no_index (Proc.devRef .tc main_arg8)) = V0 (Proc.devRef .tc main_arg8) :=
  (wL0c_keep (val3 V0) main_arg8 (by decide)).trans (val3_main_arg8 V0)
theorem val4_main_arg9 (V0 : Valuation τ sig (Elt Ideal)) : val4 V0 (no_index (Proc.devRef .tc main_arg9)) = V0 (Proc.devRef .tc main_arg9) :=
  (wL0c_keep (val3 V0) main_arg9 (by decide)).trans (val3_main_arg9 V0)
theorem val4_main_arg10 (V0 : Valuation τ sig (Elt Ideal)) : val4 V0 (no_index (Proc.devRef .tc main_arg10)) = V0 (Proc.devRef .tc main_arg10) :=
  (wL0c_keep (val3 V0) main_arg10 (by decide)).trans (val3_main_arg10 V0)
theorem val4_main_arg11 (V0 : Valuation τ sig (Elt Ideal)) : val4 V0 (no_index (Proc.devRef .tc main_arg11)) = V0 (Proc.devRef .tc main_arg11) :=
  (wL0c_keep (val3 V0) main_arg11 (by decide)).trans (val3_main_arg11 V0)
theorem val4_main_arg12 (V0 : Valuation τ sig (Elt Ideal)) : val4 V0 (no_index (Proc.devRef .tc main_arg12)) = V0 (Proc.devRef .tc main_arg12) :=
  (wL0c_keep (val3 V0) main_arg12 (by decide)).trans (val3_main_arg12 V0)
theorem val4_main_arg13 (V0 : Valuation τ sig (Elt Ideal)) : val4 V0 (no_index (Proc.devRef .tc main_arg13)) = V0 (Proc.devRef .tc main_arg13) :=
  (wL0c_keep (val3 V0) main_arg13 (by decide)).trans (val3_main_arg13 V0)

/-- The contents after window L0d. -/
def val5 (V0 : Valuation τ sig (Elt Ideal)) : Valuation τ sig (Elt Ideal) := after (wL0d (F := Ideal)) (val4 V0)
theorem val5_main_v7 (V0 : Valuation τ sig (Elt Ideal)) : val5 V0 (no_index (Proc.devRef .tc main_v7)) = tE V0 :=
  (wL0d_keep (val4 V0) main_v7 (by decide)).trans (val4_main_v7 V0)
theorem val5_main_v9 (V0 : Valuation τ sig (Elt Ideal)) : val5 V0 (no_index (Proc.devRef .tc main_v9)) = tS V0 :=
  (wL0d_keep (val4 V0) main_v9 (by decide)).trans (val4_main_v9 V0)
theorem val5_main_v11 (V0 : Valuation τ sig (Elt Ideal)) : val5 V0 (no_index (Proc.devRef .tc main_v11)) = tD V0 :=
  (wL0d_keep (val4 V0) main_v11 (by decide)).trans (val4_main_v11 V0)
theorem val5_main_v64 (V0 : Valuation τ sig (Elt Ideal)) : val5 V0 (no_index (Proc.devRef .tc main_v64)) = tH1 V0 := by
  unfold val5
  rw [wL0d_main_v64]
  simp only [val4_main_arg12, val4_main_v44, val4_main_v41, val4_main_v45, val4_main_arg13]
  rfl
theorem val5_main_arg0 (V0 : Valuation τ sig (Elt Ideal)) : val5 V0 (no_index (Proc.devRef .tc main_arg0)) = V0 (Proc.devRef .tc main_arg0) :=
  (wL0d_keep (val4 V0) main_arg0 (by decide)).trans (val4_main_arg0 V0)
theorem val5_main_arg1 (V0 : Valuation τ sig (Elt Ideal)) : val5 V0 (no_index (Proc.devRef .tc main_arg1)) = V0 (Proc.devRef .tc main_arg1) :=
  (wL0d_keep (val4 V0) main_arg1 (by decide)).trans (val4_main_arg1 V0)
theorem val5_main_arg2 (V0 : Valuation τ sig (Elt Ideal)) : val5 V0 (no_index (Proc.devRef .tc main_arg2)) = V0 (Proc.devRef .tc main_arg2) :=
  (wL0d_keep (val4 V0) main_arg2 (by decide)).trans (val4_main_arg2 V0)
theorem val5_main_arg3 (V0 : Valuation τ sig (Elt Ideal)) : val5 V0 (no_index (Proc.devRef .tc main_arg3)) = V0 (Proc.devRef .tc main_arg3) :=
  (wL0d_keep (val4 V0) main_arg3 (by decide)).trans (val4_main_arg3 V0)
theorem val5_main_arg4 (V0 : Valuation τ sig (Elt Ideal)) : val5 V0 (no_index (Proc.devRef .tc main_arg4)) = V0 (Proc.devRef .tc main_arg4) :=
  (wL0d_keep (val4 V0) main_arg4 (by decide)).trans (val4_main_arg4 V0)
theorem val5_main_arg5 (V0 : Valuation τ sig (Elt Ideal)) : val5 V0 (no_index (Proc.devRef .tc main_arg5)) = V0 (Proc.devRef .tc main_arg5) :=
  (wL0d_keep (val4 V0) main_arg5 (by decide)).trans (val4_main_arg5 V0)
theorem val5_main_arg6 (V0 : Valuation τ sig (Elt Ideal)) : val5 V0 (no_index (Proc.devRef .tc main_arg6)) = V0 (Proc.devRef .tc main_arg6) :=
  (wL0d_keep (val4 V0) main_arg6 (by decide)).trans (val4_main_arg6 V0)
theorem val5_main_arg7 (V0 : Valuation τ sig (Elt Ideal)) : val5 V0 (no_index (Proc.devRef .tc main_arg7)) = V0 (Proc.devRef .tc main_arg7) :=
  (wL0d_keep (val4 V0) main_arg7 (by decide)).trans (val4_main_arg7 V0)
theorem val5_main_arg8 (V0 : Valuation τ sig (Elt Ideal)) : val5 V0 (no_index (Proc.devRef .tc main_arg8)) = V0 (Proc.devRef .tc main_arg8) :=
  (wL0d_keep (val4 V0) main_arg8 (by decide)).trans (val4_main_arg8 V0)
theorem val5_main_arg9 (V0 : Valuation τ sig (Elt Ideal)) : val5 V0 (no_index (Proc.devRef .tc main_arg9)) = V0 (Proc.devRef .tc main_arg9) :=
  (wL0d_keep (val4 V0) main_arg9 (by decide)).trans (val4_main_arg9 V0)
theorem val5_main_arg10 (V0 : Valuation τ sig (Elt Ideal)) : val5 V0 (no_index (Proc.devRef .tc main_arg10)) = V0 (Proc.devRef .tc main_arg10) :=
  (wL0d_keep (val4 V0) main_arg10 (by decide)).trans (val4_main_arg10 V0)
theorem val5_main_arg11 (V0 : Valuation τ sig (Elt Ideal)) : val5 V0 (no_index (Proc.devRef .tc main_arg11)) = V0 (Proc.devRef .tc main_arg11) :=
  (wL0d_keep (val4 V0) main_arg11 (by decide)).trans (val4_main_arg11 V0)
theorem val5_main_arg12 (V0 : Valuation τ sig (Elt Ideal)) : val5 V0 (no_index (Proc.devRef .tc main_arg12)) = V0 (Proc.devRef .tc main_arg12) :=
  (wL0d_keep (val4 V0) main_arg12 (by decide)).trans (val4_main_arg12 V0)
theorem val5_main_arg13 (V0 : Valuation τ sig (Elt Ideal)) : val5 V0 (no_index (Proc.devRef .tc main_arg13)) = V0 (Proc.devRef .tc main_arg13) :=
  (wL0d_keep (val4 V0) main_arg13 (by decide)).trans (val4_main_arg13 V0)

/-- The contents after window L1a. -/
def val6 (V0 : Valuation τ sig (Elt Ideal)) : Valuation τ sig (Elt Ideal) := after (wL1a (F := Ideal)) (val5 V0)
theorem val6_main_v7 (V0 : Valuation τ sig (Elt Ideal)) : val6 V0 (no_index (Proc.devRef .tc main_v7)) = tE V0 :=
  (wL1a_keep (val5 V0) main_v7 (by decide)).trans (val5_main_v7 V0)
theorem val6_main_v9 (V0 : Valuation τ sig (Elt Ideal)) : val6 V0 (no_index (Proc.devRef .tc main_v9)) = tS V0 :=
  (wL1a_keep (val5 V0) main_v9 (by decide)).trans (val5_main_v9 V0)
theorem val6_main_v11 (V0 : Valuation τ sig (Elt Ideal)) : val6 V0 (no_index (Proc.devRef .tc main_v11)) = tD V0 :=
  (wL1a_keep (val5 V0) main_v11 (by decide)).trans (val5_main_v11 V0)
theorem val6_main_v77 (V0 : Valuation τ sig (Elt Ideal)) : val6 V0 (no_index (Proc.devRef .tc main_v77)) = tZ1 V0 := by
  unfold val6
  rw [wL1a_main_v77]
  simp only [val5_main_v9, val5_main_v64, val5_main_v7, val5_main_v11]
  rfl
theorem val6_main_arg0 (V0 : Valuation τ sig (Elt Ideal)) : val6 V0 (no_index (Proc.devRef .tc main_arg0)) = V0 (Proc.devRef .tc main_arg0) :=
  (wL1a_keep (val5 V0) main_arg0 (by decide)).trans (val5_main_arg0 V0)
theorem val6_main_arg1 (V0 : Valuation τ sig (Elt Ideal)) : val6 V0 (no_index (Proc.devRef .tc main_arg1)) = V0 (Proc.devRef .tc main_arg1) :=
  (wL1a_keep (val5 V0) main_arg1 (by decide)).trans (val5_main_arg1 V0)
theorem val6_main_arg2 (V0 : Valuation τ sig (Elt Ideal)) : val6 V0 (no_index (Proc.devRef .tc main_arg2)) = V0 (Proc.devRef .tc main_arg2) :=
  (wL1a_keep (val5 V0) main_arg2 (by decide)).trans (val5_main_arg2 V0)
theorem val6_main_arg3 (V0 : Valuation τ sig (Elt Ideal)) : val6 V0 (no_index (Proc.devRef .tc main_arg3)) = V0 (Proc.devRef .tc main_arg3) :=
  (wL1a_keep (val5 V0) main_arg3 (by decide)).trans (val5_main_arg3 V0)
theorem val6_main_arg4 (V0 : Valuation τ sig (Elt Ideal)) : val6 V0 (no_index (Proc.devRef .tc main_arg4)) = V0 (Proc.devRef .tc main_arg4) :=
  (wL1a_keep (val5 V0) main_arg4 (by decide)).trans (val5_main_arg4 V0)
theorem val6_main_arg5 (V0 : Valuation τ sig (Elt Ideal)) : val6 V0 (no_index (Proc.devRef .tc main_arg5)) = V0 (Proc.devRef .tc main_arg5) :=
  (wL1a_keep (val5 V0) main_arg5 (by decide)).trans (val5_main_arg5 V0)
theorem val6_main_arg6 (V0 : Valuation τ sig (Elt Ideal)) : val6 V0 (no_index (Proc.devRef .tc main_arg6)) = V0 (Proc.devRef .tc main_arg6) :=
  (wL1a_keep (val5 V0) main_arg6 (by decide)).trans (val5_main_arg6 V0)
theorem val6_main_arg7 (V0 : Valuation τ sig (Elt Ideal)) : val6 V0 (no_index (Proc.devRef .tc main_arg7)) = V0 (Proc.devRef .tc main_arg7) :=
  (wL1a_keep (val5 V0) main_arg7 (by decide)).trans (val5_main_arg7 V0)
theorem val6_main_arg8 (V0 : Valuation τ sig (Elt Ideal)) : val6 V0 (no_index (Proc.devRef .tc main_arg8)) = V0 (Proc.devRef .tc main_arg8) :=
  (wL1a_keep (val5 V0) main_arg8 (by decide)).trans (val5_main_arg8 V0)
theorem val6_main_arg9 (V0 : Valuation τ sig (Elt Ideal)) : val6 V0 (no_index (Proc.devRef .tc main_arg9)) = V0 (Proc.devRef .tc main_arg9) :=
  (wL1a_keep (val5 V0) main_arg9 (by decide)).trans (val5_main_arg9 V0)
theorem val6_main_arg10 (V0 : Valuation τ sig (Elt Ideal)) : val6 V0 (no_index (Proc.devRef .tc main_arg10)) = V0 (Proc.devRef .tc main_arg10) :=
  (wL1a_keep (val5 V0) main_arg10 (by decide)).trans (val5_main_arg10 V0)
theorem val6_main_arg11 (V0 : Valuation τ sig (Elt Ideal)) : val6 V0 (no_index (Proc.devRef .tc main_arg11)) = V0 (Proc.devRef .tc main_arg11) :=
  (wL1a_keep (val5 V0) main_arg11 (by decide)).trans (val5_main_arg11 V0)
theorem val6_main_arg12 (V0 : Valuation τ sig (Elt Ideal)) : val6 V0 (no_index (Proc.devRef .tc main_arg12)) = V0 (Proc.devRef .tc main_arg12) :=
  (wL1a_keep (val5 V0) main_arg12 (by decide)).trans (val5_main_arg12 V0)
theorem val6_main_arg13 (V0 : Valuation τ sig (Elt Ideal)) : val6 V0 (no_index (Proc.devRef .tc main_arg13)) = V0 (Proc.devRef .tc main_arg13) :=
  (wL1a_keep (val5 V0) main_arg13 (by decide)).trans (val5_main_arg13 V0)

/-- The contents after window L1b. -/
def val7 (V0 : Valuation τ sig (Elt Ideal)) : Valuation τ sig (Elt Ideal) := after (wL1b (F := Ideal)) (val6 V0)
theorem val7_main_v7 (V0 : Valuation τ sig (Elt Ideal)) : val7 V0 (no_index (Proc.devRef .tc main_v7)) = tE V0 :=
  (wL1b_keep (val6 V0) main_v7 (by decide)).trans (val6_main_v7 V0)
theorem val7_main_v9 (V0 : Valuation τ sig (Elt Ideal)) : val7 V0 (no_index (Proc.devRef .tc main_v9)) = tS V0 :=
  (wL1b_keep (val6 V0) main_v9 (by decide)).trans (val6_main_v9 V0)
theorem val7_main_v11 (V0 : Valuation τ sig (Elt Ideal)) : val7 V0 (no_index (Proc.devRef .tc main_v11)) = tD V0 :=
  (wL1b_keep (val6 V0) main_v11 (by decide)).trans (val6_main_v11 V0)
theorem val7_main_v94 (V0 : Valuation τ sig (Elt Ideal)) : val7 V0 (no_index (Proc.devRef .tc main_v94)) = tY1 V0 := by
  unfold val7
  rw [wL1b_main_v94]
  simp only [val6_main_arg8, val6_main_v77, val6_main_arg9, val6_main_arg10, val6_main_arg11]
  rfl
theorem val7_main_arg0 (V0 : Valuation τ sig (Elt Ideal)) : val7 V0 (no_index (Proc.devRef .tc main_arg0)) = V0 (Proc.devRef .tc main_arg0) :=
  (wL1b_keep (val6 V0) main_arg0 (by decide)).trans (val6_main_arg0 V0)
theorem val7_main_arg1 (V0 : Valuation τ sig (Elt Ideal)) : val7 V0 (no_index (Proc.devRef .tc main_arg1)) = V0 (Proc.devRef .tc main_arg1) :=
  (wL1b_keep (val6 V0) main_arg1 (by decide)).trans (val6_main_arg1 V0)
theorem val7_main_arg2 (V0 : Valuation τ sig (Elt Ideal)) : val7 V0 (no_index (Proc.devRef .tc main_arg2)) = V0 (Proc.devRef .tc main_arg2) :=
  (wL1b_keep (val6 V0) main_arg2 (by decide)).trans (val6_main_arg2 V0)
theorem val7_main_arg3 (V0 : Valuation τ sig (Elt Ideal)) : val7 V0 (no_index (Proc.devRef .tc main_arg3)) = V0 (Proc.devRef .tc main_arg3) :=
  (wL1b_keep (val6 V0) main_arg3 (by decide)).trans (val6_main_arg3 V0)
theorem val7_main_arg4 (V0 : Valuation τ sig (Elt Ideal)) : val7 V0 (no_index (Proc.devRef .tc main_arg4)) = V0 (Proc.devRef .tc main_arg4) :=
  (wL1b_keep (val6 V0) main_arg4 (by decide)).trans (val6_main_arg4 V0)
theorem val7_main_arg5 (V0 : Valuation τ sig (Elt Ideal)) : val7 V0 (no_index (Proc.devRef .tc main_arg5)) = V0 (Proc.devRef .tc main_arg5) :=
  (wL1b_keep (val6 V0) main_arg5 (by decide)).trans (val6_main_arg5 V0)
theorem val7_main_arg6 (V0 : Valuation τ sig (Elt Ideal)) : val7 V0 (no_index (Proc.devRef .tc main_arg6)) = V0 (Proc.devRef .tc main_arg6) :=
  (wL1b_keep (val6 V0) main_arg6 (by decide)).trans (val6_main_arg6 V0)
theorem val7_main_arg7 (V0 : Valuation τ sig (Elt Ideal)) : val7 V0 (no_index (Proc.devRef .tc main_arg7)) = V0 (Proc.devRef .tc main_arg7) :=
  (wL1b_keep (val6 V0) main_arg7 (by decide)).trans (val6_main_arg7 V0)
theorem val7_main_arg8 (V0 : Valuation τ sig (Elt Ideal)) : val7 V0 (no_index (Proc.devRef .tc main_arg8)) = V0 (Proc.devRef .tc main_arg8) :=
  (wL1b_keep (val6 V0) main_arg8 (by decide)).trans (val6_main_arg8 V0)
theorem val7_main_arg9 (V0 : Valuation τ sig (Elt Ideal)) : val7 V0 (no_index (Proc.devRef .tc main_arg9)) = V0 (Proc.devRef .tc main_arg9) :=
  (wL1b_keep (val6 V0) main_arg9 (by decide)).trans (val6_main_arg9 V0)
theorem val7_main_arg10 (V0 : Valuation τ sig (Elt Ideal)) : val7 V0 (no_index (Proc.devRef .tc main_arg10)) = V0 (Proc.devRef .tc main_arg10) :=
  (wL1b_keep (val6 V0) main_arg10 (by decide)).trans (val6_main_arg10 V0)
theorem val7_main_arg11 (V0 : Valuation τ sig (Elt Ideal)) : val7 V0 (no_index (Proc.devRef .tc main_arg11)) = V0 (Proc.devRef .tc main_arg11) :=
  (wL1b_keep (val6 V0) main_arg11 (by decide)).trans (val6_main_arg11 V0)
theorem val7_main_arg12 (V0 : Valuation τ sig (Elt Ideal)) : val7 V0 (no_index (Proc.devRef .tc main_arg12)) = V0 (Proc.devRef .tc main_arg12) :=
  (wL1b_keep (val6 V0) main_arg12 (by decide)).trans (val6_main_arg12 V0)
theorem val7_main_arg13 (V0 : Valuation τ sig (Elt Ideal)) : val7 V0 (no_index (Proc.devRef .tc main_arg13)) = V0 (Proc.devRef .tc main_arg13) :=
  (wL1b_keep (val6 V0) main_arg13 (by decide)).trans (val6_main_arg13 V0)

/-- The contents after window L1c. -/
def val8 (V0 : Valuation τ sig (Elt Ideal)) : Valuation τ sig (Elt Ideal) := after (wL1c (F := Ideal)) (val7 V0)
theorem val8_main_v7 (V0 : Valuation τ sig (Elt Ideal)) : val8 V0 (no_index (Proc.devRef .tc main_v7)) = tE V0 :=
  (wL1c_keep (val7 V0) main_v7 (by decide)).trans (val7_main_v7 V0)
theorem val8_main_v9 (V0 : Valuation τ sig (Elt Ideal)) : val8 V0 (no_index (Proc.devRef .tc main_v9)) = tS V0 :=
  (wL1c_keep (val7 V0) main_v9 (by decide)).trans (val7_main_v9 V0)
theorem val8_main_v11 (V0 : Valuation τ sig (Elt Ideal)) : val8 V0 (no_index (Proc.devRef .tc main_v11)) = tD V0 :=
  (wL1c_keep (val7 V0) main_v11 (by decide)).trans (val7_main_v11 V0)
theorem val8_main_v94 (V0 : Valuation τ sig (Elt Ideal)) : val8 V0 (no_index (Proc.devRef .tc main_v94)) = tY1 V0 :=
  (wL1c_keep (val7 V0) main_v94 (by decide)).trans (val7_main_v94 V0)
theorem val8_main_v97 (V0 : Valuation τ sig (Elt Ideal)) : val8 V0 (no_index (Proc.devRef .tc main_v97)) = tM1 V0 := by
  unfold val8
  rw [wL1c_main_v97]
  simp only [val7_main_v94]
  rfl
theorem val8_main_v98 (V0 : Valuation τ sig (Elt Ideal)) : val8 V0 (no_index (Proc.devRef .tc main_v98)) = tV1 V0 := by
  unfold val8
  rw [wL1c_main_v98]
  simp only [val7_main_v94]
  rfl
theorem val8_main_arg0 (V0 : Valuation τ sig (Elt Ideal)) : val8 V0 (no_index (Proc.devRef .tc main_arg0)) = V0 (Proc.devRef .tc main_arg0) :=
  (wL1c_keep (val7 V0) main_arg0 (by decide)).trans (val7_main_arg0 V0)
theorem val8_main_arg1 (V0 : Valuation τ sig (Elt Ideal)) : val8 V0 (no_index (Proc.devRef .tc main_arg1)) = V0 (Proc.devRef .tc main_arg1) :=
  (wL1c_keep (val7 V0) main_arg1 (by decide)).trans (val7_main_arg1 V0)
theorem val8_main_arg2 (V0 : Valuation τ sig (Elt Ideal)) : val8 V0 (no_index (Proc.devRef .tc main_arg2)) = V0 (Proc.devRef .tc main_arg2) :=
  (wL1c_keep (val7 V0) main_arg2 (by decide)).trans (val7_main_arg2 V0)
theorem val8_main_arg3 (V0 : Valuation τ sig (Elt Ideal)) : val8 V0 (no_index (Proc.devRef .tc main_arg3)) = V0 (Proc.devRef .tc main_arg3) :=
  (wL1c_keep (val7 V0) main_arg3 (by decide)).trans (val7_main_arg3 V0)
theorem val8_main_arg4 (V0 : Valuation τ sig (Elt Ideal)) : val8 V0 (no_index (Proc.devRef .tc main_arg4)) = V0 (Proc.devRef .tc main_arg4) :=
  (wL1c_keep (val7 V0) main_arg4 (by decide)).trans (val7_main_arg4 V0)
theorem val8_main_arg5 (V0 : Valuation τ sig (Elt Ideal)) : val8 V0 (no_index (Proc.devRef .tc main_arg5)) = V0 (Proc.devRef .tc main_arg5) :=
  (wL1c_keep (val7 V0) main_arg5 (by decide)).trans (val7_main_arg5 V0)
theorem val8_main_arg6 (V0 : Valuation τ sig (Elt Ideal)) : val8 V0 (no_index (Proc.devRef .tc main_arg6)) = V0 (Proc.devRef .tc main_arg6) :=
  (wL1c_keep (val7 V0) main_arg6 (by decide)).trans (val7_main_arg6 V0)
theorem val8_main_arg7 (V0 : Valuation τ sig (Elt Ideal)) : val8 V0 (no_index (Proc.devRef .tc main_arg7)) = V0 (Proc.devRef .tc main_arg7) :=
  (wL1c_keep (val7 V0) main_arg7 (by decide)).trans (val7_main_arg7 V0)
theorem val8_main_arg8 (V0 : Valuation τ sig (Elt Ideal)) : val8 V0 (no_index (Proc.devRef .tc main_arg8)) = V0 (Proc.devRef .tc main_arg8) :=
  (wL1c_keep (val7 V0) main_arg8 (by decide)).trans (val7_main_arg8 V0)
theorem val8_main_arg9 (V0 : Valuation τ sig (Elt Ideal)) : val8 V0 (no_index (Proc.devRef .tc main_arg9)) = V0 (Proc.devRef .tc main_arg9) :=
  (wL1c_keep (val7 V0) main_arg9 (by decide)).trans (val7_main_arg9 V0)
theorem val8_main_arg10 (V0 : Valuation τ sig (Elt Ideal)) : val8 V0 (no_index (Proc.devRef .tc main_arg10)) = V0 (Proc.devRef .tc main_arg10) :=
  (wL1c_keep (val7 V0) main_arg10 (by decide)).trans (val7_main_arg10 V0)
theorem val8_main_arg11 (V0 : Valuation τ sig (Elt Ideal)) : val8 V0 (no_index (Proc.devRef .tc main_arg11)) = V0 (Proc.devRef .tc main_arg11) :=
  (wL1c_keep (val7 V0) main_arg11 (by decide)).trans (val7_main_arg11 V0)
theorem val8_main_arg12 (V0 : Valuation τ sig (Elt Ideal)) : val8 V0 (no_index (Proc.devRef .tc main_arg12)) = V0 (Proc.devRef .tc main_arg12) :=
  (wL1c_keep (val7 V0) main_arg12 (by decide)).trans (val7_main_arg12 V0)
theorem val8_main_arg13 (V0 : Valuation τ sig (Elt Ideal)) : val8 V0 (no_index (Proc.devRef .tc main_arg13)) = V0 (Proc.devRef .tc main_arg13) :=
  (wL1c_keep (val7 V0) main_arg13 (by decide)).trans (val7_main_arg13 V0)

/-- The contents after window L1d. -/
def val9 (V0 : Valuation τ sig (Elt Ideal)) : Valuation τ sig (Elt Ideal) := after (wL1d (F := Ideal)) (val8 V0)
theorem val9_main_v7 (V0 : Valuation τ sig (Elt Ideal)) : val9 V0 (no_index (Proc.devRef .tc main_v7)) = tE V0 :=
  (wL1d_keep (val8 V0) main_v7 (by decide)).trans (val8_main_v7 V0)
theorem val9_main_v9 (V0 : Valuation τ sig (Elt Ideal)) : val9 V0 (no_index (Proc.devRef .tc main_v9)) = tS V0 :=
  (wL1d_keep (val8 V0) main_v9 (by decide)).trans (val8_main_v9 V0)
theorem val9_main_v11 (V0 : Valuation τ sig (Elt Ideal)) : val9 V0 (no_index (Proc.devRef .tc main_v11)) = tD V0 :=
  (wL1d_keep (val8 V0) main_v11 (by decide)).trans (val8_main_v11 V0)
theorem val9_main_v117 (V0 : Valuation τ sig (Elt Ideal)) : val9 V0 (no_index (Proc.devRef .tc main_v117)) = tH2 V0 := by
  unfold val9
  rw [wL1d_main_v117]
  simp only [val8_main_arg12, val8_main_v97, val8_main_v94, val8_main_v98, val8_main_arg13]
  rfl
theorem val9_main_arg0 (V0 : Valuation τ sig (Elt Ideal)) : val9 V0 (no_index (Proc.devRef .tc main_arg0)) = V0 (Proc.devRef .tc main_arg0) :=
  (wL1d_keep (val8 V0) main_arg0 (by decide)).trans (val8_main_arg0 V0)
theorem val9_main_arg1 (V0 : Valuation τ sig (Elt Ideal)) : val9 V0 (no_index (Proc.devRef .tc main_arg1)) = V0 (Proc.devRef .tc main_arg1) :=
  (wL1d_keep (val8 V0) main_arg1 (by decide)).trans (val8_main_arg1 V0)
theorem val9_main_arg2 (V0 : Valuation τ sig (Elt Ideal)) : val9 V0 (no_index (Proc.devRef .tc main_arg2)) = V0 (Proc.devRef .tc main_arg2) :=
  (wL1d_keep (val8 V0) main_arg2 (by decide)).trans (val8_main_arg2 V0)
theorem val9_main_arg3 (V0 : Valuation τ sig (Elt Ideal)) : val9 V0 (no_index (Proc.devRef .tc main_arg3)) = V0 (Proc.devRef .tc main_arg3) :=
  (wL1d_keep (val8 V0) main_arg3 (by decide)).trans (val8_main_arg3 V0)
theorem val9_main_arg4 (V0 : Valuation τ sig (Elt Ideal)) : val9 V0 (no_index (Proc.devRef .tc main_arg4)) = V0 (Proc.devRef .tc main_arg4) :=
  (wL1d_keep (val8 V0) main_arg4 (by decide)).trans (val8_main_arg4 V0)
theorem val9_main_arg5 (V0 : Valuation τ sig (Elt Ideal)) : val9 V0 (no_index (Proc.devRef .tc main_arg5)) = V0 (Proc.devRef .tc main_arg5) :=
  (wL1d_keep (val8 V0) main_arg5 (by decide)).trans (val8_main_arg5 V0)
theorem val9_main_arg6 (V0 : Valuation τ sig (Elt Ideal)) : val9 V0 (no_index (Proc.devRef .tc main_arg6)) = V0 (Proc.devRef .tc main_arg6) :=
  (wL1d_keep (val8 V0) main_arg6 (by decide)).trans (val8_main_arg6 V0)
theorem val9_main_arg7 (V0 : Valuation τ sig (Elt Ideal)) : val9 V0 (no_index (Proc.devRef .tc main_arg7)) = V0 (Proc.devRef .tc main_arg7) :=
  (wL1d_keep (val8 V0) main_arg7 (by decide)).trans (val8_main_arg7 V0)
theorem val9_main_arg8 (V0 : Valuation τ sig (Elt Ideal)) : val9 V0 (no_index (Proc.devRef .tc main_arg8)) = V0 (Proc.devRef .tc main_arg8) :=
  (wL1d_keep (val8 V0) main_arg8 (by decide)).trans (val8_main_arg8 V0)
theorem val9_main_arg9 (V0 : Valuation τ sig (Elt Ideal)) : val9 V0 (no_index (Proc.devRef .tc main_arg9)) = V0 (Proc.devRef .tc main_arg9) :=
  (wL1d_keep (val8 V0) main_arg9 (by decide)).trans (val8_main_arg9 V0)
theorem val9_main_arg10 (V0 : Valuation τ sig (Elt Ideal)) : val9 V0 (no_index (Proc.devRef .tc main_arg10)) = V0 (Proc.devRef .tc main_arg10) :=
  (wL1d_keep (val8 V0) main_arg10 (by decide)).trans (val8_main_arg10 V0)
theorem val9_main_arg11 (V0 : Valuation τ sig (Elt Ideal)) : val9 V0 (no_index (Proc.devRef .tc main_arg11)) = V0 (Proc.devRef .tc main_arg11) :=
  (wL1d_keep (val8 V0) main_arg11 (by decide)).trans (val8_main_arg11 V0)
theorem val9_main_arg12 (V0 : Valuation τ sig (Elt Ideal)) : val9 V0 (no_index (Proc.devRef .tc main_arg12)) = V0 (Proc.devRef .tc main_arg12) :=
  (wL1d_keep (val8 V0) main_arg12 (by decide)).trans (val8_main_arg12 V0)
theorem val9_main_arg13 (V0 : Valuation τ sig (Elt Ideal)) : val9 V0 (no_index (Proc.devRef .tc main_arg13)) = V0 (Proc.devRef .tc main_arg13) :=
  (wL1d_keep (val8 V0) main_arg13 (by decide)).trans (val8_main_arg13 V0)

/-- The contents after window L2a. -/
def val10 (V0 : Valuation τ sig (Elt Ideal)) : Valuation τ sig (Elt Ideal) := after (wL2a (F := Ideal)) (val9 V0)
theorem val10_main_v130 (V0 : Valuation τ sig (Elt Ideal)) : val10 V0 (no_index (Proc.devRef .tc main_v130)) = tZ2 V0 := by
  unfold val10
  rw [wL2a_main_v130]
  simp only [val9_main_v9, val9_main_v117, val9_main_v7, val9_main_v11]
  rfl
theorem val10_main_arg0 (V0 : Valuation τ sig (Elt Ideal)) : val10 V0 (no_index (Proc.devRef .tc main_arg0)) = V0 (Proc.devRef .tc main_arg0) :=
  (wL2a_keep (val9 V0) main_arg0 (by decide)).trans (val9_main_arg0 V0)
theorem val10_main_arg1 (V0 : Valuation τ sig (Elt Ideal)) : val10 V0 (no_index (Proc.devRef .tc main_arg1)) = V0 (Proc.devRef .tc main_arg1) :=
  (wL2a_keep (val9 V0) main_arg1 (by decide)).trans (val9_main_arg1 V0)
theorem val10_main_arg2 (V0 : Valuation τ sig (Elt Ideal)) : val10 V0 (no_index (Proc.devRef .tc main_arg2)) = V0 (Proc.devRef .tc main_arg2) :=
  (wL2a_keep (val9 V0) main_arg2 (by decide)).trans (val9_main_arg2 V0)
theorem val10_main_arg3 (V0 : Valuation τ sig (Elt Ideal)) : val10 V0 (no_index (Proc.devRef .tc main_arg3)) = V0 (Proc.devRef .tc main_arg3) :=
  (wL2a_keep (val9 V0) main_arg3 (by decide)).trans (val9_main_arg3 V0)
theorem val10_main_arg4 (V0 : Valuation τ sig (Elt Ideal)) : val10 V0 (no_index (Proc.devRef .tc main_arg4)) = V0 (Proc.devRef .tc main_arg4) :=
  (wL2a_keep (val9 V0) main_arg4 (by decide)).trans (val9_main_arg4 V0)
theorem val10_main_arg5 (V0 : Valuation τ sig (Elt Ideal)) : val10 V0 (no_index (Proc.devRef .tc main_arg5)) = V0 (Proc.devRef .tc main_arg5) :=
  (wL2a_keep (val9 V0) main_arg5 (by decide)).trans (val9_main_arg5 V0)
theorem val10_main_arg6 (V0 : Valuation τ sig (Elt Ideal)) : val10 V0 (no_index (Proc.devRef .tc main_arg6)) = V0 (Proc.devRef .tc main_arg6) :=
  (wL2a_keep (val9 V0) main_arg6 (by decide)).trans (val9_main_arg6 V0)
theorem val10_main_arg7 (V0 : Valuation τ sig (Elt Ideal)) : val10 V0 (no_index (Proc.devRef .tc main_arg7)) = V0 (Proc.devRef .tc main_arg7) :=
  (wL2a_keep (val9 V0) main_arg7 (by decide)).trans (val9_main_arg7 V0)
theorem val10_main_arg8 (V0 : Valuation τ sig (Elt Ideal)) : val10 V0 (no_index (Proc.devRef .tc main_arg8)) = V0 (Proc.devRef .tc main_arg8) :=
  (wL2a_keep (val9 V0) main_arg8 (by decide)).trans (val9_main_arg8 V0)
theorem val10_main_arg9 (V0 : Valuation τ sig (Elt Ideal)) : val10 V0 (no_index (Proc.devRef .tc main_arg9)) = V0 (Proc.devRef .tc main_arg9) :=
  (wL2a_keep (val9 V0) main_arg9 (by decide)).trans (val9_main_arg9 V0)
theorem val10_main_arg10 (V0 : Valuation τ sig (Elt Ideal)) : val10 V0 (no_index (Proc.devRef .tc main_arg10)) = V0 (Proc.devRef .tc main_arg10) :=
  (wL2a_keep (val9 V0) main_arg10 (by decide)).trans (val9_main_arg10 V0)
theorem val10_main_arg11 (V0 : Valuation τ sig (Elt Ideal)) : val10 V0 (no_index (Proc.devRef .tc main_arg11)) = V0 (Proc.devRef .tc main_arg11) :=
  (wL2a_keep (val9 V0) main_arg11 (by decide)).trans (val9_main_arg11 V0)
theorem val10_main_arg12 (V0 : Valuation τ sig (Elt Ideal)) : val10 V0 (no_index (Proc.devRef .tc main_arg12)) = V0 (Proc.devRef .tc main_arg12) :=
  (wL2a_keep (val9 V0) main_arg12 (by decide)).trans (val9_main_arg12 V0)
theorem val10_main_arg13 (V0 : Valuation τ sig (Elt Ideal)) : val10 V0 (no_index (Proc.devRef .tc main_arg13)) = V0 (Proc.devRef .tc main_arg13) :=
  (wL2a_keep (val9 V0) main_arg13 (by decide)).trans (val9_main_arg13 V0)

/-- The contents after window L2b. -/
def val11 (V0 : Valuation τ sig (Elt Ideal)) : Valuation τ sig (Elt Ideal) := after (wL2b (F := Ideal)) (val10 V0)
theorem val11_main_v147 (V0 : Valuation τ sig (Elt Ideal)) : val11 V0 (no_index (Proc.devRef .tc main_v147)) = tY2 V0 := by
  unfold val11
  rw [wL2b_main_v147]
  simp only [val10_main_arg8, val10_main_v130, val10_main_arg9, val10_main_arg10, val10_main_arg11]
  rfl
theorem val11_main_arg0 (V0 : Valuation τ sig (Elt Ideal)) : val11 V0 (no_index (Proc.devRef .tc main_arg0)) = V0 (Proc.devRef .tc main_arg0) :=
  (wL2b_keep (val10 V0) main_arg0 (by decide)).trans (val10_main_arg0 V0)
theorem val11_main_arg1 (V0 : Valuation τ sig (Elt Ideal)) : val11 V0 (no_index (Proc.devRef .tc main_arg1)) = V0 (Proc.devRef .tc main_arg1) :=
  (wL2b_keep (val10 V0) main_arg1 (by decide)).trans (val10_main_arg1 V0)
theorem val11_main_arg2 (V0 : Valuation τ sig (Elt Ideal)) : val11 V0 (no_index (Proc.devRef .tc main_arg2)) = V0 (Proc.devRef .tc main_arg2) :=
  (wL2b_keep (val10 V0) main_arg2 (by decide)).trans (val10_main_arg2 V0)
theorem val11_main_arg3 (V0 : Valuation τ sig (Elt Ideal)) : val11 V0 (no_index (Proc.devRef .tc main_arg3)) = V0 (Proc.devRef .tc main_arg3) :=
  (wL2b_keep (val10 V0) main_arg3 (by decide)).trans (val10_main_arg3 V0)
theorem val11_main_arg4 (V0 : Valuation τ sig (Elt Ideal)) : val11 V0 (no_index (Proc.devRef .tc main_arg4)) = V0 (Proc.devRef .tc main_arg4) :=
  (wL2b_keep (val10 V0) main_arg4 (by decide)).trans (val10_main_arg4 V0)
theorem val11_main_arg5 (V0 : Valuation τ sig (Elt Ideal)) : val11 V0 (no_index (Proc.devRef .tc main_arg5)) = V0 (Proc.devRef .tc main_arg5) :=
  (wL2b_keep (val10 V0) main_arg5 (by decide)).trans (val10_main_arg5 V0)
theorem val11_main_arg6 (V0 : Valuation τ sig (Elt Ideal)) : val11 V0 (no_index (Proc.devRef .tc main_arg6)) = V0 (Proc.devRef .tc main_arg6) :=
  (wL2b_keep (val10 V0) main_arg6 (by decide)).trans (val10_main_arg6 V0)
theorem val11_main_arg7 (V0 : Valuation τ sig (Elt Ideal)) : val11 V0 (no_index (Proc.devRef .tc main_arg7)) = V0 (Proc.devRef .tc main_arg7) :=
  (wL2b_keep (val10 V0) main_arg7 (by decide)).trans (val10_main_arg7 V0)
theorem val11_main_arg8 (V0 : Valuation τ sig (Elt Ideal)) : val11 V0 (no_index (Proc.devRef .tc main_arg8)) = V0 (Proc.devRef .tc main_arg8) :=
  (wL2b_keep (val10 V0) main_arg8 (by decide)).trans (val10_main_arg8 V0)
theorem val11_main_arg9 (V0 : Valuation τ sig (Elt Ideal)) : val11 V0 (no_index (Proc.devRef .tc main_arg9)) = V0 (Proc.devRef .tc main_arg9) :=
  (wL2b_keep (val10 V0) main_arg9 (by decide)).trans (val10_main_arg9 V0)
theorem val11_main_arg10 (V0 : Valuation τ sig (Elt Ideal)) : val11 V0 (no_index (Proc.devRef .tc main_arg10)) = V0 (Proc.devRef .tc main_arg10) :=
  (wL2b_keep (val10 V0) main_arg10 (by decide)).trans (val10_main_arg10 V0)
theorem val11_main_arg11 (V0 : Valuation τ sig (Elt Ideal)) : val11 V0 (no_index (Proc.devRef .tc main_arg11)) = V0 (Proc.devRef .tc main_arg11) :=
  (wL2b_keep (val10 V0) main_arg11 (by decide)).trans (val10_main_arg11 V0)
theorem val11_main_arg12 (V0 : Valuation τ sig (Elt Ideal)) : val11 V0 (no_index (Proc.devRef .tc main_arg12)) = V0 (Proc.devRef .tc main_arg12) :=
  (wL2b_keep (val10 V0) main_arg12 (by decide)).trans (val10_main_arg12 V0)
theorem val11_main_arg13 (V0 : Valuation τ sig (Elt Ideal)) : val11 V0 (no_index (Proc.devRef .tc main_arg13)) = V0 (Proc.devRef .tc main_arg13) :=
  (wL2b_keep (val10 V0) main_arg13 (by decide)).trans (val10_main_arg13 V0)

/-- The contents after window L2c. -/
def val12 (V0 : Valuation τ sig (Elt Ideal)) : Valuation τ sig (Elt Ideal) := after (wL2c (F := Ideal)) (val11 V0)
theorem val12_main_v147 (V0 : Valuation τ sig (Elt Ideal)) : val12 V0 (no_index (Proc.devRef .tc main_v147)) = tY2 V0 :=
  (wL2c_keep (val11 V0) main_v147 (by decide)).trans (val11_main_v147 V0)
theorem val12_main_v150 (V0 : Valuation τ sig (Elt Ideal)) : val12 V0 (no_index (Proc.devRef .tc main_v150)) = tM2 V0 := by
  unfold val12
  rw [wL2c_main_v150]
  simp only [val11_main_v147]
  rfl
theorem val12_main_v151 (V0 : Valuation τ sig (Elt Ideal)) : val12 V0 (no_index (Proc.devRef .tc main_v151)) = tV2 V0 := by
  unfold val12
  rw [wL2c_main_v151]
  simp only [val11_main_v147]
  rfl
theorem val12_main_arg0 (V0 : Valuation τ sig (Elt Ideal)) : val12 V0 (no_index (Proc.devRef .tc main_arg0)) = V0 (Proc.devRef .tc main_arg0) :=
  (wL2c_keep (val11 V0) main_arg0 (by decide)).trans (val11_main_arg0 V0)
theorem val12_main_arg1 (V0 : Valuation τ sig (Elt Ideal)) : val12 V0 (no_index (Proc.devRef .tc main_arg1)) = V0 (Proc.devRef .tc main_arg1) :=
  (wL2c_keep (val11 V0) main_arg1 (by decide)).trans (val11_main_arg1 V0)
theorem val12_main_arg2 (V0 : Valuation τ sig (Elt Ideal)) : val12 V0 (no_index (Proc.devRef .tc main_arg2)) = V0 (Proc.devRef .tc main_arg2) :=
  (wL2c_keep (val11 V0) main_arg2 (by decide)).trans (val11_main_arg2 V0)
theorem val12_main_arg3 (V0 : Valuation τ sig (Elt Ideal)) : val12 V0 (no_index (Proc.devRef .tc main_arg3)) = V0 (Proc.devRef .tc main_arg3) :=
  (wL2c_keep (val11 V0) main_arg3 (by decide)).trans (val11_main_arg3 V0)
theorem val12_main_arg4 (V0 : Valuation τ sig (Elt Ideal)) : val12 V0 (no_index (Proc.devRef .tc main_arg4)) = V0 (Proc.devRef .tc main_arg4) :=
  (wL2c_keep (val11 V0) main_arg4 (by decide)).trans (val11_main_arg4 V0)
theorem val12_main_arg5 (V0 : Valuation τ sig (Elt Ideal)) : val12 V0 (no_index (Proc.devRef .tc main_arg5)) = V0 (Proc.devRef .tc main_arg5) :=
  (wL2c_keep (val11 V0) main_arg5 (by decide)).trans (val11_main_arg5 V0)
theorem val12_main_arg6 (V0 : Valuation τ sig (Elt Ideal)) : val12 V0 (no_index (Proc.devRef .tc main_arg6)) = V0 (Proc.devRef .tc main_arg6) :=
  (wL2c_keep (val11 V0) main_arg6 (by decide)).trans (val11_main_arg6 V0)
theorem val12_main_arg7 (V0 : Valuation τ sig (Elt Ideal)) : val12 V0 (no_index (Proc.devRef .tc main_arg7)) = V0 (Proc.devRef .tc main_arg7) :=
  (wL2c_keep (val11 V0) main_arg7 (by decide)).trans (val11_main_arg7 V0)
theorem val12_main_arg8 (V0 : Valuation τ sig (Elt Ideal)) : val12 V0 (no_index (Proc.devRef .tc main_arg8)) = V0 (Proc.devRef .tc main_arg8) :=
  (wL2c_keep (val11 V0) main_arg8 (by decide)).trans (val11_main_arg8 V0)
theorem val12_main_arg9 (V0 : Valuation τ sig (Elt Ideal)) : val12 V0 (no_index (Proc.devRef .tc main_arg9)) = V0 (Proc.devRef .tc main_arg9) :=
  (wL2c_keep (val11 V0) main_arg9 (by decide)).trans (val11_main_arg9 V0)
theorem val12_main_arg10 (V0 : Valuation τ sig (Elt Ideal)) : val12 V0 (no_index (Proc.devRef .tc main_arg10)) = V0 (Proc.devRef .tc main_arg10) :=
  (wL2c_keep (val11 V0) main_arg10 (by decide)).trans (val11_main_arg10 V0)
theorem val12_main_arg11 (V0 : Valuation τ sig (Elt Ideal)) : val12 V0 (no_index (Proc.devRef .tc main_arg11)) = V0 (Proc.devRef .tc main_arg11) :=
  (wL2c_keep (val11 V0) main_arg11 (by decide)).trans (val11_main_arg11 V0)
theorem val12_main_arg12 (V0 : Valuation τ sig (Elt Ideal)) : val12 V0 (no_index (Proc.devRef .tc main_arg12)) = V0 (Proc.devRef .tc main_arg12) :=
  (wL2c_keep (val11 V0) main_arg12 (by decide)).trans (val11_main_arg12 V0)
theorem val12_main_arg13 (V0 : Valuation τ sig (Elt Ideal)) : val12 V0 (no_index (Proc.devRef .tc main_arg13)) = V0 (Proc.devRef .tc main_arg13) :=
  (wL2c_keep (val11 V0) main_arg13 (by decide)).trans (val11_main_arg13 V0)

/-- The contents after window L2d. -/
def val13 (V0 : Valuation τ sig (Elt Ideal)) : Valuation τ sig (Elt Ideal) := after (wL2d (F := Ideal)) (val12 V0)
theorem val13_main_v170 (V0 : Valuation τ sig (Elt Ideal)) : val13 V0 (no_index (Proc.devRef .tc main_v170)) = tH3 V0 := by
  unfold val13
  rw [wL2d_main_v170]
  simp only [val12_main_arg12, val12_main_v150, val12_main_v147, val12_main_v151, val12_main_arg13]
  rfl
theorem val13_main_arg0 (V0 : Valuation τ sig (Elt Ideal)) : val13 V0 (no_index (Proc.devRef .tc main_arg0)) = V0 (Proc.devRef .tc main_arg0) :=
  (wL2d_keep (val12 V0) main_arg0 (by decide)).trans (val12_main_arg0 V0)
theorem val13_main_arg1 (V0 : Valuation τ sig (Elt Ideal)) : val13 V0 (no_index (Proc.devRef .tc main_arg1)) = V0 (Proc.devRef .tc main_arg1) :=
  (wL2d_keep (val12 V0) main_arg1 (by decide)).trans (val12_main_arg1 V0)
theorem val13_main_arg2 (V0 : Valuation τ sig (Elt Ideal)) : val13 V0 (no_index (Proc.devRef .tc main_arg2)) = V0 (Proc.devRef .tc main_arg2) :=
  (wL2d_keep (val12 V0) main_arg2 (by decide)).trans (val12_main_arg2 V0)
theorem val13_main_arg3 (V0 : Valuation τ sig (Elt Ideal)) : val13 V0 (no_index (Proc.devRef .tc main_arg3)) = V0 (Proc.devRef .tc main_arg3) :=
  (wL2d_keep (val12 V0) main_arg3 (by decide)).trans (val12_main_arg3 V0)
theorem val13_main_arg4 (V0 : Valuation τ sig (Elt Ideal)) : val13 V0 (no_index (Proc.devRef .tc main_arg4)) = V0 (Proc.devRef .tc main_arg4) :=
  (wL2d_keep (val12 V0) main_arg4 (by decide)).trans (val12_main_arg4 V0)
theorem val13_main_arg5 (V0 : Valuation τ sig (Elt Ideal)) : val13 V0 (no_index (Proc.devRef .tc main_arg5)) = V0 (Proc.devRef .tc main_arg5) :=
  (wL2d_keep (val12 V0) main_arg5 (by decide)).trans (val12_main_arg5 V0)
theorem val13_main_arg6 (V0 : Valuation τ sig (Elt Ideal)) : val13 V0 (no_index (Proc.devRef .tc main_arg6)) = V0 (Proc.devRef .tc main_arg6) :=
  (wL2d_keep (val12 V0) main_arg6 (by decide)).trans (val12_main_arg6 V0)
theorem val13_main_arg7 (V0 : Valuation τ sig (Elt Ideal)) : val13 V0 (no_index (Proc.devRef .tc main_arg7)) = V0 (Proc.devRef .tc main_arg7) :=
  (wL2d_keep (val12 V0) main_arg7 (by decide)).trans (val12_main_arg7 V0)
theorem val13_main_arg8 (V0 : Valuation τ sig (Elt Ideal)) : val13 V0 (no_index (Proc.devRef .tc main_arg8)) = V0 (Proc.devRef .tc main_arg8) :=
  (wL2d_keep (val12 V0) main_arg8 (by decide)).trans (val12_main_arg8 V0)
theorem val13_main_arg9 (V0 : Valuation τ sig (Elt Ideal)) : val13 V0 (no_index (Proc.devRef .tc main_arg9)) = V0 (Proc.devRef .tc main_arg9) :=
  (wL2d_keep (val12 V0) main_arg9 (by decide)).trans (val12_main_arg9 V0)
theorem val13_main_arg10 (V0 : Valuation τ sig (Elt Ideal)) : val13 V0 (no_index (Proc.devRef .tc main_arg10)) = V0 (Proc.devRef .tc main_arg10) :=
  (wL2d_keep (val12 V0) main_arg10 (by decide)).trans (val12_main_arg10 V0)
theorem val13_main_arg11 (V0 : Valuation τ sig (Elt Ideal)) : val13 V0 (no_index (Proc.devRef .tc main_arg11)) = V0 (Proc.devRef .tc main_arg11) :=
  (wL2d_keep (val12 V0) main_arg11 (by decide)).trans (val12_main_arg11 V0)
theorem val13_main_arg12 (V0 : Valuation τ sig (Elt Ideal)) : val13 V0 (no_index (Proc.devRef .tc main_arg12)) = V0 (Proc.devRef .tc main_arg12) :=
  (wL2d_keep (val12 V0) main_arg12 (by decide)).trans (val12_main_arg12 V0)
theorem val13_main_arg13 (V0 : Valuation τ sig (Elt Ideal)) : val13 V0 (no_index (Proc.devRef .tc main_arg13)) = V0 (Proc.devRef .tc main_arg13) :=
  (wL2d_keep (val12 V0) main_arg13 (by decide)).trans (val12_main_arg13 V0)

/-- The contents after window T. -/
def val14 (V0 : Valuation τ sig (Elt Ideal)) : Valuation τ sig (Elt Ideal) := after (wT (F := Ideal)) (val13 V0)
theorem val14_main_v187 (V0 : Valuation τ sig (Elt Ideal)) : val14 V0 (no_index (Proc.devRef .tc main_v187)) = tOut V0 := by
  unfold val14
  rw [wT_main_v187]
  simp only [val13_main_arg3, val13_main_v170]
  rfl
theorem val14_main_arg0 (V0 : Valuation τ sig (Elt Ideal)) : val14 V0 (no_index (Proc.devRef .tc main_arg0)) = V0 (Proc.devRef .tc main_arg0) :=
  (wT_keep (val13 V0) main_arg0 (by decide)).trans (val13_main_arg0 V0)
theorem val14_main_arg1 (V0 : Valuation τ sig (Elt Ideal)) : val14 V0 (no_index (Proc.devRef .tc main_arg1)) = V0 (Proc.devRef .tc main_arg1) :=
  (wT_keep (val13 V0) main_arg1 (by decide)).trans (val13_main_arg1 V0)
theorem val14_main_arg2 (V0 : Valuation τ sig (Elt Ideal)) : val14 V0 (no_index (Proc.devRef .tc main_arg2)) = V0 (Proc.devRef .tc main_arg2) :=
  (wT_keep (val13 V0) main_arg2 (by decide)).trans (val13_main_arg2 V0)
theorem val14_main_arg3 (V0 : Valuation τ sig (Elt Ideal)) : val14 V0 (no_index (Proc.devRef .tc main_arg3)) = V0 (Proc.devRef .tc main_arg3) :=
  (wT_keep (val13 V0) main_arg3 (by decide)).trans (val13_main_arg3 V0)
theorem val14_main_arg4 (V0 : Valuation τ sig (Elt Ideal)) : val14 V0 (no_index (Proc.devRef .tc main_arg4)) = V0 (Proc.devRef .tc main_arg4) :=
  (wT_keep (val13 V0) main_arg4 (by decide)).trans (val13_main_arg4 V0)
theorem val14_main_arg5 (V0 : Valuation τ sig (Elt Ideal)) : val14 V0 (no_index (Proc.devRef .tc main_arg5)) = V0 (Proc.devRef .tc main_arg5) :=
  (wT_keep (val13 V0) main_arg5 (by decide)).trans (val13_main_arg5 V0)
theorem val14_main_arg6 (V0 : Valuation τ sig (Elt Ideal)) : val14 V0 (no_index (Proc.devRef .tc main_arg6)) = V0 (Proc.devRef .tc main_arg6) :=
  (wT_keep (val13 V0) main_arg6 (by decide)).trans (val13_main_arg6 V0)
theorem val14_main_arg7 (V0 : Valuation τ sig (Elt Ideal)) : val14 V0 (no_index (Proc.devRef .tc main_arg7)) = V0 (Proc.devRef .tc main_arg7) :=
  (wT_keep (val13 V0) main_arg7 (by decide)).trans (val13_main_arg7 V0)
theorem val14_main_arg8 (V0 : Valuation τ sig (Elt Ideal)) : val14 V0 (no_index (Proc.devRef .tc main_arg8)) = V0 (Proc.devRef .tc main_arg8) :=
  (wT_keep (val13 V0) main_arg8 (by decide)).trans (val13_main_arg8 V0)
theorem val14_main_arg9 (V0 : Valuation τ sig (Elt Ideal)) : val14 V0 (no_index (Proc.devRef .tc main_arg9)) = V0 (Proc.devRef .tc main_arg9) :=
  (wT_keep (val13 V0) main_arg9 (by decide)).trans (val13_main_arg9 V0)
theorem val14_main_arg10 (V0 : Valuation τ sig (Elt Ideal)) : val14 V0 (no_index (Proc.devRef .tc main_arg10)) = V0 (Proc.devRef .tc main_arg10) :=
  (wT_keep (val13 V0) main_arg10 (by decide)).trans (val13_main_arg10 V0)
theorem val14_main_arg11 (V0 : Valuation τ sig (Elt Ideal)) : val14 V0 (no_index (Proc.devRef .tc main_arg11)) = V0 (Proc.devRef .tc main_arg11) :=
  (wT_keep (val13 V0) main_arg11 (by decide)).trans (val13_main_arg11 V0)
theorem val14_main_arg12 (V0 : Valuation τ sig (Elt Ideal)) : val14 V0 (no_index (Proc.devRef .tc main_arg12)) = V0 (Proc.devRef .tc main_arg12) :=
  (wT_keep (val13 V0) main_arg12 (by decide)).trans (val13_main_arg12 V0)
theorem val14_main_arg13 (V0 : Valuation τ sig (Elt Ideal)) : val14 V0 (no_index (Proc.devRef .tc main_arg13)) = V0 (Proc.devRef .tc main_arg13) :=
  (wT_keep (val13 V0) main_arg13 (by decide)).trans (val13_main_arg13 V0)

/-- The fold over all of @main is the fold window after window. -/
theorem after_ops (V0 : Valuation τ sig (Elt Ideal)) : after (ops (F := Ideal)) V0 = val14 V0 := by
  rw [ops_split]
  simp only [StableHlo.after_append]
  rfl

/-- The result, as the composition of the layers. -/
theorem tOut_eq (V0 : Valuation τ sig (Elt Ideal)) :
    tOut V0 = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := rfl

/-- On every device, from any memory with zero counters: every weakly fair execution of @main terminates with the
    result buffer at `out` of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v187) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v187).trans (by rw [after_ops]; exact (val14_main_v187 (launchContents m c)).trans (tOut_eq _)),
      (h c main_arg0).trans (by rw [after_ops]; exact val14_main_arg0 (launchContents m c)),
      (h c main_arg1).trans (by rw [after_ops]; exact val14_main_arg1 (launchContents m c)),
      (h c main_arg2).trans (by rw [after_ops]; exact val14_main_arg2 (launchContents m c)),
      (h c main_arg3).trans (by rw [after_ops]; exact val14_main_arg3 (launchContents m c)),
      (h c main_arg4).trans (by rw [after_ops]; exact val14_main_arg4 (launchContents m c)),
      (h c main_arg5).trans (by rw [after_ops]; exact val14_main_arg5 (launchContents m c)),
      (h c main_arg6).trans (by rw [after_ops]; exact val14_main_arg6 (launchContents m c)),
      (h c main_arg7).trans (by rw [after_ops]; exact val14_main_arg7 (launchContents m c)),
      (h c main_arg8).trans (by rw [after_ops]; exact val14_main_arg8 (launchContents m c)),
      (h c main_arg9).trans (by rw [after_ops]; exact val14_main_arg9 (launchContents m c)),
      (h c main_arg10).trans (by rw [after_ops]; exact val14_main_arg10 (launchContents m c)),
      (h c main_arg11).trans (by rw [after_ops]; exact val14_main_arg11 (launchContents m c)),
      (h c main_arg12).trans (by rw [after_ops]; exact val14_main_arg12 (launchContents m c)),
      (h c main_arg13).trans (by rw [after_ops]; exact val14_main_arg13 (launchContents m c))⟩)
    (run_after (F := Ideal) m ρ)

end Cert.ReferenceIdeal.RefValue

end
-- ==== Proof.RealClosure.lean ====
/-
  Closure of "every entry is a real number" under the operations of the network.

  At the ideal instance a float is an extended real.  An array is REAL when none of its entries is +∞ or -∞.
  Sums, differences, products and maxima of real numbers are real; a broadcast, a gather or a select only
  re-reads entries; a matrix product, a column sum and a scatter-add into a real array are finite sums of
  reals (or of products of reals), hence real; the reciprocal square root of a POSITIVE real is real.  So
  every whole-array function of the specification maps real arrays to real arrays, the batch normalisation
  under the extra hypothesis that the variance is non-negative (then variance + ε is a positive real).
-/
import proofs.«104584_j17154099380304_2_alg».proof.Proof.Spec
import Idealize.ShloMosaic.PureOps.Ideal.Laws
import Idealize.ShloMosaic.Lib.ValueIdx

noncomputable section

namespace Cert.Real

open Idealize.ShloMosaic Cert.ReferenceIdeal Cert.ReferenceIdeal.Facts₀ Cert.ReferenceIdeal.Facts

/-- Every entry of the array is a real number (neither +∞ nor -∞). -/
def IsReal {S : Shape} {φ : FTy} (v : FVec Ideal S φ) : Prop := ∀ i, ∃ r : ℝ, v i = (r : EReal)

/-- A finite sum of real numbers, taken in the extended reals, is a real number. -/
theorem sum_real {ι : Type*} (s : Finset ι) (f : ι → EReal) (hf : ∀ i, ∃ r : ℝ, f i = (r : EReal)) :
    ∃ r : ℝ, ∑ i ∈ s, f i = (r : EReal) := by
  classical
  choose g hg using hf
  refine ⟨∑ i ∈ s, g i, ?_⟩
  induction s using Finset.induction_on with
  | empty => simp
  | insert a s ha ih => rw [Finset.sum_insert ha, Finset.sum_insert ha, EReal.coe_add, ih, hg]

/-! ## Entrywise operations -/

section Pointwise
variable {S : Shape} {φ : FTy} {a b : FVec Ideal S φ}

theorem isReal_addf (ha : IsReal a) (hb : IsReal b) : IsReal (addf a b) := fun i => by
  obtain ⟨x, hx⟩ := ha i; obtain ⟨y, hy⟩ := hb i
  exact ⟨x + y, by show a i + b i = _; rw [hx, hy, EReal.coe_add]⟩

theorem isReal_subf (ha : IsReal a) (hb : IsReal b) : IsReal (subf a b) := fun i => by
  obtain ⟨x, hx⟩ := ha i; obtain ⟨y, hy⟩ := hb i
  exact ⟨x - y, by show a i - b i = _; rw [hx, hy, EReal.coe_sub]⟩

theorem isReal_mulf (ha : IsReal a) (hb : IsReal b) : IsReal (mulf a b) := fun i => by
  obtain ⟨x, hx⟩ := ha i; obtain ⟨y, hy⟩ := hb i
  exact ⟨x * y, by show a i * b i = _; rw [hx, hy, EReal.coe_mul]⟩

theorem isReal_maximumf (ha : IsReal a) (hb : IsReal b) : IsReal (maximumf a b) := fun i => by
  obtain ⟨x, hx⟩ := ha i; obtain ⟨y, hy⟩ := hb i
  exact ⟨max x y, by show max (a i) (b i) = _; rw [hx, hy]; exact (EReal.coe_strictMono.monotone.map_max).symm⟩

/-- A select reads, at each index, one of its two operands. -/
theorem isReal_select (c : IVec S 1) (ha : IsReal a) (hb : IsReal b) : IsReal (select c a b) := fun i => by
  show ∃ r : ℝ, Scalar.select (c i) (a i) (b i) = _
  unfold Scalar.select
  split
  · exact ha i
  · exact hb i

/-- A constant array whose word denotes a real number. -/
theorem isReal_constant (w : BitVec φ.bits) (h : ∃ r : ℝ, Ideal.ofBits φ w = (r : EReal)) :
    IsReal (constant (F := Ideal) S φ w) := fun _ => h

end Pointwise

/-! ## Operations that re-read entries -/

/-- A broadcast reads, at each index, an entry of its operand. -/
theorem isReal_broadcastInDim {s t : Shape} {φ : FTy} (dims : Fin s.rank → Fin t.rank) (h : s.BroadcastsInDim t dims)
    {x : FVec Ideal s φ} (hx : IsReal x) : IsReal (broadcastInDim t dims h x) := fun _ => hx _

/-- A gather reads, at each index, an entry of its operand, whatever the start indices are. -/
theorem isReal_gather {s si t : Shape} {φ : FTy} {w : Nat} (d : GatherDims s si t) {x : FVec Ideal s φ} (idx : IVec si w)
    (hx : IsReal x) : IsReal (Host.gather d x idx) := fun _ => hx _

/-! ## Finite sums -/

/-- A matrix product of real arrays: each entry is a finite sum of products of reals. -/
theorem isReal_dotGeneral {sl sr so : Shape} {φ₁ φ₂ : FTy} (d : DotDims sl sr so) (prec : Option ContractPrecision)
    {x : FVec Ideal sl φ₁} {w : FVec Ideal sr φ₂} (hx : IsReal x) (hw : IsReal w) :
    IsReal (Host.dotGeneral (F := Ideal) d prec x w) := fun j => by
  show ∃ r : ℝ, FloatOps.dotGeneral d prec .single x w j = _
  rw [Ideal.dotGeneral_apply]
  exact sum_real _ _ fun k => by
    obtain ⟨p, hp⟩ := hx (d.lhsIdx j k); obtain ⟨q, hq⟩ := hw (d.rhsIdx j k)
    exact ⟨p * q, by rw [hp, hq, EReal.coe_mul]⟩

/-- A sum over some axes, from a real initial value: each entry is that value plus a finite sum of reals. -/
theorem isReal_reduceAdd {s t u : Shape} {φ : FTy} {axes : List (Fin s.rank)} {x : FVec Ideal s φ} {init : FVec Ideal u φ}
    (h : s.ReducesTo axes t) (hu : 0 < u.numel) (hx : IsReal x) (hi : IsReal init) :
    IsReal (Host.reduceAdd (F := Ideal) x init h hu) := fun j => by
  show ∃ r : ℝ, Ideal.hostReduceAdd h x (init (Shape.Idx.first hu)) j = _
  unfold Ideal.hostReduceAdd
  obtain ⟨p, hp⟩ := hi (Shape.Idx.first hu)
  obtain ⟨q, hq⟩ := sum_real (Finset.univ.filter fun i => h.drop i = j) x hx
  exact ⟨p + q, by rw [hp, hq, EReal.coe_add]⟩

/-- A scatter-add of real updates into a real array: each entry is the operand's plus the finite sum of the updates
    that land on it, whatever the scatter indices are. -/
theorem isReal_scatterAdd {s si u : Shape} {φ : FTy} {w : Nat} (d : ScatterDims s si u) {x : FVec Ideal s φ} (idx : IVec si w)
    {upd : FVec Ideal u φ} (hx : IsReal x) (hu : IsReal upd) : IsReal (Host.scatterAdd (F := Ideal) d x idx upd) := fun i => by
  show ∃ r : ℝ, Ideal.hostScatterAdd d x idx upd i = _
  unfold Ideal.hostScatterAdd
  obtain ⟨p, hp⟩ := hx i
  obtain ⟨q, hq⟩ := sum_real (Finset.univ.filter fun j => d.resultIdx? j idx = some i) upd hu
  exact ⟨p + q, by rw [hp, hq, EReal.coe_add]⟩

/-! ## The words of the program's float constants -/

/-- The zero word is the real number 0. -/
theorem ofBits_zero_real : ∃ r : ℝ, Ideal.ofBits .f32 0x00000000#32 = (r : EReal) := ⟨0, by simp⟩

/-- The slope word (the f32 nearest 0.01) denotes a real number. -/
theorem ofBits_slope_real : ∃ r : ℝ, Ideal.ofBits .f32 0x3C23D70A#32 = (r : EReal) := by
  simp [Ideal.ofBits, Ideal.ieee, -EReal.coe_mul]

/-- The word of ε (the f32 nearest 1e-5) denotes a positive real number. -/
theorem ofBits_eps_pos : ∃ e : ℝ, 0 < e ∧ Ideal.ofBits .f32 0x3727C5AC#32 = (e : EReal) := by
  simp [Ideal.ofBits, Ideal.ieee, -EReal.coe_mul]

/-- The word of the node count is the real number 50000. -/
theorem ofBits_count : Ideal.ofBits .f32 0x47435000#32 = ((50000 : ℝ) : EReal) := by
  simp [Ideal.ofBits, Ideal.ieee, -EReal.coe_mul]
  norm_num

/-- The reciprocal square root of a positive real is a real. -/
theorem rsqrt_real {v : ℝ} (hv : 0 < v) : ∃ r : ℝ, Ideal.rsqrt (v : EReal) = (r : EReal) :=
  ⟨(Real.sqrt v)⁻¹, by rw [Ideal.rsqrt_coe, if_neg (not_lt.mpr hv.le), if_neg hv.ne']⟩

/-! ## The whole-array functions of the specification -/

open Cert.Spec

theorem isReal_zeroS : IsReal zeroS := isReal_constant _ ofBits_zero_real

theorem isReal_bN {r : RowV} (h : IsReal r) : IsReal (bN r) := isReal_broadcastInDim _ _ h
theorem isReal_bE {r : RowV} (h : IsReal r) : IsReal (bE r) := isReal_broadcastInDim _ _ h
theorem isReal_row {v : ColV} (h : IsReal v) : IsReal (row v) := isReal_broadcastInDim _ _ h

theorem isReal_linN {x : NV} {w : WM} {b : RowV} (hx : IsReal x) (hw : IsReal w) (hb : IsReal b) : IsReal (linN x w b) :=
  isReal_addf (isReal_dotGeneral _ _ hx hw) (isReal_bN hb)

theorem isReal_linE {x : EV} {w : WM} {b : RowV} (hx : IsReal x) (hw : IsReal w) (hb : IsReal b) : IsReal (linE x w b) :=
  isReal_addf (isReal_dotGeneral _ _ hx hw) (isReal_bE hb)

theorem isReal_msg {hs e : EV} (h1 : IsReal hs) (h2 : IsReal e) : IsReal (msg hs e) :=
  isReal_maximumf (isReal_addf h1 h2) (isReal_broadcastInDim _ _ isReal_zeroS)

theorem isReal_leaky {x : NV} (h : IsReal x) : IsReal (leaky x) :=
  isReal_select _ h (isReal_mulf (isReal_broadcastInDim _ _ (isReal_constant _ ofBits_slope_real)) h)

theorem isReal_mlp {z : NV} {w1 : WM} {b1 : RowV} {w2 : WM} {b2 : RowV} (hz : IsReal z) (hw1 : IsReal w1) (hb1 : IsReal b1)
    (hw2 : IsReal w2) (hb2 : IsReal b2) : IsReal (mlp z w1 b1 w2 b2) :=
  isReal_linN (isReal_leaky (isReal_linN hz hw1 hb1)) hw2 hb2

theorem isReal_colSum {z : NV} (h : IsReal z) : IsReal (colSum z) := isReal_reduceAdd _ _ h isReal_zeroS

theorem isReal_sqr {z : NV} (h : IsReal z) : IsReal (sqr z) := isReal_mulf h h

/-- The gathered rows h[src] of a real node array. -/
theorem isReal_gatherN {w : Nat} {h : NV} (idx : IVec S1000000x1 w) (hh : IsReal h) :
    IsReal (Host.gather gather_S50000x64_S1000000x1_S1000000x64_1_0_n_n_0_1_164 h idx) := isReal_gather _ _ hh

/-- The segment sum of real edge rows into zeros. -/
theorem isReal_scatterN {w : Nat} (idx : IVec S1000000x1 w) {u : EV} (hu : IsReal u) :
    IsReal (Host.scatterAdd (F := Ideal) scatter_S50000x64_S1000000x1_S1000000x64_1_0_0_1
      (broadcastInDim S50000x64 ![] bcast_S_S50000x64 zeroS) idx u) :=
  isReal_scatterAdd _ _ (isReal_broadcastInDim _ _ isReal_zeroS) hu

/-- Batch normalisation of real data with a real, non-negative variance: variance + ε is a positive real, so its
    reciprocal square root is real. -/
theorem isReal_bnorm {z2 : NV} {mean var γ β : RowV} (hz : IsReal z2) (hm : IsReal mean) (hv : IsReal var)
    (hv0 : ∀ i, 0 ≤ var i) (hγ : IsReal γ) (hβ : IsReal β) : IsReal (bnorm z2 mean var γ β) := by
  refine isReal_addf (isReal_mulf (isReal_mulf (isReal_bN hγ) (isReal_subf hz (isReal_bN hm))) (isReal_bN ?_)) (isReal_bN hβ)
  intro i
  obtain ⟨v, hvi⟩ := hv i
  obtain ⟨e, he, hee⟩ := ofBits_eps_pos
  have hv0' : 0 ≤ v := by have := hv0 i; rw [hvi] at this; exact_mod_cast this
  obtain ⟨r, hr⟩ := rsqrt_real (v := v + e) (by positivity)
  refine ⟨r, ?_⟩
  show Ideal.rsqrt (var i + Ideal.ofBits .f32 0x3727C5AC#32) = _
  rw [hvi, hee, ← EReal.coe_add, hr]

end Cert.Real

end
-- ==== Proof.LibBatchVar.lean ====
/-
  The two-pass and the one-pass batch variance agree.

  For real numbers x₁ … x_N (N > 0) with s = ∑ xᵢ and q = ∑ xᵢ², the one-pass form

      max (q · (1/N) − (s · (1/N))², 0)

  and the two-pass form

      (∑ (xᵢ − s / N)²) / N

  are the same real number: expanding the square, ∑ (xᵢ − μ)² = q − 2 μ s + N μ² with μ = s / N, which is q − s² / N;
  and the common value is a mean of squares, hence non-negative, so the clamp at 0 is the identity. The identity uses
  cancellation, which fails at the infinities: it is stated for real numbers read in the extended reals. The mean
  itself, s · (1/N) against s / N, needs nothing (`Ideal.div_coe`).
-/
import Idealize.ShloMosaic.PureOps.Ideal
import Mathlib.Algebra.BigOperators.Ring.Finset
import Mathlib.Algebra.Order.BigOperators.Ring.Finset
import Mathlib.Tactic.Ring
import Mathlib.Tactic.FieldSimp
import Mathlib.Tactic.Positivity

open Idealize.ShloMosaic

namespace Cert.Lib.BatchVar

variable {ι : Type*} [Fintype ι]

/-- The coercion of a finite real sum is the sum of the coercions. -/
theorem coe_sum' (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- ∑ (xᵢ − μ)² = q − 2 μ s + N μ², for any μ. -/
theorem sum_sq_dev (x : ι → ℝ) (μ : ℝ) :
    ∑ i, (x i - μ) * (x i - μ) = (∑ i, x i * x i) - 2 * μ * (∑ i, x i) + (Fintype.card ι : ℝ) * (μ * μ) := by
  have h : ∀ i, (x i - μ) * (x i - μ) = x i * x i - 2 * μ * x i + μ * μ := fun i => by ring
  simp only [h, Finset.sum_add_distrib, Finset.sum_sub_distrib, ← Finset.mul_sum, Finset.sum_const, Finset.card_univ,
    nsmul_eq_mul]
  ring

/-- The one-pass variance is the two-pass variance, on the reals. -/
theorem var_real (x : ι → ℝ) (n : ℝ) (hcard : (Fintype.card ι : ℝ) = n) (hn : n ≠ 0) :
    (∑ i, x i * x i) * (1 / n) - ((∑ i, x i) * (1 / n)) * ((∑ i, x i) * (1 / n))
      = (∑ i, (x i - (∑ i, x i) * (1 / n)) * (x i - (∑ i, x i) * (1 / n))) * (1 / n) := by
  rw [sum_sq_dev, hcard]
  field_simp
  ring

/-- The two-pass variance is non-negative. -/
theorem var_nonneg (x : ι → ℝ) (μ n : ℝ) (hn : 0 < n) : 0 ≤ (∑ i, (x i - μ) * (x i - μ)) * (1 / n) :=
  mul_nonneg (Finset.sum_nonneg fun i _ => mul_self_nonneg _) (by positivity)

/-- The mean: a real sum times the reciprocal of the count is the quotient by the count, on the extended reals. -/
theorem mean_eq (s : EReal) (n : ℝ) (hn : n ≠ 0) : s * ((1 / n : ℝ) : EReal) = Ideal.div s (n : EReal) :=
  (Ideal.div_coe hn s).symm

/-- The batch variance on the extended reals, for real entries: the one-pass form clamped at zero, over the sums
    `s = ∑ xᵢ` and `q = ∑ xᵢ²` taken in the extended reals, is the two-pass form about the quotient mean. -/
theorem var_eq (x : ι → ℝ) (n : ℝ) (hcard : (Fintype.card ι : ℝ) = n) (hn : 0 < n) :
    max ((∑ i, (x i : EReal) * (x i : EReal)) * ((1 / n : ℝ) : EReal)
          - ((∑ i, (x i : EReal)) * ((1 / n : ℝ) : EReal)) * ((∑ i, (x i : EReal)) * ((1 / n : ℝ) : EReal))) 0
      = Ideal.div (∑ i, ((x i : EReal) - Ideal.div (∑ i, (x i : EReal)) (n : EReal))
          * ((x i : EReal) - Ideal.div (∑ i, (x i : EReal)) (n : EReal))) (n : EReal) := by
  have hn0 : n ≠ 0 := ne_of_gt hn
  rw [Ideal.div_coe hn0, Ideal.div_coe hn0]
  simp only [← EReal.coe_mul, ← coe_sum', ← EReal.coe_sub]
  rw [var_real x n hcard hn0]
  exact max_eq_left (EReal.coe_nonneg.mpr (var_nonneg x _ n hn))

end Cert.Lib.BatchVar
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.VarianceLaw.lean ====
/-
  The one law that joins the two programs: the batch statistics.

  For a node array z (50000 rows, 64 channels) the KERNEL takes, per channel j, the sums s = ∑ₙ z(n,j) and
  q = ∑ₙ z(n,j)² and computes   mean = s / N,   variance = max (q / N − mean², 0)   (N = 50000), as [1,64] rows.
  The REFERENCE computes   mean = s / N   and the two-pass variance   (∑ₙ (z(n,j) − mean)²) / (N − 0),   selected
  where N − 0 > 0, as [64] vectors.  The means are the same term read at corresponding indices.  The variances agree when
  every entry of z is a real number: then ∑ (zₙ − μ)² = q − s²/N, the common value is a mean of squares, hence
  non-negative, and the clamp at 0 is the identity.  (At an infinite entry the identity fails: it uses cancellation.)
-/
import proofs.«104584_j17154099380304_2_alg».proof.Proof.RealClosure
import proofs.«104584_j17154099380304_2_alg».proof.Proof.LibBatchVar
import proofs.«104584_j17154099380304_2_alg».proof.Proof.LibColumnSum

noncomputable section

namespace Cert.Real

open Idealize.ShloMosaic Idealize.ShloMosaic.ValueIdx Cert.ReferenceIdeal Cert.ReferenceIdeal.Facts₀ Cert.ReferenceIdeal.Facts
open Cert.Spec

/-- The kernel's mean, a [1,64] row: the column sums over the count. -/
def meanK (z2 : NV) : RowV :=
  Host.divf (F := Ideal) (row (colSum z2))
    (broadcastInDim S1x64 ![] bcast_S_S1x64 (constant (F := Ideal) S_ .f32 0x47435000#32))

/-- The kernel's variance, a [1,64] row: max (q / N − mean², 0). -/
def varK (z2 : NV) : RowV :=
  maximumf
    (subf
      (Host.divf (F := Ideal) (row (colSum (sqr z2)))
        (broadcastInDim S1x64 ![] bcast_S_S1x64 (constant (F := Ideal) S_ .f32 0x47435000#32)))
      (mulf (meanK z2) (meanK z2)))
    (broadcastInDim S1x64 ![] bcast_S_S1x64 (constant (F := Ideal) S_ .f32 0x00000000#32))

/-- The reference's mean, a [64] vector: the column sums over the count. -/
def meanR (z2 : NV) : ColV :=
  Host.divf (F := Ideal) (colSum z2)
    (broadcastInDim S64 ![] bcast_S_S64 (constant (F := Ideal) S_ .f32 0x47435000#32))

/-- The count the reference's variance divides by: N − (the integer 0 as a float), a scalar. -/
def ddofCount : FVec Ideal S_ .f32 :=
  subf (constant (F := Ideal) S_ .f32 0x47435000#32) (sitofp (F := Ideal) .f32 (constantI S_ 32 0#32))

/-- The reference's variance, a [64] vector: the two-pass form about the row mean, over N − 0, selected where N − 0 > 0. -/
def varR (z2 : NV) : ColV :=
  select
    (broadcastInDim S64 ![] bcast_S_S64
      (cmpf .ogt ddofCount (constant (F := Ideal) S_ .f32 0x00000000#32)))
    (Host.divf (F := Ideal)
      (colSum (sqr (subf z2 (bN (meanK z2)))))
      (broadcastInDim S64 ![] bcast_S_S64 ddofCount))
    (broadcastInDim S64 ![] bcast_S_S64 (id (constant (F := Ideal) S_ .f32 0x7FC00000#32)))

/-! ## Reading rows, spreads and column sums at coordinates -/

/-- A channel vector as a [1,64] row, read at (a, j): the vector at j. -/
theorem row_apply (v : ColV) (a : Fin 1) (j : Fin 64) : row v (ix2 a j) = v (ix1 j) :=
  congrArg v (funext fun d => match d with | ⟨0, _⟩ => rfl)

/-- A row spread over the nodes, read at (k, j): the row at (0, j). -/
theorem bN_apply (r : RowV) (k : Fin 50000) (j : Fin 64) : bN r (ix2 k j) = r (ix2 (0 : Fin 1) j) :=
  congrArg r (funext fun d => match d with | ⟨0, _⟩ => rfl | ⟨1, _⟩ => rfl)

/-- The column sum of a node array at channel j: the sum of the column's 50000 entries. -/
theorem colSum_apply (hR : S50000x64.Reduces [0] S64) (z : NV) (j : Fin 64) :
    colSum z (ix1 j) = ∑ k : Fin 50000, z (ix2 k j) := by
  show Ideal.hostReduceAdd reducesTo_S50000x64_S64_d0 z (Ideal.ofBits .f32 0x00000000#32) (ix1 j) = _
  rw [Ideal.hostReduceAdd_single reducesTo_S50000x64_S64_d0 hR, Ideal.ofBits_zero_f32, zero_add]
  exact Finset.sum_congr rfl fun k _ => congrArg z (ValueKeepdims.lift_axis0_ix2 hR j k)

theorem hRed : S50000x64.Reduces [0] S64 := by decide

/-! ## The statistics are real, and the kernel's variance is never negative -/

/-- A real array over the count 50000 is real. -/
theorem isReal_divCount {S : Shape} (hb : S_.BroadcastsInDim S (![] : Fin 0 → Fin S.rank)) {a : FVec Ideal S .f32} (ha : IsReal a) :
    IsReal (Host.divf (F := Ideal) a (broadcastInDim S ![] hb (constant (F := Ideal) S_ .f32 0x47435000#32))) := fun i => by
  obtain ⟨x, hx⟩ := ha i
  refine ⟨x * (1 / 50000), ?_⟩
  show Ideal.div (a i) (Ideal.ofBits .f32 0x47435000#32) = _
  rw [ofBits_count, Ideal.div_coe (by norm_num), hx, ← EReal.coe_mul]

theorem meanK_real {z2 : NV} (h : IsReal z2) : IsReal (meanK z2) :=
  isReal_divCount _ (isReal_row (isReal_colSum h))

theorem varK_real {z2 : NV} (h : IsReal z2) : IsReal (varK z2) :=
  isReal_maximumf
    (isReal_subf (isReal_divCount _ (isReal_row (isReal_colSum (isReal_sqr h)))) (isReal_mulf (meanK_real h) (meanK_real h)))
    (isReal_broadcastInDim _ _ (isReal_constant _ ofBits_zero_real))

/-- The kernel's variance is a maximum with 0. -/
theorem varK_nonneg {z2 : NV} : ∀ i, 0 ≤ varK z2 i := fun i => by
  show 0 ≤ max _ (Ideal.ofBits .f32 0x00000000#32)
  rw [Ideal.ofBits_zero_f32]
  exact le_max_right _ _

/-! ## The two programs' statistics agree -/

/-- The kernel's mean at (a, j): the column's sum over the count. -/
theorem meanK_apply (z2 : NV) (a : Fin 1) (j : Fin 64) :
    meanK z2 (ix2 a j) = Ideal.div (colSum z2 (ix1 j)) (((50000 : ℝ) : EReal)) := by
  show Ideal.div (row (colSum z2) (ix2 a j)) (Ideal.ofBits .f32 0x47435000#32) = _
  rw [row_apply, ofBits_count]

/-- The means are the same quotient, read at corresponding indices. -/
theorem mean_agree {z2 : NV} (h : IsReal z2) : meanK z2 = row (meanR z2) := by
  funext i
  obtain ⟨a, j, rfl⟩ : ∃ (a : Fin 1) (j : Fin 64), i = ix2 a j := ⟨i 0, i 1, eq_ix2 i⟩
  rw [row_apply, meanK_apply]
  show _ = Ideal.div (colSum z2 (ix1 j)) (Ideal.ofBits .f32 0x47435000#32)
  rw [ofBits_count]

/-- The divisor N − 0 of the reference's variance is the real number 50000. -/
theorem ddofCount_apply (t : S_.Idx) : ddofCount t = ((50000 : ℝ) : EReal) := by
  show Ideal.ofBits .f32 0x47435000#32 - (((0#32 : BitVec 32).toInt : ℝ) : EReal) = _
  rw [ofBits_count]; simp

/-- The comparison 50000 > 0 holds. -/
theorem count_pos_bit : Ideal.cmp .ogt ((50000 : ℝ) : EReal) (Ideal.ofBits .f32 0x00000000#32) = 1#1 := by
  rw [Ideal.ofBits_zero_f32]; simp [Ideal.cmp]

/-- The reference's variance at channel j: the two-pass form over the column. -/
theorem varR_apply (z2 : NV) (j : Fin 64) :
    varR z2 (ix1 j)
      = Ideal.div (∑ k : Fin 50000,
          (z2 (ix2 k j) - Ideal.div (colSum z2 (ix1 j)) (((50000 : ℝ) : EReal)))
            * (z2 (ix2 k j) - Ideal.div (colSum z2 (ix1 j)) (((50000 : ℝ) : EReal)))) (((50000 : ℝ) : EReal)) := by
  have hsum : colSum (sqr (subf z2 (bN (meanK z2)))) (ix1 j)
      = ∑ k : Fin 50000, (z2 (ix2 k j) - Ideal.div (colSum z2 (ix1 j)) (((50000 : ℝ) : EReal)))
            * (z2 (ix2 k j) - Ideal.div (colSum z2 (ix1 j)) (((50000 : ℝ) : EReal))) := by
    rw [colSum_apply hRed]
    refine Finset.sum_congr rfl fun k _ => ?_
    show (z2 (ix2 k j) - bN (meanK z2) (ix2 k j)) * (z2 (ix2 k j) - bN (meanK z2) (ix2 k j)) = _
    rw [bN_apply, meanK_apply]
  show Scalar.select (Ideal.cmp .ogt (ddofCount _) (Ideal.ofBits .f32 0x00000000#32))
      (Ideal.div (colSum (sqr (subf z2 (bN (meanK z2)))) (ix1 j)) (ddofCount _)) _ = _
  rw [hsum, ddofCount_apply, count_pos_bit]
  exact select_one _ _

/-- The kernel's variance at (a, j): the one-pass form over the column's sums. -/
theorem varK_apply (z2 : NV) (a : Fin 1) (j : Fin 64) :
    varK z2 (ix2 a j)
      = max (Ideal.div (colSum (sqr z2) (ix1 j)) (((50000 : ℝ) : EReal))
          - Ideal.div (colSum z2 (ix1 j)) (((50000 : ℝ) : EReal)) * Ideal.div (colSum z2 (ix1 j)) (((50000 : ℝ) : EReal))) 0 := by
  show max (Ideal.div (row (colSum (sqr z2)) (ix2 a j)) (Ideal.ofBits .f32 0x47435000#32)
      - meanK z2 (ix2 a j) * meanK z2 (ix2 a j)) (Ideal.ofBits .f32 0x00000000#32) = _
  rw [row_apply, meanK_apply, ofBits_count, Ideal.ofBits_zero_f32]

/-- For real data the one-pass variance clamped at zero is the two-pass variance. -/
theorem var_agree {z2 : NV} (h : IsReal z2) : varK z2 = row (varR z2) := by
  choose g hg using h
  funext i
  obtain ⟨a, j, rfl⟩ : ∃ (a : Fin 1) (j : Fin 64), i = ix2 a j := ⟨i 0, i 1, eq_ix2 i⟩
  rw [row_apply, varK_apply, varR_apply]
  have hs : colSum z2 (ix1 j) = ∑ k : Fin 50000, ((g (ix2 k j) : ℝ) : EReal) := by
    rw [colSum_apply hRed]; exact Finset.sum_congr rfl fun k _ => hg _
  have hq : colSum (sqr z2) (ix1 j) = ∑ k : Fin 50000, ((g (ix2 k j) : ℝ) : EReal) * ((g (ix2 k j) : ℝ) : EReal) := by
    rw [colSum_apply hRed]; exact Finset.sum_congr rfl fun k _ => by show z2 _ * z2 _ = _; rw [hg]
  have hN : (0 : ℝ) < 50000 := by norm_num
  rw [hs, hq]
  simp only [hg]
  conv_lhs => rw [Ideal.div_coe hN.ne', Ideal.div_coe hN.ne']
  exact Cert.Lib.BatchVar.var_eq (fun k : Fin 50000 => g (ix2 k j)) 50000 (by simp) hN

end Cert.Real

end
-- ==== Proof.Bridge.lean ====
/-
  The two programs compute the same function of their fourteen argument arrays, when the float arguments are real.

  The kernel program and the reference apply the same host operations (projections, row gather at the wrapped source
  index, scatter-add at the destination index, the two-layer per-node map, the pooled and normalised tail); a bias, a
  scale or a shift [64] becomes a [1,64] row by a reshape on one side and by a broadcast on the other, which read the
  same entry; and the batch statistics differ in arrangement only: the means are the same quotient, and the one-pass
  variance clamped at zero equals the two-pass variance when every entry is a real number.  That every entry IS a real
  number is carried through the three layers: sums, products, maxima and selects of reals are real, a gather re-reads
  entries, a scatter-add sums finitely many, and the normalised output is real because the variance is a non-negative
  real and ε a positive one.
-/
import proofs.«104584_j17154099380304_2_alg».proof.Proof.KerRun.Defs
import proofs.«104584_j17154099380304_2_alg».proof.Proof.RefRun.Terms
import proofs.«104584_j17154099380304_2_alg».proof.Proof.VarianceLaw
import Idealize.ShloMosaic.Lib.ValueLayout

noncomputable section

namespace Cert.Bridge

open Idealize.ShloMosaic Idealize.ShloMosaic.ValueIdx
open Cert.ReferenceIdeal Cert.ReferenceIdeal.Facts₀ Cert.ReferenceIdeal.Facts
open Cert.Spec Cert.Real
open Cert.ReferenceIdeal.RefValue (W3 V3 IdxCol)

/-! ## Layout operations re-read entries -/

theorem isReal_slice {s t : Shape} {φ : FTy} (off : Fin s.rank → Nat) {x : FVec Ideal s φ} (h : s.Slices off t)
    (hx : IsReal x) : IsReal (extractStridedSlice t off x h) := fun _ => hx _

theorem isReal_shapeCast {s t : Shape} {φ : FTy} {x : FVec Ideal s φ} (h : s.ShapeCasts t) (hx : IsReal x) :
    IsReal (shapeCast t x h) := fun _ => hx _

/-- A [64] vector reshaped to a [1,64] row is the vector broadcast along the new axis. -/
theorem asRow_eq_row (v : ColV) : Cert.KernelIdeal.KerValue.asRow v = row v := by
  funext i
  obtain ⟨a, j, rfl⟩ : ∃ (a : Fin 1) (j : Fin 64), i = ix2 a j := ⟨i 0, i 1, eq_ix2 i⟩
  rw [row_apply]
  exact shapeCast_a_1a_apply v _ a j

/-! ## The parts that are the same operations on both sides -/

theorem srcIdx_eq (a2 : IVec S2x1000000 32) : Cert.KernelIdeal.KerValue.srcIdx a2 = RefValue.srcIdx a2 := rfl
theorem dstIdx_eq (a2 : IVec S2x1000000 32) : Cert.KernelIdeal.KerValue.dstIdx a2 = RefValue.dstIdx a2 := rfl

theorem mat0_eq (a : W3) : Cert.KernelIdeal.KerValue.mat0 a = RefValue.wSlice0 a := rfl
theorem mat1_eq (a : W3) : Cert.KernelIdeal.KerValue.mat1 a = RefValue.wSlice1 a := rfl
theorem mat2_eq (a : W3) : Cert.KernelIdeal.KerValue.mat2 a = RefValue.wSlice2 a := rfl

theorem vec0_eq (a : V3) : Cert.KernelIdeal.KerValue.vec0 a = row (RefValue.vSlice0 a) := asRow_eq_row _
theorem vec1_eq (a : V3) : Cert.KernelIdeal.KerValue.vec1 a = row (RefValue.vSlice1 a) := asRow_eq_row _
theorem vec2_eq (a : V3) : Cert.KernelIdeal.KerValue.vec2 a = row (RefValue.vSlice2 a) := asRow_eq_row _

theorem tail_eq (h : NV) (a3 : IVec S50000 32) : Cert.KernelIdeal.KerValue.tail h a3 = RefValue.tail h a3 := rfl

theorem agg_eq (h : NV) (e : EV) (a2 : IVec S2x1000000 32) :
    Cert.KernelIdeal.KerValue.aggregate h (msg (Cert.KernelIdeal.KerValue.gatherSrc h a2) e) a2
      = RefValue.aggOf h e (RefValue.srcIdx a2) (RefValue.dstIdx a2) := rfl

/-! ## One layer -/

/-- The kernel's normalisation from the column sums is the specification's at its own statistics. -/
theorem normalise_eq (z2 : NV) (γ β : RowV) :
    Cert.KernelIdeal.KerValue.normalise z2 γ β = bnorm z2 (meanK z2) (varK z2) γ β := rfl

/-- The reference's normalisation is the specification's at the rows of its own statistics: the reciprocal square
    root and the addition of ε act entry by entry, so they commute with reading a [64] vector as a [1,64] row. -/
theorem normOf_eq (z2 : NV) (γ β : ColV) :
    RefValue.normOf z2 γ β = bnorm z2 (row (meanR z2)) (row (varR z2)) (row γ) (row β) := rfl

/-- The aggregate h + Σ max (h[src] + e, 0) of real arrays is real. -/
theorem isReal_aggOf {h : NV} {e : EV} (hh : IsReal h) (he : IsReal e) (si di : IdxCol) : IsReal (RefValue.aggOf h e si di) :=
  isReal_addf hh (isReal_scatterN di (isReal_msg (isReal_gatherN si hh) he))

section Layer
variable (h : NV) (e : EV) (a2 : IVec S2x1000000 32) (w1 : WM) (b1 : ColV) (w2 : WM) (b2 γ β : ColV)
  (hh : IsReal h) (he : IsReal e) (hw1 : IsReal w1) (hb1 : IsReal b1) (hw2 : IsReal w2) (hb2 : IsReal b2)

include hh he hw1 hb1 hw2 hb2

/-- The per-node map's output z2 of a layer is real. -/
theorem isReal_z2 :
    IsReal (mlp (RefValue.aggOf h e (RefValue.srcIdx a2) (RefValue.dstIdx a2)) w1 (row b1) w2 (row b2)) :=
  isReal_mlp (isReal_aggOf hh he _ _) hw1 (isReal_row hb1) hw2 (isReal_row hb2)

/-- One layer: the two programs agree on real data. -/
theorem layerCore_agree :
    Cert.KernelIdeal.KerValue.layerCore h e a2 w1 (row b1) w2 (row b2) (row γ) (row β)
      = RefValue.layerG h e (RefValue.srcIdx a2) (RefValue.dstIdx a2) w1 b1 w2 b2 γ β := by
  have hz2 := isReal_z2 h e a2 w1 b1 w2 b2 hh he hw1 hb1 hw2 hb2
  show Cert.KernelIdeal.KerValue.normalise
      (mlp (RefValue.aggOf h e (RefValue.srcIdx a2) (RefValue.dstIdx a2)) w1 (row b1) w2 (row b2)) (row γ) (row β)
    = RefValue.normOf (mlp (RefValue.aggOf h e (RefValue.srcIdx a2) (RefValue.dstIdx a2)) w1 (row b1) w2 (row b2)) γ β
  rw [normalise_eq, normOf_eq, mean_agree hz2, var_agree hz2]

/-- One layer's output is real again. -/
theorem isReal_layerG (hγ : IsReal γ) (hβ : IsReal β) :
    IsReal (RefValue.layerG h e (RefValue.srcIdx a2) (RefValue.dstIdx a2) w1 b1 w2 b2 γ β) := by
  have hz2 := isReal_z2 h e a2 w1 b1 w2 b2 hh he hw1 hb1 hw2 hb2
  rw [← layerCore_agree h e a2 w1 b1 w2 b2 γ β hh he hw1 hb1 hw2 hb2]
  show IsReal (Cert.KernelIdeal.KerValue.normalise
      (mlp (RefValue.aggOf h e (RefValue.srcIdx a2) (RefValue.dstIdx a2)) w1 (row b1) w2 (row b2)) (row γ) (row β))
  rw [normalise_eq]
  exact isReal_bnorm hz2 (meanK_real hz2) (varK_real hz2) varK_nonneg (isReal_row hγ) (isReal_row hβ)

end Layer

/-! ## The slices of the stacked parameters are real -/

theorem isReal_wSlice0 {a : W3} (ha : IsReal a) : IsReal (RefValue.wSlice0 a) := isReal_shapeCast _ (isReal_slice _ _ ha)
theorem isReal_wSlice1 {a : W3} (ha : IsReal a) : IsReal (RefValue.wSlice1 a) := isReal_shapeCast _ (isReal_slice _ _ ha)
theorem isReal_wSlice2 {a : W3} (ha : IsReal a) : IsReal (RefValue.wSlice2 a) := isReal_shapeCast _ (isReal_slice _ _ ha)
theorem isReal_vSlice0 {a : V3} (ha : IsReal a) : IsReal (RefValue.vSlice0 a) := isReal_shapeCast _ (isReal_slice _ _ ha)
theorem isReal_vSlice1 {a : V3} (ha : IsReal a) : IsReal (RefValue.vSlice1 a) := isReal_shapeCast _ (isReal_slice _ _ ha)
theorem isReal_vSlice2 {a : V3} (ha : IsReal a) : IsReal (RefValue.vSlice2 a) := isReal_shapeCast _ (isReal_slice _ _ ha)

/-! ## The three layers -/

section Layers
variable (h : NV) (e : EV) (a2 : IVec S2x1000000 32) (a8 : W3) (a9 : V3) (a10 : W3) (a11 a12 a13 : V3)
  (hh : IsReal h) (he : IsReal e) (h8 : IsReal a8) (h9 : IsReal a9) (h10 : IsReal a10) (h11 : IsReal a11)

include hh he h8 h9 h10 h11

theorem layer0_agree :
    Cert.KernelIdeal.KerValue.layer0 h e a2 a8 a9 a10 a11 a12 a13 = RefValue.layer0 h e a2 a8 a9 a10 a11 a12 a13 := by
  show Cert.KernelIdeal.KerValue.layerCore h e a2 (Cert.KernelIdeal.KerValue.mat0 a8) (Cert.KernelIdeal.KerValue.vec0 a9)
      (Cert.KernelIdeal.KerValue.mat0 a10) (Cert.KernelIdeal.KerValue.vec0 a11) (Cert.KernelIdeal.KerValue.vec0 a12)
      (Cert.KernelIdeal.KerValue.vec0 a13) = _
  rw [mat0_eq, mat0_eq, vec0_eq, vec0_eq, vec0_eq, vec0_eq]
  exact layerCore_agree h e a2 _ _ _ _ _ _ hh he (isReal_wSlice0 h8) (isReal_vSlice0 h9) (isReal_wSlice0 h10) (isReal_vSlice0 h11)

theorem layer1_agree :
    Cert.KernelIdeal.KerValue.layer1 h e a2 a8 a9 a10 a11 a12 a13 = RefValue.layer1 h e a2 a8 a9 a10 a11 a12 a13 := by
  show Cert.KernelIdeal.KerValue.layerCore h e a2 (Cert.KernelIdeal.KerValue.mat1 a8) (Cert.KernelIdeal.KerValue.vec1 a9)
      (Cert.KernelIdeal.KerValue.mat1 a10) (Cert.KernelIdeal.KerValue.vec1 a11) (Cert.KernelIdeal.KerValue.vec1 a12)
      (Cert.KernelIdeal.KerValue.vec1 a13) = _
  rw [mat1_eq, mat1_eq, vec1_eq, vec1_eq, vec1_eq, vec1_eq]
  exact layerCore_agree h e a2 _ _ _ _ _ _ hh he (isReal_wSlice1 h8) (isReal_vSlice1 h9) (isReal_wSlice1 h10) (isReal_vSlice1 h11)

theorem layer2_agree :
    Cert.KernelIdeal.KerValue.layer2 h e a2 a8 a9 a10 a11 a12 a13 = RefValue.layer2 h e a2 a8 a9 a10 a11 a12 a13 := by
  show Cert.KernelIdeal.KerValue.layerCore h e a2 (Cert.KernelIdeal.KerValue.mat2 a8) (Cert.KernelIdeal.KerValue.vec2 a9)
      (Cert.KernelIdeal.KerValue.mat2 a10) (Cert.KernelIdeal.KerValue.vec2 a11) (Cert.KernelIdeal.KerValue.vec2 a12)
      (Cert.KernelIdeal.KerValue.vec2 a13) = _
  rw [mat2_eq, mat2_eq, vec2_eq, vec2_eq, vec2_eq, vec2_eq]
  exact layerCore_agree h e a2 _ _ _ _ _ _ hh he (isReal_wSlice2 h8) (isReal_vSlice2 h9) (isReal_wSlice2 h10) (isReal_vSlice2 h11)

theorem isReal_layer0 (h12 : IsReal a12) (h13 : IsReal a13) : IsReal (RefValue.layer0 h e a2 a8 a9 a10 a11 a12 a13) :=
  isReal_layerG h e a2 _ _ _ _ _ _ hh he (isReal_wSlice0 h8) (isReal_vSlice0 h9) (isReal_wSlice0 h10) (isReal_vSlice0 h11)
    (isReal_vSlice0 h12) (isReal_vSlice0 h13)

theorem isReal_layer1 (h12 : IsReal a12) (h13 : IsReal a13) : IsReal (RefValue.layer1 h e a2 a8 a9 a10 a11 a12 a13) :=
  isReal_layerG h e a2 _ _ _ _ _ _ hh he (isReal_wSlice1 h8) (isReal_vSlice1 h9) (isReal_wSlice1 h10) (isReal_vSlice1 h11)
    (isReal_vSlice1 h12) (isReal_vSlice1 h13)

end Layers

/-! ## The projections, and the whole program -/

theorem h0_eq (a0 : NV) (a4 : WM) (a5 : ColV) : Cert.KernelIdeal.KerValue.h0 a0 a4 a5 = RefValue.h0 a0 a4 a5 := by
  show linN a0 a4 (Cert.KernelIdeal.KerValue.asRow a5) = linN a0 a4 (row a5)
  rw [asRow_eq_row]

theorem e0_eq (a1 : EV) (a6 : WM) (a7 : ColV) : Cert.KernelIdeal.KerValue.e0 a1 a6 a7 = RefValue.e0 a1 a6 a7 := by
  show linE a1 a6 (Cert.KernelIdeal.KerValue.asRow a7) = linE a1 a6 (row a7)
  rw [asRow_eq_row]

/-- On real float arguments the kernel program's result is the reference's. -/
theorem out_agree (a0 : NV) (a1 : EV) (a2 : IVec S2x1000000 32) (a3 : IVec S50000 32) (a4 : WM) (a5 : ColV) (a6 : WM)
    (a7 : ColV) (a8 : W3) (a9 : V3) (a10 : W3) (a11 a12 a13 : V3)
    (hr : IsReal (S := S50000x64) (φ := .f32) a0 ∧ IsReal (S := S1000000x64) (φ := .f32) a1
      ∧ IsReal (S := S64x64) (φ := .f32) a4 ∧ IsReal (S := S64) (φ := .f32) a5
      ∧ IsReal (S := S64x64) (φ := .f32) a6 ∧ IsReal (S := S64) (φ := .f32) a7
      ∧ IsReal (S := S3x64x64) (φ := .f32) a8 ∧ IsReal (S := S3x64) (φ := .f32) a9
      ∧ IsReal (S := S3x64x64) (φ := .f32) a10 ∧ IsReal (S := S3x64) (φ := .f32) a11
      ∧ IsReal (S := S3x64) (φ := .f32) a12 ∧ IsReal (S := S3x64) (φ := .f32) a13) :
    Cert.KernelIdeal.KerValue.out a0 a1 a2 a3 a4 a5 a6 a7 a8 a9 a10 a11 a12 a13
      = RefValue.out a0 a1 a2 a3 a4 a5 a6 a7 a8 a9 a10 a11 a12 a13 := by
  obtain ⟨r0, r1, r4, r5, r6, r7, r8, r9, r10, r11, r12, r13⟩ := hr
  have hh0 : IsReal (RefValue.h0 a0 a4 a5) := isReal_linN r0 r4 (isReal_row r5)
  have he0 : IsReal (RefValue.e0 a1 a6 a7) := isReal_linE r1 r6 (isReal_row r7)
  have hh1 := isReal_layer0 _ _ a2 a8 a9 a10 a11 a12 a13 hh0 he0 r8 r9 r10 r11 r12 r13
  have hh2 := isReal_layer1 _ _ a2 a8 a9 a10 a11 a12 a13 hh1 he0 r8 r9 r10 r11 r12 r13
  show Cert.KernelIdeal.KerValue.tail (Cert.KernelIdeal.KerValue.layer2 (Cert.KernelIdeal.KerValue.layer1
      (Cert.KernelIdeal.KerValue.layer0 (Cert.KernelIdeal.KerValue.h0 a0 a4 a5) (Cert.KernelIdeal.KerValue.e0 a1 a6 a7)
        a2 a8 a9 a10 a11 a12 a13)
      (Cert.KernelIdeal.KerValue.e0 a1 a6 a7) a2 a8 a9 a10 a11 a12 a13)
      (Cert.KernelIdeal.KerValue.e0 a1 a6 a7) a2 a8 a9 a10 a11 a12 a13) a3 = _
  rw [h0_eq, e0_eq, layer0_agree _ _ a2 a8 a9 a10 a11 a12 a13 hh0 he0 r8 r9 r10 r11,
    layer1_agree _ _ a2 a8 a9 a10 a11 a12 a13 hh1 he0 r8 r9 r10 r11,
    layer2_agree _ _ a2 a8 a9 a10 a11 a12 a13 hh2 he0 r8 r9 r10 r11, tail_eq]
  rfl

end Cert.Bridge

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.FiniteInputs.lean ====
/-
  From the precondition to real entries.

  The precondition tests each of the twelve float arguments x by  all (|x| < +∞)  and takes the conjunction of the
  twelve bits.  The conjunction is 1 only if every bit is; a bit is 1 only if the elementwise test is 1 at every
  entry; and  max (a, −a) < +∞  on the extended reals excludes a = +∞ and a = −∞.  So every entry of every float
  argument is a real number.
-/
import proofs.«104584_j17154099380304_2_alg».proof.Defs
import proofs.«104584_j17154099380304_2_alg».proof.Proof.Gen.Pre_finite_inputs
import proofs.«104584_j17154099380304_2_alg».proof.Proof.RealClosure
import proofs.«104584_j17154099380304_2_alg».proof.Proof.LibFiniteEntry
import Idealize.ShloMosaic.Lib.ReduceAll
import Idealize.ShloMosaic.Lib.ValueIdx

noncomputable section

namespace Cert.Real

open Idealize.ShloMosaic Idealize.SL.Sem Idealize.ShloMosaic.TcCoe Cert.Pre_finite_inputs Cert.Pre_finite_inputs.Facts

/-- One argument's test  all (|x| < +∞)  being 1: every entry of x is a real number. -/
theorem all_finite_real {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1) : IsReal x :=
  fun i => Cert.Lib.FiniteEntry.entry_real hb x i (Host.reduce_andi_all _ _ hr hu ValueIdx.ix0 e i)

/-- Under the precondition every entry of every float argument is a real number. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    IsReal (S := S50000x64) (φ := .f32) (m ((c.tc : Thread Cert.KernelIdeal.nD Cert.KernelIdeal.τ).loc Cert.KernelIdeal.main_arg0))
    ∧ IsReal (S := S1000000x64) (φ := .f32) (m ((c.tc : Thread Cert.KernelIdeal.nD Cert.KernelIdeal.τ).loc Cert.KernelIdeal.main_arg1))
    ∧ IsReal (S := S64x64) (φ := .f32) (m ((c.tc : Thread Cert.KernelIdeal.nD Cert.KernelIdeal.τ).loc Cert.KernelIdeal.main_arg4))
    ∧ IsReal (S := S64) (φ := .f32) (m ((c.tc : Thread Cert.KernelIdeal.nD Cert.KernelIdeal.τ).loc Cert.KernelIdeal.main_arg5))
    ∧ IsReal (S := S64x64) (φ := .f32) (m ((c.tc : Thread Cert.KernelIdeal.nD Cert.KernelIdeal.τ).loc Cert.KernelIdeal.main_arg6))
    ∧ IsReal (S := S64) (φ := .f32) (m ((c.tc : Thread Cert.KernelIdeal.nD Cert.KernelIdeal.τ).loc Cert.KernelIdeal.main_arg7))
    ∧ IsReal (S := S3x64x64) (φ := .f32) (m ((c.tc : Thread Cert.KernelIdeal.nD Cert.KernelIdeal.τ).loc Cert.KernelIdeal.main_arg8))
    ∧ IsReal (S := S3x64) (φ := .f32) (m ((c.tc : Thread Cert.KernelIdeal.nD Cert.KernelIdeal.τ).loc Cert.KernelIdeal.main_arg9))
    ∧ IsReal (S := S3x64x64) (φ := .f32) (m ((c.tc : Thread Cert.KernelIdeal.nD Cert.KernelIdeal.τ).loc Cert.KernelIdeal.main_arg10))
    ∧ IsReal (S := S3x64) (φ := .f32) (m ((c.tc : Thread Cert.KernelIdeal.nD Cert.KernelIdeal.τ).loc Cert.KernelIdeal.main_arg11))
    ∧ IsReal (S := S3x64) (φ := .f32) (m ((c.tc : Thread Cert.KernelIdeal.nD Cert.KernelIdeal.τ).loc Cert.KernelIdeal.main_arg12))
    ∧ IsReal (S := S3x64) (φ := .f32) (m ((c.tc : Thread Cert.KernelIdeal.nD Cert.KernelIdeal.τ).loc Cert.KernelIdeal.main_arg13)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e1⟩ := IntOp.andi_eq_one.1 h0
  exact ⟨all_finite_real _ _ _ _ e0, all_finite_real _ _ _ _ e1, all_finite_real _ _ _ _ e4, all_finite_real _ _ _ _ e5,
    all_finite_real _ _ _ _ e6, all_finite_real _ _ _ _ e7, all_finite_real _ _ _ _ e8, all_finite_real _ _ _ _ e9,
    all_finite_real _ _ _ _ e10, all_finite_real _ _ _ _ e11, all_finite_real _ _ _ _ e12, all_finite_real _ _ _ _ e13⟩

end Cert.Real

end
-- ==== Proof.Assembly.lean ====
/-
  The certificate's claim, assembled.

  Three frames: the printed kernel program and its idealization each run to the end, nothing faulting, with their
  argument arrays unchanged; so does the reference (its run, the result's value forgotten).  The idealization's
  ledger is empty, so nothing is owed for it.  The algebraic claim: the idealized kernel program ends with its result
  at the function out of its fourteen argument arrays (given the kernel regions' values), the reference with its own
  function out of arrays that agree with them, and under the precondition every float argument is real, where the
  two functions are equal.
-/
import proofs.«104584_j17154099380304_2_alg».proof.Defs
import proofs.«104584_j17154099380304_2_alg».proof.Proof.Gen.Kernel.Frame
import proofs.«104584_j17154099380304_2_alg».proof.Proof.Gen.KernelIdeal.Frame
import proofs.«104584_j17154099380304_2_alg».proof.Proof.Gen.ReferenceIdeal
import proofs.«104584_j17154099380304_2_alg».proof.Proof.Gen.Pre_finite_inputs
import proofs.«104584_j17154099380304_2_alg».proof.Proof.KerRun
import proofs.«104584_j17154099380304_2_alg».proof.Proof.RefRun
import proofs.«104584_j17154099380304_2_alg».proof.Proof.Bridge
import proofs.«104584_j17154099380304_2_alg».proof.Proof.FiniteInputs

noncomputable section

namespace Cert.Assembly

open Idealize.ShloMosaic Idealize.ShloMosaic.TcCoe Idealize.SL.Sem

/-- The kernel program as printed runs and leaves its argument arrays unchanged. -/
theorem frame_Kernel :
    Cert.frame_Kernel (hKernel := Cert.Kernel.Gen.facts) (hPre_finite_inputs := Cert.Pre_finite_inputs.Gen.facts) :=
  fun m ρ _ => Cert.Kernel.Gen.frame m ρ

/-- The idealized kernel program runs and leaves its argument arrays unchanged. -/
theorem frame_KernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its argument arrays unchanged: its run with the result's value forgotten. -/
theorem frame_ReferenceIdeal :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2) (Cert.ReferenceIdeal.RefValue.run m ρ)

/-- The two idealized programs, run from memories that agree on the arguments, end with equal results: the kernel
    program's result is the function out of its argument arrays, the reference's is its own function out of the same
    arrays, and on real arguments (the precondition) the two functions agree. -/
theorem algebraic (hreg : Cert.KernelIdeal.KerValue.RegionVals) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.KerValue.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)),
    Cert.KernelIdeal.KerValue.run hreg m ρ, ?_⟩
  refine (θ_run Cert.ReferenceIdeal.defs _ _).mono (fun _ h c => ⟨(h c).1.trans ?_, (h c).2⟩)
    (Cert.ReferenceIdeal.RefValue.run m' ρ')
  obtain ⟨g0, g1, g2, g3, g4, g5, g6, g7, g8, g9, g10, g11, g12, g13⟩ := hagree c
  rw [g0, g1, g2, g3, g4, g5, g6, g7, g8, g9, g10, g11, g12, g13]
  exact (Cert.Bridge.out_agree _ _ _ _ _ _ _ _ _ _ _ _ _ _ (Cert.Real.args_real m hpre c)).symm

/-- Everything this certificate claims, from the kernel regions' values. -/
theorem claim (hreg : Cert.KernelIdeal.KerValue.RegionVals) : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic hreg⟩

end Cert.Assembly

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«104584_j17154099380304_2_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.RegionLin0.lean ====
/-
  Region 0 (a projection x · W + b): grid point t multiplies rows 10000·t … 10000·t + 9999 of x by the whole
  [64,64] matrix on the vector unit, from the zero accumulator, adds the [1,64] bias row to every row, and writes the
  block back.  Entry (p, q) of the block's product and entry (10000·t + p, q) of the whole product on the host are the
  same sum ∑ₖ x (10000·t + p, k) · W (k, q), term by term (the change of float format on the way into the product is
  the identity on the extended reals), so the 5 row blocks are the rows of x · W + b.
-/
import proofs.«104584_j17154099380304_2_alg».proof.Proof.KerSpec
import proofs.«104584_j17154099380304_2_alg».proof.Proof.LibRowBlock
import Idealize.ShloMosaic.Lib.Pipeline.Value
import Idealize.ShloMosaic.Lib.ValueIdx
import Idealize.ShloMosaic.Lib.ValueLayout

set_option maxRecDepth 16384
set_option maxHeartbeats 4000000

noncomputable section

namespace Cert.KernelIdeal.KerValue.Lin0

open Idealize.ShloMosaic Idealize.ShloMosaic.TcCoe Idealize.SL.Sem Cert.KernelIdeal Cert.KernelIdeal.Gen Idealize.ShloMosaic.Pipeline
open Idealize.ShloMosaic.ValueIdx

theorem zero_offsets : (![0, 0] : Fin 2 → Nat) = fun _ => 0 := funext fun a => by fin_cases a <;> rfl

/-- The payload at entry (p, q): the block product's entry plus the bias row's entry q. -/
theorem pay_apply (x0 : Vec Ideal S10000x64 .f32) (x1 : Vec Ideal S64x64 .f32) (x2 : Vec Ideal S1x64 .f32) (p : Fin 10000) (q : Fin 64) :
    k0_pay1 (F := Ideal) x0 x1 x2 (ix2 p q)
      = FloatOps.matmul (DotDims.plain 10000 64 64) none (truncf (F := Ideal) .bf16 x0 bitsLt_bf16_f32) (truncf (F := Ideal) .bf16 x1 bitsLt_bf16_f32)
          (constant (F := Ideal) ⟨2, ![10000, 64]⟩ .f32 0x00000000#32) (ix2 p q) + x2 (ix2 0 q) := by
  unfold k0_pay1
  show FloatOps.matmul (F := Ideal) _ none _ _ _ (ix2 p q) + broadcastTo S10000x64 (shapeCast S1x64 x2 shapeCasts_S1x64_S1x64) broadcasts_S1x64_S10000x64 (ix2 p q) = _
  rw [broadcastTo_1b_ab_apply, shapeCast_self]
  rfl

/-- The specification at entry (P, q): the whole product's entry plus the bias row's entry q. -/
theorem spec_apply (A : FVec Ideal ⟨2, ![50000, 64]⟩ .f32) (W : Cert.Spec.WM) (b : Cert.Spec.RowV) (P : Fin 50000) (q : Fin 64) :
    Cert.Spec.linN A W b (ix2 P q)
      = FloatOps.dotGeneral (DotDims.plain 50000 64 64) none .single A W (ix2 P q) + b (ix2 0 q) := by
  unfold Cert.Spec.linN Cert.Spec.bN
  show FloatOps.dotGeneral (F := Ideal) _ none .single A W (ix2 P q) + broadcastInDim _ ![0, 1] _ b (ix2 P q) = _
  rw [broadcastInDim_apply _ _ b (ix2 P q) (ix2 0 q) (fun a => by match a with | ⟨0, _⟩ => rfl | ⟨1, _⟩ => rfl)]
  rfl

/-- The printed index maps over the grid: x and the result move with the point along the rows; W and b stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of x · W + b. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal)
          (Cert.Spec.linN (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S10000x64) zero_offsets, View.ld_unit_zero (S := S64x64) zero_offsets, View.ld_unit_zero (S := S1x64) zero_offsets]
  obtain ⟨e0, e1, e2, e3, e4, e5, e6, e7⟩ := idx_facts t
  have ht : t.val < 5 := lt_of_lt_of_eq t.isLt N_0
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (ix2 p q)
    = Cert.Spec.linN (V c (Pipeline.arrRef spec0 0)) (V c (Pipeline.arrRef spec0 1)) (V c (Pipeline.arrRef spec0 2)) (((cfg0.win 3).blk t).view.emb (ix2 p q))
  have hemb : ((cfg0.win 3).blk t).view.emb (ix2 p q) = ix2 (⟨t.val * 10000 + p.val, by omega⟩ : Fin 50000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  rw [hemb, pay_apply, spec_apply]
  have hx : ∀ k : Fin 64, (truncf (F := Ideal) .bf16 (iblk0 V c 0 t) bitsLt_bf16_f32 (ix2 p k) : EReal)
      = V c (Pipeline.arrRef spec0 0) (ix2 (⟨t.val * 10000 + p.val, by omega⟩ : Fin 50000) k) := fun k => by
    show V c (Pipeline.arrRef spec0 0) (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  have hw : ∀ k : Fin 64, (truncf (F := Ideal) .bf16 (iblk0 V c 1 t) bitsLt_bf16_f32 (ix2 k q) : EReal)
      = V c (Pipeline.arrRef spec0 1) (ix2 k q) := fun k => by
    show V c (Pipeline.arrRef spec0 1) (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega
  have hb : iblk0 V c 2 t (ix2 0 q) = V c (Pipeline.arrRef spec0 2) (ix2 0 q) := by
    show V c (Pipeline.arrRef spec0 2) (((cfg0.win 2).blk t).view.emb (ix2 0 q)) = _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega
  rw [hb, Cert.Lib.RowBlock.matmul_eq_dotGeneral none none .single (V c (Pipeline.arrRef spec0 0)) (V c (Pipeline.arrRef spec0 1)) _ _
    (⟨t.val * 10000 + p.val, by omega⟩ : Fin 50000) p q hx hw]

/-- An index of the array is in point t's block iff each coordinate is in the block's range on its axis. -/
theorem mem_blk (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1).slice (win0_3.rect t)).set ↔ _
  rw [View.set_slice_whole, Rect.mem_set_unit]
  exact Iff.rfl

/-- Every row is in the block of the point its row number divided by 10000 names. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 5 := N_0
  let t : Fin cfg0.N := ⟨(i 0).val / 10000, by rw [hN]; omega⟩
  obtain ⟨e0, e1, e2, e3, e4, e5, e6, e7⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; rw [e6]; show (i 0).val / 10000 * 10000 ≤ _ ∧ _ < (i 0).val / 10000 * 10000 + 10000; omega
  | ⟨1, _⟩ => show win0_3.index t (1 : Fin 2) * 64 ≤ (i 1).val ∧ (i 1).val < win0_3.index t (1 : Fin 2) * 64 + 64; omega

/-- After the last point the result array is x · W + b of the region's three input arrays. -/
theorem final (V : (c : Dev nD) → (b : Ref sig .tc) → Buf (Elt Ideal) ((c : Thread nD τ).loc b)) (c : Dev nD) : (dat0 (F := Ideal) V c).arrAt 3 cfg0.N
    = Cert.Spec.linN (V c (Pipeline.arrRef spec0 0)) (V c (Pipeline.arrRef spec0 1)) (V c (Pipeline.arrRef spec0 2)) :=
  (dat0 (F := Ideal) V c).arrAt_eq_of_cover 3 _ (fun t _ => flushed_eq V c t) cover

end Cert.KernelIdeal.KerValue.Lin0

end
-- ==== Proof.RegionLin1.lean ====
/-
  Region 1 (a projection x · W + b): grid point t multiplies rows 10000·t … 10000·t + 9999 of x by the whole
  [64,64] matrix on the vector unit, from the zero accumulator, adds the [1,64] bias row to every row, and writes the
  block back.  Entry (p, q) of the block's product and entry (10000·t + p, q) of the whole product on the host are the
  same sum ∑ₖ x (10000·t + p, k) · W (k, q), term by term (the change of float format on the way into the product is
  the identity on the extended reals), so the 100 row blocks are the rows of x · W + b.
-/
import proofs.«104584_j17154099380304_2_alg».proof.Proof.KerSpec
import proofs.«104584_j17154099380304_2_alg».proof.Proof.LibRowBlock
import Idealize.ShloMosaic.Lib.Pipeline.Value
import Idealize.ShloMosaic.Lib.ValueIdx
import Idealize.ShloMosaic.Lib.ValueLayout

set_option maxRecDepth 16384
set_option maxHeartbeats 4000000

noncomputable section

namespace Cert.KernelIdeal.KerValue.Lin1

open Idealize.ShloMosaic Idealize.ShloMosaic.TcCoe Idealize.SL.Sem Cert.KernelIdeal Cert.KernelIdeal.Gen Idealize.ShloMosaic.Pipeline
open Idealize.ShloMosaic.ValueIdx

theorem zero_offsets : (![0, 0] : Fin 2 → Nat) = fun _ => 0 := funext fun a => by fin_cases a <;> rfl

/-- The payload at entry (p, q): the block product's entry plus the bias row's entry q. -/
theorem pay_apply (x0 : Vec Ideal S10000x64 .f32) (x1 : Vec Ideal S64x64 .f32) (x2 : Vec Ideal S1x64 .f32) (p : Fin 10000) (q : Fin 64) :
    k1_pay1 (F := Ideal) x0 x1 x2 (ix2 p q)
      = FloatOps.matmul (DotDims.plain 10000 64 64) none (truncf (F := Ideal) .bf16 x0 bitsLt_bf16_f32) (truncf (F := Ideal) .bf16 x1 bitsLt_bf16_f32)
          (constant (F := Ideal) ⟨2, ![10000, 64]⟩ .f32 0x00000000#32) (ix2 p q) + x2 (ix2 0 q) := by
  unfold k1_pay1
  show FloatOps.matmul (F := Ideal) _ none _ _ _ (ix2 p q) + broadcastTo S10000x64 (shapeCast S1x64 x2 shapeCasts_S1x64_S1x64) broadcasts_S1x64_S10000x64 (ix2 p q) = _
  rw [broadcastTo_1b_ab_apply, shapeCast_self]
  rfl

/-- The specification at entry (P, q): the whole product's entry plus the bias row's entry q. -/
theorem spec_apply (A : FVec Ideal ⟨2, ![1000000, 64]⟩ .f32) (W : Cert.Spec.WM) (b : Cert.Spec.RowV) (P : Fin 1000000) (q : Fin 64) :
    Cert.Spec.linE A W b (ix2 P q)
      = FloatOps.dotGeneral (DotDims.plain 1000000 64 64) none .single A W (ix2 P q) + b (ix2 0 q) := by
  unfold Cert.Spec.linE Cert.Spec.bE
  show FloatOps.dotGeneral (F := Ideal) _ none .single A W (ix2 P q) + broadcastInDim _ ![0, 1] _ b (ix2 P q) = _
  rw [broadcastInDim_apply _ _ b (ix2 P q) (ix2 0 q) (fun a => by match a with | ⟨0, _⟩ => rfl | ⟨1, _⟩ => rfl)]
  rfl

/-- The printed index maps over the grid: x and the result move with the point along the rows; W and b stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of x · W + b. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal)
          (Cert.Spec.linE (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S64x64) zero_offsets, View.ld_unit_zero (S := S1x64) zero_offsets]
  obtain ⟨e0, e1, e2, e3, e4, e5, e6, e7⟩ := idx_facts t
  have ht : t.val < 100 := lt_of_lt_of_eq t.isLt N_1
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (ix2 p q)
    = Cert.Spec.linE (V c (Pipeline.arrRef spec1 0)) (V c (Pipeline.arrRef spec1 1)) (V c (Pipeline.arrRef spec1 2)) (((cfg1.win 3).blk t).view.emb (ix2 p q))
  have hemb : ((cfg1.win 3).blk t).view.emb (ix2 p q) = ix2 (⟨t.val * 10000 + p.val, by omega⟩ : Fin 1000000) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  rw [hemb, pay_apply, spec_apply]
  have hx : ∀ k : Fin 64, (truncf (F := Ideal) .bf16 (iblk1 V c 0 t) bitsLt_bf16_f32 (ix2 p k) : EReal)
      = V c (Pipeline.arrRef spec1 0) (ix2 (⟨t.val * 10000 + p.val, by omega⟩ : Fin 1000000) k) := fun k => by
    show V c (Pipeline.arrRef spec1 0) (((cfg1.win 0).blk t).view.emb (ix2 p k)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  have hw : ∀ k : Fin 64, (truncf (F := Ideal) .bf16 (iblk1 V c 1 t) bitsLt_bf16_f32 (ix2 k q) : EReal)
      = V c (Pipeline.arrRef spec1 1) (ix2 k q) := fun k => by
    show V c (Pipeline.arrRef spec1 1) (((cfg1.win 1).blk t).view.emb (ix2 k q)) = _
    refine congrArg _ (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega
  have hb : iblk1 V c 2 t (ix2 0 q) = V c (Pipeline.arrRef spec1 2) (ix2 0 q) := by
    show V c (Pipeline.arrRef spec1 2) (((cfg1.win 2).blk t).view.emb (ix2 0 q)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  rw [hb, Cert.Lib.RowBlock.matmul_eq_dotGeneral none none .single (V c (Pipeline.arrRef spec1 0)) (V c (Pipeline.arrRef spec1 1)) _ _
    (⟨t.val * 10000 + p.val, by omega⟩ : Fin 1000000) p q hx hw]

/-- An index of the array is in point t's block iff each coordinate is in the block's range on its axis. -/
theorem mem_blk (t : Fin cfg1.N) (i : S1000000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v3).slice (win1_3.rect t)).set ↔ _
  rw [View.set_slice_whole, Rect.mem_set_unit]
  exact Iff.rfl

/-- Every row is in the block of the point its row number divided by 10000 names. -/
theorem cover (i : S1000000x64.Idx) : ∃ t : Fin cfg1.N, (cfg1.win 3).flush t = true ∧ i ∈ ((cfg1.win 3).blk t).view.set := by
  have hi0 : (i 0).val < 1000000 := (i 0).isLt
  have hi1 : (i 1).val < 64 := (i 1).isLt
  have hN : cfg1.N = 100 := N_1
  let t : Fin cfg1.N := ⟨(i 0).val / 10000, by rw [hN]; omega⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; rw [e6]; show (i 0).val / 10000 * 10000 ≤ _ ∧ _ < (i 0).val / 10000 * 10000 + 10000; omega
  | ⟨1, _⟩ => show win1_3.index t (1 : Fin 2) * 64 ≤ (i 1).val ∧ (i 1).val < win1_3.index t (1 : Fin 2) * 64 + 64; omega

/-- After the last point the result array is x · W + b of the region's three input arrays. -/
theorem final (V : (c : Dev nD) → (b : Ref sig .tc) → Buf (Elt Ideal) ((c : Thread nD τ).loc b)) (c : Dev nD) : (dat1 (F := Ideal) V c).arrAt 3 cfg1.N
    = Cert.Spec.linE (V c (Pipeline.arrRef spec1 0)) (V c (Pipeline.arrRef spec1 1)) (V c (Pipeline.arrRef spec1 2)) :=
  (dat1 (F := Ideal) V c).arrAt_eq_of_cover 3 _ (fun t _ => flushed_eq V c t) cover

end Cert.KernelIdeal.KerValue.Lin1

end
-- ==== Proof.RegionMsg2.lean ====
/-
  Region 2 (the edge message): every grid point t reads rows 10000·t … 10000·t + 9999 of the gathered node
  features and of the edge features and writes back max (hs + e, 0) on those rows; the hundred row blocks tile the
  [1000000, 64] array, so after the last point the array is max (hs + e, 0) on every row.
-/
import proofs.«104584_j17154099380304_2_alg».proof.Proof.KerSpec
import Idealize.ShloMosaic.Lib.Pipeline.Value
import Idealize.ShloMosaic.Lib.ValueIdx

set_option maxRecDepth 16384
set_option maxHeartbeats 4000000

noncomputable section

namespace Cert.KernelIdeal.KerValue.Msg2

open Idealize.ShloMosaic Idealize.ShloMosaic.TcCoe Idealize.SL.Sem Cert.KernelIdeal Cert.KernelIdeal.Gen Idealize.ShloMosaic.Pipeline

theorem zero_offsets : (![0, 0] : Fin 2 → Nat) = fun _ => 0 := funext fun a => by fin_cases a <;> rfl

/-- The payload at an entry: the maximum of the sum of the two loaded entries and zero. -/
theorem pay_apply (x0 x1 : Vec Ideal S10000x64 .f32) (j : S10000x64.Idx) :
    k2_pay1 (F := Ideal) x0 x1 j
      = FloatOps.maximumf (FloatOps.addf (x0 j) (x1 j)) (FloatOps.ofBits .f32 0x00000000#32) := by
  unfold k2_pay1
  simp only [shapeCast_self]
  rfl

/-- The specification at an entry. -/
theorem msg_apply (a0 a1 : Cert.Spec.EV) (i : S1000000x64.Idx) :
    Cert.Spec.msg a0 a1 i = FloatOps.maximumf (FloatOps.addf (a0 i) (a1 i)) (FloatOps.ofBits .f32 0x00000000#32) := rfl

/-- The printed index maps over the grid: at point t every window's block is row block t, column block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the message array. -/
theorem flushed_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Spec.msg (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S10000x64) zero_offsets]
  obtain ⟨e0, e1, e2, e3, e4, e5⟩ := idx_facts t
  funext j
  show k2_pay1 (F := Ideal) (iblk2 V c 0 t) (iblk2 V c 1 t) j
    = Cert.Spec.msg (V c (Pipeline.arrRef spec2 0)) (V c (Pipeline.arrRef spec2 1)) (((cfg2.win 2).blk t).view.emb j)
  rw [pay_apply, msg_apply]
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 64 + 1 * (j 1).val = win2_2.index t (1 : Fin 2) * 64 + 1 * (j 1).val; omega
  have r0 : iblk2 V c 0 t j = V c (Pipeline.arrRef spec2 0) (((cfg2.win 2).blk t).view.emb j) := by
    show V c (Pipeline.arrRef spec2 0) (((cfg2.win 0).blk t).view.emb j) = _
    rw [h0]
  have r1 : iblk2 V c 1 t j = V c (Pipeline.arrRef spec2 1) (((cfg2.win 2).blk t).view.emb j) := by
    show V c (Pipeline.arrRef spec2 1) (((cfg2.win 1).blk t).view.emb j) = _
    rw [h1]
  rw [r0, r1]

/-- An index of the array is in point t's block iff each coordinate is in the block's range on its axis. -/
theorem mem_blk (t : Fin cfg2.N) (i : S1000000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v15).slice (win2_2.rect t)).set ↔ _
  rw [View.set_slice_whole, Rect.mem_set_unit]
  exact Iff.rfl

/-- Every row is in the block of the point its row number divided by 10000 names. -/
theorem cover (i : S1000000x64.Idx) : ∃ t : Fin cfg2.N, (cfg2.win 2).flush t = true ∧ i ∈ ((cfg2.win 2).blk t).view.set := by
  have hi0 : (i 0).val < 1000000 := (i 0).isLt
  have hi1 : (i 1).val < 64 := (i 1).isLt
  have hN : cfg2.N = 100 := N_2
  let t : Fin cfg2.N := ⟨(i 0).val / 10000, by rw [hN]; omega⟩
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; rw [e4]; show (i 0).val / 10000 * 10000 ≤ _ ∧ _ < (i 0).val / 10000 * 10000 + 10000; omega
  | ⟨1, _⟩ => show win2_2.index t (1 : Fin 2) * 64 ≤ (i 1).val ∧ (i 1).val < win2_2.index t (1 : Fin 2) * 64 + 64; omega

/-- After the last point the message array is max (hs + e, 0) of the region's two input arrays. -/
theorem final (V : (c : Dev nD) → (b : Ref sig .tc) → Buf (Elt Ideal) ((c : Thread nD τ).loc b)) (c : Dev nD) : (dat2 (F := Ideal) V c).arrAt 2 cfg2.N
    = Cert.Spec.msg (V c (Pipeline.arrRef spec2 0)) (V c (Pipeline.arrRef spec2 1)) :=
  (dat2 (F := Ideal) V c).arrAt_eq_of_cover 2 _ (fun t _ => flushed_eq V c t) cover

end Cert.KernelIdeal.KerValue.Msg2

end
-- ==== Proof.RegionMsg5.lean ====
/-
  Region 5 (the edge message): every grid point t reads rows 10000·t … 10000·t + 9999 of the gathered node
  features and of the edge features and writes back max (hs + e, 0) on those rows; the hundred row blocks tile the
  [1000000, 64] array, so after the last point the array is max (hs + e, 0) on every row.
-/
import proofs.«104584_j17154099380304_2_alg».proof.Proof.KerSpec
import Idealize.ShloMosaic.Lib.Pipeline.Value
import Idealize.ShloMosaic.Lib.ValueIdx

set_option maxRecDepth 16384
set_option maxHeartbeats 4000000

noncomputable section

namespace Cert.KernelIdeal.KerValue.Msg5

open Idealize.ShloMosaic Idealize.ShloMosaic.TcCoe Idealize.SL.Sem Cert.KernelIdeal Cert.KernelIdeal.Gen Idealize.ShloMosaic.Pipeline

theorem zero_offsets : (![0, 0] : Fin 2 → Nat) = fun _ => 0 := funext fun a => by fin_cases a <;> rfl

/-- The payload at an entry: the maximum of the sum of the two loaded entries and zero. -/
theorem pay_apply (x0 x1 : Vec Ideal S10000x64 .f32) (j : S10000x64.Idx) :
    k5_pay1 (F := Ideal) x0 x1 j
      = FloatOps.maximumf (FloatOps.addf (x0 j) (x1 j)) (FloatOps.ofBits .f32 0x00000000#32) := by
  unfold k5_pay1
  simp only [shapeCast_self]
  rfl

/-- The specification at an entry. -/
theorem msg_apply (a0 a1 : Cert.Spec.EV) (i : S1000000x64.Idx) :
    Cert.Spec.msg a0 a1 i = FloatOps.maximumf (FloatOps.addf (a0 i) (a1 i)) (FloatOps.ofBits .f32 0x00000000#32) := rfl

/-- The printed index maps over the grid: at point t every window's block is row block t, column block 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back is block t of the message array. -/
theorem flushed_eq (V : (c : Dev nD) → (b : Ref sig .tc) → Buf (Elt Ideal) ((c : Thread nD τ).loc b)) (c : Dev nD) (t : Fin cfg5.N) :
    (dat5 (F := Ideal) V c).flushed 2 t
      = ((cfg5.win 2).blk t).view.read (Elt Ideal) (Cert.Spec.msg (V c (Pipeline.arrRef spec5 0)) (V c (Pipeline.arrRef spec5 1))) := by
  show (cfg5.win 2).cut (grid5.coords t) ((dat5 V c).after 2 t) = _
  rw [after5_2]
  unfold out5_2
  rw [View.canon_unit_zero zero_offsets]
  simp only [View.ld_unit_zero (S := S10000x64) zero_offsets]
  obtain ⟨e0, e1, e2, e3, e4, e5⟩ := idx_facts t
  funext j
  show k5_pay1 (F := Ideal) (iblk5 V c 0 t) (iblk5 V c 1 t) j
    = Cert.Spec.msg (V c (Pipeline.arrRef spec5 0)) (V c (Pipeline.arrRef spec5 1)) (((cfg5.win 2).blk t).view.emb j)
  rw [pay_apply, msg_apply]
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  have r0 : iblk5 V c 0 t j = V c (Pipeline.arrRef spec5 0) (((cfg5.win 2).blk t).view.emb j) := by
    show V c (Pipeline.arrRef spec5 0) (((cfg5.win 0).blk t).view.emb j) = _
    rw [h0]
  have r1 : iblk5 V c 1 t j = V c (Pipeline.arrRef spec5 1) (((cfg5.win 2).blk t).view.emb j) := by
    show V c (Pipeline.arrRef spec5 1) (((cfg5.win 1).blk t).view.emb j) = _
    rw [h1]
  rw [r0, r1]

/-- An index of the array is in point t's block iff each coordinate is in the block's range on its axis. -/
theorem mem_blk (t : Fin cfg5.N) (i : S1000000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v53).slice (win5_2.rect t)).set ↔ _
  rw [View.set_slice_whole, Rect.mem_set_unit]
  exact Iff.rfl

/-- Every row is in the block of the point its row number divided by 10000 names. -/
theorem cover (i : S1000000x64.Idx) : ∃ t : Fin cfg5.N, (cfg5.win 2).flush t = true ∧ i ∈ ((cfg5.win 2).blk t).view.set := by
  have hi0 : (i 0).val < 1000000 := (i 0).isLt
  have hi1 : (i 1).val < 64 := (i 1).isLt
  have hN : cfg5.N = 100 := N_5
  let t : Fin cfg5.N := ⟨(i 0).val / 10000, by rw [hN]; omega⟩
  obtain ⟨e0, e1, e2, e3, e4, e5⟩ := idx_facts t
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; rw [e4]; show (i 0).val / 10000 * 10000 ≤ _ ∧ _ < (i 0).val / 10000 * 10000 + 10000; omega
  | ⟨1, _⟩ => show win5_2.index t (1 : Fin 2) * 64 ≤ (i 1).val ∧ (i 1).val < win5_2.index t (1 : Fin 2) * 64 + 64; omega

/-- After the last point the message array is max (hs + e, 0) of the region's two input arrays. -/
theorem final (V : (c : Dev nD) → (b : Ref sig .tc) → Buf (Elt Ideal) ((c : Thread nD τ).loc b)) (c : Dev nD) : (dat5 (F := Ideal) V c).arrAt 2 cfg5.N
    = Cert.Spec.msg (V c (Pipeline.arrRef spec5 0)) (V c (Pipeline.arrRef spec5 1)) :=
  (dat5 (F := Ideal) V c).arrAt_eq_of_cover 2 _ (fun t _ => flushed_eq V c t) cover

end Cert.KernelIdeal.KerValue.Msg5

end
-- ==== Proof.RegionMsg8.lean ====
/-
  Region 8 (the edge message): every grid point t reads rows 10000·t … 10000·t + 9999 of the gathered node
  features and of the edge features and writes back max (hs + e, 0) on those rows; the hundred row blocks tile the
  [1000000, 64] array, so after the last point the array is max (hs + e, 0) on every row.
-/
import proofs.«104584_j17154099380304_2_alg».proof.Proof.KerSpec
import Idealize.ShloMosaic.Lib.Pipeline.Value
import Idealize.ShloMosaic.Lib.ValueIdx

set_option maxRecDepth 16384
set_option maxHeartbeats 4000000

noncomputable section

namespace Cert.KernelIdeal.KerValue.Msg8

open Idealize.ShloMosaic Idealize.ShloMosaic.TcCoe Idealize.SL.Sem Cert.KernelIdeal Cert.KernelIdeal.Gen Idealize.ShloMosaic.Pipeline

theorem zero_offsets : (![0, 0] : Fin 2 → Nat) = fun _ => 0 := funext fun a => by fin_cases a <;> rfl

/-- The payload at an entry: the maximum of the sum of the two loaded entries and zero. -/
theorem pay_apply (x0 x1 : Vec Ideal S10000x64 .f32) (j : S10000x64.Idx) :
    k8_pay1 (F := Ideal) x0 x1 j
      = FloatOps.maximumf (FloatOps.addf (x0 j) (x1 j)) (FloatOps.ofBits .f32 0x00000000#32) := by
  unfold k8_pay1
  simp only [shapeCast_self]
  rfl

/-- The specification at an entry. -/
theorem msg_apply (a0 a1 : Cert.Spec.EV) (i : S1000000x64.Idx) :
    Cert.Spec.msg a0 a1 i = FloatOps.maximumf (FloatOps.addf (a0 i) (a1 i)) (FloatOps.ofBits .f32 0x00000000#32) := rfl

/-- The printed index maps over the grid: at point t every window's block is row block t, column block 0. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point t writes back is block t of the message array. -/
theorem flushed_eq (V : (c : Dev nD) → (b : Ref sig .tc) → Buf (Elt Ideal) ((c : Thread nD τ).loc b)) (c : Dev nD) (t : Fin cfg8.N) :
    (dat8 (F := Ideal) V c).flushed 2 t
      = ((cfg8.win 2).blk t).view.read (Elt Ideal) (Cert.Spec.msg (V c (Pipeline.arrRef spec8 0)) (V c (Pipeline.arrRef spec8 1))) := by
  show (cfg8.win 2).cut (grid8.coords t) ((dat8 V c).after 2 t) = _
  rw [after8_2]
  unfold out8_2
  rw [View.canon_unit_zero zero_offsets]
  simp only [View.ld_unit_zero (S := S10000x64) zero_offsets]
  obtain ⟨e0, e1, e2, e3, e4, e5⟩ := idx_facts t
  funext j
  show k8_pay1 (F := Ideal) (iblk8 V c 0 t) (iblk8 V c 1 t) j
    = Cert.Spec.msg (V c (Pipeline.arrRef spec8 0)) (V c (Pipeline.arrRef spec8 1)) (((cfg8.win 2).blk t).view.emb j)
  rw [pay_apply, msg_apply]
  have h0 : ((cfg8.win 0).blk t).view.emb j = ((cfg8.win 2).blk t).view.emb j := by
    funext a; apply Fin.ext
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 64 + 1 * (j 1).val = win8_2.index t (1 : Fin 2) * 64 + 1 * (j 1).val; omega
  have h1 : ((cfg8.win 1).blk t).view.emb j = ((cfg8.win 2).blk t).view.emb j := by
    funext a; apply Fin.ext
    match a with
    | ⟨0, _⟩ => show win8_1.index t (0 : Fin 2) * 10000 + 1 * (j 0).val = win8_2.index t (0 : Fin 2) * 10000 + 1 * (j 0).val; omega
    | ⟨1, _⟩ => show win8_1.index t (1 : Fin 2) * 64 + 1 * (j 1).val = win8_2.index t (1 : Fin 2) * 64 + 1 * (j 1).val; omega
  have r0 : iblk8 V c 0 t j = V c (Pipeline.arrRef spec8 0) (((cfg8.win 2).blk t).view.emb j) := by
    show V c (Pipeline.arrRef spec8 0) (((cfg8.win 0).blk t).view.emb j) = _
    rw [h0]
  have r1 : iblk8 V c 1 t j = V c (Pipeline.arrRef spec8 1) (((cfg8.win 2).blk t).view.emb j) := by
    show V c (Pipeline.arrRef spec8 1) (((cfg8.win 1).blk t).view.emb j) = _
    rw [h1]
  rw [r0, r1]

/-- An index of the array is in point t's block iff each coordinate is in the block's range on its axis. -/
theorem mem_blk (t : Fin cfg8.N) (i : S1000000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v91).slice (win8_2.rect t)).set ↔ _
  rw [View.set_slice_whole, Rect.mem_set_unit]
  exact Iff.rfl

/-- Every row is in the block of the point its row number divided by 10000 names. -/
theorem cover (i : S1000000x64.Idx) : ∃ t : Fin cfg8.N, (cfg8.win 2).flush t = true ∧ i ∈ ((cfg8.win 2).blk t).view.set := by
  have hi0 : (i 0).val < 1000000 := (i 0).isLt
  have hi1 : (i 1).val < 64 := (i 1).isLt
  have hN : cfg8.N = 100 := N_8
  let t : Fin cfg8.N := ⟨(i 0).val / 10000, by rw [hN]; omega⟩
  obtain ⟨e0, e1, e2, e3, e4, e5⟩ := idx_facts t
  refine ⟨t, flush8_2 t, ?_⟩
  rw [mem_blk]
  intro a
  match a with
  | ⟨0, _⟩ => show win8_2.index t (0 : Fin 2) * 10000 ≤ (i 0).val ∧ (i 0).val < win8_2.index t (0 : Fin 2) * 10000 + 10000; rw [e4]; show (i 0).val / 10000 * 10000 ≤ _ ∧ _ < (i 0).val / 10000 * 10000 + 10000; omega
  | ⟨1, _⟩ => show win8_2.index t (1 : Fin 2) * 64 ≤ (i 1).val ∧ (i 1).val < win8_2.index t (1 : Fin 2) * 64 + 64; omega

/-- After the last point the message array is max (hs + e, 0) of the region's two input arrays. -/
theorem final (V : (c : Dev nD) → (b : Ref sig .tc) → Buf (Elt Ideal) ((c : Thread nD τ).loc b)) (c : Dev nD) : (dat8 (F := Ideal) V c).arrAt 2 cfg8.N
    = Cert.Spec.msg (V c (Pipeline.arrRef spec8 0)) (V c (Pipeline.arrRef spec8 1)) :=
  (dat8 (F := Ideal) V c).arrAt_eq_of_cover 2 _ (fun t _ => flushed_eq V c t) cover

end Cert.KernelIdeal.KerValue.Msg8

end
-- ==== Proof.RegionMlp3Pieces.lean ====
/-
  Region 3 (the per-node map with running column sums), part one: what ONE grid point leaves in its three output
  buffers, as the body's arithmetic of the blocks it loaded.  At the first point the two [1,64] accumulators are
  zeroed before they are read; at the other points they hold what the point before left.  In both cases the point
  leaves  z2 = leaky (z · W₁ + b₁) · W₂ + b₂  on its own 10000 rows, the first accumulator plus the column sums of
  that block, and the second accumulator plus the column sums of the block's squares.
-/
import proofs.«104584_j17154099380304_2_alg».proof.Proof.KerSpec
import Idealize.ShloMosaic.Lib.Pipeline.Value

set_option maxRecDepth 16384
set_option maxHeartbeats 4000000

noncomputable section

namespace Cert.KernelIdeal.KerValue.Mlp3

open Idealize.ShloMosaic Idealize.ShloMosaic.TcCoe Idealize.ShloMosaic.Tactic Idealize.SL.Sem Cert.KernelIdeal Cert.KernelIdeal.Gen Idealize.ShloMosaic.Pipeline

variable {F : FTy → Type} [FloatOps F]

theorem zero_offsets : (![0, 0] : Fin 2 → Nat) = fun _ => 0 := funext fun a => by fin_cases a <;> rfl

/-- First point: the rows' output is the two-layer map of the loaded blocks. -/
theorem first_rows (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond3_0 i) (x0 : Vec F S10000x64 .f32) (x1 : Vec F S64x64 .f32) (x2 : Vec F S1x64 .f32) (x3 : Vec F S64x64 .f32) (x4 : Vec F S1x64 .f32) :
    out3_A_5 (F := F) c i arg1 harg1 arg2 harg2 arg3 harg3 arg4 harg4 arg5 harg5 arg6 harg6 arg7 harg7 arg8 harg8 hc0 x0 x1 x2 x3 x4 = k3_pay4 x0 x1 x2 x3 x4 := by
  unfold out3_A_5
  rw [View.read_writes_eq_canon _ _ _ (cover3_A_5 c i arg1 harg1 arg2 harg2 arg3 harg3 arg4 harg4 arg5 harg5 arg6 harg6 arg7 harg7 arg8 harg8 hc0 x0 x1 x2 x3 x4)]
  unfold kernelRun3_A
  dsimp only
  rw [View.canon_unit_zero zero_offsets]
  simp only [View.readAt_eq_ld, harg1.read_unread, harg2.read_unread, harg3.read_unread, harg4.read_unread, harg5.read_unread,
    View.ld_unit_zero (S := S10000x64) zero_offsets, View.ld_unit_zero (S := S64x64) zero_offsets, View.ld_unit_zero (S := S1x64) zero_offsets]

/-- First point: the sum accumulator is zero plus the block's column sums. -/
theorem first_sum (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond3_0 i) (x0 : Vec F S10000x64 .f32) (x1 : Vec F S64x64 .f32) (x2 : Vec F S1x64 .f32) (x3 : Vec F S64x64 .f32) (x4 : Vec F S1x64 .f32) :
    out3_A_6 (F := F) c i arg1 harg1 arg2 harg2 arg3 harg3 arg4 harg4 arg5 harg5 arg6 harg6 arg7 harg7 arg8 harg8 hc0 x0 x1 x2 x3 x4 = k3_pay5 x0 x1 x2 x3 x4 (k3_pay2 (F := F)) := by
  unfold out3_A_6
  rw [View.read_writes_eq_canon _ _ _ (cover3_A_6 c i arg1 harg1 arg2 harg2 arg3 harg3 arg4 harg4 arg5 harg5 arg6 harg6 arg7 harg7 arg8 harg8 hc0 x0 x1 x2 x3 x4)]
  unfold kernelRun3_A
  dsimp only
  rw [View.canon_cons_unit_zero zero_offsets]
  sl_unfold_run_names
  simp only [View.readAt_eq_ld, harg1.read_unread, harg2.read_unread, harg3.read_unread, harg4.read_unread, harg5.read_unread,
    View.ld_unit_zero (S := S10000x64) zero_offsets, View.ld_unit_zero (S := S64x64) zero_offsets, View.ld_unit_zero (S := S1x64) zero_offsets,
    View.readCov_unit_zero (S := S1x64) arg7.view zero_offsets, View.readCov_unit_zero (S := S1x64) arg8.view zero_offsets]

/-- First point: the square-sum accumulator is zero plus the column sums of the block's squares. -/
theorem first_sq (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond3_0 i) (x0 : Vec F S10000x64 .f32) (x1 : Vec F S64x64 .f32) (x2 : Vec F S1x64 .f32) (x3 : Vec F S64x64 .f32) (x4 : Vec F S1x64 .f32) :
    out3_A_7 (F := F) c i arg1 harg1 arg2 harg2 arg3 harg3 arg4 harg4 arg5 harg5 arg6 harg6 arg7 harg7 arg8 harg8 hc0 x0 x1 x2 x3 x4 = k3_pay1 (k3_pay4 x0 x1 x2 x3 x4) (k3_pay3 (F := F)) := by
  unfold out3_A_7
  rw [View.read_writes_eq_canon _ _ _ (cover3_A_7 c i arg1 harg1 arg2 harg2 arg3 harg3 arg4 harg4 arg5 harg5 arg6 harg6 arg7 harg7 arg8 harg8 hc0 x0 x1 x2 x3 x4)]
  unfold kernelRun3_A
  dsimp only
  rw [View.canon_cons_unit_zero zero_offsets]
  sl_unfold_run_names
  simp only [View.readAt_eq_ld, harg1.read_unread, harg2.read_unread, harg3.read_unread, harg4.read_unread, harg5.read_unread,
    View.ld_unit_zero (S := S10000x64) zero_offsets, View.ld_unit_zero (S := S64x64) zero_offsets, View.ld_unit_zero (S := S1x64) zero_offsets,
    View.readCov_unit_zero (S := S1x64) arg7.view zero_offsets, View.readCov_unit_zero (S := S1x64) arg8.view zero_offsets]

/-- A later point: the rows' output is the two-layer map of the loaded blocks. -/
theorem later_rows (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond3_0 i) (x0 : Vec F S10000x64 .f32) (x1 : Vec F S64x64 .f32) (x2 : Vec F S1x64 .f32) (x3 : Vec F S64x64 .f32) (x4 : Vec F S1x64 .f32) (xo6 : Vec F S1x64 .f32) (xo7 : Vec F S1x64 .f32) :
    out3_B_5 (F := F) c i arg1 harg1 arg2 harg2 arg3 harg3 arg4 harg4 arg5 harg5 arg6 harg6 arg7 harg7 arg8 harg8 hc0 x0 x1 x2 x3 x4 xo6 xo7 = k3_pay4 x0 x1 x2 x3 x4 := by
  unfold out3_B_5
  rw [View.read_writes_eq_canon _ _ _ (cover3_B_5 c i arg1 harg1 arg2 harg2 arg3 harg3 arg4 harg4 arg5 harg5 arg6 harg6 arg7 harg7 arg8 harg8 hc0 x0 x1 x2 x3 x4 xo6 xo7)]
  unfold kernelRun3_B
  dsimp only
  rw [View.canon_unit_zero zero_offsets]
  simp only [View.readAt_eq_ld, harg1.read_unread, harg2.read_unread, harg3.read_unread, harg4.read_unread, harg5.read_unread, harg7.read_unread, harg8.read_unread,
    View.ld_unit_zero (S := S10000x64) zero_offsets, View.ld_unit_zero (S := S64x64) zero_offsets, View.ld_unit_zero (S := S1x64) zero_offsets]

/-- A later point: the sum accumulator is what it held plus the block's column sums. -/
theorem later_sum (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond3_0 i) (x0 : Vec F S10000x64 .f32) (x1 : Vec F S64x64 .f32) (x2 : Vec F S1x64 .f32) (x3 : Vec F S64x64 .f32) (x4 : Vec F S1x64 .f32) (xo6 : Vec F S1x64 .f32) (xo7 : Vec F S1x64 .f32) :
    out3_B_6 (F := F) c i arg1 harg1 arg2 harg2 arg3 harg3 arg4 harg4 arg5 harg5 arg6 harg6 arg7 harg7 arg8 harg8 hc0 x0 x1 x2 x3 x4 xo6 xo7 = k3_pay5 x0 x1 x2 x3 x4 xo6 := by
  unfold out3_B_6
  rw [View.read_writes_eq_canon _ _ _ (cover3_B_6 c i arg1 harg1 arg2 harg2 arg3 harg3 arg4 harg4 arg5 harg5 arg6 harg6 arg7 harg7 arg8 harg8 hc0 x0 x1 x2 x3 x4 xo6 xo7)]
  unfold kernelRun3_B
  dsimp only
  rw [View.canon_unit_zero zero_offsets]
  sl_unfold_run_names
  simp only [View.readAt_eq_ld, harg1.read_unread, harg2.read_unread, harg3.read_unread, harg4.read_unread, harg5.read_unread, harg7.read_unread, harg8.read_unread,
    View.ld_unit_zero (S := S10000x64) zero_offsets, View.ld_unit_zero (S := S64x64) zero_offsets, View.ld_unit_zero (S := S1x64) zero_offsets]

/-- A later point: the square-sum accumulator is what it held plus the column sums of the block's squares. -/
theorem later_sq (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond3_0 i) (x0 : Vec F S10000x64 .f32) (x1 : Vec F S64x64 .f32) (x2 : Vec F S1x64 .f32) (x3 : Vec F S64x64 .f32) (x4 : Vec F S1x64 .f32) (xo6 : Vec F S1x64 .f32) (xo7 : Vec F S1x64 .f32) :
    out3_B_7 (F := F) c i arg1 harg1 arg2 harg2 arg3 harg3 arg4 harg4 arg5 harg5 arg6 harg6 arg7 harg7 arg8 harg8 hc0 x0 x1 x2 x3 x4 xo6 xo7 = k3_pay1 (k3_pay4 x0 x1 x2 x3 x4) xo7 := by
  unfold out3_B_7
  rw [View.read_writes_eq_canon _ _ _ (cover3_B_7 c i arg1 harg1 arg2 harg2 arg3 harg3 arg4 harg4 arg5 harg5 arg6 harg6 arg7 harg7 arg8 harg8 hc0 x0 x1 x2 x3 x4 xo6 xo7)]
  unfold kernelRun3_B
  dsimp only
  rw [View.canon_unit_zero zero_offsets]
  sl_unfold_run_names
  simp only [View.readAt_eq_ld, harg1.read_unread, harg2.read_unread, harg3.read_unread, harg4.read_unread, harg5.read_unread, harg7.read_unread, harg8.read_unread,
    View.ld_unit_zero (S := S10000x64) zero_offsets, View.ld_unit_zero (S := S64x64) zero_offsets, View.ld_unit_zero (S := S1x64) zero_offsets]

end Cert.KernelIdeal.KerValue.Mlp3

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.RegionMlp3.lean ====
/-
  Region 3 (the per-node map with running column sums), part two: the five grid points together.
  Point t maps rows 10000·t … 10000·t + 9999 of z through  z2 = leaky (z · W₁ + b₁) · W₂ + b₂ ; entry (p, q) of a
  block's two products is entry (10000·t + p, q) of the whole products on the host, term by term, and the leaky
  step is entrywise, so the block is rows of the whole-array map.  The two [1,64] accumulators start from zero at
  point 0 and gain one block's column sums per point; after point 4 they hold  ((((0 + S₀) + S₁) + S₂) + S₃) + S₄ ,
  which is the sum over all 50000 rows (a sum over 5 · 10000 indices is the sum of its 5 blocks, in any commutative
  monoid — the extended reals included, no finiteness asked).  Only point 4 writes the accumulators back.
-/
import proofs.«104584_j17154099380304_2_alg».proof.Proof.RegionMlp3Pieces
import proofs.«104584_j17154099380304_2_alg».proof.Proof.RegionLin0
import proofs.«104584_j17154099380304_2_alg».proof.Proof.LibColumnSum
import proofs.«104584_j17154099380304_2_alg».proof.Proof.LibBlockSum
import proofs.«104584_j17154099380304_2_alg».proof.Proof.VarianceLaw

set_option maxRecDepth 16384
set_option maxHeartbeats 4000000

noncomputable section

open scoped BigOperators

namespace Cert.KernelIdeal.KerValue.Mlp3

open Idealize.ShloMosaic Idealize.ShloMosaic.TcCoe Idealize.SL.Sem Cert.KernelIdeal Cert.KernelIdeal.Gen Idealize.ShloMosaic.Pipeline
open Idealize.ShloMosaic.ValueIdx

/-- One block of 10000 rows. -/
abbrev Blk := Vec Ideal S10000x64 .f32

/-- x · W + b on a block, the product on the vector unit from the zero accumulator. -/
def linBlk (x : Blk) (w : Vec Ideal S64x64 .f32) (b : Vec Ideal S1x64 .f32) : Blk :=
  addf (matmul dot_S10000x64_S64x64_S10000x64_1_0_0_1_n_n none (truncf (F := Ideal) .bf16 x bitsLt_bf16_f32) (truncf (F := Ideal) .bf16 w bitsLt_bf16_f32)
    (constant (F := Ideal) S10000x64 .f32 0x00000000#32)) (broadcastTo S10000x64 b broadcasts_S1x64_S10000x64)
/-- y where y ≥ 0, else 0.01 · y, on a block. -/
def leakyBlk (y : Blk) : Blk :=
  select (cmpf .oge y (broadcast S10000x64 (Scalar.ofBits (F := Ideal) .f32 0x00000000#32))) y
    (mulf (broadcast S10000x64 (Scalar.ofBits (F := Ideal) .f32 0x3C23D70A#32)) y)

/-- The rows' payload is the two-layer map of the loaded blocks. -/
theorem pay4_eq (x0 : Blk) (x1 : Vec Ideal S64x64 .f32) (x2 : Vec Ideal S1x64 .f32) (x3 : Vec Ideal S64x64 .f32) (x4 : Vec Ideal S1x64 .f32) :
    k3_pay4 (F := Ideal) x0 x1 x2 x3 x4 = linBlk (leakyBlk (linBlk x0 x1 x2)) x3 x4 := by
  unfold k3_pay4 linBlk leakyBlk
  simp only [shapeCast_self]

/-- A block's x · W + b at (p, q) is the whole array's at (P, q) when row p of the block is row P of the array. -/
theorem linBlk_apply (x : Blk) (w : Vec Ideal S64x64 .f32) (b : Vec Ideal S1x64 .f32) (A : Cert.Spec.NV) (P : Fin 50000) (p : Fin 10000) (q : Fin 64)
    (hrow : ∀ k : Fin 64, (x (ix2 p k) : EReal) = A (ix2 P k)) :
    linBlk x w b (ix2 p q) = Cert.Spec.linN A w b (ix2 P q) := by
  unfold linBlk
  show FloatOps.matmul (F := Ideal) _ none _ _ _ (ix2 p q) + broadcastTo S10000x64 b broadcasts_S1x64_S10000x64 (ix2 p q) = _
  rw [broadcastTo_1b_ab_apply, Lin0.spec_apply]
  exact congrArg (· + b (ix2 0 q)) (Cert.Lib.RowBlock.matmul_eq_dotGeneral none none .single A w _ _ P p q hrow (fun _ => rfl))

/-- The leaky step at an entry, on a block and on the whole array: the same function of the entry. -/
theorem leakyBlk_apply (y : Blk) (j : S10000x64.Idx) :
    leakyBlk y j = Scalar.select (FloatOps.cmpf .oge (y j) (FloatOps.ofBits (F := Ideal) .f32 0x00000000#32)) (y j)
      (FloatOps.mulf (FloatOps.ofBits (F := Ideal) .f32 0x3C23D70A#32) (y j)) := rfl
theorem leaky_apply (Y : Cert.Spec.NV) (i : S50000x64.Idx) :
    Cert.Spec.leaky Y i = Scalar.select (FloatOps.cmpf .oge (Y i) (FloatOps.ofBits (F := Ideal) .f32 0x00000000#32)) (Y i)
      (FloatOps.mulf (FloatOps.ofBits (F := Ideal) .f32 0x3C23D70A#32) (Y i)) := rfl

/-- The rows' payload at (p, q) is the whole-array map at (P, q) when row p of the z block is row P of z. -/
theorem pay4_apply (x0 : Blk) (x1 : Vec Ideal S64x64 .f32) (x2 : Vec Ideal S1x64 .f32) (x3 : Vec Ideal S64x64 .f32) (x4 : Vec Ideal S1x64 .f32)
    (A : Cert.Spec.NV) (P : Fin 50000) (p : Fin 10000) (q : Fin 64) (hrow : ∀ k : Fin 64, (x0 (ix2 p k) : EReal) = A (ix2 P k)) :
    k3_pay4 (F := Ideal) x0 x1 x2 x3 x4 (ix2 p q) = Cert.Spec.mlp A x1 x2 x3 x4 (ix2 P q) := by
  rw [pay4_eq]
  unfold Cert.Spec.mlp
  exact linBlk_apply _ x3 x4 _ P p q (fun k => by rw [leakyBlk_apply, leaky_apply, linBlk_apply x0 x1 x2 A P p k hrow])

/-- The sum accumulator's payload at channel q: what it held plus the block's column sum. -/
theorem pay5_apply (x0 : Blk) (x1 : Vec Ideal S64x64 .f32) (x2 : Vec Ideal S1x64 .f32) (x3 : Vec Ideal S64x64 .f32) (x4 : Vec Ideal S1x64 .f32)
    (v : Vec Ideal S1x64 .f32) (q : Fin 64) :
    k3_pay5 (F := Ideal) x0 x1 x2 x3 x4 v (ix2 0 q) = v (ix2 0 q) + ∑ p : Fin 10000, k3_pay4 (F := Ideal) x0 x1 x2 x3 x4 (ix2 p q) := by
  unfold k3_pay5
  simp only [shapeCast_self]
  show v (ix2 0 q) + shapeCast S1x64 (multiReduction (F := Ideal) .add [0] S64 (k3_pay4 x0 x1 x2 x3 x4) 0x00000000#32 reduces_S10000x64_S64 (.inl rfl) rfl) shapeCasts_S64_S1x64 (ix2 0 q) = _
  rw [shapeCast_a_1a_apply, ValueKeepdims.colSum_at]

/-- The square-sum accumulator's payload at channel q: what it held plus the column sum of the block's squares. -/
theorem pay1_apply (z : Blk) (v : Vec Ideal S1x64 .f32) (q : Fin 64) :
    k3_pay1 (F := Ideal) z v (ix2 0 q) = v (ix2 0 q) + ∑ p : Fin 10000, z (ix2 p q) * z (ix2 p q) := by
  unfold k3_pay1
  simp only [shapeCast_self]
  show v (ix2 0 q) + shapeCast S1x64 (multiReduction (F := Ideal) .add [0] S64 (mulf z z) 0x00000000#32 reduces_S10000x64_S64 (.inl rfl) rfl) shapeCasts_S64_S1x64 (ix2 0 q) = _
  rw [shapeCast_a_1a_apply, ValueKeepdims.colSum_at]
  rfl

/-- The zeroed accumulators hold zero. -/
theorem pay2_apply (j : S1x64.Idx) : k3_pay2 (F := Ideal) j = 0 := Ideal.ofBits_zero_f32
theorem pay3_apply (j : S1x64.Idx) : k3_pay3 (F := Ideal) j = 0 := Ideal.ofBits_zero_f32

/-- The printed index maps over the grid: z and z2 move with the point along the rows; the weights, the biases and the
    two accumulators stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

section Points

variable (V : (c : Dev nD) → (b : Ref sig .tc) → Buf (Elt Ideal) ((c : Thread nD τ).loc b)) (c : Dev nD)

/-- The whole-array map of the region's five input arrays. -/
abbrev Z : Cert.Spec.NV := Cert.Spec.mlp (V c (Pipeline.arrRef spec3 0)) (V c (Pipeline.arrRef spec3 1)) (V c (Pipeline.arrRef spec3 2)) (V c (Pipeline.arrRef spec3 3)) (V c (Pipeline.arrRef spec3 4))

/-- The windows over the weights and biases hold the whole arrays at every point. -/
theorem whole_blocks (t : Fin cfg3.N) :
    iblk3 V c 1 t = V c (Pipeline.arrRef spec3 1) ∧ iblk3 V c 2 t = V c (Pipeline.arrRef spec3 2)
    ∧ iblk3 V c 3 t = V c (Pipeline.arrRef spec3 3) ∧ iblk3 V c 4 t = V c (Pipeline.arrRef spec3 4) := by
  obtain ⟨e0, e1, e2, e3, e4, e5, e6, e7, e8, e9, e10, e11, e12, e13, e14, e15⟩ := idx_facts t
  refine ⟨?_, ?_, ?_, ?_⟩
  · funext j
    show V c (Pipeline.arrRef spec3 1) (((cfg3.win 1).blk t).view.emb j) = _
    refine congrArg _ (funext fun a => Fin.ext ?_)
    match a with
    | ⟨0, _⟩ => show win3_1.index t (0 : Fin 2) * 64 + 1 * (j 0).val = (j 0).val; omega
    | ⟨1, _⟩ => show win3_1.index t (1 : Fin 2) * 64 + 1 * (j 1).val = (j 1).val; omega
  · funext j
    show V c (Pipeline.arrRef spec3 2) (((cfg3.win 2).blk t).view.emb j) = _
    refine congrArg _ (funext fun a => Fin.ext ?_)
    match a with
    | ⟨0, _⟩ => show win3_2.index t (0 : Fin 2) * 1 + 1 * (j 0).val = (j 0).val; omega
    | ⟨1, _⟩ => show win3_2.index t (1 : Fin 2) * 64 + 1 * (j 1).val = (j 1).val; omega
  · funext j
    show V c (Pipeline.arrRef spec3 3) (((cfg3.win 3).blk t).view.emb j) = _
    refine congrArg _ (funext fun a => Fin.ext ?_)
    match a with
    | ⟨0, _⟩ => show win3_3.index t (0 : Fin 2) * 64 + 1 * (j 0).val = (j 0).val; omega
    | ⟨1, _⟩ => show win3_3.index t (1 : Fin 2) * 64 + 1 * (j 1).val = (j 1).val; omega
  · funext j
    show V c (Pipeline.arrRef spec3 4) (((cfg3.win 4).blk t).view.emb j) = _
    refine congrArg _ (funext fun a => Fin.ext ?_)
    match a with
    | ⟨0, _⟩ => show win3_4.index t (0 : Fin 2) * 1 + 1 * (j 0).val = (j 0).val; omega
    | ⟨1, _⟩ => show win3_4.index t (1 : Fin 2) * 64 + 1 * (j 1).val = (j 1).val; omega

/-- Row p of point t's z block is row 10000·t + p of z. -/
theorem z_rows (t : Fin cfg3.N) (p : Fin 10000) (hP : t.val * 10000 + p.val < 50000) (kk : Fin 64) :
    (iblk3 V c 0 t (ix2 p kk) : EReal) = V c (Pipeline.arrRef spec3 0) (ix2 (⟨t.val * 10000 + p.val, hP⟩ : Fin 50000) kk) := by
  obtain ⟨e0, e1, e2, e3, e4, e5, e6, e7, e8, e9, e10, e11, e12, e13, e14, e15⟩ := idx_facts t
  show V c (Pipeline.arrRef spec3 0) (((cfg3.win 0).blk t).view.emb (ix2 p kk)) = _
  refine congrArg _ (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * kk.val = kk.val; omega

/-- The rows' payload of point t's blocks, at (p, q): the whole-array map at row 10000·t + p. -/
theorem rows_at (t : Fin cfg3.N) (p : Fin 10000) (q : Fin 64) (hP : t.val * 10000 + p.val < 50000) :
    k3_pay4 (F := Ideal) (iblk3 V c 0 t) (iblk3 V c 1 t) (iblk3 V c 2 t) (iblk3 V c 3 t) (iblk3 V c 4 t) (ix2 p q)
      = Z V c (ix2 (⟨t.val * 10000 + p.val, hP⟩ : Fin 50000) q) := by
  obtain ⟨w1, w2, w3, w4⟩ := whole_blocks V c t
  rw [w1, w2, w3, w4]
  exact pay4_apply _ _ _ _ _ _ _ p q (fun kk => z_rows V c t p hP kk)

/-- z2 read by row number, zero past the last row (so that sums over row numbers need no bound proofs). -/
def zAt (r : ℕ) (q : Fin 64) : EReal := if h : r < 50000 then Z V c (ix2 (⟨r, h⟩ : Fin 50000) q) else 0

/-- What the three output buffers hold after point n: the rows' block, and the two partial sums over blocks 0 … n. -/
theorem after_point : ∀ (n : ℕ) (hn : n < cfg3.N),
    (∀ (p : Fin 10000) (q : Fin 64), (outsAt3 V c n hn).1 (ix2 p q) = zAt V c (n * 10000 + p.val) q)
    ∧ (∀ q : Fin 64, (outsAt3 V c n hn).2.1 (ix2 0 q) = ∑ b : Fin (n + 1), ∑ p : Fin 10000, zAt V c (b.val * 10000 + p.val) q)
    ∧ (∀ q : Fin 64, (outsAt3 V c n hn).2.2 (ix2 0 q) = ∑ b : Fin (n + 1), ∑ p : Fin 10000, zAt V c (b.val * 10000 + p.val) q * zAt V c (b.val * 10000 + p.val) q) := by
  intro n
  induction n with
  | zero =>
    intro hn
    have h5 : (0 : ℕ) < 5 := by decide
    rw [outsAt3_A V c ⟨0, hn⟩ (Nat.zero_mod _)]
    dsimp only
    rw [first_rows, first_sum, first_sq]
    have hrows : ∀ (p : Fin 10000) (q : Fin 64), k3_pay4 (F := Ideal) (iblk3 V c 0 ⟨0, hn⟩) (iblk3 V c 1 ⟨0, hn⟩) (iblk3 V c 2 ⟨0, hn⟩) (iblk3 V c 3 ⟨0, hn⟩) (iblk3 V c 4 ⟨0, hn⟩) (ix2 p q)
        = zAt V c (0 * 10000 + p.val) q := fun p q => by
      have hP : (⟨0, hn⟩ : Fin cfg3.N).val * 10000 + p.val < 50000 := by have := p.isLt; show 0 * 10000 + p.val < 50000; omega
      rw [rows_at V c ⟨0, hn⟩ p q hP]
      unfold zAt
      rw [dif_pos (by show 0 * 10000 + p.val < 50000; have := p.isLt; omega)]
    refine ⟨hrows, fun q => ?_, fun q => ?_⟩
    · rw [pay5_apply, pay2_apply, zero_add, Fin.sum_univ_one]
      exact Finset.sum_congr rfl fun p _ => hrows p q
    · rw [pay1_apply, pay3_apply, zero_add, Fin.sum_univ_one]
      exact Finset.sum_congr rfl fun p _ => by rw [hrows p q]; rfl
  | succ n ih =>
    intro hn
    have hN : n + 1 < 5 := lt_of_lt_of_eq hn N_3
    have hne : ¬ (⟨n + 1, hn⟩ : Fin cfg3.N).val % 5 = 0 := by show ¬ (n + 1) % 5 = 0; omega
    obtain ⟨_, ih1, ih2⟩ := ih (Nat.lt_of_succ_lt hn)
    rw [outsAt3_B V c ⟨n + 1, hn⟩ hne]
    dsimp only
    rw [later_rows, later_sum, later_sq]
    have hrows : ∀ (p : Fin 10000) (q : Fin 64), k3_pay4 (F := Ideal) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (ix2 p q)
        = zAt V c ((n + 1) * 10000 + p.val) q := fun p q => by
      have hP : (⟨n + 1, hn⟩ : Fin cfg3.N).val * 10000 + p.val < 50000 := by have := p.isLt; show (n + 1) * 10000 + p.val < 50000; omega
      rw [rows_at V c ⟨n + 1, hn⟩ p q hP]
      unfold zAt
      rw [dif_pos (by show (n + 1) * 10000 + p.val < 50000; have := p.isLt; omega)]
    refine ⟨hrows, fun q => ?_, fun q => ?_⟩
    · have hsplit : ∑ b : Fin (n + 1 + 1), ∑ p : Fin 10000, zAt V c (b.val * 10000 + p.val) q
          = (∑ b : Fin (n + 1), ∑ p : Fin 10000, zAt V c (b.val * 10000 + p.val) q) + ∑ p : Fin 10000, zAt V c ((n + 1) * 10000 + p.val) q :=
        Fin.sum_univ_castSucc _
      rw [pay5_apply, hsplit]
      have := ih1 q
      simp only [Nat.add_sub_cancel] at this ⊢
      rw [this]
      exact congrArg _ (Finset.sum_congr rfl fun p _ => hrows p q)
    · have hsplit : ∑ b : Fin (n + 1 + 1), ∑ p : Fin 10000, zAt V c (b.val * 10000 + p.val) q * zAt V c (b.val * 10000 + p.val) q
          = (∑ b : Fin (n + 1), ∑ p : Fin 10000, zAt V c (b.val * 10000 + p.val) q * zAt V c (b.val * 10000 + p.val) q)
            + ∑ p : Fin 10000, zAt V c ((n + 1) * 10000 + p.val) q * zAt V c ((n + 1) * 10000 + p.val) q :=
        Fin.sum_univ_castSucc _
      rw [pay1_apply, hsplit]
      have := ih2 q
      simp only [Nat.add_sub_cancel] at this ⊢
      rw [this]
      exact congrArg _ (Finset.sum_congr rfl fun p _ => by rw [hrows p q])

end Points

section Finals

variable (V : (c : Dev nD) → (b : Ref sig .tc) → Buf (Elt Ideal) ((c : Thread nD τ).loc b)) (c : Dev nD)

/-- Five blocks of 10000 consecutive row numbers are the 50000 row numbers. -/
theorem five_blocks (f : ℕ → EReal) :
    ∑ b : Fin (4 + 1), ∑ p : Fin 10000, f (b.val * 10000 + p.val) = ∑ r : Fin 50000, f r.val :=
  (Cert.Lib.BlockSum.sum_blocks 5 10000 (fun i : Fin (5 * 10000) => f i.val)).symm

/-- The partial sums after the fifth point are the column sums over all rows. -/
theorem total_sum (q : Fin 64) :
    ∑ b : Fin (4 + 1), ∑ p : Fin 10000, zAt V c (b.val * 10000 + p.val) q = ∑ r : Fin 50000, Z V c (ix2 r q) := by
  rw [five_blocks (fun r => zAt V c r q)]
  exact Finset.sum_congr rfl fun r _ => by unfold zAt; rw [dif_pos r.isLt]
theorem total_sq (q : Fin 64) :
    ∑ b : Fin (4 + 1), ∑ p : Fin 10000, zAt V c (b.val * 10000 + p.val) q * zAt V c (b.val * 10000 + p.val) q
      = ∑ r : Fin 50000, Cert.Spec.sqr (Z V c) (ix2 r q) := by
  rw [five_blocks (fun r => zAt V c r q * zAt V c r q)]
  exact Finset.sum_congr rfl fun r _ => by unfold zAt; rw [dif_pos r.isLt]; rfl

/-! ### The rows -/

theorem mem_blk5 (t : Fin cfg3.N) (i : S50000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v30_0).slice (win3_5.rect t)).set ↔ _
  rw [View.set_slice_whole, Rect.mem_set_unit]
  exact Iff.rfl

theorem flushed5 (t : Fin cfg3.N) :
    (dat3 (F := Ideal) V c).flushed 5 t = ((cfg3.win 5).blk t).view.read (Elt Ideal) (Z V c) := by
  show (cfg3.win 5).cut (grid3.coords t) ((dat3 V c).after 5 t) = _
  rw [after3_5]
  obtain ⟨e0, e1, e2, e3, e4, e5, e6, e7, e8, e9, e10, e11, e12, e13, e14, e15⟩ := idx_facts t
  have ht : t.val < 5 := lt_of_lt_of_eq t.isLt N_3
  funext j
  obtain ⟨p, q, rfl⟩ : ∃ (p : Fin 10000) (q : Fin 64), j = ix2 p q := ⟨j 0, j 1, eq_ix2 j⟩
  show (outsAt3 V c t.val t.isLt).1 (ix2 p q) = Z V c (((cfg3.win 5).blk t).view.emb (ix2 p q))
  rw [(after_point V c t.val t.isLt).1 p q]
  unfold zAt
  rw [dif_pos (by have := p.isLt; omega)]
  refine congrArg _ (funext fun a => Fin.ext ?_)
  match a with
  | ⟨0, _⟩ => show t.val * 10000 + p.val = win3_5.index t (0 : Fin 2) * 10000 + 1 * p.val; omega
  | ⟨1, _⟩ => show q.val = win3_5.index t (1 : Fin 2) * 64 + 1 * q.val; omega

theorem cover5 (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 5 := N_3
  let t : Fin cfg3.N := ⟨(i 0).val / 10000, by rw [hN]; omega⟩
  obtain ⟨e0, e1, e2, e3, e4, e5, e6, e7, e8, e9, e10, e11, e12, e13, e14, e15⟩ := idx_facts t
  refine ⟨t, flush3_5 t, ?_⟩
  rw [mem_blk5]
  intro a
  match a with
  | ⟨0, _⟩ => show win3_5.index t (0 : Fin 2) * 10000 ≤ (i 0).val ∧ (i 0).val < win3_5.index t (0 : Fin 2) * 10000 + 10000; rw [e10]; show (i 0).val / 10000 * 10000 ≤ _ ∧ _ < (i 0).val / 10000 * 10000 + 10000; omega
  | ⟨1, _⟩ => show win3_5.index t (1 : Fin 2) * 64 ≤ (i 1).val ∧ (i 1).val < win3_5.index t (1 : Fin 2) * 64 + 64; omega

/-- After the last point the rows' array is the two-layer map of the region's five input arrays. -/
theorem final_rows : (dat3 (F := Ideal) V c).arrAt 5 cfg3.N = Z V c :=
  (dat3 (F := Ideal) V c).arrAt_eq_of_cover 5 _ (fun t _ => flushed5 V c t) cover5

/-! ### The two accumulators: written back by the last point only -/

theorem last_point (t : Fin cfg3.N) (h : t.val % 5 = 4) : t.val = 4 := by
  have ht : t.val < 5 := lt_of_lt_of_eq t.isLt N_3
  omega

theorem mem_blk6 (t : Fin cfg3.N) (i : S1x64.Idx) :
    i ∈ ((cfg3.win 6).blk t).view.set ↔ ∀ a : Fin 2, win3_6.index t a * S1x64.size a ≤ (i a).val ∧ (i a).val < win3_6.index t a * S1x64.size a + S1x64.size a := by
  show i ∈ ((View.whole main_v30_1).slice (win3_6.rect t)).set ↔ _
  rw [View.set_slice_whole, Rect.mem_set_unit]
  exact Iff.rfl
theorem mem_blk7 (t : Fin cfg3.N) (i : S1x64.Idx) :
    i ∈ ((cfg3.win 7).blk t).view.set ↔ ∀ a : Fin 2, win3_7.index t a * S1x64.size a ≤ (i a).val ∧ (i a).val < win3_7.index t a * S1x64.size a + S1x64.size a := by
  show i ∈ ((View.whole main_v30_2).slice (win3_7.rect t)).set ↔ _
  rw [View.set_slice_whole, Rect.mem_set_unit]
  exact Iff.rfl

theorem flushed6 (t : Fin cfg3.N) (hf : (cfg3.win 6).flush t = true) :
    (dat3 (F := Ideal) V c).flushed 6 t = ((cfg3.win 6).blk t).view.read (Elt Ideal) (Cert.Spec.row (Cert.Spec.colSum (Z V c))) := by
  have h4 : t.val = 4 := last_point t ((flush3_6 t).mp hf)
  obtain ⟨tv, htv⟩ := t
  dsimp only at h4
  subst h4
  show (cfg3.win 6).cut (grid3.coords ⟨4, htv⟩) ((dat3 V c).after 6 ⟨4, htv⟩) = _
  rw [after3_6]
  obtain ⟨e0, e1, e2, e3, e4, e5, e6, e7, e8, e9, e10, e11, e12, e13, e14, e15⟩ := idx_facts ⟨4, htv⟩
  funext j
  obtain ⟨u, q, rfl⟩ : ∃ (u : Fin 1) (q : Fin 64), j = ix2 u q := ⟨j 0, j 1, eq_ix2 j⟩
  obtain rfl : u = 0 := Subsingleton.elim _ _
  show (outsAt3 V c 4 htv).2.1 (ix2 0 q) = Cert.Spec.row (Cert.Spec.colSum (Z V c)) (((cfg3.win 6).blk ⟨4, htv⟩).view.emb (ix2 0 q))
  have hemb : ((cfg3.win 6).blk ⟨4, htv⟩).view.emb (ix2 0 q) = ix2 (0 : Fin 1) q := by
    funext a; apply Fin.ext
    match a with
    | ⟨0, _⟩ => show win3_6.index ⟨4, htv⟩ (0 : Fin 2) * 1 + 1 * 0 = 0; omega
    | ⟨1, _⟩ => show win3_6.index ⟨4, htv⟩ (1 : Fin 2) * 64 + 1 * q.val = q.val; omega
  rw [hemb, (after_point V c 4 htv).2.1 q, Cert.Real.row_apply, Cert.Real.colSum_apply Cert.Real.hRed]
  exact total_sum V c q

theorem flushed7 (t : Fin cfg3.N) (hf : (cfg3.win 7).flush t = true) :
    (dat3 (F := Ideal) V c).flushed 7 t = ((cfg3.win 7).blk t).view.read (Elt Ideal) (Cert.Spec.row (Cert.Spec.colSum (Cert.Spec.sqr (Z V c)))) := by
  have h4 : t.val = 4 := last_point t ((flush3_7 t).mp hf)
  obtain ⟨tv, htv⟩ := t
  dsimp only at h4
  subst h4
  show (cfg3.win 7).cut (grid3.coords ⟨4, htv⟩) ((dat3 V c).after 7 ⟨4, htv⟩) = _
  rw [after3_7]
  obtain ⟨e0, e1, e2, e3, e4, e5, e6, e7, e8, e9, e10, e11, e12, e13, e14, e15⟩ := idx_facts ⟨4, htv⟩
  funext j
  obtain ⟨u, q, rfl⟩ : ∃ (u : Fin 1) (q : Fin 64), j = ix2 u q := ⟨j 0, j 1, eq_ix2 j⟩
  obtain rfl : u = 0 := Subsingleton.elim _ _
  show (outsAt3 V c 4 htv).2.2 (ix2 0 q) = Cert.Spec.row (Cert.Spec.colSum (Cert.Spec.sqr (Z V c))) (((cfg3.win 7).blk ⟨4, htv⟩).view.emb (ix2 0 q))
  have hemb : ((cfg3.win 7).blk ⟨4, htv⟩).view.emb (ix2 0 q) = ix2 (0 : Fin 1) q := by
    funext a; apply Fin.ext
    match a with
    | ⟨0, _⟩ => show win3_7.index ⟨4, htv⟩ (0 : Fin 2) * 1 + 1 * 0 = 0; omega
    | ⟨1, _⟩ => show win3_7.index ⟨4, htv⟩ (1 : Fin 2) * 64 + 1 * q.val = q.val; omega
  rw [hemb, (after_point V c 4 htv).2.2 q, Cert.Real.row_apply, Cert.Real.colSum_apply Cert.Real.hRed]
  exact total_sq V c q

theorem cover6 (i : S1x64.Idx) : ∃ t : Fin cfg3.N, (cfg3.win 6).flush t = true ∧ i ∈ ((cfg3.win 6).blk t).view.set := by
  have hi0 : (i 0).val < 1 := (i 0).isLt
  have hi1 : (i 1).val < 64 := (i 1).isLt
  have hN : cfg3.N = 5 := N_3
  let t : Fin cfg3.N := ⟨4, by rw [hN]; decide⟩
  obtain ⟨e0, e1, e2, e3, e4, e5, e6, e7, e8, e9, e10, e11, e12, e13, e14, e15⟩ := idx_facts t
  refine ⟨t, (flush3_6 t).mpr rfl, ?_⟩
  rw [mem_blk6]
  intro a
  match a with
  | ⟨0, _⟩ => show win3_6.index t (0 : Fin 2) * 1 ≤ (i 0).val ∧ (i 0).val < win3_6.index t (0 : Fin 2) * 1 + 1; omega
  | ⟨1, _⟩ => show win3_6.index t (1 : Fin 2) * 64 ≤ (i 1).val ∧ (i 1).val < win3_6.index t (1 : Fin 2) * 64 + 64; omega
theorem cover7 (i : S1x64.Idx) : ∃ t : Fin cfg3.N, (cfg3.win 7).flush t = true ∧ i ∈ ((cfg3.win 7).blk t).view.set := by
  have hi0 : (i 0).val < 1 := (i 0).isLt
  have hi1 : (i 1).val < 64 := (i 1).isLt
  have hN : cfg3.N = 5 := N_3
  let t : Fin cfg3.N := ⟨4, by rw [hN]; decide⟩
  obtain ⟨e0, e1, e2, e3, e4, e5, e6, e7, e8, e9, e10, e11, e12, e13, e14, e15⟩ := idx_facts t
  refine ⟨t, (flush3_7 t).mpr rfl, ?_⟩
  rw [mem_blk7]
  intro a
  match a with
  | ⟨0, _⟩ => show win3_7.index t (0 : Fin 2) * 1 ≤ (i 0).val ∧ (i 0).val < win3_7.index t (0 : Fin 2) * 1 + 1; omega
  | ⟨1, _⟩ => show win3_7.index t (1 : Fin 2) * 64 ≤ (i 1).val ∧ (i 1).val < win3_7.index t (1 : Fin 2) * 64 + 64; omega

/-- After the last point the first accumulator's array is the column sums of z2, as a row. -/
theorem final_sum : (dat3 (F := Ideal) V c).arrAt 6 cfg3.N = Cert.Spec.row (Cert.Spec.colSum (Z V c)) :=
  (dat3 (F := Ideal) V c).arrAt_eq_of_cover 6 _ (fun t hf => flushed6 V c t hf) cover6
/-- After the last point the second accumulator's array is the column sums of z2's squares, as a row. -/
theorem final_sq : (dat3 (F := Ideal) V c).arrAt 7 cfg3.N = Cert.Spec.row (Cert.Spec.colSum (Cert.Spec.sqr (Z V c))) :=
  (dat3 (F := Ideal) V c).arrAt_eq_of_cover 7 _ (fun t hf => flushed7 V c t hf) cover7

end Finals

end Cert.KernelIdeal.KerValue.Mlp3

end
-- ==== Proof.RegionMlp6Pieces.lean ====
/-
  Region 6 (the per-node map with running column sums), part one: what ONE grid point leaves in its three output
  buffers, as the body's arithmetic of the blocks it loaded.  At the first point the two [1,64] accumulators are
  zeroed before they are read; at the other points they hold what the point before left.  In both cases the point
  leaves  z2 = leaky (z · W₁ + b₁) · W₂ + b₂  on its own 10000 rows, the first accumulator plus the column sums of
  that block, and the second accumulator plus the column sums of the block's squares.
-/
import proofs.«104584_j17154099380304_2_alg».proof.Proof.KerSpec
import Idealize.ShloMosaic.Lib.Pipeline.Value

set_option maxRecDepth 16384
set_option maxHeartbeats 4000000

noncomputable section

namespace Cert.KernelIdeal.KerValue.Mlp6

open Idealize.ShloMosaic Idealize.ShloMosaic.TcCoe Idealize.ShloMosaic.Tactic Idealize.SL.Sem Cert.KernelIdeal Cert.KernelIdeal.Gen Idealize.ShloMosaic.Pipeline

variable {F : FTy → Type} [FloatOps F]

theorem zero_offsets : (![0, 0] : Fin 2 → Nat) = fun _ => 0 := funext fun a => by fin_cases a <;> rfl

/-- First point: the rows' output is the two-layer map of the loaded blocks. -/
theorem first_rows (c : Dev nD) (i : grid6.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond6_0 i) (x0 : Vec F S10000x64 .f32) (x1 : Vec F S64x64 .f32) (x2 : Vec F S1x64 .f32) (x3 : Vec F S64x64 .f32) (x4 : Vec F S1x64 .f32) :
    out6_A_5 (F := F) c i arg1 harg1 arg2 harg2 arg3 harg3 arg4 harg4 arg5 harg5 arg6 harg6 arg7 harg7 arg8 harg8 hc0 x0 x1 x2 x3 x4 = k6_pay4 x0 x1 x2 x3 x4 := by
  unfold out6_A_5
  rw [View.read_writes_eq_canon _ _ _ (cover6_A_5 c i arg1 harg1 arg2 harg2 arg3 harg3 arg4 harg4 arg5 harg5 arg6 harg6 arg7 harg7 arg8 harg8 hc0 x0 x1 x2 x3 x4)]
  unfold kernelRun6_A
  dsimp only
  rw [View.canon_unit_zero zero_offsets]
  simp only [View.readAt_eq_ld, harg1.read_unread, harg2.read_unread, harg3.read_unread, harg4.read_unread, harg5.read_unread,
    View.ld_unit_zero (S := S10000x64) zero_offsets, View.ld_unit_zero (S := S64x64) zero_offsets, View.ld_unit_zero (S := S1x64) zero_offsets]

/-- First point: the sum accumulator is zero plus the block's column sums. -/
theorem first_sum (c : Dev nD) (i : grid6.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond6_0 i) (x0 : Vec F S10000x64 .f32) (x1 : Vec F S64x64 .f32) (x2 : Vec F S1x64 .f32) (x3 : Vec F S64x64 .f32) (x4 : Vec F S1x64 .f32) :
    out6_A_6 (F := F) c i arg1 harg1 arg2 harg2 arg3 harg3 arg4 harg4 arg5 harg5 arg6 harg6 arg7 harg7 arg8 harg8 hc0 x0 x1 x2 x3 x4 = k6_pay5 x0 x1 x2 x3 x4 (k6_pay2 (F := F)) := by
  unfold out6_A_6
  rw [View.read_writes_eq_canon _ _ _ (cover6_A_6 c i arg1 harg1 arg2 harg2 arg3 harg3 arg4 harg4 arg5 harg5 arg6 harg6 arg7 harg7 arg8 harg8 hc0 x0 x1 x2 x3 x4)]
  unfold kernelRun6_A
  dsimp only
  rw [View.canon_cons_unit_zero zero_offsets]
  sl_unfold_run_names
  simp only [View.readAt_eq_ld, harg1.read_unread, harg2.read_unread, harg3.read_unread, harg4.read_unread, harg5.read_unread,
    View.ld_unit_zero (S := S10000x64) zero_offsets, View.ld_unit_zero (S := S64x64) zero_offsets, View.ld_unit_zero (S := S1x64) zero_offsets,
    View.readCov_unit_zero (S := S1x64) arg7.view zero_offsets, View.readCov_unit_zero (S := S1x64) arg8.view zero_offsets]

/-- First point: the square-sum accumulator is zero plus the column sums of the block's squares. -/
theorem first_sq (c : Dev nD) (i : grid6.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond6_0 i) (x0 : Vec F S10000x64 .f32) (x1 : Vec F S64x64 .f32) (x2 : Vec F S1x64 .f32) (x3 : Vec F S64x64 .f32) (x4 : Vec F S1x64 .f32) :
    out6_A_7 (F := F) c i arg1 harg1 arg2 harg2 arg3 harg3 arg4 harg4 arg5 harg5 arg6 harg6 arg7 harg7 arg8 harg8 hc0 x0 x1 x2 x3 x4 = k6_pay1 (k6_pay4 x0 x1 x2 x3 x4) (k6_pay3 (F := F)) := by
  unfold out6_A_7
  rw [View.read_writes_eq_canon _ _ _ (cover6_A_7 c i arg1 harg1 arg2 harg2 arg3 harg3 arg4 harg4 arg5 harg5 arg6 harg6 arg7 harg7 arg8 harg8 hc0 x0 x1 x2 x3 x4)]
  unfold kernelRun6_A
  dsimp only
  rw [View.canon_cons_unit_zero zero_offsets]
  sl_unfold_run_names
  simp only [View.readAt_eq_ld, harg1.read_unread, harg2.read_unread, harg3.read_unread, harg4.read_unread, harg5.read_unread,
    View.ld_unit_zero (S := S10000x64) zero_offsets, View.ld_unit_zero (S := S64x64) zero_offsets, View.ld_unit_zero (S := S1x64) zero_offsets,
    View.readCov_unit_zero (S := S1x64) arg7.view zero_offsets, View.readCov_unit_zero (S := S1x64) arg8.view zero_offsets]

/-- A later point: the rows' output is the two-layer map of the loaded blocks. -/
theorem later_rows (c : Dev nD) (i : grid6.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond6_0 i) (x0 : Vec F S10000x64 .f32) (x1 : Vec F S64x64 .f32) (x2 : Vec F S1x64 .f32) (x3 : Vec F S64x64 .f32) (x4 : Vec F S1x64 .f32) (xo6 : Vec F S1x64 .f32) (xo7 : Vec F S1x64 .f32) :
    out6_B_5 (F := F) c i arg1 harg1 arg2 harg2 arg3 harg3 arg4 harg4 arg5 harg5 arg6 harg6 arg7 harg7 arg8 harg8 hc0 x0 x1 x2 x3 x4 xo6 xo7 = k6_pay4 x0 x1 x2 x3 x4 := by
  unfold out6_B_5
  rw [View.read_writes_eq_canon _ _ _ (cover6_B_5 c i arg1 harg1 arg2 harg2 arg3 harg3 arg4 harg4 arg5 harg5 arg6 harg6 arg7 harg7 arg8 harg8 hc0 x0 x1 x2 x3 x4 xo6 xo7)]
  unfold kernelRun6_B
  dsimp only
  rw [View.canon_unit_zero zero_offsets]
  simp only [View.readAt_eq_ld, harg1.read_unread, harg2.read_unread, harg3.read_unread, harg4.read_unread, harg5.read_unread, harg7.read_unread, harg8.read_unread,
    View.ld_unit_zero (S := S10000x64) zero_offsets, View.ld_unit_zero (S := S64x64) zero_offsets, View.ld_unit_zero (S := S1x64) zero_offsets]

/-- A later point: the sum accumulator is what it held plus the block's column sums. -/
theorem later_sum (c : Dev nD) (i : grid6.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond6_0 i) (x0 : Vec F S10000x64 .f32) (x1 : Vec F S64x64 .f32) (x2 : Vec F S1x64 .f32) (x3 : Vec F S64x64 .f32) (x4 : Vec F S1x64 .f32) (xo6 : Vec F S1x64 .f32) (xo7 : Vec F S1x64 .f32) :
    out6_B_6 (F := F) c i arg1 harg1 arg2 harg2 arg3 harg3 arg4 harg4 arg5 harg5 arg6 harg6 arg7 harg7 arg8 harg8 hc0 x0 x1 x2 x3 x4 xo6 xo7 = k6_pay5 x0 x1 x2 x3 x4 xo6 := by
  unfold out6_B_6
  rw [View.read_writes_eq_canon _ _ _ (cover6_B_6 c i arg1 harg1 arg2 harg2 arg3 harg3 arg4 harg4 arg5 harg5 arg6 harg6 arg7 harg7 arg8 harg8 hc0 x0 x1 x2 x3 x4 xo6 xo7)]
  unfold kernelRun6_B
  dsimp only
  rw [View.canon_unit_zero zero_offsets]
  sl_unfold_run_names
  simp only [View.readAt_eq_ld, harg1.read_unread, harg2.read_unread, harg3.read_unread, harg4.read_unread, harg5.read_unread, harg7.read_unread, harg8.read_unread,
    View.ld_unit_zero (S := S10000x64) zero_offsets, View.ld_unit_zero (S := S64x64) zero_offsets, View.ld_unit_zero (S := S1x64) zero_offsets]

/-- A later point: the square-sum accumulator is what it held plus the column sums of the block's squares. -/
theorem later_sq (c : Dev nD) (i : grid6.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond6_0 i) (x0 : Vec F S10000x64 .f32) (x1 : Vec F S64x64 .f32) (x2 : Vec F S1x64 .f32) (x3 : Vec F S64x64 .f32) (x4 : Vec F S1x64 .f32) (xo6 : Vec F S1x64 .f32) (xo7 : Vec F S1x64 .f32) :
    out6_B_7 (F := F) c i arg1 harg1 arg2 harg2 arg3 harg3 arg4 harg4 arg5 harg5 arg6 harg6 arg7 harg7 arg8 harg8 hc0 x0 x1 x2 x3 x4 xo6 xo7 = k6_pay1 (k6_pay4 x0 x1 x2 x3 x4) xo7 := by
  unfold out6_B_7
  rw [View.read_writes_eq_canon _ _ _ (cover6_B_7 c i arg1 harg1 arg2 harg2 arg3 harg3 arg4 harg4 arg5 harg5 arg6 harg6 arg7 harg7 arg8 harg8 hc0 x0 x1 x2 x3 x4 xo6 xo7)]
  unfold kernelRun6_B
  dsimp only
  rw [View.canon_unit_zero zero_offsets]
  sl_unfold_run_names
  simp only [View.readAt_eq_ld, harg1.read_unread, harg2.read_unread, harg3.read_unread, harg4.read_unread, harg5.read_unread, harg7.read_unread, harg8.read_unread,
    View.ld_unit_zero (S := S10000x64) zero_offsets, View.ld_unit_zero (S := S64x64) zero_offsets, View.ld_unit_zero (S := S1x64) zero_offsets]

end Cert.KernelIdeal.KerValue.Mlp6

end
-- ==== Proof.RegionMlp6.lean ====
/-
  Region 6 (the per-node map with running column sums), part two: the five grid points together.
  Point t maps rows 10000·t … 10000·t + 9999 of z through  z2 = leaky (z · W₁ + b₁) · W₂ + b₂ ; entry (p, q) of a
  block's two products is entry (10000·t + p, q) of the whole products on the host, term by term, and the leaky
  step is entrywise, so the block is rows of the whole-array map.  The two [1,64] accumulators start from zero at
  point 0 and gain one block's column sums per point; after point 4 they hold  ((((0 + S₀) + S₁) + S₂) + S₃) + S₄ ,
  which is the sum over all 50000 rows (a sum over 5 · 10000 indices is the sum of its 5 blocks, in any commutative
  monoid — the extended reals included, no finiteness asked).  Only point 4 writes the accumulators back.
-/
import proofs.«104584_j17154099380304_2_alg».proof.Proof.RegionMlp6Pieces
import proofs.«104584_j17154099380304_2_alg».proof.Proof.RegionLin0
import proofs.«104584_j17154099380304_2_alg».proof.Proof.LibColumnSum
import proofs.«104584_j17154099380304_2_alg».proof.Proof.LibBlockSum
import proofs.«104584_j17154099380304_2_alg».proof.Proof.VarianceLaw

set_option maxRecDepth 16384
set_option maxHeartbeats 4000000

noncomputable section

open scoped BigOperators

namespace Cert.KernelIdeal.KerValue.Mlp6

open Idealize.ShloMosaic Idealize.ShloMosaic.TcCoe Idealize.SL.Sem Cert.KernelIdeal Cert.KernelIdeal.Gen Idealize.ShloMosaic.Pipeline
open Idealize.ShloMosaic.ValueIdx

/-- One block of 10000 rows. -/
abbrev Blk := Vec Ideal S10000x64 .f32

/-- x · W + b on a block, the product on the vector unit from the zero accumulator. -/
def linBlk (x : Blk) (w : Vec Ideal S64x64 .f32) (b : Vec Ideal S1x64 .f32) : Blk :=
  addf (matmul dot_S10000x64_S64x64_S10000x64_1_0_0_1_n_n none (truncf (F := Ideal) .bf16 x bitsLt_bf16_f32) (truncf (F := Ideal) .bf16 w bitsLt_bf16_f32)
    (constant (F := Ideal) S10000x64 .f32 0x00000000#32)) (broadcastTo S10000x64 b broadcasts_S1x64_S10000x64)
/-- y where y ≥ 0, else 0.01 · y, on a block. -/
def leakyBlk (y : Blk) : Blk :=
  select (cmpf .oge y (broadcast S10000x64 (Scalar.ofBits (F := Ideal) .f32 0x00000000#32))) y
    (mulf (broadcast S10000x64 (Scalar.ofBits (F := Ideal) .f32 0x3C23D70A#32)) y)

/-- The rows' payload is the two-layer map of the loaded blocks. -/
theorem pay4_eq (x0 : Blk) (x1 : Vec Ideal S64x64 .f32) (x2 : Vec Ideal S1x64 .f32) (x3 : Vec Ideal S64x64 .f32) (x4 : Vec Ideal S1x64 .f32) :
    k6_pay4 (F := Ideal) x0 x1 x2 x3 x4 = linBlk (leakyBlk (linBlk x0 x1 x2)) x3 x4 := by
  unfold k6_pay4 linBlk leakyBlk
  simp only [shapeCast_self]

/-- A block's x · W + b at (p, q) is the whole array's at (P, q) when row p of the block is row P of the array. -/
theorem linBlk_apply (x : Blk) (w : Vec Ideal S64x64 .f32) (b : Vec Ideal S1x64 .f32) (A : Cert.Spec.NV) (P : Fin 50000) (p : Fin 10000) (q : Fin 64)
    (hrow : ∀ k : Fin 64, (x (ix2 p k) : EReal) = A (ix2 P k)) :
    linBlk x w b (ix2 p q) = Cert.Spec.linN A w b (ix2 P q) := by
  unfold linBlk
  show FloatOps.matmul (F := Ideal) _ none _ _ _ (ix2 p q) + broadcastTo S10000x64 b broadcasts_S1x64_S10000x64 (ix2 p q) = _
  rw [broadcastTo_1b_ab_apply, Lin0.spec_apply]
  exact congrArg (· + b (ix2 0 q)) (Cert.Lib.RowBlock.matmul_eq_dotGeneral none none .single A w _ _ P p q hrow (fun _ => rfl))

/-- The leaky step at an entry, on a block and on the whole array: the same function of the entry. -/
theorem leakyBlk_apply (y : Blk) (j : S10000x64.Idx) :
    leakyBlk y j = Scalar.select (FloatOps.cmpf .oge (y j) (FloatOps.ofBits (F := Ideal) .f32 0x00000000#32)) (y j)
      (FloatOps.mulf (FloatOps.ofBits (F := Ideal) .f32 0x3C23D70A#32) (y j)) := rfl
theorem leaky_apply (Y : Cert.Spec.NV) (i : S50000x64.Idx) :
    Cert.Spec.leaky Y i = Scalar.select (FloatOps.cmpf .oge (Y i) (FloatOps.ofBits (F := Ideal) .f32 0x00000000#32)) (Y i)
      (FloatOps.mulf (FloatOps.ofBits (F := Ideal) .f32 0x3C23D70A#32) (Y i)) := rfl

/-- The rows' payload at (p, q) is the whole-array map at (P, q) when row p of the z block is row P of z. -/
theorem pay4_apply (x0 : Blk) (x1 : Vec Ideal S64x64 .f32) (x2 : Vec Ideal S1x64 .f32) (x3 : Vec Ideal S64x64 .f32) (x4 : Vec Ideal S1x64 .f32)
    (A : Cert.Spec.NV) (P : Fin 50000) (p : Fin 10000) (q : Fin 64) (hrow : ∀ k : Fin 64, (x0 (ix2 p k) : EReal) = A (ix2 P k)) :
    k6_pay4 (F := Ideal) x0 x1 x2 x3 x4 (ix2 p q) = Cert.Spec.mlp A x1 x2 x3 x4 (ix2 P q) := by
  rw [pay4_eq]
  unfold Cert.Spec.mlp
  exact linBlk_apply _ x3 x4 _ P p q (fun k => by rw [leakyBlk_apply, leaky_apply, linBlk_apply x0 x1 x2 A P p k hrow])

/-- The sum accumulator's payload at channel q: what it held plus the block's column sum. -/
theorem pay5_apply (x0 : Blk) (x1 : Vec Ideal S64x64 .f32) (x2 : Vec Ideal S1x64 .f32) (x3 : Vec Ideal S64x64 .f32) (x4 : Vec Ideal S1x64 .f32)
    (v : Vec Ideal S1x64 .f32) (q : Fin 64) :
    k6_pay5 (F := Ideal) x0 x1 x2 x3 x4 v (ix2 0 q) = v (ix2 0 q) + ∑ p : Fin 10000, k6_pay4 (F := Ideal) x0 x1 x2 x3 x4 (ix2 p q) := by
  unfold k6_pay5
  simp only [shapeCast_self]
  show v (ix2 0 q) + shapeCast S1x64 (multiReduction (F := Ideal) .add [0] S64 (k6_pay4 x0 x1 x2 x3 x4) 0x00000000#32 reduces_S10000x64_S64 (.inl rfl) rfl) shapeCasts_S64_S1x64 (ix2 0 q) = _
  rw [shapeCast_a_1a_apply, ValueKeepdims.colSum_at]

/-- The square-sum accumulator's payload at channel q: what it held plus the column sum of the block's squares. -/
theorem pay1_apply (z : Blk) (v : Vec Ideal S1x64 .f32) (q : Fin 64) :
    k6_pay1 (F := Ideal) z v (ix2 0 q) = v (ix2 0 q) + ∑ p : Fin 10000, z (ix2 p q) * z (ix2 p q) := by
  unfold k6_pay1
  simp only [shapeCast_self]
  show v (ix2 0 q) + shapeCast S1x64 (multiReduction (F := Ideal) .add [0] S64 (mulf z z) 0x00000000#32 reduces_S10000x64_S64 (.inl rfl) rfl) shapeCasts_S64_S1x64 (ix2 0 q) = _
  rw [shapeCast_a_1a_apply, ValueKeepdims.colSum_at]
  rfl

/-- The zeroed accumulators hold zero. -/
theorem pay2_apply (j : S1x64.Idx) : k6_pay2 (F := Ideal) j = 0 := Ideal.ofBits_zero_f32
theorem pay3_apply (j : S1x64.Idx) : k6_pay3 (F := Ideal) j = 0 := Ideal.ofBits_zero_f32

/-- The printed index maps over the grid: z and z2 move with the point along the rows; the weights, the biases and the
    two accumulators stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

section Points

variable (V : (c : Dev nD) → (b : Ref sig .tc) → Buf (Elt Ideal) ((c : Thread nD τ).loc b)) (c : Dev nD)

/-- The whole-array map of the region's five input arrays. -/
abbrev Z : Cert.Spec.NV := Cert.Spec.mlp (V c (Pipeline.arrRef spec6 0)) (V c (Pipeline.arrRef spec6 1)) (V c (Pipeline.arrRef spec6 2)) (V c (Pipeline.arrRef spec6 3)) (V c (Pipeline.arrRef spec6 4))

/-- The windows over the weights and biases hold the whole arrays at every point. -/
theorem whole_blocks (t : Fin cfg6.N) :
    iblk6 V c 1 t = V c (Pipeline.arrRef spec6 1) ∧ iblk6 V c 2 t = V c (Pipeline.arrRef spec6 2)
    ∧ iblk6 V c 3 t = V c (Pipeline.arrRef spec6 3) ∧ iblk6 V c 4 t = V c (Pipeline.arrRef spec6 4) := by
  obtain ⟨e0, e1, e2, e3, e4, e5, e6, e7, e8, e9, e10, e11, e12, e13, e14, e15⟩ := idx_facts t
  refine ⟨?_, ?_, ?_, ?_⟩
  · funext j
    show V c (Pipeline.arrRef spec6 1) (((cfg6.win 1).blk t).view.emb j) = _
    refine congrArg _ (funext fun a => Fin.ext ?_)
    match a with
    | ⟨0, _⟩ => show win6_1.index t (0 : Fin 2) * 64 + 1 * (j 0).val = (j 0).val; omega
    | ⟨1, _⟩ => show win6_1.index t (1 : Fin 2) * 64 + 1 * (j 1).val = (j 1).val; omega
  · funext j
    show V c (Pipeline.arrRef spec6 2) (((cfg6.win 2).blk t).view.emb j) = _
    refine congrArg _ (funext fun a => Fin.ext ?_)
    match a with
    | ⟨0, _⟩ => show win6_2.index t (0 : Fin 2) * 1 + 1 * (j 0).val = (j 0).val; omega
    | ⟨1, _⟩ => show win6_2.index t (1 : Fin 2) * 64 + 1 * (j 1).val = (j 1).val; omega
  · funext j
    show V c (Pipeline.arrRef spec6 3) (((cfg6.win 3).blk t).view.emb j) = _
    refine congrArg _ (funext fun a => Fin.ext ?_)
    match a with
    | ⟨0, _⟩ => show win6_3.index t (0 : Fin 2) * 64 + 1 * (j 0).val = (j 0).val; omega
    | ⟨1, _⟩ => show win6_3.index t (1 : Fin 2) * 64 + 1 * (j 1).val = (j 1).val; omega
  · funext j
    show V c (Pipeline.arrRef spec6 4) (((cfg6.win 4).blk t).view.emb j) = _
    refine congrArg _ (funext fun a => Fin.ext ?_)
    match a with
    | ⟨0, _⟩ => show win6_4.index t (0 : Fin 2) * 1 + 1 * (j 0).val = (j 0).val; omega
    | ⟨1, _⟩ => show win6_4.index t (1 : Fin 2) * 64 + 1 * (j 1).val = (j 1).val; omega

/-- Row p of point t's z block is row 10000·t + p of z. -/
theorem z_rows (t : Fin cfg6.N) (p : Fin 10000) (hP : t.val * 10000 + p.val < 50000) (kk : Fin 64) :
    (iblk6 V c 0 t (ix2 p kk) : EReal) = V c (Pipeline.arrRef spec6 0) (ix2 (⟨t.val * 10000 + p.val, hP⟩ : Fin 50000) kk) := by
  obtain ⟨e0, e1, e2, e3, e4, e5, e6, e7, e8, e9, e10, e11, e12, e13, e14, e15⟩ := idx_facts t
  show V c (Pipeline.arrRef spec6 0) (((cfg6.win 0).blk t).view.emb (ix2 p kk)) = _
  refine congrArg _ (funext fun a => Fin.ext ?_)
  match a with
  | ⟨0, _⟩ => show win6_0.index t (0 : Fin 2) * 10000 + 1 * p.val = t.val * 10000 + p.val; omega
  | ⟨1, _⟩ => show win6_0.index t (1 : Fin 2) * 64 + 1 * kk.val = kk.val; omega

/-- The rows' payload of point t's blocks, at (p, q): the whole-array map at row 10000·t + p. -/
theorem rows_at (t : Fin cfg6.N) (p : Fin 10000) (q : Fin 64) (hP : t.val * 10000 + p.val < 50000) :
    k6_pay4 (F := Ideal) (iblk6 V c 0 t) (iblk6 V c 1 t) (iblk6 V c 2 t) (iblk6 V c 3 t) (iblk6 V c 4 t) (ix2 p q)
      = Z V c (ix2 (⟨t.val * 10000 + p.val, hP⟩ : Fin 50000) q) := by
  obtain ⟨w1, w2, w3, w4⟩ := whole_blocks V c t
  rw [w1, w2, w3, w4]
  exact pay4_apply _ _ _ _ _ _ _ p q (fun kk => z_rows V c t p hP kk)

/-- z2 read by row number, zero past the last row (so that sums over row numbers need no bound proofs). -/
def zAt (r : ℕ) (q : Fin 64) : EReal := if h : r < 50000 then Z V c (ix2 (⟨r, h⟩ : Fin 50000) q) else 0

/-- What the three output buffers hold after point n: the rows' block, and the two partial sums over blocks 0 … n. -/
theorem after_point : ∀ (n : ℕ) (hn : n < cfg6.N),
    (∀ (p : Fin 10000) (q : Fin 64), (outsAt6 V c n hn).1 (ix2 p q) = zAt V c (n * 10000 + p.val) q)
    ∧ (∀ q : Fin 64, (outsAt6 V c n hn).2.1 (ix2 0 q) = ∑ b : Fin (n + 1), ∑ p : Fin 10000, zAt V c (b.val * 10000 + p.val) q)
    ∧ (∀ q : Fin 64, (outsAt6 V c n hn).2.2 (ix2 0 q) = ∑ b : Fin (n + 1), ∑ p : Fin 10000, zAt V c (b.val * 10000 + p.val) q * zAt V c (b.val * 10000 + p.val) q) := by
  intro n
  induction n with
  | zero =>
    intro hn
    have h5 : (0 : ℕ) < 5 := by decide
    rw [outsAt6_A V c ⟨0, hn⟩ (Nat.zero_mod _)]
    dsimp only
    rw [first_rows, first_sum, first_sq]
    have hrows : ∀ (p : Fin 10000) (q : Fin 64), k6_pay4 (F := Ideal) (iblk6 V c 0 ⟨0, hn⟩) (iblk6 V c 1 ⟨0, hn⟩) (iblk6 V c 2 ⟨0, hn⟩) (iblk6 V c 3 ⟨0, hn⟩) (iblk6 V c 4 ⟨0, hn⟩) (ix2 p q)
        = zAt V c (0 * 10000 + p.val) q := fun p q => by
      have hP : (⟨0, hn⟩ : Fin cfg6.N).val * 10000 + p.val < 50000 := by have := p.isLt; show 0 * 10000 + p.val < 50000; omega
      rw [rows_at V c ⟨0, hn⟩ p q hP]
      unfold zAt
      rw [dif_pos (by show 0 * 10000 + p.val < 50000; have := p.isLt; omega)]
    refine ⟨hrows, fun q => ?_, fun q => ?_⟩
    · rw [pay5_apply, pay2_apply, zero_add, Fin.sum_univ_one]
      exact Finset.sum_congr rfl fun p _ => hrows p q
    · rw [pay1_apply, pay3_apply, zero_add, Fin.sum_univ_one]
      exact Finset.sum_congr rfl fun p _ => by rw [hrows p q]; rfl
  | succ n ih =>
    intro hn
    have hN : n + 1 < 5 := lt_of_lt_of_eq hn N_6
    have hne : ¬ (⟨n + 1, hn⟩ : Fin cfg6.N).val % 5 = 0 := by show ¬ (n + 1) % 5 = 0; omega
    obtain ⟨_, ih1, ih2⟩ := ih (Nat.lt_of_succ_lt hn)
    rw [outsAt6_B V c ⟨n + 1, hn⟩ hne]
    dsimp only
    rw [later_rows, later_sum, later_sq]
    have hrows : ∀ (p : Fin 10000) (q : Fin 64), k6_pay4 (F := Ideal) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (ix2 p q)
        = zAt V c ((n + 1) * 10000 + p.val) q := fun p q => by
      have hP : (⟨n + 1, hn⟩ : Fin cfg6.N).val * 10000 + p.val < 50000 := by have := p.isLt; show (n + 1) * 10000 + p.val < 50000; omega
      rw [rows_at V c ⟨n + 1, hn⟩ p q hP]
      unfold zAt
      rw [dif_pos (by show (n + 1) * 10000 + p.val < 50000; have := p.isLt; omega)]
    refine ⟨hrows, fun q => ?_, fun q => ?_⟩
    · have hsplit : ∑ b : Fin (n + 1 + 1), ∑ p : Fin 10000, zAt V c (b.val * 10000 + p.val) q
          = (∑ b : Fin (n + 1), ∑ p : Fin 10000, zAt V c (b.val * 10000 + p.val) q) + ∑ p : Fin 10000, zAt V c ((n + 1) * 10000 + p.val) q :=
        Fin.sum_univ_castSucc _
      rw [pay5_apply, hsplit]
      have := ih1 q
      simp only [Nat.add_sub_cancel] at this ⊢
      rw [this]
      exact congrArg _ (Finset.sum_congr rfl fun p _ => hrows p q)
    · have hsplit : ∑ b : Fin (n + 1 + 1), ∑ p : Fin 10000, zAt V c (b.val * 10000 + p.val) q * zAt V c (b.val * 10000 + p.val) q
          = (∑ b : Fin (n + 1), ∑ p : Fin 10000, zAt V c (b.val * 10000 + p.val) q * zAt V c (b.val * 10000 + p.val) q)
            + ∑ p : Fin 10000, zAt V c ((n + 1) * 10000 + p.val) q * zAt V c ((n + 1) * 10000 + p.val) q :=
        Fin.sum_univ_castSucc _
      rw [pay1_apply, hsplit]
      have := ih2 q
      simp only [Nat.add_sub_cancel] at this ⊢
      rw [this]
      exact congrArg _ (Finset.sum_congr rfl fun p _ => by rw [hrows p q])

end Points

section Finals

variable (V : (c : Dev nD) → (b : Ref sig .tc) → Buf (Elt Ideal) ((c : Thread nD τ).loc b)) (c : Dev nD)

/-- Five blocks of 10000 consecutive row numbers are the 50000 row numbers. -/
theorem five_blocks (f : ℕ → EReal) :
    ∑ b : Fin (4 + 1), ∑ p : Fin 10000, f (b.val * 10000 + p.val) = ∑ r : Fin 50000, f r.val :=
  (Cert.Lib.BlockSum.sum_blocks 5 10000 (fun i : Fin (5 * 10000) => f i.val)).symm

/-- The partial sums after the fifth point are the column sums over all rows. -/
theorem total_sum (q : Fin 64) :
    ∑ b : Fin (4 + 1), ∑ p : Fin 10000, zAt V c (b.val * 10000 + p.val) q = ∑ r : Fin 50000, Z V c (ix2 r q) := by
  rw [five_blocks (fun r => zAt V c r q)]
  exact Finset.sum_congr rfl fun r _ => by unfold zAt; rw [dif_pos r.isLt]
theorem total_sq (q : Fin 64) :
    ∑ b : Fin (4 + 1), ∑ p : Fin 10000, zAt V c (b.val * 10000 + p.val) q * zAt V c (b.val * 10000 + p.val) q
      = ∑ r : Fin 50000, Cert.Spec.sqr (Z V c) (ix2 r q) := by
  rw [five_blocks (fun r => zAt V c r q * zAt V c r q)]
  exact Finset.sum_congr rfl fun r _ => by unfold zAt; rw [dif_pos r.isLt]; rfl

/-! ### The rows -/

theorem mem_blk5 (t : Fin cfg6.N) (i : S50000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole main_v68_0).slice (win6_5.rect t)).set ↔ _
  rw [View.set_slice_whole, Rect.mem_set_unit]
  exact Iff.rfl

theorem flushed5 (t : Fin cfg6.N) :
    (dat6 (F := Ideal) V c).flushed 5 t = ((cfg6.win 5).blk t).view.read (Elt Ideal) (Z V c) := by
  show (cfg6.win 5).cut (grid6.coords t) ((dat6 V c).after 5 t) = _
  rw [after6_5]
  obtain ⟨e0, e1, e2, e3, e4, e5, e6, e7, e8, e9, e10, e11, e12, e13, e14, e15⟩ := idx_facts t
  have ht : t.val < 5 := lt_of_lt_of_eq t.isLt N_6
  funext j
  obtain ⟨p, q, rfl⟩ : ∃ (p : Fin 10000) (q : Fin 64), j = ix2 p q := ⟨j 0, j 1, eq_ix2 j⟩
  show (outsAt6 V c t.val t.isLt).1 (ix2 p q) = Z V c (((cfg6.win 5).blk t).view.emb (ix2 p q))
  rw [(after_point V c t.val t.isLt).1 p q]
  unfold zAt
  rw [dif_pos (by have := p.isLt; omega)]
  refine congrArg _ (funext fun a => Fin.ext ?_)
  match a with
  | ⟨0, _⟩ => show t.val * 10000 + p.val = win6_5.index t (0 : Fin 2) * 10000 + 1 * p.val; omega
  | ⟨1, _⟩ => show q.val = win6_5.index t (1 : Fin 2) * 64 + 1 * q.val; omega

theorem cover5 (i : S50000x64.Idx) : ∃ t : Fin cfg6.N, (cfg6.win 5).flush t = true ∧ i ∈ ((cfg6.win 5).blk t).view.set := by
  have hi0 : (i 0).val < 50000 := (i 0).isLt
  have hi1 : (i 1).val < 64 := (i 1).isLt
  have hN : cfg6.N = 5 := N_6
  let t : Fin cfg6.N := ⟨(i 0).val / 10000, by rw [hN]; omega⟩
  obtain ⟨e0, e1, e2, e3, e4, e5, e6, e7, e8, e9, e10, e11, e12, e13, e14, e15⟩ := idx_facts t
  refine ⟨t, flush6_5 t, ?_⟩
  rw [mem_blk5]
  intro a
  match a with
  | ⟨0, _⟩ => show win6_5.index t (0 : Fin 2) * 10000 ≤ (i 0).val ∧ (i 0).val < win6_5.index t (0 : Fin 2) * 10000 + 10000; rw [e10]; show (i 0).val / 10000 * 10000 ≤ _ ∧ _ < (i 0).val / 10000 * 10000 + 10000; omega
  | ⟨1, _⟩ => show win6_5.index t (1 : Fin 2) * 64 ≤ (i 1).val ∧ (i 1).val < win6_5.index t (1 : Fin 2) * 64 + 64; omega

/-- After the last point the rows' array is the two-layer map of the region's five input arrays. -/
theorem final_rows : (dat6 (F := Ideal) V c).arrAt 5 cfg6.N = Z V c :=
  (dat6 (F := Ideal) V c).arrAt_eq_of_cover 5 _ (fun t _ => flushed5 V c t) cover5

/-! ### The two accumulators: written back by the last point only -/

theorem last_point (t : Fin cfg6.N) (h : t.val % 5 = 4) : t.val = 4 := by
  have ht : t.val < 5 := lt_of_lt_of_eq t.isLt N_6
  omega

theorem mem_blk6 (t : Fin cfg6.N) (i : S1x64.Idx) :
    i ∈ ((cfg6.win 6).blk t).view.set ↔ ∀ a : Fin 2, win6_6.index t a * S1x64.size a ≤ (i a).val ∧ (i a).val < win6_6.index t a * S1x64.size a + S1x64.size a := by
  show i ∈ ((View.whole main_v68_1).slice (win6_6.rect t)).set ↔ _
  rw [View.set_slice_whole, Rect.mem_set_unit]
  exact Iff.rfl
theorem mem_blk7 (t : Fin cfg6.N) (i : S1x64.Idx) :
    i ∈ ((cfg6.win 7).blk t).view.set ↔ ∀ a : Fin 2, win6_7.index t a * S1x64.size a ≤ (i a).val ∧ (i a).val < win6_7.index t a * S1x64.size a + S1x64.size a := by
  show i ∈ ((View.whole main_v68_2).slice (win6_7.rect t)).set ↔ _
  rw [View.set_slice_whole, Rect.mem_set_unit]
  exact Iff.rfl

theorem flushed6 (t : Fin cfg6.N) (hf : (cfg6.win 6).flush t = true) :
    (dat6 (F := Ideal) V c).flushed 6 t = ((cfg6.win 6).blk t).view.read (Elt Ideal) (Cert.Spec.row (Cert.Spec.colSum (Z V c))) := by
  have h4 : t.val = 4 := last_point t ((flush6_6 t).mp hf)
  obtain ⟨tv, htv⟩ := t
  dsimp only at h4
  subst h4
  show (cfg6.win 6).cut (grid6.coords ⟨4, htv⟩) ((dat6 V c).after 6 ⟨4, htv⟩) = _
  rw [after6_6]
  obtain ⟨e0, e1, e2, e3, e4, e5, e6, e7, e8, e9, e10, e11, e12, e13, e14, e15⟩ := idx_facts ⟨4, htv⟩
  funext j
  obtain ⟨u, q, rfl⟩ : ∃ (u : Fin 1) (q : Fin 64), j = ix2 u q := ⟨j 0, j 1, eq_ix2 j⟩
  obtain rfl : u = 0 := Subsingleton.elim _ _
  show (outsAt6 V c 4 htv).2.1 (ix2 0 q) = Cert.Spec.row (Cert.Spec.colSum (Z V c)) (((cfg6.win 6).blk ⟨4, htv⟩).view.emb (ix2 0 q))
  have hemb : ((cfg6.win 6).blk ⟨4, htv⟩).view.emb (ix2 0 q) = ix2 (0 : Fin 1) q := by
    funext a; apply Fin.ext
    match a with
    | ⟨0, _⟩ => show win6_6.index ⟨4, htv⟩ (0 : Fin 2) * 1 + 1 * 0 = 0; omega
    | ⟨1, _⟩ => show win6_6.index ⟨4, htv⟩ (1 : Fin 2) * 64 + 1 * q.val = q.val; omega
  rw [hemb, (after_point V c 4 htv).2.1 q, Cert.Real.row_apply, Cert.Real.colSum_apply Cert.Real.hRed]
  exact total_sum V c q

theorem flushed7 (t : Fin cfg6.N) (hf : (cfg6.win 7).flush t = true) :
    (dat6 (F := Ideal) V c).flushed 7 t = ((cfg6.win 7).blk t).view.read (Elt Ideal) (Cert.Spec.row (Cert.Spec.colSum (Cert.Spec.sqr (Z V c)))) := by
  have h4 : t.val = 4 := last_point t ((flush6_7 t).mp hf)
  obtain ⟨tv, htv⟩ := t
  dsimp only at h4
  subst h4
  show (cfg6.win 7).cut (grid6.coords ⟨4, htv⟩) ((dat6 V c).after 7 ⟨4, htv⟩) = _
  rw [after6_7]
  obtain ⟨e0, e1, e2, e3, e4, e5, e6, e7, e8, e9, e10, e11, e12, e13, e14, e15⟩ := idx_facts ⟨4, htv⟩
  funext j
  obtain ⟨u, q, rfl⟩ : ∃ (u : Fin 1) (q : Fin 64), j = ix2 u q := ⟨j 0, j 1, eq_ix2 j⟩
  obtain rfl : u = 0 := Subsingleton.elim _ _
  show (outsAt6 V c 4 htv).2.2 (ix2 0 q) = Cert.Spec.row (Cert.Spec.colSum (Cert.Spec.sqr (Z V c))) (((cfg6.win 7).blk ⟨4, htv⟩).view.emb (ix2 0 q))
  have hemb : ((cfg6.win 7).blk ⟨4, htv⟩).view.emb (ix2 0 q) = ix2 (0 : Fin 1) q := by
    funext a; apply Fin.ext
    match a with
    | ⟨0, _⟩ => show win6_7.index ⟨4, htv⟩ (0 : Fin 2) * 1 + 1 * 0 = 0; omega
    | ⟨1, _⟩ => show win6_7.index ⟨4, htv⟩ (1 : Fin 2) * 64 + 1 * q.val = q.val; omega
  rw [hemb, (after_point V c 4 htv).2.2 q, Cert.Real.row_apply, Cert.Real.colSum_apply Cert.Real.hRed]
  exact total_sq V c q

theorem cover6 (i : S1x64.Idx) : ∃ t : Fin cfg6.N, (cfg6.win 6).flush t = true ∧ i ∈ ((cfg6.win 6).blk t).view.set := by
  have hi0 : (i 0).val < 1 := (i 0).isLt
  have hi1 : (i 1).val < 64 := (i 1).isLt
  have hN : cfg6.N = 5 := N_6
  let t : Fin cfg6.N := ⟨4, by rw [hN]; decide⟩
  obtain ⟨e0, e1, e2, e3, e4, e5, e6, e7, e8, e9, e10, e11, e12, e13, e14, e15⟩ := idx_facts t
  refine ⟨t, (flush6_6 t).mpr rfl, ?_⟩
  rw [mem_blk6]
  intro a
  match a with
  | ⟨0, _⟩ => show win6_6.index t (0 : Fin 2) * 1 ≤ (i 0).val ∧ (i 0).val < win6_6.index t (0 : Fin 2) * 1 + 1; omega
  | ⟨1, _⟩ => show win6_6.index t (1 : Fin 2) * 64 ≤ (i 1).val ∧ (i 1).val < win6_6.index t (1 : Fin 2) * 64 + 64; omega
theorem cover7 (i : S1x64.Idx) : ∃ t : Fin cfg6.N, (cfg6.win 7).flush t = true ∧ i ∈ ((cfg6.win 7).blk t).view.set := by
  have hi0 : (i 0).val < 1 := (i 0).isLt
  have hi1 : (i 1).val < 64 := (i 1).isLt
  have hN : cfg6.N = 5 := N_6
  let t : Fin cfg6.N := ⟨4, by rw [hN]; decide⟩
  obtain ⟨e0, e1, e2, e3, e4, e5, e6, e7, e8, e9, e10, e11, e12, e13, e14, e15⟩ := idx_facts t
  refine ⟨t, (flush6_7 t).mpr rfl, ?_⟩
  rw [mem_blk7]
  intro a
  match a with
  | ⟨0, _⟩ => show win6_7.index t (0 : Fin 2) * 1 ≤ (i 0).val ∧ (i 0).val < win6_7.index t (0 : Fin 2) * 1 + 1; omega
  | ⟨1, _⟩ => show win6_7.index t (1 : Fin 2) * 64 ≤ (i 1).val ∧ (i 1).val < win6_7.index t (1 : Fin 2) * 64 + 64; omega

/-- After the last point the first accumulator's array is the column sums of z2, as a row. -/
theorem final_sum : (dat6 (F := Ideal) V c).arrAt 6 cfg6.N = Cert.Spec.row (Cert.Spec.colSum (Z V c)) :=
  (dat6 (F := Ideal) V c).arrAt_eq_of_cover 6 _ (fun t hf => flushed6 V c t hf) cover6
/-- After the last point the second accumulator's array is the column sums of z2's squares, as a row. -/
theorem final_sq : (dat6 (F := Ideal) V c).arrAt 7 cfg6.N = Cert.Spec.row (Cert.Spec.colSum (Cert.Spec.sqr (Z V c))) :=
  (dat6 (F := Ideal) V c).arrAt_eq_of_cover 7 _ (fun t hf => flushed7 V c t hf) cover7

end Finals

end Cert.KernelIdeal.KerValue.Mlp6

end
-- ==== Proof.RegionMlp9Pieces.lean ====
/-
  Region 9 (the per-node map with running column sums), part one: what ONE grid point leaves in its three output
  buffers, as the body's arithmetic of the blocks it loaded.  At the first point the two [1,64] accumulators are
  zeroed before they are read; at the other points they hold what the point before left.  In both cases the point
  leaves  z2 = leaky (z · W₁ + b₁) · W₂ + b₂  on its own 10000 rows, the first accumulator plus the column sums of
  that block, and the second accumulator plus the column sums of the block's squares.
-/
import proofs.«104584_j17154099380304_2_alg».proof.Proof.KerSpec
import Idealize.ShloMosaic.Lib.Pipeline.Value

set_option maxRecDepth 16384
set_option maxHeartbeats 4000000

noncomputable section

namespace Cert.KernelIdeal.KerValue.Mlp9

open Idealize.ShloMosaic Idealize.ShloMosaic.TcCoe Idealize.ShloMosaic.Tactic Idealize.SL.Sem Cert.KernelIdeal Cert.KernelIdeal.Gen Idealize.ShloMosaic.Pipeline

variable {F : FTy → Type} [FloatOps F]

theorem zero_offsets : (![0, 0] : Fin 2 → Nat) = fun _ => 0 := funext fun a => by fin_cases a <;> rfl

/-- First point: the rows' output is the two-layer map of the loaded blocks. -/
theorem first_rows (c : Dev nD) (i : grid9.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond9_0 i) (x0 : Vec F S10000x64 .f32) (x1 : Vec F S64x64 .f32) (x2 : Vec F S1x64 .f32) (x3 : Vec F S64x64 .f32) (x4 : Vec F S1x64 .f32) :
    out9_A_5 (F := F) c i arg1 harg1 arg2 harg2 arg3 harg3 arg4 harg4 arg5 harg5 arg6 harg6 arg7 harg7 arg8 harg8 hc0 x0 x1 x2 x3 x4 = k9_pay4 x0 x1 x2 x3 x4 := by
  unfold out9_A_5
  rw [View.read_writes_eq_canon _ _ _ (cover9_A_5 c i arg1 harg1 arg2 harg2 arg3 harg3 arg4 harg4 arg5 harg5 arg6 harg6 arg7 harg7 arg8 harg8 hc0 x0 x1 x2 x3 x4)]
  unfold kernelRun9_A
  dsimp only
  rw [View.canon_unit_zero zero_offsets]
  simp only [View.readAt_eq_ld, harg1.read_unread, harg2.read_unread, harg3.read_unread, harg4.read_unread, harg5.read_unread,
    View.ld_unit_zero (S := S10000x64) zero_offsets, View.ld_unit_zero (S := S64x64) zero_offsets, View.ld_unit_zero (S := S1x64) zero_offsets]

/-- First point: the sum accumulator is zero plus the block's column sums. -/
theorem first_sum (c : Dev nD) (i : grid9.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond9_0 i) (x0 : Vec F S10000x64 .f32) (x1 : Vec F S64x64 .f32) (x2 : Vec F S1x64 .f32) (x3 : Vec F S64x64 .f32) (x4 : Vec F S1x64 .f32) :
    out9_A_6 (F := F) c i arg1 harg1 arg2 harg2 arg3 harg3 arg4 harg4 arg5 harg5 arg6 harg6 arg7 harg7 arg8 harg8 hc0 x0 x1 x2 x3 x4 = k9_pay5 x0 x1 x2 x3 x4 (k9_pay2 (F := F)) := by
  unfold out9_A_6
  rw [View.read_writes_eq_canon _ _ _ (cover9_A_6 c i arg1 harg1 arg2 harg2 arg3 harg3 arg4 harg4 arg5 harg5 arg6 harg6 arg7 harg7 arg8 harg8 hc0 x0 x1 x2 x3 x4)]
  unfold kernelRun9_A
  dsimp only
  rw [View.canon_cons_unit_zero zero_offsets]
  sl_unfold_run_names
  simp only [View.readAt_eq_ld, harg1.read_unread, harg2.read_unread, harg3.read_unread, harg4.read_unread, harg5.read_unread,
    View.ld_unit_zero (S := S10000x64) zero_offsets, View.ld_unit_zero (S := S64x64) zero_offsets, View.ld_unit_zero (S := S1x64) zero_offsets,
    View.readCov_unit_zero (S := S1x64) arg7.view zero_offsets, View.readCov_unit_zero (S := S1x64) arg8.view zero_offsets]

/-- First point: the square-sum accumulator is zero plus the column sums of the block's squares. -/
theorem first_sq (c : Dev nD) (i : grid9.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond9_0 i) (x0 : Vec F S10000x64 .f32) (x1 : Vec F S64x64 .f32) (x2 : Vec F S1x64 .f32) (x3 : Vec F S64x64 .f32) (x4 : Vec F S1x64 .f32) :
    out9_A_7 (F := F) c i arg1 harg1 arg2 harg2 arg3 harg3 arg4 harg4 arg5 harg5 arg6 harg6 arg7 harg7 arg8 harg8 hc0 x0 x1 x2 x3 x4 = k9_pay1 (k9_pay4 x0 x1 x2 x3 x4) (k9_pay3 (F := F)) := by
  unfold out9_A_7
  rw [View.read_writes_eq_canon _ _ _ (cover9_A_7 c i arg1 harg1 arg2 harg2 arg3 harg3 arg4 harg4 arg5 harg5 arg6 harg6 arg7 harg7 arg8 harg8 hc0 x0 x1 x2 x3 x4)]
  unfold kernelRun9_A
  dsimp only
  rw [View.canon_cons_unit_zero zero_offsets]
  sl_unfold_run_names
  simp only [View.readAt_eq_ld, harg1.read_unread, harg2.read_unread, harg3.read_unread, harg4.read_unread, harg5.read_unread,
    View.ld_unit_zero (S := S10000x64) zero_offsets, View.ld_unit_zero (S := S64x64) zero_offsets, View.ld_unit_zero (S := S1x64) zero_offsets,
    View.readCov_unit_zero (S := S1x64) arg7.view zero_offsets, View.readCov_unit_zero (S := S1x64) arg8.view zero_offsets]

/-- A later point: the rows' output is the two-layer map of the loaded blocks. -/
theorem later_rows (c : Dev nD) (i : grid9.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond9_0 i) (x0 : Vec F S10000x64 .f32) (x1 : Vec F S64x64 .f32) (x2 : Vec F S1x64 .f32) (x3 : Vec F S64x64 .f32) (x4 : Vec F S1x64 .f32) (xo6 : Vec F S1x64 .f32) (xo7 : Vec F S1x64 .f32) :
    out9_B_5 (F := F) c i arg1 harg1 arg2 harg2 arg3 harg3 arg4 harg4 arg5 harg5 arg6 harg6 arg7 harg7 arg8 harg8 hc0 x0 x1 x2 x3 x4 xo6 xo7 = k9_pay4 x0 x1 x2 x3 x4 := by
  unfold out9_B_5
  rw [View.read_writes_eq_canon _ _ _ (cover9_B_5 c i arg1 harg1 arg2 harg2 arg3 harg3 arg4 harg4 arg5 harg5 arg6 harg6 arg7 harg7 arg8 harg8 hc0 x0 x1 x2 x3 x4 xo6 xo7)]
  unfold kernelRun9_B
  dsimp only
  rw [View.canon_unit_zero zero_offsets]
  simp only [View.readAt_eq_ld, harg1.read_unread, harg2.read_unread, harg3.read_unread, harg4.read_unread, harg5.read_unread, harg7.read_unread, harg8.read_unread,
    View.ld_unit_zero (S := S10000x64) zero_offsets, View.ld_unit_zero (S := S64x64) zero_offsets, View.ld_unit_zero (S := S1x64) zero_offsets]

/-- A later point: the sum accumulator is what it held plus the block's column sums. -/
theorem later_sum (c : Dev nD) (i : grid9.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond9_0 i) (x0 : Vec F S10000x64 .f32) (x1 : Vec F S64x64 .f32) (x2 : Vec F S1x64 .f32) (x3 : Vec F S64x64 .f32) (x4 : Vec F S1x64 .f32) (xo6 : Vec F S1x64 .f32) (xo7 : Vec F S1x64 .f32) :
    out9_B_6 (F := F) c i arg1 harg1 arg2 harg2 arg3 harg3 arg4 harg4 arg5 harg5 arg6 harg6 arg7 harg7 arg8 harg8 hc0 x0 x1 x2 x3 x4 xo6 xo7 = k9_pay5 x0 x1 x2 x3 x4 xo6 := by
  unfold out9_B_6
  rw [View.read_writes_eq_canon _ _ _ (cover9_B_6 c i arg1 harg1 arg2 harg2 arg3 harg3 arg4 harg4 arg5 harg5 arg6 harg6 arg7 harg7 arg8 harg8 hc0 x0 x1 x2 x3 x4 xo6 xo7)]
  unfold kernelRun9_B
  dsimp only
  rw [View.canon_unit_zero zero_offsets]
  sl_unfold_run_names
  simp only [View.readAt_eq_ld, harg1.read_unread, harg2.read_unread, harg3.read_unread, harg4.read_unread, harg5.read_unread, harg7.read_unread, harg8.read_unread,
    View.ld_unit_zero (S := S10000x64) zero_offsets, View.ld_unit_zero (S := S64x64) zero_offsets, View.ld_unit_zero (S := S1x64) zero_offsets]

/-- A later point: the square-sum accumulator is what it held plus the column sums of the block's squares. -/
theorem later_sq (c : Dev nD) (i : grid9.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond9_0 i) (x0 : Vec F S10000x64 .f32) (x1 : Vec F S64x64 .f32) (x2 : Vec F S1x64 .f32) (x3 : Vec F S64x64 .f32) (x4 : Vec F S1x64 .f32) (xo6 : Vec F S1x64 .f32) (xo7 : Vec F S1x64 .f32) :
    out9_B_7 (F := F) c i arg1 harg1 arg2 harg2 arg3 harg3 arg4 harg4 arg5 harg5 arg6 harg6 arg7 harg7 arg8 harg8 hc0 x0 x1 x2 x3 x4 xo6 xo7 = k9_pay1 (k9_pay4 x0 x1 x2 x3 x4) xo7 := by
  unfold out9_B_7
  rw [View.read_writes_eq_canon _ _ _ (cover9_B_7 c i arg1 harg1 arg2 harg2 arg3 harg3 arg4 harg4 arg5 harg5 arg6 harg6 arg7 harg7 arg8 harg8 hc0 x0 x1 x2 x3 x4 xo6 xo7)]
  unfold kernelRun9_B
  dsimp only
  rw [View.canon_unit_zero zero_offsets]
  sl_unfold_run_names
  simp only [View.readAt_eq_ld, harg1.read_unread, harg2.read_unread, harg3.read_unread, harg4.read_unread, harg5.read_unread, harg7.read_unread, harg8.read_unread,
    View.ld_unit_zero (S := S10000x64) zero_offsets, View.ld_unit_zero (S := S64x64) zero_offsets, View.ld_unit_zero (S := S1x64) zero_offsets]

end Cert.KernelIdeal.KerValue.Mlp9

end
-- ==== Proof.RegionMlp9.lean ====
/-
  Region 9 (the per-node map with running column sums), part two: the five grid points together.
  Point t maps rows 10000·t … 10000·t + 9999 of z through  z2 = leaky (z · W₁ + b₁) · W₂ + b₂ ; entry (p, q) of a
  block's two products is entry (10000·t + p, q) of the whole products on the host, term by term, and the leaky
  step is entrywise, so the block is rows of the whole-array map.  The two [1,64] accumulators start from zero at
  point 0 and gain one block's column sums per point; after point 4 they hold  ((((0 + S₀) + S₁) + S₂) + S₃) + S₄ ,
  which is the sum over all 50000 rows (a sum over 5 · 10000 indices is the sum of its 5 blocks, in any commutative
  monoid — the extended reals included, no finiteness asked).  Only point 4 writes the accumulators back.
-/
import proofs.«104584_j17154099380304_2_alg».proof.Proof.RegionMlp9Pieces
import proofs.«104584_j17154099380304_2_alg».proof.Proof.RegionLin0
import proofs.«104584_j17154099380304_2_alg».proof.Proof.LibColumnSum
import proofs.«104584_j17154099380304_2_alg».proof.Proof.LibBlockSum
import proofs.«104584_j17154099380304_2_alg».proof.Proof.VarianceLaw

set_option maxRecDepth 16384
set_option maxHeartbeats 4000000

noncomputable section

open scoped BigOperators

namespace Cert.KernelIdeal.KerValue.Mlp9

open Idealize.ShloMosaic Idealize.ShloMosaic.TcCoe Idealize.SL.Sem Cert.KernelIdeal Cert.KernelIdeal.Gen Idealize.ShloMosaic.Pipeline
open Idealize.ShloMosaic.ValueIdx

/-- One block of 10000 rows. -/
abbrev Blk := Vec Ideal S10000x64 .f32

/-- x · W + b on a block, the product on the vector unit from the zero accumulator. -/
def linBlk (x : Blk) (w : Vec Ideal S64x64 .f32) (b : Vec Ideal S1x64 .f32) : Blk :=
  addf (matmul dot_S10000x64_S64x64_S10000x64_1_0_0_1_n_n none (truncf (F := Ideal) .bf16 x bitsLt_bf16_f32) (truncf (F := Ideal) .bf16 w bitsLt_bf16_f32)
    (constant (F := Ideal) S10000x64 .f32 0x00000000#32)) (broadcastTo S10000x64 b broadcasts_S1x64_S10000x64)
/-- y where y ≥ 0, else 0.01 · y, on a block. -/
def leakyBlk (y : Blk) : Blk :=
  select (cmpf .oge y (broadcast S10000x64 (Scalar.ofBits (F := Ideal) .f32 0x00000000#32))) y
    (mulf (broadcast S10000x64 (Scalar.ofBits (F := Ideal) .f32 0x3C23D70A#32)) y)

/-- The rows' payload is the two-layer map of the loaded blocks. -/
theorem pay4_eq (x0 : Blk) (x1 : Vec Ideal S64x64 .f32) (x2 : Vec Ideal S1x64 .f32) (x3 : Vec Ideal S64x64 .f32) (x4 : Vec Ideal S1x64 .f32) :
    k9_pay4 (F := Ideal) x0 x1 x2 x3 x4 = linBlk (leakyBlk (linBlk x0 x1 x2)) x3 x4 := by
  unfold k9_pay4 linBlk leakyBlk
  simp only [shapeCast_self]

/-- A block's x · W + b at (p, q) is the whole array's at (P, q) when row p of the block is row P of the array. -/
theorem linBlk_apply (x : Blk) (w : Vec Ideal S64x64 .f32) (b : Vec Ideal S1x64 .f32) (A : Cert.Spec.NV) (P : Fin 50000) (p : Fin 10000) (q : Fin 64)
    (hrow : ∀ k : Fin 64, (x (ix2 p k) : EReal) = A (ix2 P k)) :
    linBlk x w b (ix2 p q) = Cert.Spec.linN A w b (ix2 P q) := by
  unfold linBlk
  show FloatOps.matmul (F := Ideal) _ none _ _ _ (ix2 p q) + broadcastTo S10000x64 b broadcasts_S1x64_S10000x64 (ix2 p q) = _
  rw [broadcastTo_1b_ab_apply, Lin0.spec_apply]
  exact congrArg (· + b (ix2 0 q)) (Cert.Lib.RowBlock.matmul_eq_dotGeneral none none .single A w _ _ P p q hrow (fun _ => rfl))

/-- The leaky step at an entry, on a block and on the whole array: the same function of the entry. -/
theorem leakyBlk_apply (y : Blk) (j : S10000x64.Idx) :
    leakyBlk y j = Scalar.select (FloatOps.cmpf .oge (y j) (FloatOps.ofBits (F := Ideal) .f32 0x00000000#32)) (y j)
      (FloatOps.mulf (FloatOps.ofBits (F := Ideal) .f32 0x3C23D70A#32) (y j)) := rfl
theorem leaky_apply (Y : Cert.Spec.NV) (i : S50000x64.Idx) :
    Cert.Spec.leaky Y i = Scalar.select (FloatOps.cmpf .oge (Y i) (FloatOps.ofBits (F := Ideal) .f32 0x00000000#32)) (Y i)
      (FloatOps.mulf (FloatOps.ofBits (F := Ideal) .f32 0x3C23D70A#32) (Y i)) := rfl

/-- The rows' payload at (p, q) is the whole-array map at (P, q) when row p of the z block is row P of z. -/
theorem pay4_apply (x0 : Blk) (x1 : Vec Ideal S64x64 .f32) (x2 : Vec Ideal S1x64 .f32) (x3 : Vec Ideal S64x64 .f32) (x4 : Vec Ideal S1x64 .f32)
    (A : Cert.Spec.NV) (P : Fin 50000) (p : Fin 10000) (q : Fin 64) (hrow : ∀ k : Fin 64, (x0 (ix2 p k) : EReal) = A (ix2 P k)) :
    k9_pay4 (F := Ideal) x0 x1 x2 x3 x4 (ix2 p q) = Cert.Spec.mlp A x1 x2 x3 x4 (ix2 P q) := by
  rw [pay4_eq]
  unfold Cert.Spec.mlp
  exact linBlk_apply _ x3 x4 _ P p q (fun k => by rw [leakyBlk_apply, leaky_apply, linBlk_apply x0 x1 x2 A P p k hrow])

/-- The sum accumulator's payload at channel q: what it held plus the block's column sum. -/
theorem pay5_apply (x0 : Blk) (x1 : Vec Ideal S64x64 .f32) (x2 : Vec Ideal S1x64 .f32) (x3 : Vec Ideal S64x64 .f32) (x4 : Vec Ideal S1x64 .f32)
    (v : Vec Ideal S1x64 .f32) (q : Fin 64) :
    k9_pay5 (F := Ideal) x0 x1 x2 x3 x4 v (ix2 0 q) = v (ix2 0 q) + ∑ p : Fin 10000, k9_pay4 (F := Ideal) x0 x1 x2 x3 x4 (ix2 p q) := by
  unfold k9_pay5
  simp only [shapeCast_self]
  show v (ix2 0 q) + shapeCast S1x64 (multiReduction (F := Ideal) .add [0] S64 (k9_pay4 x0 x1 x2 x3 x4) 0x00000000#32 reduces_S10000x64_S64 (.inl rfl) rfl) shapeCasts_S64_S1x64 (ix2 0 q) = _
  rw [shapeCast_a_1a_apply, ValueKeepdims.colSum_at]

/-- The square-sum accumulator's payload at channel q: what it held plus the column sum of the block's squares. -/
theorem pay1_apply (z : Blk) (v : Vec Ideal S1x64 .f32) (q : Fin 64) :
    k9_pay1 (F := Ideal) z v (ix2 0 q) = v (ix2 0 q) + ∑ p : Fin 10000, z (ix2 p q) * z (ix2 p q) := by
  unfold k9_pay1
  simp only [shapeCast_self]
  show v (ix2 0 q) + shapeCast S1x64 (multiReduction (F := Ideal) .add [0] S64 (mulf z z) 0x00000000#32 reduces_S10000x64_S64 (.inl rfl) rfl) shapeCasts_S64_S1x64 (ix2 0 q) = _
  rw [shapeCast_a_1a_apply, ValueKeepdims.colSum_at]
  rfl

/-- The zeroed accumulators hold zero. -/
theorem pay2_apply (j : S1x64.Idx) : k9_pay2 (F := Ideal) j = 0 := Ideal.ofBits_zero_f32
theorem pay3_apply (j : S1x64.Idx) : k9_pay3 (F := Ideal) j = 0 := Ideal.ofBits_zero_f32

/-- The printed index maps over the grid: z and z2 move with the point along the rows; the weights, the biases and the
    two accumulators stay. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0 :=
  (by decide +kernel : ∀ t : Fin grid9.N, _)

section Points

variable (V : (c : Dev nD) → (b : Ref sig .tc) → Buf (Elt Ideal) ((c : Thread nD τ).loc b)) (c : Dev nD)

/-- The whole-array map of the region's five input arrays. -/
abbrev Z : Cert.Spec.NV := Cert.Spec.mlp (V c (Pipeline.arrRef spec9 0)) (V c (Pipeline.arrRef spec9 1)) (V c (Pipeline.arrRef spec9 2)) (V c (Pipeline.arrRef spec9 3)) (V c (Pipeline.arrRef spec9 4))

/-- The windows over the weights and biases hold the whole arrays at every point. -/
theorem whole_blocks (t : Fin cfg9.N) :
    iblk9 V c 1 t = V c (Pipeline.arrRef spec9 1) ∧ iblk9 V c 2 t = V c (Pipeline.arrRef spec9 2)
    ∧ iblk9 V c 3 t = V c (Pipeline.arrRef spec9 3) ∧ iblk9 V c 4 t = V c (Pipeline.arrRef spec9 4) := by
  obtain ⟨e0, e1, e2, e3, e4, e5, e6, e7, e8, e9, e10, e11, e12, e13, e14, e15⟩ := idx_facts t
  refine ⟨?_, ?_, ?_, ?_⟩
  · funext j
    show V c (Pipeline.arrRef spec9 1) (((cfg9.win 1).blk t).view.emb j) = _
    refine congrArg _ (funext fun a => Fin.ext ?_)
    match a with
    | ⟨0, _⟩ => show win9_1.index t (0 : Fin 2) * 64 + 1 * (j 0).val = (j 0).val; omega
    | ⟨1, _⟩ => show win9_1.index t (1 : Fin 2) * 64 + 1 * (j 1).val = (j 1).val; omega
  · funext j
    show V c (Pipeline.arrRef spec9 2) (((cfg9.win 2).blk t).view.emb j) = _
    refine congrArg _ (funext fun a => Fin.ext ?_)
    match a with
    | ⟨0, _⟩ => show win9_2.index t (0 : Fin 2) * 1 + 1 * (j 0).val = (j 0).val; omega
    | ⟨1, _⟩ => show win9_2.index t (1 : Fin 2) * 64 + 1 * (j 1).val = (j 1).val; omega
  · funext j
    show V c (Pipeline.arrRef spec9 3) (((cfg9.win 3).blk t).view.emb j) = _
    refine congrArg _ (funext fun a => Fin.ext ?_)
    match a with
    | ⟨0, _⟩ => show win9_3.index t (0 : Fin 2) * 64 + 1 * (j 0).val = (j 0).val; omega
    | ⟨1, _⟩ => show win9_3.index t (1 : Fin 2) * 64 + 1 * (j 1).val = (j 1).val; omega
  · funext j
    show V c (Pipeline.arrRef spec9 4) (((cfg9.win 4).blk t).view.emb j) = _
    refine congrArg _ (funext fun a => Fin.ext ?_)
    match a with
    | ⟨0, _⟩ => show win9_4.index t (0 : Fin 2) * 1 + 1 * (j 0).val = (j 0).val; omega
    | ⟨1, _⟩ => show win9_4.index t (1 : Fin 2) * 64 + 1 * (j 1).val = (j 1).val; omega

/-- Row p of point t's z block is row 10000·t + p of z. -/
theorem z_rows (t : Fin cfg9.N) (p : Fin 10000) (hP : t.val * 10000 + p.val < 50000) (kk : Fin 64) :
    (iblk9 V c 0 t (ix2 p kk) : EReal) = V c (Pipeline.arrRef spec9 0) (ix2 (⟨t.val * 10000 + p.val, hP⟩ : Fin 50000) kk) := by
  obtain ⟨e0, e1, e2, e3, e4, e5, e6, e7, e8, e9, e10, e11, e12, e13, e14, e15⟩ := idx_facts t
  show V c (Pipeline.arrRef spec9 0) (((cfg9.win 0).blk t).view.emb (ix2 p kk)) = _
  refine congrArg _ (funext fun a => Fin.ext ?_)
  match a with
  | ⟨0, _⟩ => show win9_0.index t (0 : Fin 2) * 10000 + 1 * p.val = t.val * 10000 + p.val; omega
  | ⟨1, _⟩ => show win9_0.index t (1 : Fin 2) * 64 + 1 * kk.val = kk.val; omega

/-- The rows' payload of point t's blocks, at (p, q): the whole-array map at row 10000·t + p. -/
theorem rows_at (t : Fin cfg9.N) (p : Fin 10000) (q : Fin 64) (hP : t.val * 10000 + p.val < 50000) :
    k9_pay4 (F := Ideal) (iblk9 V c 0 t) (iblk9 V c 1 t) (iblk9 V c 2 t) (iblk9 V c 3 t) (iblk9 V c 4 t) (ix2 p q)
      = Z V c (ix2 (⟨t.val * 10000 + p.val, hP⟩ : Fin 50000) q) := by
  obtain ⟨w1, w2, w3, w4⟩ := whole_blocks V c t
  rw [w1, w2, w3, w4]
  exact pay4_apply _ _ _ _ _ _ _ p q (fun kk => z_rows V c t p hP kk)

/-- z2 read by row number, zero past the last row (so that sums over row numbers need no bound proofs). -/
def zAt (r : ℕ) (q : Fin 64) : EReal := if h : r < 50000 then Z V c (ix2 (⟨r, h⟩ : Fin 50000) q) else 0

/-- What the three output buffers hold after point n: the rows' block, and the two partial sums over blocks 0 … n. -/
theorem after_point : ∀ (n : ℕ) (hn : n < cfg9.N),
    (∀ (p : Fin 10000) (q : Fin 64), (outsAt9 V c n hn).1 (ix2 p q) = zAt V c (n * 10000 + p.val) q)
    ∧ (∀ q : Fin 64, (outsAt9 V c n hn).2.1 (ix2 0 q) = ∑ b : Fin (n + 1), ∑ p : Fin 10000, zAt V c (b.val * 10000 + p.val) q)
    ∧ (∀ q : Fin 64, (outsAt9 V c n hn).2.2 (ix2 0 q) = ∑ b : Fin (n + 1), ∑ p : Fin 10000, zAt V c (b.val * 10000 + p.val) q * zAt V c (b.val * 10000 + p.val) q) := by
  intro n
  induction n with
  | zero =>
    intro hn
    have h5 : (0 : ℕ) < 5 := by decide
    rw [outsAt9_A V c ⟨0, hn⟩ (Nat.zero_mod _)]
    dsimp only
    rw [first_rows, first_sum, first_sq]
    have hrows : ∀ (p : Fin 10000) (q : Fin 64), k9_pay4 (F := Ideal) (iblk9 V c 0 ⟨0, hn⟩) (iblk9 V c 1 ⟨0, hn⟩) (iblk9 V c 2 ⟨0, hn⟩) (iblk9 V c 3 ⟨0, hn⟩) (iblk9 V c 4 ⟨0, hn⟩) (ix2 p q)
        = zAt V c (0 * 10000 + p.val) q := fun p q => by
      have hP : (⟨0, hn⟩ : Fin cfg9.N).val * 10000 + p.val < 50000 := by have := p.isLt; show 0 * 10000 + p.val < 50000; omega
      rw [rows_at V c ⟨0, hn⟩ p q hP]
      unfold zAt
      rw [dif_pos (by show 0 * 10000 + p.val < 50000; have := p.isLt; omega)]
    refine ⟨hrows, fun q => ?_, fun q => ?_⟩
    · rw [pay5_apply, pay2_apply, zero_add, Fin.sum_univ_one]
      exact Finset.sum_congr rfl fun p _ => hrows p q
    · rw [pay1_apply, pay3_apply, zero_add, Fin.sum_univ_one]
      exact Finset.sum_congr rfl fun p _ => by rw [hrows p q]; rfl
  | succ n ih =>
    intro hn
    have hN : n + 1 < 5 := lt_of_lt_of_eq hn N_9
    have hne : ¬ (⟨n + 1, hn⟩ : Fin cfg9.N).val % 5 = 0 := by show ¬ (n + 1) % 5 = 0; omega
    obtain ⟨_, ih1, ih2⟩ := ih (Nat.lt_of_succ_lt hn)
    rw [outsAt9_B V c ⟨n + 1, hn⟩ hne]
    dsimp only
    rw [later_rows, later_sum, later_sq]
    have hrows : ∀ (p : Fin 10000) (q : Fin 64), k9_pay4 (F := Ideal) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (ix2 p q)
        = zAt V c ((n + 1) * 10000 + p.val) q := fun p q => by
      have hP : (⟨n + 1, hn⟩ : Fin cfg9.N).val * 10000 + p.val < 50000 := by have := p.isLt; show (n + 1) * 10000 + p.val < 50000; omega
      rw [rows_at V c ⟨n + 1, hn⟩ p q hP]
      unfold zAt
      rw [dif_pos (by show (n + 1) * 10000 + p.val < 50000; have := p.isLt; omega)]
    refine ⟨hrows, fun q => ?_, fun q => ?_⟩
    · have hsplit : ∑ b : Fin (n + 1 + 1), ∑ p : Fin 10000, zAt V c (b.val * 10000 + p.val) q
          = (∑ b : Fin (n + 1), ∑ p : Fin 10000, zAt V c (b.val * 10000 + p.val) q) + ∑ p : Fin 10000, zAt V c ((n + 1) * 10000 + p.val) q :=
        Fin.sum_univ_castSucc _
      rw [pay5_apply, hsplit]
      have := ih1 q
      simp only [Nat.add_sub_cancel] at this ⊢
      rw [this]
      exact congrArg _ (Finset.sum_congr rfl fun p _ => hrows p q)
    · have hsplit : ∑ b : Fin (n + 1 + 1), ∑ p : Fin 10000, zAt V c (b.val * 10000 + p.val) q * zAt V c (b.val * 10000 + p.val) q
          = (∑ b : Fin (n + 1), ∑ p : Fin 10000, zAt V c (b.val * 10000 + p.val) q * zAt V c (b.val * 10000 + p.val) q)
            + ∑ p : Fin 10000, zAt V c ((n + 1) * 10000 + p.val) q * zAt V c ((n + 1) * 10000 + p.val) q :=
        Fin.sum_univ_castSucc _
      rw [pay1_apply, hsplit]
      have := ih2 q
      simp only [Nat.add_sub_cancel] at this ⊢
      rw [this]
      exact congrArg _ (Finset.sum_congr rfl fun p _ => by rw [hrows p q])

end Points

section Finals

variable (V : (c : Dev nD) → (b : Ref sig .tc) → Buf (Elt Ideal) ((c : Thread nD τ).loc b)) (c : Dev nD)

/-- Five blocks of 10000 consecutive row numbers are the 50000 row numbers. -/
theorem five_blocks (f : ℕ → EReal) :
    ∑ b : Fin (4 + 1), ∑ p : Fin 10000, f (b.val * 10000 + p.val) = ∑ r : Fin 50000, f r.val :=
  (Cert.Lib.BlockSum.sum_blocks 5 10000 (fun i : Fin (5 * 10000) => f i.val)).symm

/-- The partial sums after the fifth point are the column sums over all rows. -/
theorem total_sum (q : Fin 64) :
    ∑ b : Fin (4 + 1), ∑ p : Fin 10000, zAt V c (b.val * 10000 + p.val) q = ∑ r : Fin 50000, Z V c (ix2 r q) := by
  rw [five_blocks (fun r => zAt V c r q)]
  exact Finset.sum_congr rfl fun r _ => by unfold zAt; rw [dif_pos r.isLt]
theorem total_sq (q : Fin 64) :
    ∑ b : Fin (4 + 1), ∑ p : Fin 10000, zAt V c (b.val * 10000 + p.val) q * zAt V c (b.val * 10000 + p.val) q
      = ∑ r : Fin 50000, Cert.Spec.sqr (Z V c) (ix2 r q) := by
  rw [five_blocks (fun r => zAt V c r q * zAt V c r q)]
  exact Finset.sum_congr rfl fun r _ => by unfold zAt; rw [dif_pos r.isLt]; rfl

/-! ### The rows -/

theorem mem_blk5 (t : Fin cfg9.N) (i : S50000x64.Idx) :
    i ∈ ((cfg9.win 5).blk t).view.set ↔ ∀ a : Fin 2, win9_5.index t a * S10000x64.size a ≤ (i a).val ∧ (i a).val < win9_5.index t a * S10000x64.size a + S10000x64.size a := by
  show i ∈ ((View.whole main_v106_0).slice (win9_5.rect t)).set ↔ _
  rw [View.set_slice_whole, Rect.mem_set_unit]
  exact Iff.rfl

theorem flushed5 (t : Fin cfg9.N) :
    (dat9 (F := Ideal) V c).flushed 5 t = ((cfg9.win 5).blk t).view.read (Elt Ideal) (Z V c) := by
  show (cfg9.win 5).cut (grid9.coords t) ((dat9 V c).after 5 t) = _
  rw [after9_5]
  obtain ⟨e0, e1, e2, e3, e4, e5, e6, e7, e8, e9, e10, e11, e12, e13, e14, e15⟩ := idx_facts t
  have ht : t.val < 5 := lt_of_lt_of_eq t.isLt N_9
  funext j
  obtain ⟨p, q, rfl⟩ : ∃ (p : Fin 10000) (q : Fin 64), j = ix2 p q := ⟨j 0, j 1, eq_ix2 j⟩
  show (outsAt9 V c t.val t.isLt).1 (ix2 p q) = Z V c (((cfg9.win 5).blk t).view.emb (ix2 p q))
  rw [(after_point V c t.val t.isLt).1 p q]
  unfold zAt
  rw [dif_pos (by have := p.isLt; omega)]
  refine congrArg _ (funext fun a => Fin.ext ?_)
  match a with
  | ⟨0, _⟩ => show t.val * 10000 + p.val = win9_5.index t (0 : Fin 2) * 10000 + 1 * p.val; omega
  | ⟨1, _⟩ => show q.val = win9_5.index t (1 : Fin 2) * 64 + 1 * q.val; omega

theorem cover5 (i : S50000x64.Idx) : ∃ t : Fin cfg9.N, (cfg9.win 5).flush t = true ∧ i ∈ ((cfg9.win 5).blk t).view.set := by
  have hi0 : (i 0).val < 50000 := (i 0).isLt
  have hi1 : (i 1).val < 64 := (i 1).isLt
  have hN : cfg9.N = 5 := N_9
  let t : Fin cfg9.N := ⟨(i 0).val / 10000, by rw [hN]; omega⟩
  obtain ⟨e0, e1, e2, e3, e4, e5, e6, e7, e8, e9, e10, e11, e12, e13, e14, e15⟩ := idx_facts t
  refine ⟨t, flush9_5 t, ?_⟩
  rw [mem_blk5]
  intro a
  match a with
  | ⟨0, _⟩ => show win9_5.index t (0 : Fin 2) * 10000 ≤ (i 0).val ∧ (i 0).val < win9_5.index t (0 : Fin 2) * 10000 + 10000; rw [e10]; show (i 0).val / 10000 * 10000 ≤ _ ∧ _ < (i 0).val / 10000 * 10000 + 10000; omega
  | ⟨1, _⟩ => show win9_5.index t (1 : Fin 2) * 64 ≤ (i 1).val ∧ (i 1).val < win9_5.index t (1 : Fin 2) * 64 + 64; omega

/-- After the last point the rows' array is the two-layer map of the region's five input arrays. -/
theorem final_rows : (dat9 (F := Ideal) V c).arrAt 5 cfg9.N = Z V c :=
  (dat9 (F := Ideal) V c).arrAt_eq_of_cover 5 _ (fun t _ => flushed5 V c t) cover5

/-! ### The two accumulators: written back by the last point only -/

theorem last_point (t : Fin cfg9.N) (h : t.val % 5 = 4) : t.val = 4 := by
  have ht : t.val < 5 := lt_of_lt_of_eq t.isLt N_9
  omega

theorem mem_blk6 (t : Fin cfg9.N) (i : S1x64.Idx) :
    i ∈ ((cfg9.win 6).blk t).view.set ↔ ∀ a : Fin 2, win9_6.index t a * S1x64.size a ≤ (i a).val ∧ (i a).val < win9_6.index t a * S1x64.size a + S1x64.size a := by
  show i ∈ ((View.whole main_v106_1).slice (win9_6.rect t)).set ↔ _
  rw [View.set_slice_whole, Rect.mem_set_unit]
  exact Iff.rfl
theorem mem_blk7 (t : Fin cfg9.N) (i : S1x64.Idx) :
    i ∈ ((cfg9.win 7).blk t).view.set ↔ ∀ a : Fin 2, win9_7.index t a * S1x64.size a ≤ (i a).val ∧ (i a).val < win9_7.index t a * S1x64.size a + S1x64.size a := by
  show i ∈ ((View.whole main_v106_2).slice (win9_7.rect t)).set ↔ _
  rw [View.set_slice_whole, Rect.mem_set_unit]
  exact Iff.rfl

theorem flushed6 (t : Fin cfg9.N) (hf : (cfg9.win 6).flush t = true) :
    (dat9 (F := Ideal) V c).flushed 6 t = ((cfg9.win 6).blk t).view.read (Elt Ideal) (Cert.Spec.row (Cert.Spec.colSum (Z V c))) := by
  have h4 : t.val = 4 := last_point t ((flush9_6 t).mp hf)
  obtain ⟨tv, htv⟩ := t
  dsimp only at h4
  subst h4
  show (cfg9.win 6).cut (grid9.coords ⟨4, htv⟩) ((dat9 V c).after 6 ⟨4, htv⟩) = _
  rw [after9_6]
  obtain ⟨e0, e1, e2, e3, e4, e5, e6, e7, e8, e9, e10, e11, e12, e13, e14, e15⟩ := idx_facts ⟨4, htv⟩
  funext j
  obtain ⟨u, q, rfl⟩ : ∃ (u : Fin 1) (q : Fin 64), j = ix2 u q := ⟨j 0, j 1, eq_ix2 j⟩
  obtain rfl : u = 0 := Subsingleton.elim _ _
  show (outsAt9 V c 4 htv).2.1 (ix2 0 q) = Cert.Spec.row (Cert.Spec.colSum (Z V c)) (((cfg9.win 6).blk ⟨4, htv⟩).view.emb (ix2 0 q))
  have hemb : ((cfg9.win 6).blk ⟨4, htv⟩).view.emb (ix2 0 q) = ix2 (0 : Fin 1) q := by
    funext a; apply Fin.ext
    match a with
    | ⟨0, _⟩ => show win9_6.index ⟨4, htv⟩ (0 : Fin 2) * 1 + 1 * 0 = 0; omega
    | ⟨1, _⟩ => show win9_6.index ⟨4, htv⟩ (1 : Fin 2) * 64 + 1 * q.val = q.val; omega
  rw [hemb, (after_point V c 4 htv).2.1 q, Cert.Real.row_apply, Cert.Real.colSum_apply Cert.Real.hRed]
  exact total_sum V c q

theorem flushed7 (t : Fin cfg9.N) (hf : (cfg9.win 7).flush t = true) :
    (dat9 (F := Ideal) V c).flushed 7 t = ((cfg9.win 7).blk t).view.read (Elt Ideal) (Cert.Spec.row (Cert.Spec.colSum (Cert.Spec.sqr (Z V c)))) := by
  have h4 : t.val = 4 := last_point t ((flush9_7 t).mp hf)
  obtain ⟨tv, htv⟩ := t
  dsimp only at h4
  subst h4
  show (cfg9.win 7).cut (grid9.coords ⟨4, htv⟩) ((dat9 V c).after 7 ⟨4, htv⟩) = _
  rw [after9_7]
  obtain ⟨e0, e1, e2, e3, e4, e5, e6, e7, e8, e9, e10, e11, e12, e13, e14, e15⟩ := idx_facts ⟨4, htv⟩
  funext j
  obtain ⟨u, q, rfl⟩ : ∃ (u : Fin 1) (q : Fin 64), j = ix2 u q := ⟨j 0, j 1, eq_ix2 j⟩
  obtain rfl : u = 0 := Subsingleton.elim _ _
  show (outsAt9 V c 4 htv).2.2 (ix2 0 q) = Cert.Spec.row (Cert.Spec.colSum (Cert.Spec.sqr (Z V c))) (((cfg9.win 7).blk ⟨4, htv⟩).view.emb (ix2 0 q))
  have hemb : ((cfg9.win 7).blk ⟨4, htv⟩).view.emb (ix2 0 q) = ix2 (0 : Fin 1) q := by
    funext a; apply Fin.ext
    match a with
    | ⟨0, _⟩ => show win9_7.index ⟨4, htv⟩ (0 : Fin 2) * 1 + 1 * 0 = 0; omega
    | ⟨1, _⟩ => show win9_7.index ⟨4, htv⟩ (1 : Fin 2) * 64 + 1 * q.val = q.val; omega
  rw [hemb, (after_point V c 4 htv).2.2 q, Cert.Real.row_apply, Cert.Real.colSum_apply Cert.Real.hRed]
  exact total_sq V c q

theorem cover6 (i : S1x64.Idx) : ∃ t : Fin cfg9.N, (cfg9.win 6).flush t = true ∧ i ∈ ((cfg9.win 6).blk t).view.set := by
  have hi0 : (i 0).val < 1 := (i 0).isLt
  have hi1 : (i 1).val < 64 := (i 1).isLt
  have hN : cfg9.N = 5 := N_9
  let t : Fin cfg9.N := ⟨4, by rw [hN]; decide⟩
  obtain ⟨e0, e1, e2, e3, e4, e5, e6, e7, e8, e9, e10, e11, e12, e13, e14, e15⟩ := idx_facts t
  refine ⟨t, (flush9_6 t).mpr rfl, ?_⟩
  rw [mem_blk6]
  intro a
  match a with
  | ⟨0, _⟩ => show win9_6.index t (0 : Fin 2) * 1 ≤ (i 0).val ∧ (i 0).val < win9_6.index t (0 : Fin 2) * 1 + 1; omega
  | ⟨1, _⟩ => show win9_6.index t (1 : Fin 2) * 64 ≤ (i 1).val ∧ (i 1).val < win9_6.index t (1 : Fin 2) * 64 + 64; omega
theorem cover7 (i : S1x64.Idx) : ∃ t : Fin cfg9.N, (cfg9.win 7).flush t = true ∧ i ∈ ((cfg9.win 7).blk t).view.set := by
  have hi0 : (i 0).val < 1 := (i 0).isLt
  have hi1 : (i 1).val < 64 := (i 1).isLt
  have hN : cfg9.N = 5 := N_9
  let t : Fin cfg9.N := ⟨4, by rw [hN]; decide⟩
  obtain ⟨e0, e1, e2, e3, e4, e5, e6, e7, e8, e9, e10, e11, e12, e13, e14, e15⟩ := idx_facts t
  refine ⟨t, (flush9_7 t).mpr rfl, ?_⟩
  rw [mem_blk7]
  intro a
  match a with
  | ⟨0, _⟩ => show win9_7.index t (0 : Fin 2) * 1 ≤ (i 0).val ∧ (i 0).val < win9_7.index t (0 : Fin 2) * 1 + 1; omega
  | ⟨1, _⟩ => show win9_7.index t (1 : Fin 2) * 64 ≤ (i 1).val ∧ (i 1).val < win9_7.index t (1 : Fin 2) * 64 + 64; omega

/-- After the last point the first accumulator's array is the column sums of z2, as a row. -/
theorem final_sum : (dat9 (F := Ideal) V c).arrAt 6 cfg9.N = Cert.Spec.row (Cert.Spec.colSum (Z V c)) :=
  (dat9 (F := Ideal) V c).arrAt_eq_of_cover 6 _ (fun t hf => flushed6 V c t hf) cover6
/-- After the last point the second accumulator's array is the column sums of z2's squares, as a row. -/
theorem final_sq : (dat9 (F := Ideal) V c).arrAt 7 cfg9.N = Cert.Spec.row (Cert.Spec.colSum (Cert.Spec.sqr (Z V c))) :=
  (dat9 (F := Ideal) V c).arrAt_eq_of_cover 7 _ (fun t hf => flushed7 V c t hf) cover7

end Finals

end Cert.KernelIdeal.KerValue.Mlp9

end
-- ==== Proof.RegionBn4.lean ====
/-
  Region 4 (the normalisation): grid point t reads rows 10000·t … 10000·t + 9999 of z2 and the four [1,64] rows
  μ, v, γ, β whole, and writes back γ · (z2 − μ) · rsqrt (v + ε) + β on those rows, each row operand read at its
  one row; the five row blocks tile the [50000, 64] array.
-/
import proofs.«104584_j17154099380304_2_alg».proof.Proof.KerSpec
import Idealize.ShloMosaic.Lib.Pipeline.Value
import Idealize.ShloMosaic.Lib.ValueIdx
import Idealize.ShloMosaic.Lib.ValueLayout

set_option maxRecDepth 16384
set_option maxHeartbeats 4000000

noncomputable section

namespace Cert.KernelIdeal.KerValue.Bn4

open Idealize.ShloMosaic Idealize.ShloMosaic.TcCoe Idealize.SL.Sem Cert.KernelIdeal Cert.KernelIdeal.Gen Idealize.ShloMosaic.Pipeline
open Idealize.ShloMosaic.ValueIdx

theorem zero_offsets : (![0, 0] : Fin 2 → Nat) = fun _ => 0 := funext fun a => by fin_cases a <;> rfl

/-- The payload at entry (p, q), in the order the body loads its operands (z2, v, γ, μ, β). -/
theorem pay_apply (x0 : Vec Ideal S10000x64 .f32) (xv xg xm xb : Vec Ideal S1x64 .f32) (p : Fin 10000) (q : Fin 64) :
    k4_pay1 (F := Ideal) x0 xv xg xm xb (ix2 p q)
      = xg (ix2 0 q) * (x0 (ix2 p q) - xm (ix2 0 q)) * Ideal.rsqrt (xv (ix2 0 q) + Ideal.ofBits .f32 0x3727C5AC#32) + xb (ix2 0 q) := by
  unfold k4_pay1
  simp only [shapeCast_self, addf, mulf, subf, rsqrt, broadcast]
  rw [broadcastTo_1b_ab_apply, broadcastTo_1b_ab_apply, broadcastTo_1b_ab_apply, broadcastTo_1b_ab_apply]
  rfl

/-- The specification at entry (P, q). -/
theorem spec_apply (z2 : Cert.Spec.NV) (mean var γ β : Cert.Spec.RowV) (P : Fin 50000) (q : Fin 64) :
    Cert.Spec.bnorm z2 mean var γ β (ix2 P q)
      = γ (ix2 0 q) * (z2 (ix2 P q) - mean (ix2 0 q)) * Ideal.rsqrt (var (ix2 0 q) + Ideal.ofBits .f32 0x3727C5AC#32) + β (ix2 0 q) := by
  have hb : ∀ r : Cert.Spec.RowV, Cert.Spec.bN r (ix2 P q) = r (ix2 0 q) := fun r => by
    unfold Cert.Spec.bN
    exact broadcastInDim_apply _ _ r (ix2 P q) (ix2 0 q) (fun a => by match a with | ⟨0, _⟩ => rfl | ⟨1, _⟩ => rfl)
  unfold Cert.Spec.bnorm
  simp only [addf, mulf, subf, Host.rsqrt]
  rw [hb, hb, hb, hb]
  rfl

/-- The printed index maps over the grid: z2 and the result move with the point along the rows; the rows stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- A whole [1,64] row window's block is the row itself. -/
theorem row_read (V : (c : Dev nD) → (b : Ref sig .tc) → Buf (Elt Ideal) ((c : Thread nD τ).loc b)) (c : Dev nD) (t : Fin cfg4.N) (q : Fin 64) :
    iblk4 V c 1 t (ix2 0 q) = V c (Pipeline.arrRef spec4 1) (ix2 0 q)
    ∧ iblk4 V c 2 t (ix2 0 q) = V c (Pipeline.arrRef spec4 2) (ix2 0 q)
    ∧ iblk4 V c 3 t (ix2 0 q) = V c (Pipeline.arrRef spec4 3) (ix2 0 q)
    ∧ iblk4 V c 4 t (ix2 0 q) = V c (Pipeline.arrRef spec4 4) (ix2 0 q) := by
  obtain ⟨e0, e1, e2, e3, e4, e5, e6, e7, e8, e9, e10, e11⟩ := idx_facts t
  refine ⟨?_, ?_, ?_, ?_⟩
  · show V c (Pipeline.arrRef spec4 1) (((cfg4.win 1).blk t).view.emb (ix2 0 q)) = _
    refine congrArg _ (funext fun a => Fin.ext ?_)
    match a with
    | ⟨0, _⟩ => show win4_1.index t (0 : Fin 2) * 1 + 1 * 0 = 0; omega
    | ⟨1, _⟩ => show win4_1.index t (1 : Fin 2) * 64 + 1 * q.val = q.val; omega
  · show V c (Pipeline.arrRef spec4 2) (((cfg4.win 2).blk t).view.emb (ix2 0 q)) = _
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * q.val = q.val; omega
  · show V c (Pipeline.arrRef spec4 3) (((cfg4.win 3).blk t).view.emb (ix2 0 q)) = _
    refine congrArg _ (funext fun a => Fin.ext ?_)
    match a with
    | ⟨0, _⟩ => show win4_3.index t (0 : Fin 2) * 1 + 1 * 0 = 0; omega
    | ⟨1, _⟩ => show win4_3.index t (1 : Fin 2) * 64 + 1 * q.val = q.val; omega
  · show V c (Pipeline.arrRef spec4 4) (((cfg4.win 4).blk t).view.emb (ix2 0 q)) = _
    refine congrArg _ (funext fun a => Fin.ext ?_)
    match a with
    | ⟨0, _⟩ => show win4_4.index t (0 : Fin 2) * 1 + 1 * 0 = 0; omega
    | ⟨1, _⟩ => show win4_4.index t (1 : Fin 2) * 64 + 1 * q.val = q.val; omega

/-- What point t writes back is block t of the normalised array. -/
theorem flushed_eq (V : (c : Dev nD) → (b : Ref sig .tc) → Buf (Elt Ideal) ((c : Thread nD τ).loc b)) (c : Dev nD) (t : Fin cfg4.N) :
    (dat4 (F := Ideal) V c).flushed 5 t
      = ((cfg4.win 5).blk t).view.read (Elt Ideal)
          (Cert.Spec.bnorm (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 V c).after 5 t) = _
  rw [after4_5]
  unfold out4_5
  rw [View.canon_unit_zero zero_offsets]
  simp only [View.ld_unit_zero (S := S10000x64) zero_offsets, View.ld_unit_zero (S := S1x64) zero_offsets]
  obtain ⟨e0, e1, e2, e3, e4, e5, e6, e7, e8, e9, e10, e11⟩ := idx_facts t
  have ht : t.val < 5 := lt_of_lt_of_eq t.isLt N_4
  funext j
  obtain ⟨p, q, rfl⟩ : ∃ (p : Fin 10000) (q : Fin 64), j = ix2 p q := ⟨j 0, j 1, eq_ix2 j⟩
  show k4_pay1 (F := Ideal) (iblk4 V c 0 t) (iblk4 V c 2 t) (iblk4 V c 3 t) (iblk4 V c 1 t) (iblk4 V c 4 t) (ix2 p q)
    = Cert.Spec.bnorm (V c (Pipeline.arrRef spec4 0)) (V c (Pipeline.arrRef spec4 1)) (V c (Pipeline.arrRef spec4 2)) (V c (Pipeline.arrRef spec4 3)) (V c (Pipeline.arrRef spec4 4)) (((cfg4.win 5).blk t).view.emb (ix2 p q))
  have hemb : ((cfg4.win 5).blk t).view.emb (ix2 p q) = ix2 (⟨t.val * 10000 + p.val, by omega⟩ : Fin 50000) q := by
    funext a; apply Fin.ext
    match a with
    | ⟨0, _⟩ => show win4_5.index t (0 : Fin 2) * 10000 + 1 * p.val = t.val * 10000 + p.val; omega
    | ⟨1, _⟩ => show win4_5.index t (1 : Fin 2) * 64 + 1 * q.val = q.val; omega
  have hz : iblk4 V c 0 t (ix2 p q) = V c (Pipeline.arrRef spec4 0) (ix2 (⟨t.val * 10000 + p.val, by omega⟩ : Fin 50000) q) := by
    show V c (Pipeline.arrRef spec4 0) (((cfg4.win 0).blk t).view.emb (ix2 p q)) = _
    refine congrArg _ (funext fun a => Fin.ext ?_)
    match a with
    | ⟨0, _⟩ => show win4_0.index t (0 : Fin 2) * 10000 + 1 * p.val = t.val * 10000 + p.val; omega
    | ⟨1, _⟩ => show win4_0.index t (1 : Fin 2) * 64 + 1 * q.val = q.val; omega
  obtain ⟨r1, r2, r3, r4⟩ := row_read V c t q
  rw [hemb, pay_apply, spec_apply, hz, r1, r2, r3, r4]

/-- An index of the array is in point t's block iff each coordinate is in the block's range on its axis. -/
theorem mem_blk (t : Fin cfg4.N) (i : S50000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v45).slice (win4_5.rect t)).set ↔ _
  rw [View.set_slice_whole, Rect.mem_set_unit]
  exact Iff.rfl

/-- Every row is in the block of the point its row number divided by 10000 names. -/
theorem cover (i : S50000x64.Idx) : ∃ t : Fin cfg4.N, (cfg4.win 5).flush t = true ∧ i ∈ ((cfg4.win 5).blk t).view.set := by
  have hi0 : (i 0).val < 50000 := (i 0).isLt
  have hi1 : (i 1).val < 64 := (i 1).isLt
  have hN : cfg4.N = 5 := N_4
  let t : Fin cfg4.N := ⟨(i 0).val / 10000, by rw [hN]; omega⟩
  obtain ⟨e0, e1, e2, e3, e4, e5, e6, e7, e8, e9, e10, e11⟩ := idx_facts t
  refine ⟨t, flush4_5 t, ?_⟩
  rw [mem_blk]
  intro a
  match a with
  | ⟨0, _⟩ => show win4_5.index t (0 : Fin 2) * 10000 ≤ (i 0).val ∧ (i 0).val < win4_5.index t (0 : Fin 2) * 10000 + 10000; rw [e10]; show (i 0).val / 10000 * 10000 ≤ _ ∧ _ < (i 0).val / 10000 * 10000 + 10000; omega
  | ⟨1, _⟩ => show win4_5.index t (1 : Fin 2) * 64 ≤ (i 1).val ∧ (i 1).val < win4_5.index t (1 : Fin 2) * 64 + 64; omega

/-- After the last point the result array is the normalised array of the region's five input arrays. -/
theorem final (V : (c : Dev nD) → (b : Ref sig .tc) → Buf (Elt Ideal) ((c : Thread nD τ).loc b)) (c : Dev nD) : (dat4 (F := Ideal) V c).arrAt 5 cfg4.N
    = Cert.Spec.bnorm (V c (Pipeline.arrRef spec4 0)) (V c (Pipeline.arrRef spec4 1)) (V c (Pipeline.arrRef spec4 2)) (V c (Pipeline.arrRef spec4 3)) (V c (Pipeline.arrRef spec4 4)) :=
  (dat4 (F := Ideal) V c).arrAt_eq_of_cover 5 _ (fun t _ => flushed_eq V c t) cover

end Cert.KernelIdeal.KerValue.Bn4

end
-- ==== Proof.RegionBn7.lean ====
/-
  Region 7 (the normalisation): grid point t reads rows 10000·t … 10000·t + 9999 of z2 and the four [1,64] rows
  μ, v, γ, β whole, and writes back γ · (z2 − μ) · rsqrt (v + ε) + β on those rows, each row operand read at its
  one row; the five row blocks tile the [50000, 64] array.
-/
import proofs.«104584_j17154099380304_2_alg».proof.Proof.KerSpec
import Idealize.ShloMosaic.Lib.Pipeline.Value
import Idealize.ShloMosaic.Lib.ValueIdx
import Idealize.ShloMosaic.Lib.ValueLayout

set_option maxRecDepth 16384
set_option maxHeartbeats 4000000

noncomputable section

namespace Cert.KernelIdeal.KerValue.Bn7

open Idealize.ShloMosaic Idealize.ShloMosaic.TcCoe Idealize.SL.Sem Cert.KernelIdeal Cert.KernelIdeal.Gen Idealize.ShloMosaic.Pipeline
open Idealize.ShloMosaic.ValueIdx

theorem zero_offsets : (![0, 0] : Fin 2 → Nat) = fun _ => 0 := funext fun a => by fin_cases a <;> rfl

/-- The payload at entry (p, q), in the order the body loads its operands (z2, v, γ, μ, β). -/
theorem pay_apply (x0 : Vec Ideal S10000x64 .f32) (xv xg xm xb : Vec Ideal S1x64 .f32) (p : Fin 10000) (q : Fin 64) :
    k7_pay1 (F := Ideal) x0 xv xg xm xb (ix2 p q)
      = xg (ix2 0 q) * (x0 (ix2 p q) - xm (ix2 0 q)) * Ideal.rsqrt (xv (ix2 0 q) + Ideal.ofBits .f32 0x3727C5AC#32) + xb (ix2 0 q) := by
  unfold k7_pay1
  simp only [shapeCast_self, addf, mulf, subf, rsqrt, broadcast]
  rw [broadcastTo_1b_ab_apply, broadcastTo_1b_ab_apply, broadcastTo_1b_ab_apply, broadcastTo_1b_ab_apply]
  rfl

/-- The specification at entry (P, q). -/
theorem spec_apply (z2 : Cert.Spec.NV) (mean var γ β : Cert.Spec.RowV) (P : Fin 50000) (q : Fin 64) :
    Cert.Spec.bnorm z2 mean var γ β (ix2 P q)
      = γ (ix2 0 q) * (z2 (ix2 P q) - mean (ix2 0 q)) * Ideal.rsqrt (var (ix2 0 q) + Ideal.ofBits .f32 0x3727C5AC#32) + β (ix2 0 q) := by
  have hb : ∀ r : Cert.Spec.RowV, Cert.Spec.bN r (ix2 P q) = r (ix2 0 q) := fun r => by
    unfold Cert.Spec.bN
    exact broadcastInDim_apply _ _ r (ix2 P q) (ix2 0 q) (fun a => by match a with | ⟨0, _⟩ => rfl | ⟨1, _⟩ => rfl)
  unfold Cert.Spec.bnorm
  simp only [addf, mulf, subf, Host.rsqrt]
  rw [hb, hb, hb, hb]
  rfl

/-- The printed index maps over the grid: z2 and the result move with the point along the rows; the rows stay. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- A whole [1,64] row window's block is the row itself. -/
theorem row_read (V : (c : Dev nD) → (b : Ref sig .tc) → Buf (Elt Ideal) ((c : Thread nD τ).loc b)) (c : Dev nD) (t : Fin cfg7.N) (q : Fin 64) :
    iblk7 V c 1 t (ix2 0 q) = V c (Pipeline.arrRef spec7 1) (ix2 0 q)
    ∧ iblk7 V c 2 t (ix2 0 q) = V c (Pipeline.arrRef spec7 2) (ix2 0 q)
    ∧ iblk7 V c 3 t (ix2 0 q) = V c (Pipeline.arrRef spec7 3) (ix2 0 q)
    ∧ iblk7 V c 4 t (ix2 0 q) = V c (Pipeline.arrRef spec7 4) (ix2 0 q) := by
  obtain ⟨e0, e1, e2, e3, e4, e5, e6, e7, e8, e9, e10, e11⟩ := idx_facts t
  refine ⟨?_, ?_, ?_, ?_⟩
  · show V c (Pipeline.arrRef spec7 1) (((cfg7.win 1).blk t).view.emb (ix2 0 q)) = _
    refine congrArg _ (funext fun a => Fin.ext ?_)
    match a with
    | ⟨0, _⟩ => show win7_1.index t (0 : Fin 2) * 1 + 1 * 0 = 0; omega
    | ⟨1, _⟩ => show win7_1.index t (1 : Fin 2) * 64 + 1 * q.val = q.val; omega
  · show V c (Pipeline.arrRef spec7 2) (((cfg7.win 2).blk t).view.emb (ix2 0 q)) = _
    refine congrArg _ (funext fun a => Fin.ext ?_)
    match a with
    | ⟨0, _⟩ => show win7_2.index t (0 : Fin 2) * 1 + 1 * 0 = 0; omega
    | ⟨1, _⟩ => show win7_2.index t (1 : Fin 2) * 64 + 1 * q.val = q.val; omega
  · show V c (Pipeline.arrRef spec7 3) (((cfg7.win 3).blk t).view.emb (ix2 0 q)) = _
    refine congrArg _ (funext fun a => Fin.ext ?_)
    match a with
    | ⟨0, _⟩ => show win7_3.index t (0 : Fin 2) * 1 + 1 * 0 = 0; omega
    | ⟨1, _⟩ => show win7_3.index t (1 : Fin 2) * 64 + 1 * q.val = q.val; omega
  · show V c (Pipeline.arrRef spec7 4) (((cfg7.win 4).blk t).view.emb (ix2 0 q)) = _
    refine congrArg _ (funext fun a => Fin.ext ?_)
    match a with
    | ⟨0, _⟩ => show win7_4.index t (0 : Fin 2) * 1 + 1 * 0 = 0; omega
    | ⟨1, _⟩ => show win7_4.index t (1 : Fin 2) * 64 + 1 * q.val = q.val; omega

/-- What point t writes back is block t of the normalised array. -/
theorem flushed_eq (V : (c : Dev nD) → (b : Ref sig .tc) → Buf (Elt Ideal) ((c : Thread nD τ).loc b)) (c : Dev nD) (t : Fin cfg7.N) :
    (dat7 (F := Ideal) V c).flushed 5 t
      = ((cfg7.win 5).blk t).view.read (Elt Ideal)
          (Cert.Spec.bnorm (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero zero_offsets]
  simp only [View.ld_unit_zero (S := S10000x64) zero_offsets, View.ld_unit_zero (S := S1x64) zero_offsets]
  obtain ⟨e0, e1, e2, e3, e4, e5, e6, e7, e8, e9, e10, e11⟩ := idx_facts t
  have ht : t.val < 5 := lt_of_lt_of_eq t.isLt N_7
  funext j
  obtain ⟨p, q, rfl⟩ : ∃ (p : Fin 10000) (q : Fin 64), j = ix2 p q := ⟨j 0, j 1, eq_ix2 j⟩
  show k7_pay1 (F := Ideal) (iblk7 V c 0 t) (iblk7 V c 2 t) (iblk7 V c 3 t) (iblk7 V c 1 t) (iblk7 V c 4 t) (ix2 p q)
    = Cert.Spec.bnorm (V c (Pipeline.arrRef spec7 0)) (V c (Pipeline.arrRef spec7 1)) (V c (Pipeline.arrRef spec7 2)) (V c (Pipeline.arrRef spec7 3)) (V c (Pipeline.arrRef spec7 4)) (((cfg7.win 5).blk t).view.emb (ix2 p q))
  have hemb : ((cfg7.win 5).blk t).view.emb (ix2 p q) = ix2 (⟨t.val * 10000 + p.val, by omega⟩ : Fin 50000) q := by
    funext a; apply Fin.ext
    match a with
    | ⟨0, _⟩ => show win7_5.index t (0 : Fin 2) * 10000 + 1 * p.val = t.val * 10000 + p.val; omega
    | ⟨1, _⟩ => show win7_5.index t (1 : Fin 2) * 64 + 1 * q.val = q.val; omega
  have hz : iblk7 V c 0 t (ix2 p q) = V c (Pipeline.arrRef spec7 0) (ix2 (⟨t.val * 10000 + p.val, by omega⟩ : Fin 50000) q) := by
    show V c (Pipeline.arrRef spec7 0) (((cfg7.win 0).blk t).view.emb (ix2 p q)) = _
    refine congrArg _ (funext fun a => Fin.ext ?_)
    match a with
    | ⟨0, _⟩ => show win7_0.index t (0 : Fin 2) * 10000 + 1 * p.val = t.val * 10000 + p.val; omega
    | ⟨1, _⟩ => show win7_0.index t (1 : Fin 2) * 64 + 1 * q.val = q.val; omega
  obtain ⟨r1, r2, r3, r4⟩ := row_read V c t q
  rw [hemb, pay_apply, spec_apply, hz, r1, r2, r3, r4]

/-- An index of the array is in point t's block iff each coordinate is in the block's range on its axis. -/
theorem mem_blk (t : Fin cfg7.N) (i : S50000x64.Idx) :
    i ∈ ((cfg7.win 5).blk t).view.set ↔ ∀ a : Fin 2, win7_5.index t a * S10000x64.size a ≤ (i a).val ∧ (i a).val < win7_5.index t a * S10000x64.size a + S10000x64.size a := by
  show i ∈ ((View.whole main_v83).slice (win7_5.rect t)).set ↔ _
  rw [View.set_slice_whole, Rect.mem_set_unit]
  exact Iff.rfl

/-- Every row is in the block of the point its row number divided by 10000 names. -/
theorem cover (i : S50000x64.Idx) : ∃ t : Fin cfg7.N, (cfg7.win 5).flush t = true ∧ i ∈ ((cfg7.win 5).blk t).view.set := by
  have hi0 : (i 0).val < 50000 := (i 0).isLt
  have hi1 : (i 1).val < 64 := (i 1).isLt
  have hN : cfg7.N = 5 := N_7
  let t : Fin cfg7.N := ⟨(i 0).val / 10000, by rw [hN]; omega⟩
  obtain ⟨e0, e1, e2, e3, e4, e5, e6, e7, e8, e9, e10, e11⟩ := idx_facts t
  refine ⟨t, flush7_5 t, ?_⟩
  rw [mem_blk]
  intro a
  match a with
  | ⟨0, _⟩ => show win7_5.index t (0 : Fin 2) * 10000 ≤ (i 0).val ∧ (i 0).val < win7_5.index t (0 : Fin 2) * 10000 + 10000; rw [e10]; show (i 0).val / 10000 * 10000 ≤ _ ∧ _ < (i 0).val / 10000 * 10000 + 10000; omega
  | ⟨1, _⟩ => show win7_5.index t (1 : Fin 2) * 64 ≤ (i 1).val ∧ (i 1).val < win7_5.index t (1 : Fin 2) * 64 + 64; omega

/-- After the last point the result array is the normalised array of the region's five input arrays. -/
theorem final (V : (c : Dev nD) → (b : Ref sig .tc) → Buf (Elt Ideal) ((c : Thread nD τ).loc b)) (c : Dev nD) : (dat7 (F := Ideal) V c).arrAt 5 cfg7.N
    = Cert.Spec.bnorm (V c (Pipeline.arrRef spec7 0)) (V c (Pipeline.arrRef spec7 1)) (V c (Pipeline.arrRef spec7 2)) (V c (Pipeline.arrRef spec7 3)) (V c (Pipeline.arrRef spec7 4)) :=
  (dat7 (F := Ideal) V c).arrAt_eq_of_cover 5 _ (fun t _ => flushed_eq V c t) cover

end Cert.KernelIdeal.KerValue.Bn7

end
-- ==== Proof.RegionBn10.lean ====
/-
  Region 10 (the normalisation): grid point t reads rows 10000·t … 10000·t + 9999 of z2 and the four [1,64] rows
  μ, v, γ, β whole, and writes back γ · (z2 − μ) · rsqrt (v + ε) + β on those rows, each row operand read at its
  one row; the five row blocks tile the [50000, 64] array.
-/
import proofs.«104584_j17154099380304_2_alg».proof.Proof.KerSpec
import Idealize.ShloMosaic.Lib.Pipeline.Value
import Idealize.ShloMosaic.Lib.ValueIdx
import Idealize.ShloMosaic.Lib.ValueLayout

set_option maxRecDepth 16384
set_option maxHeartbeats 4000000

noncomputable section

namespace Cert.KernelIdeal.KerValue.Bn10

open Idealize.ShloMosaic Idealize.ShloMosaic.TcCoe Idealize.SL.Sem Cert.KernelIdeal Cert.KernelIdeal.Gen Idealize.ShloMosaic.Pipeline
open Idealize.ShloMosaic.ValueIdx

theorem zero_offsets : (![0, 0] : Fin 2 → Nat) = fun _ => 0 := funext fun a => by fin_cases a <;> rfl

/-- The payload at entry (p, q), in the order the body loads its operands (z2, v, γ, μ, β). -/
theorem pay_apply (x0 : Vec Ideal S10000x64 .f32) (xv xg xm xb : Vec Ideal S1x64 .f32) (p : Fin 10000) (q : Fin 64) :
    k10_pay1 (F := Ideal) x0 xv xg xm xb (ix2 p q)
      = xg (ix2 0 q) * (x0 (ix2 p q) - xm (ix2 0 q)) * Ideal.rsqrt (xv (ix2 0 q) + Ideal.ofBits .f32 0x3727C5AC#32) + xb (ix2 0 q) := by
  unfold k10_pay1
  simp only [shapeCast_self, addf, mulf, subf, rsqrt, broadcast]
  rw [broadcastTo_1b_ab_apply, broadcastTo_1b_ab_apply, broadcastTo_1b_ab_apply, broadcastTo_1b_ab_apply]
  rfl

/-- The specification at entry (P, q). -/
theorem spec_apply (z2 : Cert.Spec.NV) (mean var γ β : Cert.Spec.RowV) (P : Fin 50000) (q : Fin 64) :
    Cert.Spec.bnorm z2 mean var γ β (ix2 P q)
      = γ (ix2 0 q) * (z2 (ix2 P q) - mean (ix2 0 q)) * Ideal.rsqrt (var (ix2 0 q) + Ideal.ofBits .f32 0x3727C5AC#32) + β (ix2 0 q) := by
  have hb : ∀ r : Cert.Spec.RowV, Cert.Spec.bN r (ix2 P q) = r (ix2 0 q) := fun r => by
    unfold Cert.Spec.bN
    exact broadcastInDim_apply _ _ r (ix2 P q) (ix2 0 q) (fun a => by match a with | ⟨0, _⟩ => rfl | ⟨1, _⟩ => rfl)
  unfold Cert.Spec.bnorm
  simp only [addf, mulf, subf, Host.rsqrt]
  rw [hb, hb, hb, hb]
  rfl

/-- The printed index maps over the grid: z2 and the result move with the point along the rows; the rows stay. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- A whole [1,64] row window's block is the row itself. -/
theorem row_read (V : (c : Dev nD) → (b : Ref sig .tc) → Buf (Elt Ideal) ((c : Thread nD τ).loc b)) (c : Dev nD) (t : Fin cfg10.N) (q : Fin 64) :
    iblk10 V c 1 t (ix2 0 q) = V c (Pipeline.arrRef spec10 1) (ix2 0 q)
    ∧ iblk10 V c 2 t (ix2 0 q) = V c (Pipeline.arrRef spec10 2) (ix2 0 q)
    ∧ iblk10 V c 3 t (ix2 0 q) = V c (Pipeline.arrRef spec10 3) (ix2 0 q)
    ∧ iblk10 V c 4 t (ix2 0 q) = V c (Pipeline.arrRef spec10 4) (ix2 0 q) := by
  obtain ⟨e0, e1, e2, e3, e4, e5, e6, e7, e8, e9, e10, e11⟩ := idx_facts t
  refine ⟨?_, ?_, ?_, ?_⟩
  · show V c (Pipeline.arrRef spec10 1) (((cfg10.win 1).blk t).view.emb (ix2 0 q)) = _
    refine congrArg _ (funext fun a => Fin.ext ?_)
    match a with
    | ⟨0, _⟩ => show win10_1.index t (0 : Fin 2) * 1 + 1 * 0 = 0; omega
    | ⟨1, _⟩ => show win10_1.index t (1 : Fin 2) * 64 + 1 * q.val = q.val; omega
  · show V c (Pipeline.arrRef spec10 2) (((cfg10.win 2).blk t).view.emb (ix2 0 q)) = _
    refine congrArg _ (funext fun a => Fin.ext ?_)
    match a with
    | ⟨0, _⟩ => show win10_2.index t (0 : Fin 2) * 1 + 1 * 0 = 0; omega
    | ⟨1, _⟩ => show win10_2.index t (1 : Fin 2) * 64 + 1 * q.val = q.val; omega
  · show V c (Pipeline.arrRef spec10 3) (((cfg10.win 3).blk t).view.emb (ix2 0 q)) = _
    refine congrArg _ (funext fun a => Fin.ext ?_)
    match a with
    | ⟨0, _⟩ => show win10_3.index t (0 : Fin 2) * 1 + 1 * 0 = 0; omega
    | ⟨1, _⟩ => show win10_3.index t (1 : Fin 2) * 64 + 1 * q.val = q.val; omega
  · show V c (Pipeline.arrRef spec10 4) (((cfg10.win 4).blk t).view.emb (ix2 0 q)) = _
    refine congrArg _ (funext fun a => Fin.ext ?_)
    match a with
    | ⟨0, _⟩ => show win10_4.index t (0 : Fin 2) * 1 + 1 * 0 = 0; omega
    | ⟨1, _⟩ => show win10_4.index t (1 : Fin 2) * 64 + 1 * q.val = q.val; omega

/-- What point t writes back is block t of the normalised array. -/
theorem flushed_eq (V : (c : Dev nD) → (b : Ref sig .tc) → Buf (Elt Ideal) ((c : Thread nD τ).loc b)) (c : Dev nD) (t : Fin cfg10.N) :
    (dat10 (F := Ideal) V c).flushed 5 t
      = ((cfg10.win 5).blk t).view.read (Elt Ideal)
          (Cert.Spec.bnorm (V c (Pipeline.arrRef spec10 0)) (V c (Pipeline.arrRef spec10 1)) (V c (Pipeline.arrRef spec10 2)) (V c (Pipeline.arrRef spec10 3)) (V c (Pipeline.arrRef spec10 4))) := by
  show (cfg10.win 5).cut (grid10.coords t) ((dat10 V c).after 5 t) = _
  rw [after10_5]
  unfold out10_5
  rw [View.canon_unit_zero zero_offsets]
  simp only [View.ld_unit_zero (S := S10000x64) zero_offsets, View.ld_unit_zero (S := S1x64) zero_offsets]
  obtain ⟨e0, e1, e2, e3, e4, e5, e6, e7, e8, e9, e10, e11⟩ := idx_facts t
  have ht : t.val < 5 := lt_of_lt_of_eq t.isLt N_10
  funext j
  obtain ⟨p, q, rfl⟩ : ∃ (p : Fin 10000) (q : Fin 64), j = ix2 p q := ⟨j 0, j 1, eq_ix2 j⟩
  show k10_pay1 (F := Ideal) (iblk10 V c 0 t) (iblk10 V c 2 t) (iblk10 V c 3 t) (iblk10 V c 1 t) (iblk10 V c 4 t) (ix2 p q)
    = Cert.Spec.bnorm (V c (Pipeline.arrRef spec10 0)) (V c (Pipeline.arrRef spec10 1)) (V c (Pipeline.arrRef spec10 2)) (V c (Pipeline.arrRef spec10 3)) (V c (Pipeline.arrRef spec10 4)) (((cfg10.win 5).blk t).view.emb (ix2 p q))
  have hemb : ((cfg10.win 5).blk t).view.emb (ix2 p q) = ix2 (⟨t.val * 10000 + p.val, by omega⟩ : Fin 50000) q := by
    funext a; apply Fin.ext
    match a with
    | ⟨0, _⟩ => show win10_5.index t (0 : Fin 2) * 10000 + 1 * p.val = t.val * 10000 + p.val; omega
    | ⟨1, _⟩ => show win10_5.index t (1 : Fin 2) * 64 + 1 * q.val = q.val; omega
  have hz : iblk10 V c 0 t (ix2 p q) = V c (Pipeline.arrRef spec10 0) (ix2 (⟨t.val * 10000 + p.val, by omega⟩ : Fin 50000) q) := by
    show V c (Pipeline.arrRef spec10 0) (((cfg10.win 0).blk t).view.emb (ix2 p q)) = _
    refine congrArg _ (funext fun a => Fin.ext ?_)
    match a with
    | ⟨0, _⟩ => show win10_0.index t (0 : Fin 2) * 10000 + 1 * p.val = t.val * 10000 + p.val; omega
    | ⟨1, _⟩ => show win10_0.index t (1 : Fin 2) * 64 + 1 * q.val = q.val; omega
  obtain ⟨r1, r2, r3, r4⟩ := row_read V c t q
  rw [hemb, pay_apply, spec_apply, hz, r1, r2, r3, r4]

/-- An index of the array is in point t's block iff each coordinate is in the block's range on its axis. -/
theorem mem_blk (t : Fin cfg10.N) (i : S50000x64.Idx) :
    i ∈ ((cfg10.win 5).blk t).view.set ↔ ∀ a : Fin 2, win10_5.index t a * S10000x64.size a ≤ (i a).val ∧ (i a).val < win10_5.index t a * S10000x64.size a + S10000x64.size a := by
  show i ∈ ((View.whole main_v121).slice (win10_5.rect t)).set ↔ _
  rw [View.set_slice_whole, Rect.mem_set_unit]
  exact Iff.rfl

/-- Every row is in the block of the point its row number divided by 10000 names. -/
theorem cover (i : S50000x64.Idx) : ∃ t : Fin cfg10.N, (cfg10.win 5).flush t = true ∧ i ∈ ((cfg10.win 5).blk t).view.set := by
  have hi0 : (i 0).val < 50000 := (i 0).isLt
  have hi1 : (i 1).val < 64 := (i 1).isLt
  have hN : cfg10.N = 5 := N_10
  let t : Fin cfg10.N := ⟨(i 0).val / 10000, by rw [hN]; omega⟩
  obtain ⟨e0, e1, e2, e3, e4, e5, e6, e7, e8, e9, e10, e11⟩ := idx_facts t
  refine ⟨t, flush10_5 t, ?_⟩
  rw [mem_blk]
  intro a
  match a with
  | ⟨0, _⟩ => show win10_5.index t (0 : Fin 2) * 10000 ≤ (i 0).val ∧ (i 0).val < win10_5.index t (0 : Fin 2) * 10000 + 10000; rw [e10]; show (i 0).val / 10000 * 10000 ≤ _ ∧ _ < (i 0).val / 10000 * 10000 + 10000; omega
  | ⟨1, _⟩ => show win10_5.index t (1 : Fin 2) * 64 ≤ (i 1).val ∧ (i 1).val < win10_5.index t (1 : Fin 2) * 64 + 64; omega

/-- After the last point the result array is the normalised array of the region's five input arrays. -/
theorem final (V : (c : Dev nD) → (b : Ref sig .tc) → Buf (Elt Ideal) ((c : Thread nD τ).loc b)) (c : Dev nD) : (dat10 (F := Ideal) V c).arrAt 5 cfg10.N
    = Cert.Spec.bnorm (V c (Pipeline.arrRef spec10 0)) (V c (Pipeline.arrRef spec10 1)) (V c (Pipeline.arrRef spec10 2)) (V c (Pipeline.arrRef spec10 3)) (V c (Pipeline.arrRef spec10 4)) :=
  (dat10 (F := Ideal) V c).arrAt_eq_of_cover 5 _ (fun t _ => flushed_eq V c t) cover

end Cert.KernelIdeal.KerValue.Bn10

end
-- ==== Proof.RegionValsAll.lean ====
/-
  Every kernel region's output arrays as whole-array functions of its input arrays: the eleven regions together.
-/
import proofs.«104584_j17154099380304_2_alg».proof.Proof.RegionLin0
import proofs.«104584_j17154099380304_2_alg».proof.Proof.RegionLin1
import proofs.«104584_j17154099380304_2_alg».proof.Proof.RegionMsg2
import proofs.«104584_j17154099380304_2_alg».proof.Proof.RegionMsg5
import proofs.«104584_j17154099380304_2_alg».proof.Proof.RegionMsg8
import proofs.«104584_j17154099380304_2_alg».proof.Proof.RegionMlp3
import proofs.«104584_j17154099380304_2_alg».proof.Proof.RegionMlp6
import proofs.«104584_j17154099380304_2_alg».proof.Proof.RegionMlp9
import proofs.«104584_j17154099380304_2_alg».proof.Proof.RegionBn4
import proofs.«104584_j17154099380304_2_alg».proof.Proof.RegionBn7
import proofs.«104584_j17154099380304_2_alg».proof.Proof.RegionBn10

set_option maxHeartbeats 4000000

noncomputable section

namespace Cert.KernelIdeal.KerValue

/-- The two projections, the three edge messages, the three per-node maps with their column sums, and the three
    normalisations, each read off its region's grid points. -/
theorem regionVals : RegionVals where
  lin0 := Lin0.final
  lin1 := Lin1.final
  msg2 := Msg2.final
  msg5 := Msg5.final
  msg8 := Msg8.final
  mlp3 := Mlp3.final_rows
  sum3 := Mlp3.final_sum
  sq3 := Mlp3.final_sq
  mlp6 := Mlp6.final_rows
  sum6 := Mlp6.final_sum
  sq6 := Mlp6.final_sq
  mlp9 := Mlp9.final_rows
  sum9 := Mlp9.final_sum
  sq9 := Mlp9.final_sq
  bn4 := Bn4.final
  bn7 := Bn7.final
  bn10 := Bn10.final

end Cert.KernelIdeal.KerValue

end
-- ==== Proof.lean ====
/-
  The certificate of a three-layer graph network with edge features on 50000 nodes and 1000000 edges, computed by
  eleven tiled kernels among host gathers and scatter-adds, against its array-library reference, on the extended reals.

  Both programs compute  h₀ = x · Wp + bp  on the nodes and  e = ef · We + be  on the edges; then three times
      m = max (h[src] + e, 0) ,   z = h + (the sum of m over the edges arriving at each node) ,
      z2 = leaky (z · W₁ + b₁) · W₂ + b₂ ,   h' = γ · (z2 − μ) · rsqrt (v + ε) + β ,
  with μ, v the mean and variance of z2 over the nodes; then the mean of h per graph, normalised to unit rows.
  The gather, the scatter-add and the pooling tail are the same host operations in both programs.  The kernels tile
  the projections, the message, the per-node map and the normalisation over blocks of 10000 rows; a block of rows of
  a matrix product is the same rows of the whole product, term by term, and the changes of float format on the way
  into a product are the identity on the extended reals.  The one difference of substance is the variance: the
  kernels accumulate Σ z2 and Σ z2² over five row blocks and form  max (Σ z2² / N − (Σ z2 / N)², 0) , the reference
  forms  Σ (z2 − μ)² / N .  The two agree when every entry of z2 is a real number; the precondition makes every
  float input real, and sums, products, maxima, the leaky step and the normalisation (whose v + ε is a positive real)
  keep entries real, so the agreement is carried through the three layers.

  The modules: Spec (the whole-array functions), Region… (each kernel region's output arrays as those functions of its
  input arrays), KerRun (the kernel program's run and its result as one term), RefRun (the reference's run and its
  term), RealClosure / VarianceLaw / FiniteInputs (real entries, the variance law, the precondition read), Bridge
  (the two terms are equal for real inputs), Assembly (the five claims).
-/
import proofs.«104584_j17154099380304_2_alg».proof.Defs
import proofs.«104584_j17154099380304_2_alg».proof.Proof.Assembly
import proofs.«104584_j17154099380304_2_alg».proof.Proof.RegionValsAll

noncomputable section

namespace Cert.Proof

/-- The three frames, the (empty) idealization ledger, and the equality of the two idealized programs' results. -/
theorem claim : Cert.Claim := Cert.Assembly.claim Cert.KernelIdeal.KerValue.regionVals

end Cert.Proof

end
